-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v253)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v253) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v300) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S64 : Shape := ⟨1, ![64]⟩
abbrev S17 : Shape := ⟨1, ![17]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part5 {F : FTy → Type} [FloatOps F] (main_arg23 : FVec F S128 .f32) (main_arg24 : FVec F S128 .f32) (main_arg25 : FVec F S_ .f32) (main_v80 : IVec S_ 1) (main_v83 : IVec S128 1) (main_c_33 : IVec S_ 1) : IVec S_ 1 :=
  let main_v84 : IVec S_ 1 := (fun x v => Host.reduce IntOp.andi x v reducesTo_S128_S_d0 h_S_) main_v83 main_c_33
  let main_v85 : IVec S_ 1 := andi main_v80 main_v84
  let main_v86 : FVec F S128 .f32 := Host.absf main_arg23
  let main_cst_34 : FVec F S_ .f32 := constant S_ .f32 0x7F800000#32
  let main_v87 : FVec F S128 .f32 := broadcastInDim S128 ![] bcast_S_S128 main_cst_34
  let main_v88 : IVec S128 1 := cmpf .olt main_v86 main_v87
  let main_c_35 : IVec S_ 1 := constantI S_ 1 1#1
  let main_v89 : IVec S_ 1 := (fun x v => Host.reduce IntOp.andi x v reducesTo_S128_S_d0 h_S_) main_v88 main_c_35
  let main_v90 : IVec S_ 1 := andi main_v85 main_v89
  let main_v91 : FVec F S128 .f32 := Host.absf main_arg24
  let main_cst_36 : FVec F S_ .f32 := constant S_ .f32 0x7F800000#32
  let main_v92 : FVec F S128 .f32 := broadcastInDim S128 ![] bcast_S_S128 main_cst_36
  let main_v93 : IVec S128 1 := cmpf .olt main_v91 main_v92
  let main_c_37 : IVec S_ 1 := constantI S_ 1 1#1
  let main_v94 : IVec S_ 1 := (fun x v => Host.reduce IntOp.andi x v reducesTo_S128_S_d0 h_S_) main_v93 main_c_37
  let main_v95 : IVec S_ 1 := andi main_v90 main_v94
  let main_v96 : FVec F S_ .f32 := Host.absf main_arg25
  let main_cst_38 : FVec F S_ .f32 := constant S_ .f32 0x7F800000#32
  let main_v97 : IVec S_ 1 := cmpf .olt main_v96 main_cst_38
  let main_c_39 : IVec S_ 1 := constantI S_ 1 1#1
  let main_v98 : IVec S_ 1 := (fun x v => Host.reduce IntOp.andi x v reducesTo_S_S_d h_S_) main_v97 main_c_39
  let main_v99 : IVec S_ 1 := andi main_v95 main_v98
  main_v99

def fn_part4 {F : FTy → Type} [FloatOps F] (main_arg20 : FVec F S_ .f32) (main_arg21 : FVec F S128x128 .f32) (main_arg22 : FVec F S128 .f32) (main_arg23 : FVec F S128 .f32) (main_arg24 : FVec F S128 .f32) (main_arg25 : FVec F S_ .f32) (main_v66 : IVec S_ 1) (main_v67 : FVec F S128 .f32) : IVec S_ 1 :=
  let main_cst_26 : FVec F S_ .f32 := constant S_ .f32 0x7F800000#32
  let main_v68 : FVec F S128 .f32 := broadcastInDim S128 ![] bcast_S_S128 main_cst_26
  let main_v69 : IVec S128 1 := cmpf .olt main_v67 main_v68
  let main_c_27 : IVec S_ 1 := constantI S_ 1 1#1
  let main_v70 : IVec S_ 1 := (fun x v => Host.reduce IntOp.andi x v reducesTo_S128_S_d0 h_S_) main_v69 main_c_27
  let main_v71 : IVec S_ 1 := andi main_v66 main_v70
  let main_v72 : FVec F S_ .f32 := Host.absf main_arg20
  let main_cst_28 : FVec F S_ .f32 := constant S_ .f32 0x7F800000#32
  let main_v73 : IVec S_ 1 := cmpf .olt main_v72 main_cst_28
  let main_c_29 : IVec S_ 1 := constantI S_ 1 1#1
  let main_v74 : IVec S_ 1 := (fun x v => Host.reduce IntOp.andi x v reducesTo_S_S_d h_S_) main_v73 main_c_29
  let main_v75 : IVec S_ 1 := andi main_v71 main_v74
  let main_v76 : FVec F S128x128 .f32 := Host.absf main_arg21
  let main_cst_30 : FVec F S_ .f32 := constant S_ .f32 0x7F800000#32
  let main_v77 : FVec F S128x128 .f32 := broadcastInDim S128x128 ![] bcast_S_S128x128 main_cst_30
  let main_v78 : IVec S128x128 1 := cmpf .olt main_v76 main_v77
  let main_c_31 : IVec S_ 1 := constantI S_ 1 1#1
  let main_v79 : IVec S_ 1 := (fun x v => Host.reduce IntOp.andi x v reducesTo_S128x128_S_d0_1 h_S_) main_v78 main_c_31
  let main_v80 : IVec S_ 1 := andi main_v75 main_v79
  let main_v81 : FVec F S128 .f32 := Host.absf main_arg22
  let main_cst_32 : FVec F S_ .f32 := constant S_ .f32 0x7F800000#32
  let main_v82 : FVec F S128 .f32 := broadcastInDim S128 ![] bcast_S_S128 main_cst_32
  let main_v83 : IVec S128 1 := cmpf .olt main_v81 main_v82
  let main_c_33 : IVec S_ 1 := constantI S_ 1 1#1
  fn_part5 (F := F) main_arg23 main_arg24 main_arg25 main_v80 main_v83 main_c_33

def fn_part3 {F : FTy → Type} [FloatOps F] (main_arg16 : FVec F S128x128 .f32) (main_arg17 : FVec F S128 .f32) (main_arg18 : FVec F S128 .f32) (main_arg19 : FVec F S128 .f32) (main_arg20 : FVec F S_ .f32) (main_arg21 : FVec F S128x128 .f32) (main_arg22 : FVec F S128 .f32) (main_arg23 : FVec F S128 .f32) (main_arg24 : FVec F S128 .f32) (main_arg25 : FVec F S_ .f32) (main_v47 : IVec S_ 1) (main_v49 : IVec S_ 1) (main_c_19 : IVec S_ 1) : IVec S_ 1 :=
  let main_v50 : IVec S_ 1 := (fun x v => Host.reduce IntOp.andi x v reducesTo_S_S_d h_S_) main_v49 main_c_19
  let main_v51 : IVec S_ 1 := andi main_v47 main_v50
  let main_v52 : FVec F S128x128 .f32 := Host.absf main_arg16
  let main_cst_20 : FVec F S_ .f32 := constant S_ .f32 0x7F800000#32
  let main_v53 : FVec F S128x128 .f32 := broadcastInDim S128x128 ![] bcast_S_S128x128 main_cst_20
  let main_v54 : IVec S128x128 1 := cmpf .olt main_v52 main_v53
  let main_c_21 : IVec S_ 1 := constantI S_ 1 1#1
  let main_v55 : IVec S_ 1 := (fun x v => Host.reduce IntOp.andi x v reducesTo_S128x128_S_d0_1 h_S_) main_v54 main_c_21
  let main_v56 : IVec S_ 1 := andi main_v51 main_v55
  let main_v57 : FVec F S128 .f32 := Host.absf main_arg17
  let main_cst_22 : FVec F S_ .f32 := constant S_ .f32 0x7F800000#32
  let main_v58 : FVec F S128 .f32 := broadcastInDim S128 ![] bcast_S_S128 main_cst_22
  let main_v59 : IVec S128 1 := cmpf .olt main_v57 main_v58
  let main_c_23 : IVec S_ 1 := constantI S_ 1 1#1
  let main_v60 : IVec S_ 1 := (fun x v => Host.reduce IntOp.andi x v reducesTo_S128_S_d0 h_S_) main_v59 main_c_23
  let main_v61 : IVec S_ 1 := andi main_v56 main_v60
  let main_v62 : FVec F S128 .f32 := Host.absf main_arg18
  let main_cst_24 : FVec F S_ .f32 := constant S_ .f32 0x7F800000#32
  let main_v63 : FVec F S128 .f32 := broadcastInDim S128 ![] bcast_S_S128 main_cst_24
  let main_v64 : IVec S128 1 := cmpf .olt main_v62 main_v63
  let main_c_25 : IVec S_ 1 := constantI S_ 1 1#1
  let main_v65 : IVec S_ 1 := (fun x v => Host.reduce IntOp.andi x v reducesTo_S128_S_d0 h_S_) main_v64 main_c_25
  let main_v66 : IVec S_ 1 := andi main_v61 main_v65
  let main_v67 : FVec F S128 .f32 := Host.absf main_arg19
  fn_part4 (F := F) main_arg20 main_arg21 main_arg22 main_arg23 main_arg24 main_arg25 main_v66 main_v67

def fn_part2 {F : FTy → Type} [FloatOps F] (main_arg13 : FVec F S128 .f32) (main_arg14 : FVec F S128 .f32) (main_arg15 : FVec F S_ .f32) (main_arg16 : FVec F S128x128 .f32) (main_arg17 : FVec F S128 .f32) (main_arg18 : FVec F S128 .f32) (main_arg19 : FVec F S128 .f32) (main_arg20 : FVec F S_ .f32) (main_arg21 : FVec F S128x128 .f32) (main_arg22 : FVec F S128 .f32) (main_arg23 : FVec F S128 .f32) (main_arg24 : FVec F S128 .f32) (main_arg25 : FVec F S_ .f32) (main_v32 : IVec S_ 1) (main_v33 : FVec F S128 .f32) : IVec S_ 1 :=
  let main_cst_12 : FVec F S_ .f32 := constant S_ .f32 0x7F800000#32
  let main_v34 : FVec F S128 .f32 := broadcastInDim S128 ![] bcast_S_S128 main_cst_12
  let main_v35 : IVec S128 1 := cmpf .olt main_v33 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v32 main_v36
  let main_v38 : FVec F S128 .f32 := Host.absf main_arg13
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128 .f32 := Host.absf main_arg14
  let main_cst_16 : FVec F S_ .f32 := constant S_ .f32 0x7F800000#32
  let main_v44 : FVec F S128 .f32 := broadcastInDim S128 ![] bcast_S_S128 main_cst_16
  let main_v45 : IVec S128 1 := cmpf .olt main_v43 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v42 main_v46
  let main_v48 : FVec F S_ .f32 := Host.absf main_arg15
  let main_cst_18 : FVec F S_ .f32 := constant S_ .f32 0x7F800000#32
  let main_v49 : IVec S_ 1 := cmpf .olt main_v48 main_cst_18
  let main_c_19 : IVec S_ 1 := constantI S_ 1 1#1
  fn_part3 (F := F) main_arg16 main_arg17 main_arg18 main_arg19 main_arg20 main_arg21 main_arg22 main_arg23 main_arg24 main_arg25 main_v47 main_v49 main_c_19

def fn_part1 {F : FTy → Type} [FloatOps F] (main_arg9 : FVec F S128 .f32) (main_arg10 : FVec F S_ .f32) (main_arg11 : FVec F S128x128 .f32) (main_arg12 : FVec F S128 .f32) (main_arg13 : FVec F S128 .f32) (main_arg14 : FVec F S128 .f32) (main_arg15 : FVec F S_ .f32) (main_arg16 : FVec F S128x128 .f32) (main_arg17 : FVec F S128 .f32) (main_arg18 : FVec F S128 .f32) (main_arg19 : FVec F S128 .f32) (main_arg20 : FVec F S_ .f32) (main_arg21 : FVec F S128x128 .f32) (main_arg22 : FVec F S128 .f32) (main_arg23 : FVec F S128 .f32) (main_arg24 : FVec F S128 .f32) (main_arg25 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg9
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S_ .f32 := Host.absf main_arg10
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S128x128 .f32 := Host.absf main_arg11
  let main_cst_10 : FVec F S_ .f32 := constant S_ .f32 0x7F800000#32
  let main_v29 : FVec F S128x128 .f32 := broadcastInDim S128x128 ![] bcast_S_S128x128 main_cst_10
  let main_v30 : IVec S128x128 1 := cmpf .olt main_v28 main_v29
  let main_c_11 : IVec S_ 1 := constantI S_ 1 1#1
  let main_v31 : IVec S_ 1 := (fun x v => Host.reduce IntOp.andi x v reducesTo_S128x128_S_d0_1 h_S_) main_v30 main_c_11
  let main_v32 : IVec S_ 1 := andi main_v27 main_v31
  let main_v33 : FVec F S128 .f32 := Host.absf main_arg12
  fn_part2 (F := F) main_arg13 main_arg14 main_arg15 main_arg16 main_arg17 main_arg18 main_arg19 main_arg20 main_arg21 main_arg22 main_arg23 main_arg24 main_arg25 main_v32 main_v33

def fn {F : FTy → Type} [FloatOps F] (main_arg0 : FVec F S100000x128 .f32) (main_arg1 : IVec S1600000 32) (main_arg2 : IVec S1600000 32) (main_arg3 : IVec S64 32) (main_arg4 : IVec S64 32) (main_arg5 : IVec S17 32) (main_arg6 : FVec F S128x128 .f32) (main_arg7 : FVec F S128 .f32) (main_arg8 : FVec F S128 .f32) (main_arg9 : FVec F S128 .f32) (main_arg10 : FVec F S_ .f32) (main_arg11 : FVec F S128x128 .f32) (main_arg12 : FVec F S128 .f32) (main_arg13 : FVec F S128 .f32) (main_arg14 : FVec F S128 .f32) (main_arg15 : FVec F S_ .f32) (main_arg16 : FVec F S128x128 .f32) (main_arg17 : FVec F S128 .f32) (main_arg18 : FVec F S128 .f32) (main_arg19 : FVec F S128 .f32) (main_arg20 : FVec F S_ .f32) (main_arg21 : FVec F S128x128 .f32) (main_arg22 : FVec F S128 .f32) (main_arg23 : FVec F S128 .f32) (main_arg24 : FVec F S128 .f32) (main_arg25 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg6
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg7
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg8
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x128 : Shape := ⟨2, ![100000, 128]⟩
abbrev S1600000 : Shape := ⟨1, ![1600000]⟩
abbrev S64 : Shape := ⟨1, ![64]⟩
abbrev S17 : Shape := ⟨1, ![17]⟩
abbrev S128x128 : Shape := ⟨2, ![128, 128]⟩
abbrev S128 : Shape := ⟨1, ![128]⟩
abbrev S_ : Shape := ⟨0, ![]⟩
abbrev S17x1 : Shape := ⟨2, ![17, 1]⟩
abbrev S17x128 : Shape := ⟨2, ![17, 128]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S20x1x128 : Shape := ⟨3, ![20, 1, 128]⟩
abbrev S1x1x128 : Shape := ⟨3, ![1, 1, 128]⟩
abbrev S1x1 : Shape := ⟨2, ![1, 1]⟩
abbrev S64x1 : Shape := ⟨2, ![64, 1]⟩
abbrev S64x128 : Shape := ⟨2, ![64, 128]⟩

abbrev nBuf : Space → Nat
  | .hbm => 380
  | .vmem => 41
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S64, .i32⟩
  | 4 => ⟨S64, .i32⟩
  | 5 => ⟨S17, .i32⟩
  | 6 => ⟨S128x128, .f32⟩
  | 7 => ⟨S128, .f32⟩
  | 8 => ⟨S128, .f32⟩
  | 9 => ⟨S128, .f32⟩
  | 10 => ⟨S_, .f32⟩
  | 11 => ⟨S128x128, .f32⟩
  | 12 => ⟨S128, .f32⟩
  | 13 => ⟨S128, .f32⟩
  | 14 => ⟨S128, .f32⟩
  | 15 => ⟨S_, .f32⟩
  | 16 => ⟨S128x128, .f32⟩
  | 17 => ⟨S128, .f32⟩
  | 18 => ⟨S128, .f32⟩
  | 19 => ⟨S128, .f32⟩
  | 20 => ⟨S_, .f32⟩
  | 21 => ⟨S128x128, .f32⟩
  | 22 => ⟨S128, .f32⟩
  | 23 => ⟨S128, .f32⟩
  | 24 => ⟨S128, .f32⟩
  | 25 => ⟨S_, .f32⟩
  | 26 => ⟨S_, .i32⟩
  | 27 => ⟨S17, .i32⟩
  | 28 => ⟨S17, .i1⟩
  | 29 => ⟨S_, .i32⟩
  | 30 => ⟨S17, .i32⟩
  | 31 => ⟨S17, .i32⟩
  | 32 => ⟨S17, .i32⟩
  | 33 => ⟨S17x1, .i32⟩
  | 34 => ⟨S_, .f32⟩
  | 35 => ⟨S17x128, .f32⟩
  | 36 => ⟨S100000x128, .f32⟩
  | 37 => ⟨S_, .f32⟩
  | 38 => ⟨S1600000, .f32⟩
  | 39 => ⟨S_, .f32⟩
  | 40 => ⟨S100000, .f32⟩
  | 41 => ⟨S1600000x1, .i32⟩
  | 42 => ⟨S100000, .f32⟩
  | 43 => ⟨S_, .f32⟩
  | 44 => ⟨S100000, .f32⟩
  | 45 => ⟨S100000, .i1⟩
  | 46 => ⟨S_, .f32⟩
  | 47 => ⟨S100000, .f32⟩
  | 48 => ⟨S100000, .f32⟩
  | 49 => ⟨S_, .f32⟩
  | 50 => ⟨S_, .f32⟩
  | 51 => ⟨S100000, .f32⟩
  | 52 => ⟨S100000, .f32⟩
  | 53 => ⟨S_, .f32⟩
  | 54 => ⟨S1600000, .f32⟩
  | 55 => ⟨S_, .f32⟩
  | 56 => ⟨S100000, .f32⟩
  | 57 => ⟨S1600000x1, .i32⟩
  | 58 => ⟨S100000, .f32⟩
  | 59 => ⟨S_, .f32⟩
  | 60 => ⟨S100000, .f32⟩
  | 61 => ⟨S100000, .i1⟩
  | 62 => ⟨S_, .f32⟩
  | 63 => ⟨S100000, .f32⟩
  | 64 => ⟨S100000, .f32⟩
  | 65 => ⟨S_, .f32⟩
  | 66 => ⟨S_, .f32⟩
  | 67 => ⟨S100000, .f32⟩
  | 68 => ⟨S100000, .f32⟩
  | 69 => ⟨S100000x1, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S100000x1, .f32⟩
  | 85 => ⟨S1x128, .f32⟩
  | 86 => ⟨S100000x128, .f32⟩
  | 87 => ⟨S20x1x128, .f32⟩
  | 88 => ⟨S20x1x128, .f32⟩
  | 89 => ⟨S_, .f32⟩
  | 90 => ⟨S1x128, .f32⟩
  | 91 => ⟨S_, .f32⟩
  | 92 => ⟨S1x128, .f32⟩
  | 93 => ⟨S_, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S1x128, .f32⟩
  | 100 => ⟨S1x128, .f32⟩
  | 101 => ⟨S_, .f32⟩
  | 102 => ⟨S1x128, .f32⟩
  | 103 => ⟨S1x128, .f32⟩
  | 104 => ⟨S1x128, .f32⟩
  | 105 => ⟨S100000x1, .f32⟩
  | 106 => ⟨S1x128, .f32⟩
  | 107 => ⟨S1x128, .f32⟩
  | 108 => ⟨S1x1, .f32⟩
  | 109 => ⟨S1x128, .f32⟩
  | 110 => ⟨S100000x128, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .f32⟩
  | 120 => ⟨S_, .f32⟩
  | 121 => ⟨S100000x128, .f32⟩
  | 122 => ⟨S1600000x1, .i32⟩
  | 123 => ⟨S100000x128, .f32⟩
  | 124 => ⟨S100000x1, .f32⟩
  | 125 => ⟨S1x128, .f32⟩
  | 126 => ⟨S100000x128, .f32⟩
  | 127 => ⟨S20x1x128, .f32⟩
  | _ => ⟨S100000x128, .f32⟩

abbrev hbmTy0_1 (i : Nat) : BufTy := match i % 128 with
  | 0 => ⟨S20x1x128, .f32⟩
  | 1 => ⟨S_, .f32⟩
  | 2 => ⟨S1x128, .f32⟩
  | 3 => ⟨S_, .f32⟩
  | 4 => ⟨S1x128, .f32⟩
  | 5 => ⟨S_, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S1x128, .f32⟩
  | 12 => ⟨S1x128, .f32⟩
  | 13 => ⟨S_, .f32⟩
  | 14 => ⟨S1x128, .f32⟩
  | 15 => ⟨S1x128, .f32⟩
  | 16 => ⟨S1x128, .f32⟩
  | 17 => ⟨S_, .i32⟩
  | 18 => ⟨S17, .i32⟩
  | 19 => ⟨S17, .i1⟩
  | 20 => ⟨S_, .i32⟩
  | 21 => ⟨S17, .i32⟩
  | 22 => ⟨S17, .i32⟩
  | 23 => ⟨S17, .i32⟩
  | 24 => ⟨S17x1, .i32⟩
  | 25 => ⟨S17x128, .f32⟩
  | 26 => ⟨S17x128, .f32⟩
  | 27 => ⟨S17x128, .f32⟩
  | 28 => ⟨S17x128, .f32⟩
  | 29 => ⟨S17x128, .f32⟩
  | 30 => ⟨S1x128, .f32⟩
  | 31 => ⟨S17x128, .f32⟩
  | 32 => ⟨S17x128, .f32⟩
  | 33 => ⟨S1x128, .f32⟩
  | 34 => ⟨S17x128, .f32⟩
  | 35 => ⟨S17x128, .f32⟩
  | 36 => ⟨S_, .f32⟩
  | 37 => ⟨S128, .f32⟩
  | 38 => ⟨S_, .f32⟩
  | 39 => ⟨S128, .f32⟩
  | 40 => ⟨S128, .f32⟩
  | 41 => ⟨S_, .i32⟩
  | 42 => ⟨S17, .i32⟩
  | 43 => ⟨S17, .i1⟩
  | 44 => ⟨S_, .i32⟩
  | 45 => ⟨S17, .i32⟩
  | 46 => ⟨S17, .i32⟩
  | 47 => ⟨S17, .i32⟩
  | 48 => ⟨S17x1, .i32⟩
  | 49 => ⟨S17x128, .f32⟩
  | 50 => ⟨S17x128, .f32⟩
  | 51 => ⟨S_, .f32⟩
  | 52 => ⟨S64, .f32⟩
  | 53 => ⟨S_, .f32⟩
  | 54 => ⟨S17, .f32⟩
  | 55 => ⟨S64x1, .i32⟩
  | 56 => ⟨S17, .f32⟩
  | 57 => ⟨S_, .f32⟩
  | 58 => ⟨S17, .f32⟩
  | 59 => ⟨S17, .i1⟩
  | 60 => ⟨S_, .f32⟩
  | 61 => ⟨S17, .f32⟩
  | 62 => ⟨S17, .f32⟩
  | 63 => ⟨S_, .f32⟩
  | 64 => ⟨S_, .f32⟩
  | 65 => ⟨S17, .f32⟩
  | 66 => ⟨S17, .f32⟩
  | 67 => ⟨S17x1, .f32⟩
  | 68 => ⟨S17x128, .f32⟩
  | 69 => ⟨S17x128, .f32⟩
  | 70 => ⟨S_, .i32⟩
  | 71 => ⟨S64, .i32⟩
  | 72 => ⟨S64, .i1⟩
  | 73 => ⟨S_, .i32⟩
  | 74 => ⟨S64, .i32⟩
  | 75 => ⟨S64, .i32⟩
  | 76 => ⟨S64, .i32⟩
  | 77 => ⟨S64x1, .i32⟩
  | 78 => ⟨S64x128, .f32⟩
  | 79 => ⟨S_, .f32⟩
  | 80 => ⟨S17x128, .f32⟩
  | 81 => ⟨S64x1, .i32⟩
  | 82 => ⟨S17x128, .f32⟩
  | 83 => ⟨S_, .f32⟩
  | 84 => ⟨S64, .f32⟩
  | 85 => ⟨S_, .f32⟩
  | 86 => ⟨S17, .f32⟩
  | 87 => ⟨S64x1, .i32⟩
  | 88 => ⟨S17, .f32⟩
  | 89 => ⟨S_, .f32⟩
  | 90 => ⟨S17, .f32⟩
  | 91 => ⟨S17, .i1⟩
  | 92 => ⟨S_, .f32⟩
  | 93 => ⟨S17, .f32⟩
  | 94 => ⟨S17, .f32⟩
  | 95 => ⟨S_, .f32⟩
  | 96 => ⟨S_, .f32⟩
  | 97 => ⟨S17, .f32⟩
  | 98 => ⟨S17, .f32⟩
  | 99 => ⟨S17x1, .f32⟩
  | 100 => ⟨S17x128, .f32⟩
  | 101 => ⟨S17x128, .f32⟩
  | 102 => ⟨S1x128, .f32⟩
  | 103 => ⟨S17x128, .f32⟩
  | 104 => ⟨S17x128, .f32⟩
  | 105 => ⟨S_, .f32⟩
  | 106 => ⟨S128, .f32⟩
  | 107 => ⟨S_, .f32⟩
  | 108 => ⟨S128, .f32⟩
  | 109 => ⟨S128, .f32⟩
  | 110 => ⟨S1x128, .f32⟩
  | 111 => ⟨S17x128, .f32⟩
  | 112 => ⟨S17x128, .f32⟩
  | 113 => ⟨S17x128, .f32⟩
  | 114 => ⟨S_, .f32⟩
  | 115 => ⟨S128, .f32⟩
  | 116 => ⟨S_, .f32⟩
  | 117 => ⟨S128, .f32⟩
  | 118 => ⟨S128, .f32⟩
  | 119 => ⟨S1x128, .f32⟩
  | 120 => ⟨S17x128, .f32⟩
  | 121 => ⟨S17x128, .f32⟩
  | 122 => ⟨S_, .f32⟩
  | 123 => ⟨S128, .f32⟩
  | 124 => ⟨S128, .f32⟩
  | 125 => ⟨S128, .f32⟩
  | 126 => ⟨S1x128, .f32⟩
  | 127 => ⟨S17x128, .f32⟩
  | _ => ⟨S100000x128, .f32⟩

abbrev hbmTy0_2 (i : Nat) : BufTy := match i % 128 with
  | 0 => ⟨S17x128, .f32⟩
  | 1 => ⟨S1x128, .f32⟩
  | 2 => ⟨S17x128, .f32⟩
  | 3 => ⟨S17x128, .f32⟩
  | 4 => ⟨S1x128, .f32⟩
  | 5 => ⟨S17x128, .f32⟩
  | 6 => ⟨S17x128, .f32⟩
  | 7 => ⟨S_, .f32⟩
  | 8 => ⟨S17x128, .f32⟩
  | 9 => ⟨S17x128, .i1⟩
  | 10 => ⟨S17x128, .f32⟩
  | 11 => ⟨S17x128, .f32⟩
  | 12 => ⟨S17x128, .f32⟩
  | 13 => ⟨S17x128, .f32⟩
  | 14 => ⟨S_, .f32⟩
  | 15 => ⟨S64, .f32⟩
  | 16 => ⟨S_, .f32⟩
  | 17 => ⟨S17, .f32⟩
  | 18 => ⟨S64x1, .i32⟩
  | 19 => ⟨S17, .f32⟩
  | 20 => ⟨S_, .f32⟩
  | 21 => ⟨S17, .f32⟩
  | 22 => ⟨S17, .i1⟩
  | 23 => ⟨S_, .f32⟩
  | 24 => ⟨S17, .f32⟩
  | 25 => ⟨S17, .f32⟩
  | 26 => ⟨S_, .f32⟩
  | 27 => ⟨S_, .f32⟩
  | 28 => ⟨S17, .f32⟩
  | 29 => ⟨S17, .f32⟩
  | 30 => ⟨S17x1, .f32⟩
  | 31 => ⟨S17x128, .f32⟩
  | 32 => ⟨S17x128, .f32⟩
  | 33 => ⟨S_, .i32⟩
  | 34 => ⟨S64, .i32⟩
  | 35 => ⟨S64, .i1⟩
  | 36 => ⟨S_, .i32⟩
  | 37 => ⟨S64, .i32⟩
  | 38 => ⟨S64, .i32⟩
  | 39 => ⟨S64, .i32⟩
  | 40 => ⟨S64x1, .i32⟩
  | 41 => ⟨S64x128, .f32⟩
  | 42 => ⟨S_, .f32⟩
  | 43 => ⟨S17x128, .f32⟩
  | 44 => ⟨S64x1, .i32⟩
  | 45 => ⟨S17x128, .f32⟩
  | 46 => ⟨S_, .f32⟩
  | 47 => ⟨S64, .f32⟩
  | 48 => ⟨S_, .f32⟩
  | 49 => ⟨S17, .f32⟩
  | 50 => ⟨S64x1, .i32⟩
  | 51 => ⟨S17, .f32⟩
  | 52 => ⟨S_, .f32⟩
  | 53 => ⟨S17, .f32⟩
  | 54 => ⟨S17, .i1⟩
  | 55 => ⟨S_, .f32⟩
  | 56 => ⟨S17, .f32⟩
  | 57 => ⟨S17, .f32⟩
  | 58 => ⟨S_, .f32⟩
  | 59 => ⟨S_, .f32⟩
  | 60 => ⟨S17, .f32⟩
  | 61 => ⟨S17, .f32⟩
  | 62 => ⟨S17x1, .f32⟩
  | 63 => ⟨S17x128, .f32⟩
  | 64 => ⟨S17x128, .f32⟩
  | 65 => ⟨S1x128, .f32⟩
  | 66 => ⟨S17x128, .f32⟩
  | 67 => ⟨S17x128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S17x128, .f32⟩
  | 75 => ⟨S17x128, .f32⟩
  | 76 => ⟨S17x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S17x128, .f32⟩
  | 84 => ⟨S17x128, .f32⟩
  | 85 => ⟨S_, .f32⟩
  | 86 => ⟨S128, .f32⟩
  | 87 => ⟨S128, .f32⟩
  | 88 => ⟨S128, .f32⟩
  | 89 => ⟨S1x128, .f32⟩
  | 90 => ⟨S17x128, .f32⟩
  | 91 => ⟨S17x128, .f32⟩
  | 92 => ⟨S1x128, .f32⟩
  | 93 => ⟨S17x128, .f32⟩
  | 94 => ⟨S17x128, .f32⟩
  | 95 => ⟨S1x128, .f32⟩
  | 96 => ⟨S17x128, .f32⟩
  | 97 => ⟨S17x128, .f32⟩
  | 98 => ⟨S_, .f32⟩
  | 99 => ⟨S128, .f32⟩
  | 100 => ⟨S_, .f32⟩
  | 101 => ⟨S128, .f32⟩
  | 102 => ⟨S128, .f32⟩
  | 103 => ⟨S128, .f32⟩
  | 104 => ⟨S_, .f32⟩
  | 105 => ⟨S_, .f32⟩
  | 106 => ⟨S_, .f32⟩
  | 107 => ⟨S_, .f32⟩
  | 108 => ⟨S_, .f32⟩
  | 109 => ⟨S128, .f32⟩
  | 110 => ⟨S128, .f32⟩
  | 111 => ⟨S128, .f32⟩
  | 112 => ⟨S_, .f32⟩
  | 113 => ⟨S_, .f32⟩
  | 114 => ⟨S_, .f32⟩
  | 115 => ⟨S_, .f32⟩
  | 116 => ⟨S_, .f32⟩
  | 117 => ⟨S128, .f32⟩
  | 118 => ⟨S128, .f32⟩
  | 119 => ⟨S128, .f32⟩
  | 120 => ⟨S_, .f32⟩
  | 121 => ⟨S_, .f32⟩
  | 122 => ⟨S_, .f32⟩
  | 123 => ⟨S_, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S128x128, .f32⟩
  | .local _ .vmem, ⟨26, _⟩ => ⟨S5000x1, .f32⟩
  | .local _ .vmem, ⟨27, _⟩ => ⟨S5000x1, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S1x1x128, .f32⟩
  | .local _ .vmem, ⟨38, _⟩ => ⟨S1x1x128, .f32⟩
  | .local _ .vmem, ⟨39, _⟩ => ⟨S1x1x128, .f32⟩
  | .local _ .vmem, ⟨40, _⟩ => ⟨S1x1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_cst_1 : Ref sig .tc := ⟨.hbm, 37, rfl⟩
abbrev main_v8 : Ref sig .tc := ⟨.hbm, 38, rfl⟩
abbrev main_cst_2 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_3 : Ref sig .tc := ⟨.hbm, 43, rfl⟩
abbrev main_v12 : Ref sig .tc := ⟨.hbm, 44, rfl⟩
abbrev main_v13 : Ref sig .tc := ⟨.hbm, 45, rfl⟩
abbrev main_cst_4 : Ref sig .tc := ⟨.hbm, 46, rfl⟩
abbrev main_v14 : Ref sig .tc := ⟨.hbm, 47, rfl⟩
abbrev main_v15 : Ref sig .tc := ⟨.hbm, 48, rfl⟩
abbrev main_cst_5 : Ref sig .tc := ⟨.hbm, 49, rfl⟩
abbrev main_call0_v0 : Ref sig .tc := ⟨.hbm, 50, rfl⟩
abbrev main_call0_v1 : Ref sig .tc := ⟨.hbm, 51, rfl⟩
abbrev main_v16 : Ref sig .tc := ⟨.hbm, 52, rfl⟩
abbrev main_cst_6 : Ref sig .tc := ⟨.hbm, 53, rfl⟩
abbrev main_v17 : Ref sig .tc := ⟨.hbm, 54, rfl⟩
abbrev main_cst_7 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_8 : Ref sig .tc := ⟨.hbm, 59, rfl⟩
abbrev main_v21 : Ref sig .tc := ⟨.hbm, 60, rfl⟩
abbrev main_v22 : Ref sig .tc := ⟨.hbm, 61, rfl⟩
abbrev main_cst_9 : Ref sig .tc := ⟨.hbm, 62, rfl⟩
abbrev main_v23 : Ref sig .tc := ⟨.hbm, 63, rfl⟩
abbrev main_v24 : Ref sig .tc := ⟨.hbm, 64, rfl⟩
abbrev main_cst_10 : Ref sig .tc := ⟨.hbm, 65, rfl⟩
abbrev main_call1_v0 : Ref sig .tc := ⟨.hbm, 66, rfl⟩
abbrev main_call1_v1 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_c_11 : Ref sig .tc := ⟨.hbm, 71, rfl⟩
abbrev main_v28 : Ref sig .tc := ⟨.hbm, 72, rfl⟩
abbrev main_v29 : Ref sig .tc := ⟨.hbm, 73, rfl⟩
abbrev main_c_12 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_13 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40_0 : Ref sig .tc := ⟨.hbm, 86, rfl⟩
abbrev main_v40_1 : Ref sig .tc := ⟨.hbm, 87, rfl⟩
abbrev main_v40_2 : Ref sig .tc := ⟨.hbm, 88, rfl⟩
abbrev main_cst_14 : Ref sig .tc := ⟨.hbm, 89, rfl⟩
abbrev main_v41 : Ref sig .tc := ⟨.hbm, 90, rfl⟩
abbrev main_cst_15 : Ref sig .tc := ⟨.hbm, 91, rfl⟩
abbrev main_v42 : Ref sig .tc := ⟨.hbm, 92, rfl⟩
abbrev main_cst_16 : Ref sig .tc := ⟨.hbm, 93, rfl⟩
abbrev main_v43 : Ref sig .tc := ⟨.hbm, 94, rfl⟩
abbrev main_v44 : Ref sig .tc := ⟨.hbm, 95, rfl⟩
abbrev main_cst_17 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_18 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_c_19 : Ref sig .tc := ⟨.hbm, 111, rfl⟩
abbrev main_v58 : Ref sig .tc := ⟨.hbm, 112, rfl⟩
abbrev main_v59 : Ref sig .tc := ⟨.hbm, 113, rfl⟩
abbrev main_c_20 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_cst_21 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70_0 : Ref sig .tc := ⟨.hbm, 126, rfl⟩
abbrev main_v70_1 : Ref sig .tc := ⟨.hbm, 127, rfl⟩
abbrev main_v70_2 : Ref sig .tc := ⟨.hbm, 128, rfl⟩
abbrev main_cst_22 : Ref sig .tc := ⟨.hbm, 129, rfl⟩
abbrev main_v71 : Ref sig .tc := ⟨.hbm, 130, rfl⟩
abbrev main_cst_23 : Ref sig .tc := ⟨.hbm, 131, rfl⟩
abbrev main_v72 : Ref sig .tc := ⟨.hbm, 132, rfl⟩
abbrev main_cst_24 : Ref sig .tc := ⟨.hbm, 133, rfl⟩
abbrev main_v73 : Ref sig .tc := ⟨.hbm, 134, rfl⟩
abbrev main_v74 : Ref sig .tc := ⟨.hbm, 135, rfl⟩
abbrev main_cst_25 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_cst_26 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_c_27 : Ref sig .tc := ⟨.hbm, 145, rfl⟩
abbrev main_v82 : Ref sig .tc := ⟨.hbm, 146, rfl⟩
abbrev main_v83 : Ref sig .tc := ⟨.hbm, 147, rfl⟩
abbrev main_c_28 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_cst_29 : Ref sig .tc := ⟨.hbm, 164, rfl⟩
abbrev main_v99 : Ref sig .tc := ⟨.hbm, 165, rfl⟩
abbrev main_cst_30 : Ref sig .tc := ⟨.hbm, 166, rfl⟩
abbrev main_v100 : Ref sig .tc := ⟨.hbm, 167, rfl⟩
abbrev main_v101 : Ref sig .tc := ⟨.hbm, 168, rfl⟩
abbrev main_c_31 : Ref sig .tc := ⟨.hbm, 169, rfl⟩
abbrev main_v102 : Ref sig .tc := ⟨.hbm, 170, rfl⟩
abbrev main_v103 : Ref sig .tc := ⟨.hbm, 171, rfl⟩
abbrev main_c_32 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_cst_33 : Ref sig .tc := ⟨.hbm, 179, rfl⟩
abbrev main_v110 : Ref sig .tc := ⟨.hbm, 180, rfl⟩
abbrev main_cst_34 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_cst_35 : Ref sig .tc := ⟨.hbm, 185, rfl⟩
abbrev main_v114 : Ref sig .tc := ⟨.hbm, 186, rfl⟩
abbrev main_v115 : Ref sig .tc := ⟨.hbm, 187, rfl⟩
abbrev main_cst_36 : Ref sig .tc := ⟨.hbm, 188, rfl⟩
abbrev main_v116 : Ref sig .tc := ⟨.hbm, 189, rfl⟩
abbrev main_v117 : Ref sig .tc := ⟨.hbm, 190, rfl⟩
abbrev main_cst_37 : Ref sig .tc := ⟨.hbm, 191, rfl⟩
abbrev main_call2_v0 : Ref sig .tc := ⟨.hbm, 192, rfl⟩
abbrev main_call2_v1 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_c_38 : Ref sig .tc := ⟨.hbm, 198, rfl⟩
abbrev main_v122 : Ref sig .tc := ⟨.hbm, 199, rfl⟩
abbrev main_v123 : Ref sig .tc := ⟨.hbm, 200, rfl⟩
abbrev main_c_39 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_cst_40 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_cst_41 : Ref sig .tc := ⟨.hbm, 211, rfl⟩
abbrev main_v132 : Ref sig .tc := ⟨.hbm, 212, rfl⟩
abbrev main_cst_42 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_cst_43 : Ref sig .tc := ⟨.hbm, 217, rfl⟩
abbrev main_v136 : Ref sig .tc := ⟨.hbm, 218, rfl⟩
abbrev main_v137 : Ref sig .tc := ⟨.hbm, 219, rfl⟩
abbrev main_cst_44 : Ref sig .tc := ⟨.hbm, 220, rfl⟩
abbrev main_v138 : Ref sig .tc := ⟨.hbm, 221, rfl⟩
abbrev main_v139 : Ref sig .tc := ⟨.hbm, 222, rfl⟩
abbrev main_cst_45 : Ref sig .tc := ⟨.hbm, 223, rfl⟩
abbrev main_call3_v0 : Ref sig .tc := ⟨.hbm, 224, rfl⟩
abbrev main_call3_v1 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_cst_46 : Ref sig .tc := ⟨.hbm, 233, rfl⟩
abbrev main_v147 : Ref sig .tc := ⟨.hbm, 234, rfl⟩
abbrev main_cst_47 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_cst_48 : Ref sig .tc := ⟨.hbm, 242, rfl⟩
abbrev main_v154 : Ref sig .tc := ⟨.hbm, 243, rfl⟩
abbrev main_cst_49 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_cst_50 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_cst_51 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_cst_52 : Ref sig .tc := ⟨.hbm, 270, rfl⟩
abbrev main_v178 : Ref sig .tc := ⟨.hbm, 271, rfl⟩
abbrev main_cst_53 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_cst_54 : Ref sig .tc := ⟨.hbm, 276, rfl⟩
abbrev main_v182 : Ref sig .tc := ⟨.hbm, 277, rfl⟩
abbrev main_v183 : Ref sig .tc := ⟨.hbm, 278, rfl⟩
abbrev main_cst_55 : Ref sig .tc := ⟨.hbm, 279, rfl⟩
abbrev main_v184 : Ref sig .tc := ⟨.hbm, 280, rfl⟩
abbrev main_v185 : Ref sig .tc := ⟨.hbm, 281, rfl⟩
abbrev main_cst_56 : Ref sig .tc := ⟨.hbm, 282, rfl⟩
abbrev main_call5_v0 : Ref sig .tc := ⟨.hbm, 283, rfl⟩
abbrev main_call5_v1 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_c_57 : Ref sig .tc := ⟨.hbm, 289, rfl⟩
abbrev main_v190 : Ref sig .tc := ⟨.hbm, 290, rfl⟩
abbrev main_v191 : Ref sig .tc := ⟨.hbm, 291, rfl⟩
abbrev main_c_58 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_cst_59 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_cst_60 : Ref sig .tc := ⟨.hbm, 302, rfl⟩
abbrev main_v200 : Ref sig .tc := ⟨.hbm, 303, rfl⟩
abbrev main_cst_61 : Ref sig .tc := ⟨.hbm, 304, rfl⟩
abbrev main_v201 : Ref sig .tc := ⟨.hbm, 305, rfl⟩
abbrev main_v202 : Ref sig .tc := ⟨.hbm, 306, rfl⟩
abbrev main_v203 : Ref sig .tc := ⟨.hbm, 307, rfl⟩
abbrev main_cst_62 : Ref sig .tc := ⟨.hbm, 308, rfl⟩
abbrev main_v204 : Ref sig .tc := ⟨.hbm, 309, rfl⟩
abbrev main_v205 : Ref sig .tc := ⟨.hbm, 310, rfl⟩
abbrev main_cst_63 : Ref sig .tc := ⟨.hbm, 311, rfl⟩
abbrev main_v206 : Ref sig .tc := ⟨.hbm, 312, rfl⟩
abbrev main_v207 : Ref sig .tc := ⟨.hbm, 313, rfl⟩
abbrev main_cst_64 : Ref sig .tc := ⟨.hbm, 314, rfl⟩
abbrev main_call6_v0 : Ref sig .tc := ⟨.hbm, 315, rfl⟩
abbrev main_call6_v1 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_cst_65 : Ref sig .tc := ⟨.hbm, 324, rfl⟩
abbrev main_v215 : Ref sig .tc := ⟨.hbm, 325, rfl⟩
abbrev main_cst_66 : Ref sig .tc := ⟨.hbm, 326, rfl⟩
abbrev main_v216 : Ref sig .tc := ⟨.hbm, 327, rfl⟩
abbrev main_v217 : Ref sig .tc := ⟨.hbm, 328, rfl⟩
abbrev main_v218 : Ref sig .tc := ⟨.hbm, 329, rfl⟩
abbrev main_v219 : Ref sig .tc := ⟨.hbm, 330, rfl⟩
abbrev main_v220 : Ref sig .tc := ⟨.hbm, 331, rfl⟩
abbrev main_v221 : Ref sig .tc := ⟨.hbm, 332, rfl⟩
abbrev main_cst_67 : Ref sig .tc := ⟨.hbm, 333, rfl⟩
abbrev main_v222 : Ref sig .tc := ⟨.hbm, 334, rfl⟩
abbrev main_cst_68 : Ref sig .tc := ⟨.hbm, 335, rfl⟩
abbrev main_v223 : Ref sig .tc := ⟨.hbm, 336, rfl⟩
abbrev main_v224 : Ref sig .tc := ⟨.hbm, 337, rfl⟩
abbrev main_v225 : Ref sig .tc := ⟨.hbm, 338, rfl⟩
abbrev main_v226 : Ref sig .tc := ⟨.hbm, 339, rfl⟩
abbrev main_v227 : Ref sig .tc := ⟨.hbm, 340, rfl⟩
abbrev main_cst_69 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_v234 : Ref sig .tc := ⟨.hbm, 348, rfl⟩
abbrev main_v235 : Ref sig .tc := ⟨.hbm, 349, rfl⟩
abbrev main_v236 : Ref sig .tc := ⟨.hbm, 350, rfl⟩
abbrev main_v237 : Ref sig .tc := ⟨.hbm, 351, rfl⟩
abbrev main_v238 : Ref sig .tc := ⟨.hbm, 352, rfl⟩
abbrev main_v239 : Ref sig .tc := ⟨.hbm, 353, rfl⟩
abbrev main_cst_70 : Ref sig .tc := ⟨.hbm, 354, rfl⟩
abbrev main_v240 : Ref sig .tc := ⟨.hbm, 355, rfl⟩
abbrev main_cst_71 : Ref sig .tc := ⟨.hbm, 356, rfl⟩
abbrev main_v241 : Ref sig .tc := ⟨.hbm, 357, rfl⟩
abbrev main_v242 : Ref sig .tc := ⟨.hbm, 358, rfl⟩
abbrev main_call7_v0 : Ref sig .tc := ⟨.hbm, 359, rfl⟩
abbrev main_call7_cst : Ref sig .tc := ⟨.hbm, 360, rfl⟩
abbrev main_call7_v1 : Ref sig .tc := ⟨.hbm, 361, rfl⟩
abbrev main_v243 : Ref sig .tc := ⟨.hbm, 362, rfl⟩
abbrev main_cst_72 : Ref sig .tc := ⟨.hbm, 363, rfl⟩
abbrev main_v244 : Ref sig .tc := ⟨.hbm, 364, rfl⟩
abbrev main_v245 : Ref sig .tc := ⟨.hbm, 365, rfl⟩
abbrev main_v246 : Ref sig .tc := ⟨.hbm, 366, rfl⟩
abbrev main_call8_v0 : Ref sig .tc := ⟨.hbm, 367, rfl⟩
abbrev main_call8_cst : Ref sig .tc := ⟨.hbm, 368, rfl⟩
abbrev main_call8_v1 : Ref sig .tc := ⟨.hbm, 369, rfl⟩
abbrev main_v247 : Ref sig .tc := ⟨.hbm, 370, rfl⟩
abbrev main_cst_73 : Ref sig .tc := ⟨.hbm, 371, rfl⟩
abbrev main_v248 : Ref sig .tc := ⟨.hbm, 372, rfl⟩
abbrev main_v249 : Ref sig .tc := ⟨.hbm, 373, rfl⟩
abbrev main_v250 : Ref sig .tc := ⟨.hbm, 374, rfl⟩
abbrev main_v251 : Ref sig .tc := ⟨.hbm, 375, rfl⟩
abbrev main_cst_74 : Ref sig .tc := ⟨.hbm, 376, rfl⟩
abbrev main_v252 : Ref sig .tc := ⟨.hbm, 377, rfl⟩
abbrev main_cst_75 : Ref sig .tc := ⟨.hbm, 378, rfl⟩
abbrev main_v253 : Ref sig .tc := ⟨.hbm, 379, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc3_stg5_0 : Ref sig .tc := ⟨.vmem, 39, rfl⟩
abbrev cc3_stg5_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc2_sem8_0 : DmaSem sig := 28
abbrev cc2_sem8_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem3_1 : DmaSem sig := 36
abbrev cc3_sem4_0 : DmaSem sig := 37
abbrev cc3_sem4_1 : DmaSem sig := 38
abbrev cc3_sem5_0 : DmaSem sig := 39
abbrev cc3_sem5_1 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S17 : S_.BroadcastsInDim S17 (![] : Fin 0 → Fin S17.rank)
  bcast_S17_S17x1_0 : S17.BroadcastsInDim S17x1 (![0] : Fin 1 → Fin S17x1.rank)
  bcast_S_S17x128 : S_.BroadcastsInDim S17x128 (![] : Fin 0 → Fin S17x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S20x1x128_S1x128_d0 : S20x1x128.ReducesTo [0] S1x128
  h_S_ : 0 < S_.numel
  bcast_S_S1x128 : S_.BroadcastsInDim S1x128 (![] : Fin 0 → Fin S1x128.rank)
  shapeCasts_S_S1x1 : S_.ShapeCasts S1x1
  bcast_S1x1_S1x128_0_1 : S1x1.BroadcastsInDim S1x128 (![0, 1] : Fin 2 → Fin S1x128.rank)
  bcast_S1x128_S17x128_0_1 : S1x128.BroadcastsInDim S17x128 (![0, 1] : Fin 2 → Fin S17x128.rank)
  bcast_S128_S1x128_1 : S128.BroadcastsInDim S1x128 (![1] : Fin 1 → Fin S1x128.rank)
  reducesTo_S17x128_S128_d0 : S17x128.ReducesTo [0] S128
  bcast_S_S128 : S_.BroadcastsInDim S128 (![] : Fin 0 → Fin S128.rank)
  bcast_S_S64 : S_.BroadcastsInDim S64 (![] : Fin 0 → Fin S64.rank)
  bcast_S64_S64x1_0 : S64.BroadcastsInDim S64x1 (![0] : Fin 1 → Fin S64x1.rank)
  bcast_S17x1_S17x128_0_1 : S17x1.BroadcastsInDim S17x128 (![0, 1] : Fin 2 → Fin S17x128.rank)
  reducesTo_S128_S_d0 : S128.ReducesTo [0] S_
  scatter_S100000x128_S17x1_S17x128_1_0_0_1_wf : ScatterDims.WF S100000x128 S17x1 S17x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S17x1_S17x128_1_0_n_n_0_1_1128_wf : GatherDims.WF S100000x128 S17x1 S17x128 [1] [0] [] [0] [] 1 ![1, 128]
  dot_S17x128_S128x128_S17x128_1_0_0_1_n_n_wf : DotDims.WF S17x128 S128x128 S17x128 [1] [0] [0] [1] [] []
  scatter_S17_S64x1_S64_n_0_0_1_wf : ScatterDims.WF S17 S64x1 S64 [] [0] [0] 1
  gather_S17x128_S64x1_S64x128_1_0_n_n_0_1_1128_wf : GatherDims.WF S17x128 S64x1 S64x128 [1] [0] [] [0] [] 1 ![1, 128]
  scatter_S17x128_S64x1_S64x128_1_0_0_1_wf : ScatterDims.WF S17x128 S64x1 S64x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S20x1x128.size a
  hwx1_4 : ∀ i : grid1.Coords, EltTy.bits .f32 = 32 ∨ (Rect.block (s := S20x1x128) S1x1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S20x1x128.size a
  hwx1_5 : ∀ i : grid1.Coords, EltTy.bits .f32 = 32 ∨ (Rect.block (s := S20x1x128) S1x1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S100000x1.size a
  hwx2_7 : ∀ i : grid2.Coords, EltTy.bits .f32 = 32 ∨ (Rect.block (s := S100000x1) S5000x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x128.size a ≤ S20x1x128.size a
  hwx3_4 : ∀ i : grid3.Coords, EltTy.bits .f32 = 32 ∨ (Rect.block (s := S20x1x128) S1x1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x128.size a ≤ S20x1x128.size a
  hwx3_5 : ∀ i : grid3.Coords, EltTy.bits .f32 = 32 ∨ (Rect.block (s := S20x1x128) S1x1x128.size (cc3_transform_5 i) (hinb3_5 i)).WholeWords (EltTy.packing .f32)

variable [Facts₀]

def scatter_S100000x128_S17x1_S17x128_1_0_0_1 : ScatterDims S100000x128 S17x1 S17x128 where
  updateWindowDims := [1]
  insertedWindowDims := [0]
  scatterDimsToOperandDims := [0]
  indexVectorDim := 1
  wf := scatter_S100000x128_S17x1_S17x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S17x1_S17x128_1_0_n_n_0_1_1128 : GatherDims S100000x128 S17x1 S17x128 where
  offsetDims := [1]
  collapsedSliceDims := [0]
  operandBatchingDims := []
  startIndicesBatchingDims := []
  startIndexMap := [0]
  indexVectorDim := 1
  sliceSizes := ![1, 128]
  wf := gather_S100000x128_S17x1_S17x128_1_0_n_n_0_1_1128_wf
def dot_S17x128_S128x128_S17x128_1_0_0_1_n_n : DotDims S17x128 S128x128 S17x128 where
  lhsContracting := [1]
  rhsContracting := [0]
  lhsNonContracting := [0]
  rhsNonContracting := [1]
  lhsBatch := []
  rhsBatch := []
  wf := dot_S17x128_S128x128_S17x128_1_0_0_1_n_n_wf
def scatter_S17_S64x1_S64_n_0_0_1 : ScatterDims S17 S64x1 S64 where
  updateWindowDims := []
  insertedWindowDims := [0]
  scatterDimsToOperandDims := [0]
  indexVectorDim := 1
  wf := scatter_S17_S64x1_S64_n_0_0_1_wf
def gather_S17x128_S64x1_S64x128_1_0_n_n_0_1_1128 : GatherDims S17x128 S64x1 S64x128 where
  offsetDims := [1]
  collapsedSliceDims := [0]
  operandBatchingDims := []
  startIndicesBatchingDims := []
  startIndexMap := [0]
  indexVectorDim := 1
  sliceSizes := ![1, 128]
  wf := gather_S17x128_S64x1_S64x128_1_0_n_n_0_1_1128_wf
def scatter_S17x128_S64x1_S64x128_1_0_0_1 : ScatterDims S17x128 S64x1 S64x128 where
  updateWindowDims := [1]
  insertedWindowDims := [0]
  scatterDimsToOperandDims := [0]
  indexVectorDim := 1
  wf := scatter_S17x128_S64x1_S64x128_1_0_0_1_wf

abbrev win0_0 : Pipeline.Window sig grid0 :=
  Pipeline.Window.ofSpec (Memref.whole main_v7) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v40_1) S1x1x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v40_2) S1x1x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52) S5000x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v57) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v70_1) S1x1x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v70_2) S1x1x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S64 : Shape := ⟨1, ![64]⟩
abbrev S17 : Shape := ⟨1, ![17]⟩
abbrev S128x128 : Shape := ⟨2, ![128, 128]⟩
abbrev S128 : Shape := ⟨1, ![128]⟩
abbrev S_ : Shape := ⟨0, ![]⟩
abbrev S17x1 : Shape := ⟨2, ![17, 1]⟩
abbrev S17x128 : Shape := ⟨2, ![17, 128]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S64x1 : Shape := ⟨2, ![64, 1]⟩
abbrev S64x128 : Shape := ⟨2, ![64, 128]⟩

abbrev nBuf : Space → Nat
  | .hbm => 438
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S64, .i32⟩
  | 4 => ⟨S64, .i32⟩
  | 5 => ⟨S17, .i32⟩
  | 6 => ⟨S128x128, .f32⟩
  | 7 => ⟨S128, .f32⟩
  | 8 => ⟨S128, .f32⟩
  | 9 => ⟨S128, .f32⟩
  | 10 => ⟨S_, .f32⟩
  | 11 => ⟨S128x128, .f32⟩
  | 12 => ⟨S128, .f32⟩
  | 13 => ⟨S128, .f32⟩
  | 14 => ⟨S128, .f32⟩
  | 15 => ⟨S_, .f32⟩
  | 16 => ⟨S128x128, .f32⟩
  | 17 => ⟨S128, .f32⟩
  | 18 => ⟨S128, .f32⟩
  | 19 => ⟨S128, .f32⟩
  | 20 => ⟨S_, .f32⟩
  | 21 => ⟨S128x128, .f32⟩
  | 22 => ⟨S128, .f32⟩
  | 23 => ⟨S128, .f32⟩
  | 24 => ⟨S128, .f32⟩
  | 25 => ⟨S_, .f32⟩
  | 26 => ⟨S_, .i32⟩
  | 27 => ⟨S17, .i32⟩
  | 28 => ⟨S17, .i1⟩
  | 29 => ⟨S_, .i32⟩
  | 30 => ⟨S17, .i32⟩
  | 31 => ⟨S17, .i32⟩
  | 32 => ⟨S17, .i32⟩
  | 33 => ⟨S17x1, .i32⟩
  | 34 => ⟨S_, .f32⟩
  | 35 => ⟨S17x128, .f32⟩
  | 36 => ⟨S100000x128, .f32⟩
  | 37 => ⟨S100000x128, .f32⟩
  | 38 => ⟨S_, .f32⟩
  | 39 => ⟨S1600000, .f32⟩
  | 40 => ⟨S_, .f32⟩
  | 41 => ⟨S100000, .f32⟩
  | 42 => ⟨S1600000x1, .i32⟩
  | 43 => ⟨S100000, .f32⟩
  | 44 => ⟨S_, .f32⟩
  | 45 => ⟨S100000, .f32⟩
  | 46 => ⟨S100000, .i1⟩
  | 47 => ⟨S_, .f32⟩
  | 48 => ⟨S100000, .f32⟩
  | 49 => ⟨S100000, .f32⟩
  | 50 => ⟨S_, .f32⟩
  | 51 => ⟨S_, .f32⟩
  | 52 => ⟨S100000, .f32⟩
  | 53 => ⟨S100000, .f32⟩
  | 54 => ⟨S100000x1, .f32⟩
  | 55 => ⟨S100000x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .i1⟩
  | 79 => ⟨S_, .f32⟩
  | 80 => ⟨S100000, .f32⟩
  | 81 => ⟨S100000, .f32⟩
  | 82 => ⟨S_, .f32⟩
  | 83 => ⟨S_, .f32⟩
  | 84 => ⟨S100000, .f32⟩
  | 85 => ⟨S100000, .f32⟩
  | 86 => ⟨S100000x1, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S_, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S100000x128, .f32⟩
  | 101 => ⟨S_, .f32⟩
  | 102 => ⟨S128, .f32⟩
  | 103 => ⟨S_, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S_, .f32⟩
  | 110 => ⟨S128, .f32⟩
  | 111 => ⟨S128, .f32⟩
  | 112 => ⟨S128, .f32⟩
  | 113 => ⟨S1x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .i1⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S1600000, .f32⟩
  | 3 => ⟨S_, .f32⟩
  | 4 => ⟨S100000, .f32⟩
  | 5 => ⟨S1600000x1, .i32⟩
  | 6 => ⟨S100000, .f32⟩
  | 7 => ⟨S_, .f32⟩
  | 8 => ⟨S100000, .f32⟩
  | 9 => ⟨S100000, .i1⟩
  | 10 => ⟨S_, .f32⟩
  | 11 => ⟨S100000, .f32⟩
  | 12 => ⟨S100000, .f32⟩
  | 13 => ⟨S_, .f32⟩
  | 14 => ⟨S_, .f32⟩
  | 15 => ⟨S100000, .f32⟩
  | 16 => ⟨S100000, .f32⟩
  | 17 => ⟨S100000x1, .f32⟩
  | 18 => ⟨S100000x128, .f32⟩
  | 19 => ⟨S100000x128, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S_, .f32⟩
  | 34 => ⟨S1600000, .f32⟩
  | 35 => ⟨S_, .f32⟩
  | 36 => ⟨S100000, .f32⟩
  | 37 => ⟨S1600000x1, .i32⟩
  | 38 => ⟨S100000, .f32⟩
  | 39 => ⟨S_, .f32⟩
  | 40 => ⟨S100000, .f32⟩
  | 41 => ⟨S100000, .i1⟩
  | 42 => ⟨S_, .f32⟩
  | 43 => ⟨S100000, .f32⟩
  | 44 => ⟨S100000, .f32⟩
  | 45 => ⟨S_, .f32⟩
  | 46 => ⟨S_, .f32⟩
  | 47 => ⟨S100000, .f32⟩
  | 48 => ⟨S100000, .f32⟩
  | 49 => ⟨S100000x1, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S128, .f32⟩
  | 57 => ⟨S_, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S100000x128, .f32⟩
  | 64 => ⟨S_, .f32⟩
  | 65 => ⟨S128, .f32⟩
  | 66 => ⟨S_, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .i32⟩
  | 86 => ⟨S17, .i32⟩
  | 87 => ⟨S17, .i1⟩
  | 88 => ⟨S_, .i32⟩
  | 89 => ⟨S17, .i32⟩
  | 90 => ⟨S17, .i32⟩
  | 91 => ⟨S17, .i32⟩
  | 92 => ⟨S17x1, .i32⟩
  | 93 => ⟨S17x128, .f32⟩
  | 94 => ⟨S17x128, .f32⟩
  | 95 => ⟨S_, .f32⟩
  | 96 => ⟨S64, .f32⟩
  | 97 => ⟨S_, .f32⟩
  | 98 => ⟨S17, .f32⟩
  | 99 => ⟨S64x1, .i32⟩
  | 100 => ⟨S17, .f32⟩
  | 101 => ⟨S_, .f32⟩
  | 102 => ⟨S17, .f32⟩
  | 103 => ⟨S17, .i1⟩
  | 104 => ⟨S_, .f32⟩
  | 105 => ⟨S17, .f32⟩
  | 106 => ⟨S17, .f32⟩
  | 107 => ⟨S_, .f32⟩
  | 108 => ⟨S_, .f32⟩
  | 109 => ⟨S17, .f32⟩
  | 110 => ⟨S17, .f32⟩
  | 111 => ⟨S17x1, .f32⟩
  | 112 => ⟨S17x128, .f32⟩
  | 113 => ⟨S17x128, .f32⟩
  | 114 => ⟨S_, .i32⟩
  | 115 => ⟨S64, .i32⟩
  | 116 => ⟨S64, .i1⟩
  | 117 => ⟨S_, .i32⟩
  | 118 => ⟨S64, .i32⟩
  | 119 => ⟨S64, .i32⟩
  | 120 => ⟨S64, .i32⟩
  | 121 => ⟨S64x1, .i32⟩
  | 122 => ⟨S64x128, .f32⟩
  | 123 => ⟨S_, .f32⟩
  | 124 => ⟨S17x128, .f32⟩
  | 125 => ⟨S64x1, .i32⟩
  | 126 => ⟨S17x128, .f32⟩
  | 127 => ⟨S_, .f32⟩
  | _ => ⟨S100000x128, .f32⟩

abbrev hbmTy0_2 (i : Nat) : BufTy := match i % 128 with
  | 0 => ⟨S64, .f32⟩
  | 1 => ⟨S_, .f32⟩
  | 2 => ⟨S17, .f32⟩
  | 3 => ⟨S64x1, .i32⟩
  | 4 => ⟨S17, .f32⟩
  | 5 => ⟨S_, .f32⟩
  | 6 => ⟨S17, .f32⟩
  | 7 => ⟨S17, .i1⟩
  | 8 => ⟨S_, .f32⟩
  | 9 => ⟨S17, .f32⟩
  | 10 => ⟨S17, .f32⟩
  | 11 => ⟨S_, .f32⟩
  | 12 => ⟨S_, .f32⟩
  | 13 => ⟨S17, .f32⟩
  | 14 => ⟨S17, .f32⟩
  | 15 => ⟨S17x1, .f32⟩
  | 16 => ⟨S17x128, .f32⟩
  | 17 => ⟨S17x128, .f32⟩
  | 18 => ⟨S1x128, .f32⟩
  | 19 => ⟨S17x128, .f32⟩
  | 20 => ⟨S17x128, .f32⟩
  | 21 => ⟨S_, .f32⟩
  | 22 => ⟨S128, .f32⟩
  | 23 => ⟨S_, .f32⟩
  | 24 => ⟨S128, .f32⟩
  | 25 => ⟨S128, .f32⟩
  | 26 => ⟨S1x128, .f32⟩
  | 27 => ⟨S17x128, .f32⟩
  | 28 => ⟨S17x128, .f32⟩
  | 29 => ⟨S17x128, .f32⟩
  | 30 => ⟨S_, .f32⟩
  | 31 => ⟨S128, .f32⟩
  | 32 => ⟨S_, .f32⟩
  | 33 => ⟨S128, .f32⟩
  | 34 => ⟨S128, .f32⟩
  | 35 => ⟨S1x128, .f32⟩
  | 36 => ⟨S17x128, .f32⟩
  | 37 => ⟨S17x128, .f32⟩
  | 38 => ⟨S_, .f32⟩
  | 39 => ⟨S128, .f32⟩
  | 40 => ⟨S128, .f32⟩
  | 41 => ⟨S128, .f32⟩
  | 42 => ⟨S1x128, .f32⟩
  | 43 => ⟨S17x128, .f32⟩
  | 44 => ⟨S17x128, .f32⟩
  | 45 => ⟨S1x128, .f32⟩
  | 46 => ⟨S17x128, .f32⟩
  | 47 => ⟨S17x128, .f32⟩
  | 48 => ⟨S1x128, .f32⟩
  | 49 => ⟨S17x128, .f32⟩
  | 50 => ⟨S17x128, .f32⟩
  | 51 => ⟨S_, .f32⟩
  | 52 => ⟨S17x128, .f32⟩
  | 53 => ⟨S17x128, .i1⟩
  | 54 => ⟨S17x128, .f32⟩
  | 55 => ⟨S17x128, .f32⟩
  | 56 => ⟨S17x128, .f32⟩
  | 57 => ⟨S17x128, .f32⟩
  | 58 => ⟨S_, .f32⟩
  | 59 => ⟨S64, .f32⟩
  | 60 => ⟨S_, .f32⟩
  | 61 => ⟨S17, .f32⟩
  | 62 => ⟨S64x1, .i32⟩
  | 63 => ⟨S17, .f32⟩
  | 64 => ⟨S_, .f32⟩
  | 65 => ⟨S17, .f32⟩
  | 66 => ⟨S17, .i1⟩
  | 67 => ⟨S_, .f32⟩
  | 68 => ⟨S17, .f32⟩
  | 69 => ⟨S17, .f32⟩
  | 70 => ⟨S_, .f32⟩
  | 71 => ⟨S_, .f32⟩
  | 72 => ⟨S17, .f32⟩
  | 73 => ⟨S17, .f32⟩
  | 74 => ⟨S17x1, .f32⟩
  | 75 => ⟨S17x128, .f32⟩
  | 76 => ⟨S17x128, .f32⟩
  | 77 => ⟨S_, .i32⟩
  | 78 => ⟨S64, .i32⟩
  | 79 => ⟨S64, .i1⟩
  | 80 => ⟨S_, .i32⟩
  | 81 => ⟨S64, .i32⟩
  | 82 => ⟨S64, .i32⟩
  | 83 => ⟨S64, .i32⟩
  | 84 => ⟨S64x1, .i32⟩
  | 85 => ⟨S64x128, .f32⟩
  | 86 => ⟨S_, .f32⟩
  | 87 => ⟨S17x128, .f32⟩
  | 88 => ⟨S64x1, .i32⟩
  | 89 => ⟨S17x128, .f32⟩
  | 90 => ⟨S_, .f32⟩
  | 91 => ⟨S64, .f32⟩
  | 92 => ⟨S_, .f32⟩
  | 93 => ⟨S17, .f32⟩
  | 94 => ⟨S64x1, .i32⟩
  | 95 => ⟨S17, .f32⟩
  | 96 => ⟨S_, .f32⟩
  | 97 => ⟨S17, .f32⟩
  | 98 => ⟨S17, .i1⟩
  | 99 => ⟨S_, .f32⟩
  | 100 => ⟨S17, .f32⟩
  | 101 => ⟨S17, .f32⟩
  | 102 => ⟨S_, .f32⟩
  | 103 => ⟨S_, .f32⟩
  | 104 => ⟨S17, .f32⟩
  | 105 => ⟨S17, .f32⟩
  | 106 => ⟨S17x1, .f32⟩
  | 107 => ⟨S17x128, .f32⟩
  | 108 => ⟨S17x128, .f32⟩
  | 109 => ⟨S1x128, .f32⟩
  | 110 => ⟨S17x128, .f32⟩
  | 111 => ⟨S17x128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S17x128, .f32⟩
  | 119 => ⟨S17x128, .f32⟩
  | 120 => ⟨S17x128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S17x128, .f32⟩
  | _ => ⟨S100000x128, .f32⟩

abbrev hbmTy0_3 (i : Nat) : BufTy := match i % 128 with
  | 0 => ⟨S17x128, .f32⟩
  | 1 => ⟨S_, .f32⟩
  | 2 => ⟨S128, .f32⟩
  | 3 => ⟨S128, .f32⟩
  | 4 => ⟨S128, .f32⟩
  | 5 => ⟨S1x128, .f32⟩
  | 6 => ⟨S17x128, .f32⟩
  | 7 => ⟨S17x128, .f32⟩
  | 8 => ⟨S1x128, .f32⟩
  | 9 => ⟨S17x128, .f32⟩
  | 10 => ⟨S17x128, .f32⟩
  | 11 => ⟨S1x128, .f32⟩
  | 12 => ⟨S17x128, .f32⟩
  | 13 => ⟨S17x128, .f32⟩
  | 14 => ⟨S_, .i32⟩
  | 15 => ⟨S17, .i32⟩
  | 16 => ⟨S17, .i1⟩
  | 17 => ⟨S_, .i32⟩
  | 18 => ⟨S17, .i32⟩
  | 19 => ⟨S17, .i32⟩
  | 20 => ⟨S17, .i32⟩
  | 21 => ⟨S17x1, .i32⟩
  | 22 => ⟨S17x128, .f32⟩
  | 23 => ⟨S_, .f32⟩
  | 24 => ⟨S128, .f32⟩
  | 25 => ⟨S_, .f32⟩
  | 26 => ⟨S128, .f32⟩
  | 27 => ⟨S128, .f32⟩
  | 28 => ⟨S_, .f32⟩
  | 29 => ⟨S128, .f32⟩
  | 30 => ⟨S_, .f32⟩
  | 31 => ⟨S128, .f32⟩
  | 32 => ⟨S128, .f32⟩
  | 33 => ⟨S128, .f32⟩
  | 34 => ⟨S_, .f32⟩
  | 35 => ⟨S_, .f32⟩
  | 36 => ⟨S_, .f32⟩
  | 37 => ⟨S_, .f32⟩
  | 38 => ⟨S_, .f32⟩
  | 39 => ⟨S128, .f32⟩
  | 40 => ⟨S128, .f32⟩
  | 41 => ⟨S128, .f32⟩
  | 42 => ⟨S_, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .f32⟩
  | 52 => ⟨S_, .f32⟩
  | 53 => ⟨S_, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_cst_2 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_3 : Ref sig .tc := ⟨.hbm, 44, rfl⟩
abbrev main_v13 : Ref sig .tc := ⟨.hbm, 45, rfl⟩
abbrev main_v14 : Ref sig .tc := ⟨.hbm, 46, rfl⟩
abbrev main_cst_4 : Ref sig .tc := ⟨.hbm, 47, rfl⟩
abbrev main_v15 : Ref sig .tc := ⟨.hbm, 48, rfl⟩
abbrev main_v16 : Ref sig .tc := ⟨.hbm, 49, rfl⟩
abbrev main_cst_5 : Ref sig .tc := ⟨.hbm, 50, rfl⟩
abbrev main_call0_v0 : Ref sig .tc := ⟨.hbm, 51, rfl⟩
abbrev main_call0_v1 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_6 : Ref sig .tc := ⟨.hbm, 57, rfl⟩
abbrev main_v21 : Ref sig .tc := ⟨.hbm, 58, rfl⟩
abbrev main_v22 : Ref sig .tc := ⟨.hbm, 59, rfl⟩
abbrev main_c_7 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_8 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_9 : Ref sig .tc := ⟨.hbm, 70, rfl⟩
abbrev main_v31 : Ref sig .tc := ⟨.hbm, 71, rfl⟩
abbrev main_cst_10 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_11 : Ref sig .tc := ⟨.hbm, 76, rfl⟩
abbrev main_v35 : Ref sig .tc := ⟨.hbm, 77, rfl⟩
abbrev main_v36 : Ref sig .tc := ⟨.hbm, 78, rfl⟩
abbrev main_cst_12 : Ref sig .tc := ⟨.hbm, 79, rfl⟩
abbrev main_v37 : Ref sig .tc := ⟨.hbm, 80, rfl⟩
abbrev main_v38 : Ref sig .tc := ⟨.hbm, 81, rfl⟩
abbrev main_cst_13 : Ref sig .tc := ⟨.hbm, 82, rfl⟩
abbrev main_call1_v0 : Ref sig .tc := ⟨.hbm, 83, rfl⟩
abbrev main_call1_v1 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_14 : Ref sig .tc := ⟨.hbm, 92, rfl⟩
abbrev main_v46 : Ref sig .tc := ⟨.hbm, 93, rfl⟩
abbrev main_cst_15 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_16 : Ref sig .tc := ⟨.hbm, 101, rfl⟩
abbrev main_v53 : Ref sig .tc := ⟨.hbm, 102, rfl⟩
abbrev main_cst_17 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_18 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_19 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_20 : Ref sig .tc := ⟨.hbm, 129, rfl⟩
abbrev main_v77 : Ref sig .tc := ⟨.hbm, 130, rfl⟩
abbrev main_cst_21 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_22 : Ref sig .tc := ⟨.hbm, 135, rfl⟩
abbrev main_v81 : Ref sig .tc := ⟨.hbm, 136, rfl⟩
abbrev main_v82 : Ref sig .tc := ⟨.hbm, 137, rfl⟩
abbrev main_cst_23 : Ref sig .tc := ⟨.hbm, 138, rfl⟩
abbrev main_v83 : Ref sig .tc := ⟨.hbm, 139, rfl⟩
abbrev main_v84 : Ref sig .tc := ⟨.hbm, 140, rfl⟩
abbrev main_cst_24 : Ref sig .tc := ⟨.hbm, 141, rfl⟩
abbrev main_call3_v0 : Ref sig .tc := ⟨.hbm, 142, rfl⟩
abbrev main_call3_v1 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_c_25 : Ref sig .tc := ⟨.hbm, 148, rfl⟩
abbrev main_v89 : Ref sig .tc := ⟨.hbm, 149, rfl⟩
abbrev main_v90 : Ref sig .tc := ⟨.hbm, 150, rfl⟩
abbrev main_c_26 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_cst_27 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_cst_28 : Ref sig .tc := ⟨.hbm, 161, rfl⟩
abbrev main_v99 : Ref sig .tc := ⟨.hbm, 162, rfl⟩
abbrev main_cst_29 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_cst_30 : Ref sig .tc := ⟨.hbm, 167, rfl⟩
abbrev main_v103 : Ref sig .tc := ⟨.hbm, 168, rfl⟩
abbrev main_v104 : Ref sig .tc := ⟨.hbm, 169, rfl⟩
abbrev main_cst_31 : Ref sig .tc := ⟨.hbm, 170, rfl⟩
abbrev main_v105 : Ref sig .tc := ⟨.hbm, 171, rfl⟩
abbrev main_v106 : Ref sig .tc := ⟨.hbm, 172, rfl⟩
abbrev main_cst_32 : Ref sig .tc := ⟨.hbm, 173, rfl⟩
abbrev main_call4_v0 : Ref sig .tc := ⟨.hbm, 174, rfl⟩
abbrev main_call4_v1 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_cst_33 : Ref sig .tc := ⟨.hbm, 183, rfl⟩
abbrev main_v114 : Ref sig .tc := ⟨.hbm, 184, rfl⟩
abbrev main_cst_34 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_cst_35 : Ref sig .tc := ⟨.hbm, 192, rfl⟩
abbrev main_v121 : Ref sig .tc := ⟨.hbm, 193, rfl⟩
abbrev main_cst_36 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_cst_37 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_c_38 : Ref sig .tc := ⟨.hbm, 213, rfl⟩
abbrev main_v139 : Ref sig .tc := ⟨.hbm, 214, rfl⟩
abbrev main_v140 : Ref sig .tc := ⟨.hbm, 215, rfl⟩
abbrev main_c_39 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_cst_40 : Ref sig .tc := ⟨.hbm, 223, rfl⟩
abbrev main_v147 : Ref sig .tc := ⟨.hbm, 224, rfl⟩
abbrev main_cst_41 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_cst_42 : Ref sig .tc := ⟨.hbm, 229, rfl⟩
abbrev main_v151 : Ref sig .tc := ⟨.hbm, 230, rfl⟩
abbrev main_v152 : Ref sig .tc := ⟨.hbm, 231, rfl⟩
abbrev main_cst_43 : Ref sig .tc := ⟨.hbm, 232, rfl⟩
abbrev main_v153 : Ref sig .tc := ⟨.hbm, 233, rfl⟩
abbrev main_v154 : Ref sig .tc := ⟨.hbm, 234, rfl⟩
abbrev main_cst_44 : Ref sig .tc := ⟨.hbm, 235, rfl⟩
abbrev main_call5_v0 : Ref sig .tc := ⟨.hbm, 236, rfl⟩
abbrev main_call5_v1 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_c_45 : Ref sig .tc := ⟨.hbm, 242, rfl⟩
abbrev main_v159 : Ref sig .tc := ⟨.hbm, 243, rfl⟩
abbrev main_v160 : Ref sig .tc := ⟨.hbm, 244, rfl⟩
abbrev main_c_46 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_cst_47 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_cst_48 : Ref sig .tc := ⟨.hbm, 255, rfl⟩
abbrev main_v169 : Ref sig .tc := ⟨.hbm, 256, rfl⟩
abbrev main_cst_49 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_cst_50 : Ref sig .tc := ⟨.hbm, 261, rfl⟩
abbrev main_v173 : Ref sig .tc := ⟨.hbm, 262, rfl⟩
abbrev main_v174 : Ref sig .tc := ⟨.hbm, 263, rfl⟩
abbrev main_cst_51 : Ref sig .tc := ⟨.hbm, 264, rfl⟩
abbrev main_v175 : Ref sig .tc := ⟨.hbm, 265, rfl⟩
abbrev main_v176 : Ref sig .tc := ⟨.hbm, 266, rfl⟩
abbrev main_cst_52 : Ref sig .tc := ⟨.hbm, 267, rfl⟩
abbrev main_call6_v0 : Ref sig .tc := ⟨.hbm, 268, rfl⟩
abbrev main_call6_v1 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_cst_53 : Ref sig .tc := ⟨.hbm, 277, rfl⟩
abbrev main_v184 : Ref sig .tc := ⟨.hbm, 278, rfl⟩
abbrev main_cst_54 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_cst_55 : Ref sig .tc := ⟨.hbm, 286, rfl⟩
abbrev main_v191 : Ref sig .tc := ⟨.hbm, 287, rfl⟩
abbrev main_cst_56 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_cst_57 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_cst_58 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_cst_59 : Ref sig .tc := ⟨.hbm, 314, rfl⟩
abbrev main_v215 : Ref sig .tc := ⟨.hbm, 315, rfl⟩
abbrev main_cst_60 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_cst_61 : Ref sig .tc := ⟨.hbm, 320, rfl⟩
abbrev main_v219 : Ref sig .tc := ⟨.hbm, 321, rfl⟩
abbrev main_v220 : Ref sig .tc := ⟨.hbm, 322, rfl⟩
abbrev main_cst_62 : Ref sig .tc := ⟨.hbm, 323, rfl⟩
abbrev main_v221 : Ref sig .tc := ⟨.hbm, 324, rfl⟩
abbrev main_v222 : Ref sig .tc := ⟨.hbm, 325, rfl⟩
abbrev main_cst_63 : Ref sig .tc := ⟨.hbm, 326, rfl⟩
abbrev main_call8_v0 : Ref sig .tc := ⟨.hbm, 327, rfl⟩
abbrev main_call8_v1 : Ref sig .tc := ⟨.hbm, 328, rfl⟩
abbrev main_v223 : Ref sig .tc := ⟨.hbm, 329, rfl⟩
abbrev main_v224 : Ref sig .tc := ⟨.hbm, 330, rfl⟩
abbrev main_v225 : Ref sig .tc := ⟨.hbm, 331, rfl⟩
abbrev main_v226 : Ref sig .tc := ⟨.hbm, 332, rfl⟩
abbrev main_c_64 : Ref sig .tc := ⟨.hbm, 333, rfl⟩
abbrev main_v227 : Ref sig .tc := ⟨.hbm, 334, rfl⟩
abbrev main_v228 : Ref sig .tc := ⟨.hbm, 335, rfl⟩
abbrev main_c_65 : Ref sig .tc := ⟨.hbm, 336, rfl⟩
abbrev main_v229 : Ref sig .tc := ⟨.hbm, 337, rfl⟩
abbrev main_v230 : Ref sig .tc := ⟨.hbm, 338, rfl⟩
abbrev main_v231 : Ref sig .tc := ⟨.hbm, 339, rfl⟩
abbrev main_v232 : Ref sig .tc := ⟨.hbm, 340, rfl⟩
abbrev main_v233 : Ref sig .tc := ⟨.hbm, 341, rfl⟩
abbrev main_cst_66 : Ref sig .tc := ⟨.hbm, 342, rfl⟩
abbrev main_v234 : Ref sig .tc := ⟨.hbm, 343, rfl⟩
abbrev main_v235 : Ref sig .tc := ⟨.hbm, 344, rfl⟩
abbrev main_v236 : Ref sig .tc := ⟨.hbm, 345, rfl⟩
abbrev main_cst_67 : Ref sig .tc := ⟨.hbm, 346, rfl⟩
abbrev main_v237 : Ref sig .tc := ⟨.hbm, 347, rfl⟩
abbrev main_cst_68 : Ref sig .tc := ⟨.hbm, 348, rfl⟩
abbrev main_v238 : Ref sig .tc := ⟨.hbm, 349, rfl⟩
abbrev main_v239 : Ref sig .tc := ⟨.hbm, 350, rfl⟩
abbrev main_v240 : Ref sig .tc := ⟨.hbm, 351, rfl⟩
abbrev main_cst_69 : Ref sig .tc := ⟨.hbm, 352, rfl⟩
abbrev main_v241 : Ref sig .tc := ⟨.hbm, 353, rfl⟩
abbrev main_v242 : Ref sig .tc := ⟨.hbm, 354, rfl⟩
abbrev main_cst_70 : Ref sig .tc := ⟨.hbm, 355, rfl⟩
abbrev main_v243 : Ref sig .tc := ⟨.hbm, 356, rfl⟩
abbrev main_v244 : Ref sig .tc := ⟨.hbm, 357, rfl⟩
abbrev main_cst_71 : Ref sig .tc := ⟨.hbm, 358, rfl⟩
abbrev main_call9_v0 : Ref sig .tc := ⟨.hbm, 359, rfl⟩
abbrev main_call9_v1 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_cst_72 : Ref sig .tc := ⟨.hbm, 368, rfl⟩
abbrev main_v252 : Ref sig .tc := ⟨.hbm, 369, rfl⟩
abbrev main_cst_73 : Ref sig .tc := ⟨.hbm, 370, rfl⟩
abbrev main_v253 : Ref sig .tc := ⟨.hbm, 371, rfl⟩
abbrev main_v254 : Ref sig .tc := ⟨.hbm, 372, rfl⟩
abbrev main_v255 : Ref sig .tc := ⟨.hbm, 373, rfl⟩
abbrev main_v256 : Ref sig .tc := ⟨.hbm, 374, rfl⟩
abbrev main_v257 : Ref sig .tc := ⟨.hbm, 375, rfl⟩
abbrev main_v258 : Ref sig .tc := ⟨.hbm, 376, rfl⟩
abbrev main_cst_74 : Ref sig .tc := ⟨.hbm, 377, rfl⟩
abbrev main_v259 : Ref sig .tc := ⟨.hbm, 378, rfl⟩
abbrev main_cst_75 : Ref sig .tc := ⟨.hbm, 379, rfl⟩
abbrev main_v260 : Ref sig .tc := ⟨.hbm, 380, rfl⟩
abbrev main_v261 : Ref sig .tc := ⟨.hbm, 381, rfl⟩
abbrev main_v262 : Ref sig .tc := ⟨.hbm, 382, rfl⟩
abbrev main_v263 : Ref sig .tc := ⟨.hbm, 383, rfl⟩
abbrev main_v264 : Ref sig .tc := ⟨.hbm, 384, rfl⟩
abbrev main_cst_76 : Ref sig .tc := ⟨.hbm, 385, rfl⟩
abbrev main_v265 : Ref sig .tc := ⟨.hbm, 386, rfl⟩
abbrev main_v266 : Ref sig .tc := ⟨.hbm, 387, rfl⟩
abbrev main_v267 : Ref sig .tc := ⟨.hbm, 388, rfl⟩
abbrev main_v268 : Ref sig .tc := ⟨.hbm, 389, rfl⟩
abbrev main_v269 : Ref sig .tc := ⟨.hbm, 390, rfl⟩
abbrev main_v270 : Ref sig .tc := ⟨.hbm, 391, rfl⟩
abbrev main_v271 : Ref sig .tc := ⟨.hbm, 392, rfl⟩
abbrev main_v272 : Ref sig .tc := ⟨.hbm, 393, rfl⟩
abbrev main_v273 : Ref sig .tc := ⟨.hbm, 394, rfl⟩
abbrev main_v274 : Ref sig .tc := ⟨.hbm, 395, rfl⟩
abbrev main_v275 : Ref sig .tc := ⟨.hbm, 396, rfl⟩
abbrev main_v276 : Ref sig .tc := ⟨.hbm, 397, rfl⟩
abbrev main_c_77 : Ref sig .tc := ⟨.hbm, 398, rfl⟩
abbrev main_v277 : Ref sig .tc := ⟨.hbm, 399, rfl⟩
abbrev main_v278 : Ref sig .tc := ⟨.hbm, 400, rfl⟩
abbrev main_c_78 : Ref sig .tc := ⟨.hbm, 401, rfl⟩
abbrev main_v279 : Ref sig .tc := ⟨.hbm, 402, rfl⟩
abbrev main_v280 : Ref sig .tc := ⟨.hbm, 403, rfl⟩
abbrev main_v281 : Ref sig .tc := ⟨.hbm, 404, rfl⟩
abbrev main_v282 : Ref sig .tc := ⟨.hbm, 405, rfl⟩
abbrev main_v283 : Ref sig .tc := ⟨.hbm, 406, rfl⟩
abbrev main_cst_79 : Ref sig .tc := ⟨.hbm, 407, rfl⟩
abbrev main_v284 : Ref sig .tc := ⟨.hbm, 408, rfl⟩
abbrev main_cst_80 : Ref sig .tc := ⟨.hbm, 409, rfl⟩
abbrev main_v285 : Ref sig .tc := ⟨.hbm, 410, rfl⟩
abbrev main_v286 : Ref sig .tc := ⟨.hbm, 411, rfl⟩
abbrev main_cst_81 : Ref sig .tc := ⟨.hbm, 412, rfl⟩
abbrev main_v287 : Ref sig .tc := ⟨.hbm, 413, rfl⟩
abbrev main_cst_82 : Ref sig .tc := ⟨.hbm, 414, rfl⟩
abbrev main_v288 : Ref sig .tc := ⟨.hbm, 415, rfl⟩
abbrev main_v289 : Ref sig .tc := ⟨.hbm, 416, rfl⟩
abbrev main_call10_v0 : Ref sig .tc := ⟨.hbm, 417, rfl⟩
abbrev main_call10_cst : Ref sig .tc := ⟨.hbm, 418, rfl⟩
abbrev main_call10_v1 : Ref sig .tc := ⟨.hbm, 419, rfl⟩
abbrev main_v290 : Ref sig .tc := ⟨.hbm, 420, rfl⟩
abbrev main_cst_83 : Ref sig .tc := ⟨.hbm, 421, rfl⟩
abbrev main_v291 : Ref sig .tc := ⟨.hbm, 422, rfl⟩
abbrev main_v292 : Ref sig .tc := ⟨.hbm, 423, rfl⟩
abbrev main_v293 : Ref sig .tc := ⟨.hbm, 424, rfl⟩
abbrev main_call11_v0 : Ref sig .tc := ⟨.hbm, 425, rfl⟩
abbrev main_call11_cst : Ref sig .tc := ⟨.hbm, 426, rfl⟩
abbrev main_call11_v1 : Ref sig .tc := ⟨.hbm, 427, rfl⟩
abbrev main_v294 : Ref sig .tc := ⟨.hbm, 428, rfl⟩
abbrev main_cst_84 : Ref sig .tc := ⟨.hbm, 429, rfl⟩
abbrev main_v295 : Ref sig .tc := ⟨.hbm, 430, rfl⟩
abbrev main_v296 : Ref sig .tc := ⟨.hbm, 431, rfl⟩
abbrev main_v297 : Ref sig .tc := ⟨.hbm, 432, rfl⟩
abbrev main_v298 : Ref sig .tc := ⟨.hbm, 433, rfl⟩
abbrev main_cst_85 : Ref sig .tc := ⟨.hbm, 434, rfl⟩
abbrev main_v299 : Ref sig .tc := ⟨.hbm, 435, rfl⟩
abbrev main_cst_86 : Ref sig .tc := ⟨.hbm, 436, rfl⟩
abbrev main_v300 : Ref sig .tc := ⟨.hbm, 437, rfl⟩

abbrev nD : Nat := 1
abbrev τ : Topo := Topo.v7x

variable {F : FTy → Type} [FloatOps F]

class Facts₀ : Prop where
  bcast_S_S17 : S_.BroadcastsInDim S17 (![] : Fin 0 → Fin S17.rank)
  bcast_S17_S17x1_0 : S17.BroadcastsInDim S17x1 (![0] : Fin 1 → Fin S17x1.rank)
  bcast_S_S17x128 : S_.BroadcastsInDim S17x128 (![] : Fin 0 → Fin S17x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S64 : S_.BroadcastsInDim S64 (![] : Fin 0 → Fin S64.rank)
  bcast_S64_S64x1_0 : S64.BroadcastsInDim S64x1 (![0] : Fin 1 → Fin S64x1.rank)
  bcast_S17x1_S17x128_0_1 : S17x1.BroadcastsInDim S17x128 (![0, 1] : Fin 2 → Fin S17x128.rank)
  bcast_S1x128_S17x128_0_1 : S1x128.BroadcastsInDim S17x128 (![0, 1] : Fin 2 → Fin S17x128.rank)
  reducesTo_S17x128_S128_d0 : S17x128.ReducesTo [0] S128
  reducesTo_S128_S_d0 : S128.ReducesTo [0] S_
  scatter_S100000x128_S17x1_S17x128_1_0_0_1_wf : ScatterDims.WF S100000x128 S17x1 S17x128 [1] [0] [0] 1
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S17x1_S17x128_1_0_n_n_0_1_1128_wf : GatherDims.WF S100000x128 S17x1 S17x128 [1] [0] [] [0] [] 1 ![1, 128]
  dot_S17x128_S128x128_S17x128_1_0_0_1_n_n_wf : DotDims.WF S17x128 S128x128 S17x128 [1] [0] [0] [1] [] []
  scatter_S17_S64x1_S64_n_0_0_1_wf : ScatterDims.WF S17 S64x1 S64 [] [0] [0] 1
  gather_S17x128_S64x1_S64x128_1_0_n_n_0_1_1128_wf : GatherDims.WF S17x128 S64x1 S64x128 [1] [0] [] [0] [] 1 ![1, 128]
  scatter_S17x128_S64x1_S64x128_1_0_0_1_wf : ScatterDims.WF S17x128 S64x1 S64x128 [1] [0] [0] 1

variable [Facts₀]

def scatter_S100000x128_S17x1_S17x128_1_0_0_1 : ScatterDims S100000x128 S17x1 S17x128 where
  updateWindowDims := [1]
  insertedWindowDims := [0]
  scatterDimsToOperandDims := [0]
  indexVectorDim := 1
  wf := scatter_S100000x128_S17x1_S17x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S17x1_S17x128_1_0_n_n_0_1_1128 : GatherDims S100000x128 S17x1 S17x128 where
  offsetDims := [1]
  collapsedSliceDims := [0]
  operandBatchingDims := []
  startIndicesBatchingDims := []
  startIndexMap := [0]
  indexVectorDim := 1
  sliceSizes := ![1, 128]
  wf := gather_S100000x128_S17x1_S17x128_1_0_n_n_0_1_1128_wf
def dot_S17x128_S128x128_S17x128_1_0_0_1_n_n : DotDims S17x128 S128x128 S17x128 where
  lhsContracting := [1]
  rhsContracting := [0]
  lhsNonContracting := [0]
  rhsNonContracting := [1]
  lhsBatch := []
  rhsBatch := []
  wf := dot_S17x128_S128x128_S17x128_1_0_0_1_n_n_wf
def scatter_S17_S64x1_S64_n_0_0_1 : ScatterDims S17 S64x1 S64 where
  updateWindowDims := []
  insertedWindowDims := [0]
  scatterDimsToOperandDims := [0]
  indexVectorDim := 1
  wf := scatter_S17_S64x1_S64_n_0_0_1_wf
def gather_S17x128_S64x1_S64x128_1_0_n_n_0_1_1128 : GatherDims S17x128 S64x1 S64x128 where
  offsetDims := [1]
  collapsedSliceDims := [0]
  operandBatchingDims := []
  startIndicesBatchingDims := []
  startIndexMap := [0]
  indexVectorDim := 1
  sliceSizes := ![1, 128]
  wf := gather_S17x128_S64x1_S64x128_1_0_n_n_0_1_1128_wf
def scatter_S17x128_S64x1_S64x128_1_0_0_1 : ScatterDims S17x128 S64x1 S64x128 where
  updateWindowDims := [1]
  insertedWindowDims := [0]
  scatterDimsToOperandDims := [0]
  indexVectorDim := 1
  wf := scatter_S17x128_S64x1_S64x128_1_0_0_1_wf

class Facts : Prop extends Facts₀ where

variable [Facts]
-- ==== Proof.KRun.lean ====
/-
  The idealized kernel program's run, with its result named. Every weakly fair execution of @main from a memory
  with zero counters terminates, nothing faulting; the argument arrays end as launched, and the one result buffer
  ends at the last boundary's contents of that buffer: the fold of the host stretches and of the four regions'
  write-backs over the launch memory.
-/
import proofs.«122415_j30588757082611_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run with the result: the final state holds, at the result buffer, the last boundary's contents of it,
    and every argument array as launched. -/
theorem run_value : θ_run defs (onTc (τ := τ) (main (F := F))) ⟨m, fun _ => 0, ρ⟩ (fun r => ∀ c : Dev nD,
      r.2.mem ((c.tc : Thread nD τ).loc main_v253) = W27 m ρ c (Proc.devRef .tc main_v253)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c =>
      ⟨h c _ (mem_uc main_v253 (by decide)),
       (h c _ (mem_uc main_arg0 (by decide))).trans (W27_main_arg0 m ρ c),
       (h c _ (mem_uc main_arg1 (by decide))).trans (W27_main_arg1 m ρ c),
       (h c _ (mem_uc main_arg2 (by decide))).trans (W27_main_arg2 m ρ c),
       (h c _ (mem_uc main_arg3 (by decide))).trans (W27_main_arg3 m ρ c),
       (h c _ (mem_uc main_arg4 (by decide))).trans (W27_main_arg4 m ρ c),
       (h c _ (mem_uc main_arg5 (by decide))).trans (W27_main_arg5 m ρ c),
       (h c _ (mem_uc main_arg6 (by decide))).trans (W27_main_arg6 m ρ c),
       (h c _ (mem_uc main_arg7 (by decide))).trans (W27_main_arg7 m ρ c),
       (h c _ (mem_uc main_arg8 (by decide))).trans (W27_main_arg8 m ρ c),
       (h c _ (mem_uc main_arg9 (by decide))).trans (W27_main_arg9 m ρ c),
       (h c _ (mem_uc main_arg10 (by decide))).trans (W27_main_arg10 m ρ c),
       (h c _ (mem_uc main_arg11 (by decide))).trans (W27_main_arg11 m ρ c),
       (h c _ (mem_uc main_arg12 (by decide))).trans (W27_main_arg12 m ρ c),
       (h c _ (mem_uc main_arg13 (by decide))).trans (W27_main_arg13 m ρ c),
       (h c _ (mem_uc main_arg14 (by decide))).trans (W27_main_arg14 m ρ c),
       (h c _ (mem_uc main_arg15 (by decide))).trans (W27_main_arg15 m ρ c),
       (h c _ (mem_uc main_arg16 (by decide))).trans (W27_main_arg16 m ρ c),
       (h c _ (mem_uc main_arg17 (by decide))).trans (W27_main_arg17 m ρ c),
       (h c _ (mem_uc main_arg18 (by decide))).trans (W27_main_arg18 m ρ c),
       (h c _ (mem_uc main_arg19 (by decide))).trans (W27_main_arg19 m ρ c),
       (h c _ (mem_uc main_arg20 (by decide))).trans (W27_main_arg20 m ρ c),
       (h c _ (mem_uc main_arg21 (by decide))).trans (W27_main_arg21 m ρ c),
       (h c _ (mem_uc main_arg22 (by decide))).trans (W27_main_arg22 m ρ c),
       (h c _ (mem_uc main_arg23 (by decide))).trans (W27_main_arg23 m ρ c),
       (h c _ (mem_uc main_arg24 (by decide))).trans (W27_main_arg24 m ρ c),
       (h c _ (mem_uc main_arg25 (by decide))).trans (W27_main_arg25 m ρ c)⟩)

end Cert.KernelIdeal.KRun

end
-- ==== Proof.LibTRef.lean ====
/-
  Typed references: writing through one and reading back.

  A typed reference is a buffer together with the fact that the buffer's type is a given one; contents at the given type are
  carried to contents of the buffer, and back, along that fact. For any typed reference the round trip is the identity,
  in both orders: the fact is an equation between two types, and along an equation of a type with itself carrying is the
  identity.
-/
import Idealize.ShloMosaic.Lib.StableHlo

namespace Cert.LibTRef

open Idealize.ShloMosaic Idealize.ShloMosaic.StableHlo

variable {sig : RefSig} {Val : EltTy → Type} {T : BufTy}

/-- Carrying contents along an equation of types and back along the same equation is the identity. -/
theorem cast_cast_symm {α β : Type} (h : α = β) (h' : β = α) (v : α) : cast h' (cast h v) = v := by
  subst h; rfl

/-- Contents written through a typed reference read back through it unchanged. -/
theorem ofBuf_toBuf (x : TRef sig T) (v : T.Contents Val) : x.ofBuf (x.toBuf v) = v :=
  cast_cast_symm _ _ v

/-- A buffer's contents read through a typed reference write back through it unchanged. -/
theorem toBuf_ofBuf (x : TRef sig T) (u : x.ref.ty.Contents Val) : x.toBuf (x.ofBuf u) = u :=
  cast_cast_symm _ _ u

end Cert.LibTRef
-- ==== Proof.KCast.lean ====
/-
  Buffers of the kernel program that an outlined host function reads or writes through a typed reference: contents
  carried to such a buffer's own type and back are unchanged, since the reference's type IS the buffer's type.
  One pair of equations per buffer, and a tactic that removes every such carrying from a goal.
-/
import proofs.«122415_j30588757082611_2_alg».proof.Proof.Gen.KernelIdeal.Launch
import proofs.«122415_j30588757082611_2_alg».proof.Proof.LibTRef
import Idealize.ShloMosaic.PureOps.Ideal

set_option maxRecDepth 16384

noncomputable section

namespace Cert.KernelIdeal.KCast

open Cert.KernelIdeal Cert.KernelIdeal.Gen
open Idealize.ShloMosaic Idealize.ShloMosaic.TcCoe Idealize.ShloMosaic.StableHlo

theorem toBuf_main_cst_5 (v : (⟨S_, .f32⟩ : BufTy).Contents (Elt Ideal)) :
    (TRef.of (sig := sig) (T := ⟨S_, .f32⟩) main_cst_5).toBuf v = v := cast_eq _ _
theorem ofBuf_main_cst_5 (v : (⟨S_, .f32⟩ : BufTy).Contents (Elt Ideal)) :
    (TRef.of (sig := sig) (T := ⟨S_, .f32⟩) main_cst_5).ofBuf v = v := cast_eq _ _
theorem toBuf_main_call0_v0 (v : (⟨S_, .f32⟩ : BufTy).Contents (Elt Ideal)) :
    (TRef.of (sig := sig) (T := ⟨S_, .f32⟩) main_call0_v0).toBuf v = v := cast_eq _ _
theorem ofBuf_main_call0_v0 (v : (⟨S_, .f32⟩ : BufTy).Contents (Elt Ideal)) :
    (TRef.of (sig := sig) (T := ⟨S_, .f32⟩) main_call0_v0).ofBuf v = v := cast_eq _ _
theorem toBuf_main_call0_v1 (v : (⟨S100000, .f32⟩ : BufTy).Contents (Elt Ideal)) :
    (TRef.of (sig := sig) (T := ⟨S100000, .f32⟩) main_call0_v1).toBuf v = v := cast_eq _ _
theorem ofBuf_main_call0_v1 (v : (⟨S100000, .f32⟩ : BufTy).Contents (Elt Ideal)) :
    (TRef.of (sig := sig) (T := ⟨S100000, .f32⟩) main_call0_v1).ofBuf v = v := cast_eq _ _
theorem toBuf_main_v13 (v : (⟨S100000, .i1⟩ : BufTy).Contents (Elt Ideal)) :
    (TRef.of (sig := sig) (T := ⟨S100000, .i1⟩) main_v13).toBuf v = v := cast_eq _ _
theorem ofBuf_main_v13 (v : (⟨S100000, .i1⟩ : BufTy).Contents (Elt Ideal)) :
    (TRef.of (sig := sig) (T := ⟨S100000, .i1⟩) main_v13).ofBuf v = v := cast_eq _ _
theorem toBuf_main_v15 (v : (⟨S100000, .f32⟩ : BufTy).Contents (Elt Ideal)) :
    (TRef.of (sig := sig) (T := ⟨S100000, .f32⟩) main_v15).toBuf v = v := cast_eq _ _
theorem ofBuf_main_v15 (v : (⟨S100000, .f32⟩ : BufTy).Contents (Elt Ideal)) :
    (TRef.of (sig := sig) (T := ⟨S100000, .f32⟩) main_v15).ofBuf v = v := cast_eq _ _
theorem toBuf_main_v16 (v : (⟨S100000, .f32⟩ : BufTy).Contents (Elt Ideal)) :
    (TRef.of (sig := sig) (T := ⟨S100000, .f32⟩) main_v16).toBuf v = v := cast_eq _ _
theorem ofBuf_main_v16 (v : (⟨S100000, .f32⟩ : BufTy).Contents (Elt Ideal)) :
    (TRef.of (sig := sig) (T := ⟨S100000, .f32⟩) main_v16).ofBuf v = v := cast_eq _ _
theorem toBuf_main_cst_10 (v : (⟨S_, .f32⟩ : BufTy).Contents (Elt Ideal)) :
    (TRef.of (sig := sig) (T := ⟨S_, .f32⟩) main_cst_10).toBuf v = v := cast_eq _ _
theorem ofBuf_main_cst_10 (v : (⟨S_, .f32⟩ : BufTy).Contents (Elt Ideal)) :
    (TRef.of (sig := sig) (T := ⟨S_, .f32⟩) main_cst_10).ofBuf v = v := cast_eq _ _
theorem toBuf_main_call1_v0 (v : (⟨S_, .f32⟩ : BufTy).Contents (Elt Ideal)) :
    (TRef.of (sig := sig) (T := ⟨S_, .f32⟩) main_call1_v0).toBuf v = v := cast_eq _ _
theorem ofBuf_main_call1_v0 (v : (⟨S_, .f32⟩ : BufTy).Contents (Elt Ideal)) :
    (TRef.of (sig := sig) (T := ⟨S_, .f32⟩) main_call1_v0).ofBuf v = v := cast_eq _ _
theorem toBuf_main_call1_v1 (v : (⟨S100000, .f32⟩ : BufTy).Contents (Elt Ideal)) :
    (TRef.of (sig := sig) (T := ⟨S100000, .f32⟩) main_call1_v1).toBuf v = v := cast_eq _ _
theorem ofBuf_main_call1_v1 (v : (⟨S100000, .f32⟩ : BufTy).Contents (Elt Ideal)) :
    (TRef.of (sig := sig) (T := ⟨S100000, .f32⟩) main_call1_v1).ofBuf v = v := cast_eq _ _
theorem toBuf_main_v22 (v : (⟨S100000, .i1⟩ : BufTy).Contents (Elt Ideal)) :
    (TRef.of (sig := sig) (T := ⟨S100000, .i1⟩) main_v22).toBuf v = v := cast_eq _ _
theorem ofBuf_main_v22 (v : (⟨S100000, .i1⟩ : BufTy).Contents (Elt Ideal)) :
    (TRef.of (sig := sig) (T := ⟨S100000, .i1⟩) main_v22).ofBuf v = v := cast_eq _ _
theorem toBuf_main_v24 (v : (⟨S100000, .f32⟩ : BufTy).Contents (Elt Ideal)) :
    (TRef.of (sig := sig) (T := ⟨S100000, .f32⟩) main_v24).toBuf v = v := cast_eq _ _
theorem ofBuf_main_v24 (v : (⟨S100000, .f32⟩ : BufTy).Contents (Elt Ideal)) :
    (TRef.of (sig := sig) (T := ⟨S100000, .f32⟩) main_v24).ofBuf v = v := cast_eq _ _
theorem toBuf_main_v25 (v : (⟨S100000, .f32⟩ : BufTy).Contents (Elt Ideal)) :
    (TRef.of (sig := sig) (T := ⟨S100000, .f32⟩) main_v25).toBuf v = v := cast_eq _ _
theorem ofBuf_main_v25 (v : (⟨S100000, .f32⟩ : BufTy).Contents (Elt Ideal)) :
    (TRef.of (sig := sig) (T := ⟨S100000, .f32⟩) main_v25).ofBuf v = v := cast_eq _ _
theorem toBuf_main_cst_37 (v : (⟨S_, .f32⟩ : BufTy).Contents (Elt Ideal)) :
    (TRef.of (sig := sig) (T := ⟨S_, .f32⟩) main_cst_37).toBuf v = v := cast_eq _ _
theorem ofBuf_main_cst_37 (v : (⟨S_, .f32⟩ : BufTy).Contents (Elt Ideal)) :
    (TRef.of (sig := sig) (T := ⟨S_, .f32⟩) main_cst_37).ofBuf v = v := cast_eq _ _
theorem toBuf_main_call2_v0 (v : (⟨S_, .f32⟩ : BufTy).Contents (Elt Ideal)) :
    (TRef.of (sig := sig) (T := ⟨S_, .f32⟩) main_call2_v0).toBuf v = v := cast_eq _ _
theorem ofBuf_main_call2_v0 (v : (⟨S_, .f32⟩ : BufTy).Contents (Elt Ideal)) :
    (TRef.of (sig := sig) (T := ⟨S_, .f32⟩) main_call2_v0).ofBuf v = v := cast_eq _ _
theorem toBuf_main_call2_v1 (v : (⟨S17, .f32⟩ : BufTy).Contents (Elt Ideal)) :
    (TRef.of (sig := sig) (T := ⟨S17, .f32⟩) main_call2_v1).toBuf v = v := cast_eq _ _
theorem ofBuf_main_call2_v1 (v : (⟨S17, .f32⟩ : BufTy).Contents (Elt Ideal)) :
    (TRef.of (sig := sig) (T := ⟨S17, .f32⟩) main_call2_v1).ofBuf v = v := cast_eq _ _
theorem toBuf_main_v115 (v : (⟨S17, .i1⟩ : BufTy).Contents (Elt Ideal)) :
    (TRef.of (sig := sig) (T := ⟨S17, .i1⟩) main_v115).toBuf v = v := cast_eq _ _
theorem ofBuf_main_v115 (v : (⟨S17, .i1⟩ : BufTy).Contents (Elt Ideal)) :
    (TRef.of (sig := sig) (T := ⟨S17, .i1⟩) main_v115).ofBuf v = v := cast_eq _ _
theorem toBuf_main_v117 (v : (⟨S17, .f32⟩ : BufTy).Contents (Elt Ideal)) :
    (TRef.of (sig := sig) (T := ⟨S17, .f32⟩) main_v117).toBuf v = v := cast_eq _ _
theorem ofBuf_main_v117 (v : (⟨S17, .f32⟩ : BufTy).Contents (Elt Ideal)) :
    (TRef.of (sig := sig) (T := ⟨S17, .f32⟩) main_v117).ofBuf v = v := cast_eq _ _
theorem toBuf_main_v118 (v : (⟨S17, .f32⟩ : BufTy).Contents (Elt Ideal)) :
    (TRef.of (sig := sig) (T := ⟨S17, .f32⟩) main_v118).toBuf v = v := cast_eq _ _
theorem ofBuf_main_v118 (v : (⟨S17, .f32⟩ : BufTy).Contents (Elt Ideal)) :
    (TRef.of (sig := sig) (T := ⟨S17, .f32⟩) main_v118).ofBuf v = v := cast_eq _ _
theorem toBuf_main_cst_45 (v : (⟨S_, .f32⟩ : BufTy).Contents (Elt Ideal)) :
    (TRef.of (sig := sig) (T := ⟨S_, .f32⟩) main_cst_45).toBuf v = v := cast_eq _ _
theorem ofBuf_main_cst_45 (v : (⟨S_, .f32⟩ : BufTy).Contents (Elt Ideal)) :
    (TRef.of (sig := sig) (T := ⟨S_, .f32⟩) main_cst_45).ofBuf v = v := cast_eq _ _
theorem toBuf_main_call3_v0 (v : (⟨S_, .f32⟩ : BufTy).Contents (Elt Ideal)) :
    (TRef.of (sig := sig) (T := ⟨S_, .f32⟩) main_call3_v0).toBuf v = v := cast_eq _ _
theorem ofBuf_main_call3_v0 (v : (⟨S_, .f32⟩ : BufTy).Contents (Elt Ideal)) :
    (TRef.of (sig := sig) (T := ⟨S_, .f32⟩) main_call3_v0).ofBuf v = v := cast_eq _ _
theorem toBuf_main_call3_v1 (v : (⟨S17, .f32⟩ : BufTy).Contents (Elt Ideal)) :
    (TRef.of (sig := sig) (T := ⟨S17, .f32⟩) main_call3_v1).toBuf v = v := cast_eq _ _
theorem ofBuf_main_call3_v1 (v : (⟨S17, .f32⟩ : BufTy).Contents (Elt Ideal)) :
    (TRef.of (sig := sig) (T := ⟨S17, .f32⟩) main_call3_v1).ofBuf v = v := cast_eq _ _
theorem toBuf_main_v137 (v : (⟨S17, .i1⟩ : BufTy).Contents (Elt Ideal)) :
    (TRef.of (sig := sig) (T := ⟨S17, .i1⟩) main_v137).toBuf v = v := cast_eq _ _
theorem ofBuf_main_v137 (v : (⟨S17, .i1⟩ : BufTy).Contents (Elt Ideal)) :
    (TRef.of (sig := sig) (T := ⟨S17, .i1⟩) main_v137).ofBuf v = v := cast_eq _ _
theorem toBuf_main_v139 (v : (⟨S17, .f32⟩ : BufTy).Contents (Elt Ideal)) :
    (TRef.of (sig := sig) (T := ⟨S17, .f32⟩) main_v139).toBuf v = v := cast_eq _ _
theorem ofBuf_main_v139 (v : (⟨S17, .f32⟩ : BufTy).Contents (Elt Ideal)) :
    (TRef.of (sig := sig) (T := ⟨S17, .f32⟩) main_v139).ofBuf v = v := cast_eq _ _
theorem toBuf_main_v140 (v : (⟨S17, .f32⟩ : BufTy).Contents (Elt Ideal)) :
    (TRef.of (sig := sig) (T := ⟨S17, .f32⟩) main_v140).toBuf v = v := cast_eq _ _
theorem ofBuf_main_v140 (v : (⟨S17, .f32⟩ : BufTy).Contents (Elt Ideal)) :
    (TRef.of (sig := sig) (T := ⟨S17, .f32⟩) main_v140).ofBuf v = v := cast_eq _ _
theorem toBuf_main_v173 (v : (⟨S17x128, .i1⟩ : BufTy).Contents (Elt Ideal)) :
    (TRef.of (sig := sig) (T := ⟨S17x128, .i1⟩) main_v173).toBuf v = v := cast_eq _ _
theorem ofBuf_main_v173 (v : (⟨S17x128, .i1⟩ : BufTy).Contents (Elt Ideal)) :
    (TRef.of (sig := sig) (T := ⟨S17x128, .i1⟩) main_v173).ofBuf v = v := cast_eq _ _
theorem toBuf_main_v171 (v : (⟨S17x128, .f32⟩ : BufTy).Contents (Elt Ideal)) :
    (TRef.of (sig := sig) (T := ⟨S17x128, .f32⟩) main_v171).toBuf v = v := cast_eq _ _
theorem ofBuf_main_v171 (v : (⟨S17x128, .f32⟩ : BufTy).Contents (Elt Ideal)) :
    (TRef.of (sig := sig) (T := ⟨S17x128, .f32⟩) main_v171).ofBuf v = v := cast_eq _ _
theorem toBuf_main_v175 (v : (⟨S17x128, .f32⟩ : BufTy).Contents (Elt Ideal)) :
    (TRef.of (sig := sig) (T := ⟨S17x128, .f32⟩) main_v175).toBuf v = v := cast_eq _ _
theorem ofBuf_main_v175 (v : (⟨S17x128, .f32⟩ : BufTy).Contents (Elt Ideal)) :
    (TRef.of (sig := sig) (T := ⟨S17x128, .f32⟩) main_v175).ofBuf v = v := cast_eq _ _
theorem toBuf_main_v176 (v : (⟨S17x128, .f32⟩ : BufTy).Contents (Elt Ideal)) :
    (TRef.of (sig := sig) (T := ⟨S17x128, .f32⟩) main_v176).toBuf v = v := cast_eq _ _
theorem ofBuf_main_v176 (v : (⟨S17x128, .f32⟩ : BufTy).Contents (Elt Ideal)) :
    (TRef.of (sig := sig) (T := ⟨S17x128, .f32⟩) main_v176).ofBuf v = v := cast_eq _ _
theorem toBuf_main_cst_56 (v : (⟨S_, .f32⟩ : BufTy).Contents (Elt Ideal)) :
    (TRef.of (sig := sig) (T := ⟨S_, .f32⟩) main_cst_56).toBuf v = v := cast_eq _ _
theorem ofBuf_main_cst_56 (v : (⟨S_, .f32⟩ : BufTy).Contents (Elt Ideal)) :
    (TRef.of (sig := sig) (T := ⟨S_, .f32⟩) main_cst_56).ofBuf v = v := cast_eq _ _
theorem toBuf_main_call5_v0 (v : (⟨S_, .f32⟩ : BufTy).Contents (Elt Ideal)) :
    (TRef.of (sig := sig) (T := ⟨S_, .f32⟩) main_call5_v0).toBuf v = v := cast_eq _ _
theorem ofBuf_main_call5_v0 (v : (⟨S_, .f32⟩ : BufTy).Contents (Elt Ideal)) :
    (TRef.of (sig := sig) (T := ⟨S_, .f32⟩) main_call5_v0).ofBuf v = v := cast_eq _ _
theorem toBuf_main_call5_v1 (v : (⟨S17, .f32⟩ : BufTy).Contents (Elt Ideal)) :
    (TRef.of (sig := sig) (T := ⟨S17, .f32⟩) main_call5_v1).toBuf v = v := cast_eq _ _
theorem ofBuf_main_call5_v1 (v : (⟨S17, .f32⟩ : BufTy).Contents (Elt Ideal)) :
    (TRef.of (sig := sig) (T := ⟨S17, .f32⟩) main_call5_v1).ofBuf v = v := cast_eq _ _
theorem toBuf_main_v183 (v : (⟨S17, .i1⟩ : BufTy).Contents (Elt Ideal)) :
    (TRef.of (sig := sig) (T := ⟨S17, .i1⟩) main_v183).toBuf v = v := cast_eq _ _
theorem ofBuf_main_v183 (v : (⟨S17, .i1⟩ : BufTy).Contents (Elt Ideal)) :
    (TRef.of (sig := sig) (T := ⟨S17, .i1⟩) main_v183).ofBuf v = v := cast_eq _ _
theorem toBuf_main_v185 (v : (⟨S17, .f32⟩ : BufTy).Contents (Elt Ideal)) :
    (TRef.of (sig := sig) (T := ⟨S17, .f32⟩) main_v185).toBuf v = v := cast_eq _ _
theorem ofBuf_main_v185 (v : (⟨S17, .f32⟩ : BufTy).Contents (Elt Ideal)) :
    (TRef.of (sig := sig) (T := ⟨S17, .f32⟩) main_v185).ofBuf v = v := cast_eq _ _
theorem toBuf_main_v186 (v : (⟨S17, .f32⟩ : BufTy).Contents (Elt Ideal)) :
    (TRef.of (sig := sig) (T := ⟨S17, .f32⟩) main_v186).toBuf v = v := cast_eq _ _
theorem ofBuf_main_v186 (v : (⟨S17, .f32⟩ : BufTy).Contents (Elt Ideal)) :
    (TRef.of (sig := sig) (T := ⟨S17, .f32⟩) main_v186).ofBuf v = v := cast_eq _ _
theorem toBuf_main_cst_64 (v : (⟨S_, .f32⟩ : BufTy).Contents (Elt Ideal)) :
    (TRef.of (sig := sig) (T := ⟨S_, .f32⟩) main_cst_64).toBuf v = v := cast_eq _ _
theorem ofBuf_main_cst_64 (v : (⟨S_, .f32⟩ : BufTy).Contents (Elt Ideal)) :
    (TRef.of (sig := sig) (T := ⟨S_, .f32⟩) main_cst_64).ofBuf v = v := cast_eq _ _
theorem toBuf_main_call6_v0 (v : (⟨S_, .f32⟩ : BufTy).Contents (Elt Ideal)) :
    (TRef.of (sig := sig) (T := ⟨S_, .f32⟩) main_call6_v0).toBuf v = v := cast_eq _ _
theorem ofBuf_main_call6_v0 (v : (⟨S_, .f32⟩ : BufTy).Contents (Elt Ideal)) :
    (TRef.of (sig := sig) (T := ⟨S_, .f32⟩) main_call6_v0).ofBuf v = v := cast_eq _ _
theorem toBuf_main_call6_v1 (v : (⟨S17, .f32⟩ : BufTy).Contents (Elt Ideal)) :
    (TRef.of (sig := sig) (T := ⟨S17, .f32⟩) main_call6_v1).toBuf v = v := cast_eq _ _
theorem ofBuf_main_call6_v1 (v : (⟨S17, .f32⟩ : BufTy).Contents (Elt Ideal)) :
    (TRef.of (sig := sig) (T := ⟨S17, .f32⟩) main_call6_v1).ofBuf v = v := cast_eq _ _
theorem toBuf_main_v205 (v : (⟨S17, .i1⟩ : BufTy).Contents (Elt Ideal)) :
    (TRef.of (sig := sig) (T := ⟨S17, .i1⟩) main_v205).toBuf v = v := cast_eq _ _
theorem ofBuf_main_v205 (v : (⟨S17, .i1⟩ : BufTy).Contents (Elt Ideal)) :
    (TRef.of (sig := sig) (T := ⟨S17, .i1⟩) main_v205).ofBuf v = v := cast_eq _ _
theorem toBuf_main_v207 (v : (⟨S17, .f32⟩ : BufTy).Contents (Elt Ideal)) :
    (TRef.of (sig := sig) (T := ⟨S17, .f32⟩) main_v207).toBuf v = v := cast_eq _ _
theorem ofBuf_main_v207 (v : (⟨S17, .f32⟩ : BufTy).Contents (Elt Ideal)) :
    (TRef.of (sig := sig) (T := ⟨S17, .f32⟩) main_v207).ofBuf v = v := cast_eq _ _
theorem toBuf_main_v208 (v : (⟨S17, .f32⟩ : BufTy).Contents (Elt Ideal)) :
    (TRef.of (sig := sig) (T := ⟨S17, .f32⟩) main_v208).toBuf v = v := cast_eq _ _
theorem ofBuf_main_v208 (v : (⟨S17, .f32⟩ : BufTy).Contents (Elt Ideal)) :
    (TRef.of (sig := sig) (T := ⟨S17, .f32⟩) main_v208).ofBuf v = v := cast_eq _ _
theorem toBuf_main_v101 (v : (⟨S128, .f32⟩ : BufTy).Contents (Elt Ideal)) :
    (TRef.of (sig := sig) (T := ⟨S128, .f32⟩) main_v101).toBuf v = v := cast_eq _ _
theorem ofBuf_main_v101 (v : (⟨S128, .f32⟩ : BufTy).Contents (Elt Ideal)) :
    (TRef.of (sig := sig) (T := ⟨S128, .f32⟩) main_v101).ofBuf v = v := cast_eq _ _
theorem toBuf_main_call7_v0 (v : (⟨S128, .f32⟩ : BufTy).Contents (Elt Ideal)) :
    (TRef.of (sig := sig) (T := ⟨S128, .f32⟩) main_call7_v0).toBuf v = v := cast_eq _ _
theorem ofBuf_main_call7_v0 (v : (⟨S128, .f32⟩ : BufTy).Contents (Elt Ideal)) :
    (TRef.of (sig := sig) (T := ⟨S128, .f32⟩) main_call7_v0).ofBuf v = v := cast_eq _ _
theorem toBuf_main_call7_cst (v : (⟨S_, .f32⟩ : BufTy).Contents (Elt Ideal)) :
    (TRef.of (sig := sig) (T := ⟨S_, .f32⟩) main_call7_cst).toBuf v = v := cast_eq _ _
theorem ofBuf_main_call7_cst (v : (⟨S_, .f32⟩ : BufTy).Contents (Elt Ideal)) :
    (TRef.of (sig := sig) (T := ⟨S_, .f32⟩) main_call7_cst).ofBuf v = v := cast_eq _ _
theorem toBuf_main_call7_v1 (v : (⟨S_, .f32⟩ : BufTy).Contents (Elt Ideal)) :
    (TRef.of (sig := sig) (T := ⟨S_, .f32⟩) main_call7_v1).toBuf v = v := cast_eq _ _
theorem ofBuf_main_call7_v1 (v : (⟨S_, .f32⟩ : BufTy).Contents (Elt Ideal)) :
    (TRef.of (sig := sig) (T := ⟨S_, .f32⟩) main_call7_v1).ofBuf v = v := cast_eq _ _
theorem toBuf_main_v243 (v : (⟨S_, .f32⟩ : BufTy).Contents (Elt Ideal)) :
    (TRef.of (sig := sig) (T := ⟨S_, .f32⟩) main_v243).toBuf v = v := cast_eq _ _
theorem ofBuf_main_v243 (v : (⟨S_, .f32⟩ : BufTy).Contents (Elt Ideal)) :
    (TRef.of (sig := sig) (T := ⟨S_, .f32⟩) main_v243).ofBuf v = v := cast_eq _ _
theorem toBuf_main_v242 (v : (⟨S128, .f32⟩ : BufTy).Contents (Elt Ideal)) :
    (TRef.of (sig := sig) (T := ⟨S128, .f32⟩) main_v242).toBuf v = v := cast_eq _ _
theorem ofBuf_main_v242 (v : (⟨S128, .f32⟩ : BufTy).Contents (Elt Ideal)) :
    (TRef.of (sig := sig) (T := ⟨S128, .f32⟩) main_v242).ofBuf v = v := cast_eq _ _
theorem toBuf_main_call8_v0 (v : (⟨S128, .f32⟩ : BufTy).Contents (Elt Ideal)) :
    (TRef.of (sig := sig) (T := ⟨S128, .f32⟩) main_call8_v0).toBuf v = v := cast_eq _ _
theorem ofBuf_main_call8_v0 (v : (⟨S128, .f32⟩ : BufTy).Contents (Elt Ideal)) :
    (TRef.of (sig := sig) (T := ⟨S128, .f32⟩) main_call8_v0).ofBuf v = v := cast_eq _ _
theorem toBuf_main_call8_cst (v : (⟨S_, .f32⟩ : BufTy).Contents (Elt Ideal)) :
    (TRef.of (sig := sig) (T := ⟨S_, .f32⟩) main_call8_cst).toBuf v = v := cast_eq _ _
theorem ofBuf_main_call8_cst (v : (⟨S_, .f32⟩ : BufTy).Contents (Elt Ideal)) :
    (TRef.of (sig := sig) (T := ⟨S_, .f32⟩) main_call8_cst).ofBuf v = v := cast_eq _ _
theorem toBuf_main_call8_v1 (v : (⟨S_, .f32⟩ : BufTy).Contents (Elt Ideal)) :
    (TRef.of (sig := sig) (T := ⟨S_, .f32⟩) main_call8_v1).toBuf v = v := cast_eq _ _
theorem ofBuf_main_call8_v1 (v : (⟨S_, .f32⟩ : BufTy).Contents (Elt Ideal)) :
    (TRef.of (sig := sig) (T := ⟨S_, .f32⟩) main_call8_v1).ofBuf v = v := cast_eq _ _
theorem toBuf_main_v247 (v : (⟨S_, .f32⟩ : BufTy).Contents (Elt Ideal)) :
    (TRef.of (sig := sig) (T := ⟨S_, .f32⟩) main_v247).toBuf v = v := cast_eq _ _
theorem ofBuf_main_v247 (v : (⟨S_, .f32⟩ : BufTy).Contents (Elt Ideal)) :
    (TRef.of (sig := sig) (T := ⟨S_, .f32⟩) main_v247).ofBuf v = v := cast_eq _ _

/-- Removes every carrying of contents through a typed reference of the kernel program. -/
macro "strip_typed" : tactic =>
  `(tactic| repeat (first
      | rw [Cert.LibTRef.ofBuf_toBuf]
      | rw [Cert.KernelIdeal.KCast.toBuf_main_cst_5]
      | rw [Cert.KernelIdeal.KCast.ofBuf_main_cst_5]
      | rw [Cert.KernelIdeal.KCast.toBuf_main_call0_v0]
      | rw [Cert.KernelIdeal.KCast.ofBuf_main_call0_v0]
      | rw [Cert.KernelIdeal.KCast.toBuf_main_call0_v1]
      | rw [Cert.KernelIdeal.KCast.ofBuf_main_call0_v1]
      | rw [Cert.KernelIdeal.KCast.toBuf_main_v13]
      | rw [Cert.KernelIdeal.KCast.ofBuf_main_v13]
      | rw [Cert.KernelIdeal.KCast.toBuf_main_v15]
      | rw [Cert.KernelIdeal.KCast.ofBuf_main_v15]
      | rw [Cert.KernelIdeal.KCast.toBuf_main_v16]
      | rw [Cert.KernelIdeal.KCast.ofBuf_main_v16]
      | rw [Cert.KernelIdeal.KCast.toBuf_main_cst_10]
      | rw [Cert.KernelIdeal.KCast.ofBuf_main_cst_10]
      | rw [Cert.KernelIdeal.KCast.toBuf_main_call1_v0]
      | rw [Cert.KernelIdeal.KCast.ofBuf_main_call1_v0]
      | rw [Cert.KernelIdeal.KCast.toBuf_main_call1_v1]
      | rw [Cert.KernelIdeal.KCast.ofBuf_main_call1_v1]
      | rw [Cert.KernelIdeal.KCast.toBuf_main_v22]
      | rw [Cert.KernelIdeal.KCast.ofBuf_main_v22]
      | rw [Cert.KernelIdeal.KCast.toBuf_main_v24]
      | rw [Cert.KernelIdeal.KCast.ofBuf_main_v24]
      | rw [Cert.KernelIdeal.KCast.toBuf_main_v25]
      | rw [Cert.KernelIdeal.KCast.ofBuf_main_v25]
      | rw [Cert.KernelIdeal.KCast.toBuf_main_cst_37]
      | rw [Cert.KernelIdeal.KCast.ofBuf_main_cst_37]
      | rw [Cert.KernelIdeal.KCast.toBuf_main_call2_v0]
      | rw [Cert.KernelIdeal.KCast.ofBuf_main_call2_v0]
      | rw [Cert.KernelIdeal.KCast.toBuf_main_call2_v1]
      | rw [Cert.KernelIdeal.KCast.ofBuf_main_call2_v1]
      | rw [Cert.KernelIdeal.KCast.toBuf_main_v115]
      | rw [Cert.KernelIdeal.KCast.ofBuf_main_v115]
      | rw [Cert.KernelIdeal.KCast.toBuf_main_v117]
      | rw [Cert.KernelIdeal.KCast.ofBuf_main_v117]
      | rw [Cert.KernelIdeal.KCast.toBuf_main_v118]
      | rw [Cert.KernelIdeal.KCast.ofBuf_main_v118]
      | rw [Cert.KernelIdeal.KCast.toBuf_main_cst_45]
      | rw [Cert.KernelIdeal.KCast.ofBuf_main_cst_45]
      | rw [Cert.KernelIdeal.KCast.toBuf_main_call3_v0]
      | rw [Cert.KernelIdeal.KCast.ofBuf_main_call3_v0]
      | rw [Cert.KernelIdeal.KCast.toBuf_main_call3_v1]
      | rw [Cert.KernelIdeal.KCast.ofBuf_main_call3_v1]
      | rw [Cert.KernelIdeal.KCast.toBuf_main_v137]
      | rw [Cert.KernelIdeal.KCast.ofBuf_main_v137]
      | rw [Cert.KernelIdeal.KCast.toBuf_main_v139]
      | rw [Cert.KernelIdeal.KCast.ofBuf_main_v139]
      | rw [Cert.KernelIdeal.KCast.toBuf_main_v140]
      | rw [Cert.KernelIdeal.KCast.ofBuf_main_v140]
      | rw [Cert.KernelIdeal.KCast.toBuf_main_v173]
      | rw [Cert.KernelIdeal.KCast.ofBuf_main_v173]
      | rw [Cert.KernelIdeal.KCast.toBuf_main_v171]
      | rw [Cert.KernelIdeal.KCast.ofBuf_main_v171]
      | rw [Cert.KernelIdeal.KCast.toBuf_main_v175]
      | rw [Cert.KernelIdeal.KCast.ofBuf_main_v175]
      | rw [Cert.KernelIdeal.KCast.toBuf_main_v176]
      | rw [Cert.KernelIdeal.KCast.ofBuf_main_v176]
      | rw [Cert.KernelIdeal.KCast.toBuf_main_cst_56]
      | rw [Cert.KernelIdeal.KCast.ofBuf_main_cst_56]
      | rw [Cert.KernelIdeal.KCast.toBuf_main_call5_v0]
      | rw [Cert.KernelIdeal.KCast.ofBuf_main_call5_v0]
      | rw [Cert.KernelIdeal.KCast.toBuf_main_call5_v1]
      | rw [Cert.KernelIdeal.KCast.ofBuf_main_call5_v1]
      | rw [Cert.KernelIdeal.KCast.toBuf_main_v183]
      | rw [Cert.KernelIdeal.KCast.ofBuf_main_v183]
      | rw [Cert.KernelIdeal.KCast.toBuf_main_v185]
      | rw [Cert.KernelIdeal.KCast.ofBuf_main_v185]
      | rw [Cert.KernelIdeal.KCast.toBuf_main_v186]
      | rw [Cert.KernelIdeal.KCast.ofBuf_main_v186]
      | rw [Cert.KernelIdeal.KCast.toBuf_main_cst_64]
      | rw [Cert.KernelIdeal.KCast.ofBuf_main_cst_64]
      | rw [Cert.KernelIdeal.KCast.toBuf_main_call6_v0]
      | rw [Cert.KernelIdeal.KCast.ofBuf_main_call6_v0]
      | rw [Cert.KernelIdeal.KCast.toBuf_main_call6_v1]
      | rw [Cert.KernelIdeal.KCast.ofBuf_main_call6_v1]
      | rw [Cert.KernelIdeal.KCast.toBuf_main_v205]
      | rw [Cert.KernelIdeal.KCast.ofBuf_main_v205]
      | rw [Cert.KernelIdeal.KCast.toBuf_main_v207]
      | rw [Cert.KernelIdeal.KCast.ofBuf_main_v207]
      | rw [Cert.KernelIdeal.KCast.toBuf_main_v208]
      | rw [Cert.KernelIdeal.KCast.ofBuf_main_v208]
      | rw [Cert.KernelIdeal.KCast.toBuf_main_v101]
      | rw [Cert.KernelIdeal.KCast.ofBuf_main_v101]
      | rw [Cert.KernelIdeal.KCast.toBuf_main_call7_v0]
      | rw [Cert.KernelIdeal.KCast.ofBuf_main_call7_v0]
      | rw [Cert.KernelIdeal.KCast.toBuf_main_call7_cst]
      | rw [Cert.KernelIdeal.KCast.ofBuf_main_call7_cst]
      | rw [Cert.KernelIdeal.KCast.toBuf_main_call7_v1]
      | rw [Cert.KernelIdeal.KCast.ofBuf_main_call7_v1]
      | rw [Cert.KernelIdeal.KCast.toBuf_main_v243]
      | rw [Cert.KernelIdeal.KCast.ofBuf_main_v243]
      | rw [Cert.KernelIdeal.KCast.toBuf_main_v242]
      | rw [Cert.KernelIdeal.KCast.ofBuf_main_v242]
      | rw [Cert.KernelIdeal.KCast.toBuf_main_call8_v0]
      | rw [Cert.KernelIdeal.KCast.ofBuf_main_call8_v0]
      | rw [Cert.KernelIdeal.KCast.toBuf_main_call8_cst]
      | rw [Cert.KernelIdeal.KCast.ofBuf_main_call8_cst]
      | rw [Cert.KernelIdeal.KCast.toBuf_main_call8_v1]
      | rw [Cert.KernelIdeal.KCast.ofBuf_main_call8_v1]
      | rw [Cert.KernelIdeal.KCast.toBuf_main_v247]
      | rw [Cert.KernelIdeal.KCast.ofBuf_main_v247]))

end Cert.KernelIdeal.KCast

end
-- ==== Proof.KHost.lean ====
/-
  The host side of the idealized kernel program between its regions, read as values. Each lemma is about an
  arbitrary valuation `V` of the buffers at a boundary and says what a later buffer holds after the stretch of
  host operations, as a named function of what `V` holds:
    * the feature matrix with the masked rows set to zero (`maskedOf`),
    * the degree norm of an index list, 1/sqrt(count) where the count is positive and 0 elsewhere (`degNormOf`),
    * the aggregation of a node array over the edges: rows gathered at the (wrapped) source index and summed at
      the destination index (`aggOf`),
    * a vector as a column [n,1] or a row [1,d] (`colOf`, `rowOf`),
    * the batch statistics from per-tile partial sums: mean = (sum of the 20 partial sums)/n, and
      1/sqrt(E[y^2] - mean^2 + eps) (`meanOf`, `invOf`).
-/
import proofs.«122415_j30588757082611_2_alg».proof.Proof.Gen.KernelIdeal.Launch
import proofs.«122415_j30588757082611_2_alg».proof.Proof.KCast
import Idealize.ShloMosaic.PureOps.Ideal
import Idealize.ShloMosaic.Lib.StableHlo.Run

set_option maxRecDepth 16384

noncomputable section

namespace Cert.KernelIdeal.KHost

open Cert.KernelIdeal Cert.KernelIdeal.Gen Cert.KernelIdeal.KCast
open Idealize.ShloMosaic Idealize.ShloMosaic.TcCoe Idealize.ShloMosaic.Tactic Idealize.SL.Sem Idealize.ShloMosaic.StableHlo

/-- The feature matrix with the rows named by the (wrapped) mask indices set to zero. -/
def maskedOf (x : FVec Ideal S100000x128 .f32) (mask : IVec S17 32) : FVec Ideal S100000x128 .f32 :=
  Host.scatter scatter_S100000x128_S17x1_S17x128_1_0_0_1 (fun _ b => b) x
    (broadcastInDim S17x1 ![0] bcast_S17_S17x1_0
      (select (cmpi .slt mask (broadcastInDim S17 ![] bcast_S_S17 (constantI S_ 32 0#32)))
        (addi mask (broadcastInDim S17 ![] bcast_S_S17 (constantI S_ 32 100000#32))) mask))
    (broadcastInDim S17x128 ![] bcast_S_S17x128 (constant (F := Ideal) S_ .f32 0#32))

/-- How many times each node occurs in an index list. -/
def countOf (idx : IVec S1600000 32) : FVec Ideal S100000 .f32 :=
  Host.scatterAdd (F := Ideal) scatter_S100000_S1600000x1_S1600000_n_0_0_1
    (broadcastInDim S100000 ![] bcast_S_S100000 (constant (F := Ideal) S_ .f32 0#32))
    (broadcastInDim S1600000x1 ![0] bcast_S1600000_S1600000x1_0 idx)
    (broadcastInDim S1600000 ![] bcast_S_S1600000 (constant (F := Ideal) S_ .f32 1065353216#32))

/-- The degree norm: count^(-1/2) where the count is positive, zero elsewhere. -/
def degNormOf (idx : IVec S1600000 32) : FVec Ideal S100000 .f32 :=
  select (cmpf .ogt (countOf idx) (broadcastInDim S100000 ![] bcast_S_S100000 (constant (F := Ideal) S_ .f32 0#32)))
    (Host.powf (F := Ideal) (countOf idx) (broadcastInDim S100000 ![] bcast_S_S100000 (constant (F := Ideal) S_ .f32 3204448256#32)))
    (broadcastInDim S100000 ![] bcast_S_S100000 (constant (F := Ideal) S_ .f32 0#32))

/-- Rows of `h` gathered at the wrapped source index, summed at the destination index. -/
def aggOf (h : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A vector over the nodes as a column. -/
def colOf (v : FVec Ideal S100000 .f32) : FVec Ideal S100000x1 .f32 := shapeCast S100000x1 v shapeCasts_S100000_S100000x1
/-- A vector over the channels as a row. -/
def rowOf (v : FVec Ideal S128 .f32) : FVec Ideal S1x128 .f32 := shapeCast S1x128 v shapeCasts_S128_S1x128

/-- The sum of the 20 per-tile partial sums divided by the node count. -/
def meanOf (ps : FVec Ideal S20x1x128 .f32) : FVec Ideal S1x128 .f32 :=
  Host.divf (F := Ideal) (Host.reduceAdd (F := Ideal) ps (constant (F := Ideal) S_ .f32 0#32) reducesTo_S20x1x128_S1x128_d0 h_S_)
    (broadcastInDim S1x128 ![] bcast_S_S1x128 (constant (F := Ideal) S_ .f32 1203982336#32))

/-- 1/sqrt(E[y^2] - mean^2 + eps), from the partial sums and partial sums of squares. -/
def invOf (ps pss : FVec Ideal S20x1x128 .f32) : FVec Ideal S1x128 .f32 :=
  Host.rsqrt (F := Ideal) (addf (subf (meanOf pss) (mulf (meanOf ps) (meanOf ps)))
    (broadcastInDim S1x128 ![] bcast_S_S1x128 (constant (F := Ideal) S_ .f32 925353388#32)))

/-- The PReLU slope, a scalar, as a row. -/
def slopeOf (a : FVec Ideal S_ .f32) : FVec Ideal S1x128 .f32 :=
  broadcastInDim S1x128 ![0, 1] bcast_S1x1_S1x128_0_1 (shapeCast S1x1 a shapeCasts_S_S1x1)

variable (V : Valuation τ sig (Elt Ideal))

/-- The contents when region 0 is entered, from the launch contents `V`. -/
abbrev pre0 : Valuation τ sig (Elt Ideal) :=
  after hostOps0_4 (after hostOps0_3 (after hostOps0_2 (after hostOps0_1 (after hostOps0 V))))

set_option maxHeartbeats 4000000 in
theorem pre0_v7 : pre0 V (Proc.devRef .tc main_v7) = maskedOf (V (Proc.devRef .tc main_arg0)) (V (Proc.devRef .tc main_arg5)) := by
  unfold pre0; after_results_simp; rfl

set_option maxHeartbeats 4000000 in
theorem pre0_arg6 : pre0 V (Proc.devRef .tc main_arg6) = V (Proc.devRef .tc main_arg6) := by
  unfold pre0; after_results_simp

set_option maxHeartbeats 4000000 in
theorem pre0_v16 : pre0 V (Proc.devRef .tc main_v16) = degNormOf (V (Proc.devRef .tc main_arg1)) := by
  unfold pre0; after_results_simp; strip_typed; rfl

set_option maxHeartbeats 4000000 in
theorem pre0_v25 : pre0 V (Proc.devRef .tc main_v25) = degNormOf (V (Proc.devRef .tc main_arg2)) := by
  unfold pre0; after_results_simp; strip_typed; rfl

set_option maxHeartbeats 4000000 in
theorem pre0_v26 : pre0 V (Proc.devRef .tc main_v26) = colOf (degNormOf (V (Proc.devRef .tc main_arg1))) := by
  unfold pre0; after_results_simp; strip_typed; rfl

/-! ## Between region 0 and region 1 -/

set_option maxHeartbeats 4000000 in
theorem host1_v37 : after hostOps1 V (Proc.devRef .tc main_v37)
    = aggOf (V (Proc.devRef .tc main_v27)) (V (Proc.devRef .tc main_arg1)) (V (Proc.devRef .tc main_arg2)) := by
  after_results_simp; rfl

set_option maxHeartbeats 4000000 in
theorem host1_v38 : after hostOps1 V (Proc.devRef .tc main_v38) = colOf (V (Proc.devRef .tc main_v25)) := by
  after_results_simp; rfl

set_option maxHeartbeats 4000000 in
theorem host1_v39 : after hostOps1 V (Proc.devRef .tc main_v39) = rowOf (V (Proc.devRef .tc main_arg7)) := by
  after_results_simp; rfl

/-! ## Between region 1 and region 2 -/

set_option maxHeartbeats 4000000 in
theorem host2_v40_0 : after hostOps2 V (Proc.devRef .tc main_v40_0) = V (Proc.devRef .tc main_v40_0) := by
  after_results_simp

set_option maxHeartbeats 4000000 in
theorem host2_v44 : after hostOps2 V (Proc.devRef .tc main_v44) = meanOf (V (Proc.devRef .tc main_v40_1)) := by
  after_results_simp; rfl

set_option maxHeartbeats 4000000 in
theorem host2_v51 : after hostOps2 V (Proc.devRef .tc main_v51)
    = invOf (V (Proc.devRef .tc main_v40_1)) (V (Proc.devRef .tc main_v40_2)) := by
  after_results_simp; rfl

set_option maxHeartbeats 4000000 in
theorem host2_v52 : after hostOps2 V (Proc.devRef .tc main_v52) = colOf (V (Proc.devRef .tc main_v16)) := by
  after_results_simp; rfl

set_option maxHeartbeats 4000000 in
theorem host2_v53 : after hostOps2 V (Proc.devRef .tc main_v53) = rowOf (V (Proc.devRef .tc main_arg8)) := by
  after_results_simp; rfl

set_option maxHeartbeats 4000000 in
theorem host2_v54 : after hostOps2 V (Proc.devRef .tc main_v54) = rowOf (V (Proc.devRef .tc main_arg9)) := by
  after_results_simp; rfl

set_option maxHeartbeats 4000000 in
theorem host2_v56 : after hostOps2 V (Proc.devRef .tc main_v56) = slopeOf (V (Proc.devRef .tc main_arg10)) := by
  after_results_simp; rfl

set_option maxHeartbeats 4000000 in
theorem host2_arg11 : after hostOps2 V (Proc.devRef .tc main_arg11) = V (Proc.devRef .tc main_arg11) := by
  after_results_simp

/-! ## Between region 2 and region 3 -/

set_option maxHeartbeats 4000000 in
theorem host3_v67 : after hostOps3 V (Proc.devRef .tc main_v67)
    = aggOf (V (Proc.devRef .tc main_v57)) (V (Proc.devRef .tc main_arg1)) (V (Proc.devRef .tc main_arg2)) := by
  after_results_simp; rfl

set_option maxHeartbeats 4000000 in
theorem host3_v68 : after hostOps3 V (Proc.devRef .tc main_v68) = colOf (V (Proc.devRef .tc main_v25)) := by
  after_results_simp; rfl

set_option maxHeartbeats 4000000 in
theorem host3_v69 : after hostOps3 V (Proc.devRef .tc main_v69) = rowOf (V (Proc.devRef .tc main_arg12)) := by
  after_results_simp; rfl

end Cert.KernelIdeal.KHost

end
-- ==== Proof.KArgsV.lean ====
/-
  No host operation of the kernel program between its regions writes an argument array, nor the two degree-norm
  vectors once they are computed: after each stretch such a buffer holds what it held before.
-/
import proofs.«122415_j30588757082611_2_alg».proof.Proof.KHost

set_option maxRecDepth 16384

noncomputable section

namespace Cert.KernelIdeal.KHost

open Cert.KernelIdeal Cert.KernelIdeal.Gen
open Idealize.ShloMosaic Idealize.ShloMosaic.TcCoe Idealize.ShloMosaic.Tactic Idealize.SL.Sem Idealize.ShloMosaic.StableHlo

variable (V : Valuation τ sig (Elt Ideal))

set_option maxHeartbeats 4000000 in
theorem pre0_arg0 : pre0 V (Proc.devRef .tc main_arg0) = V (Proc.devRef .tc main_arg0) := by
  unfold pre0; after_results_simp
set_option maxHeartbeats 4000000 in
theorem host1_arg0 : after hostOps1 V (Proc.devRef .tc main_arg0) = V (Proc.devRef .tc main_arg0) := by
  after_results_simp
set_option maxHeartbeats 4000000 in
theorem host2_arg0 : after hostOps2 V (Proc.devRef .tc main_arg0) = V (Proc.devRef .tc main_arg0) := by
  after_results_simp
set_option maxHeartbeats 4000000 in
theorem host3_arg0 : after hostOps3 V (Proc.devRef .tc main_arg0) = V (Proc.devRef .tc main_arg0) := by
  after_results_simp
set_option maxHeartbeats 4000000 in
theorem pre0_arg1 : pre0 V (Proc.devRef .tc main_arg1) = V (Proc.devRef .tc main_arg1) := by
  unfold pre0; after_results_simp
set_option maxHeartbeats 4000000 in
theorem host1_arg1 : after hostOps1 V (Proc.devRef .tc main_arg1) = V (Proc.devRef .tc main_arg1) := by
  after_results_simp
set_option maxHeartbeats 4000000 in
theorem host2_arg1 : after hostOps2 V (Proc.devRef .tc main_arg1) = V (Proc.devRef .tc main_arg1) := by
  after_results_simp
set_option maxHeartbeats 4000000 in
theorem host3_arg1 : after hostOps3 V (Proc.devRef .tc main_arg1) = V (Proc.devRef .tc main_arg1) := by
  after_results_simp
set_option maxHeartbeats 4000000 in
theorem pre0_arg2 : pre0 V (Proc.devRef .tc main_arg2) = V (Proc.devRef .tc main_arg2) := by
  unfold pre0; after_results_simp
set_option maxHeartbeats 4000000 in
theorem host1_arg2 : after hostOps1 V (Proc.devRef .tc main_arg2) = V (Proc.devRef .tc main_arg2) := by
  after_results_simp
set_option maxHeartbeats 4000000 in
theorem host2_arg2 : after hostOps2 V (Proc.devRef .tc main_arg2) = V (Proc.devRef .tc main_arg2) := by
  after_results_simp
set_option maxHeartbeats 4000000 in
theorem host3_arg2 : after hostOps3 V (Proc.devRef .tc main_arg2) = V (Proc.devRef .tc main_arg2) := by
  after_results_simp
set_option maxHeartbeats 4000000 in
theorem pre0_arg3 : pre0 V (Proc.devRef .tc main_arg3) = V (Proc.devRef .tc main_arg3) := by
  unfold pre0; after_results_simp
set_option maxHeartbeats 4000000 in
theorem host1_arg3 : after hostOps1 V (Proc.devRef .tc main_arg3) = V (Proc.devRef .tc main_arg3) := by
  after_results_simp
set_option maxHeartbeats 4000000 in
theorem host2_arg3 : after hostOps2 V (Proc.devRef .tc main_arg3) = V (Proc.devRef .tc main_arg3) := by
  after_results_simp
set_option maxHeartbeats 4000000 in
theorem host3_arg3 : after hostOps3 V (Proc.devRef .tc main_arg3) = V (Proc.devRef .tc main_arg3) := by
  after_results_simp
set_option maxHeartbeats 4000000 in
theorem pre0_arg4 : pre0 V (Proc.devRef .tc main_arg4) = V (Proc.devRef .tc main_arg4) := by
  unfold pre0; after_results_simp
set_option maxHeartbeats 4000000 in
theorem host1_arg4 : after hostOps1 V (Proc.devRef .tc main_arg4) = V (Proc.devRef .tc main_arg4) := by
  after_results_simp
set_option maxHeartbeats 4000000 in
theorem host2_arg4 : after hostOps2 V (Proc.devRef .tc main_arg4) = V (Proc.devRef .tc main_arg4) := by
  after_results_simp
set_option maxHeartbeats 4000000 in
theorem host3_arg4 : after hostOps3 V (Proc.devRef .tc main_arg4) = V (Proc.devRef .tc main_arg4) := by
  after_results_simp
set_option maxHeartbeats 4000000 in
theorem pre0_arg5 : pre0 V (Proc.devRef .tc main_arg5) = V (Proc.devRef .tc main_arg5) := by
  unfold pre0; after_results_simp
set_option maxHeartbeats 4000000 in
theorem host1_arg5 : after hostOps1 V (Proc.devRef .tc main_arg5) = V (Proc.devRef .tc main_arg5) := by
  after_results_simp
set_option maxHeartbeats 4000000 in
theorem host2_arg5 : after hostOps2 V (Proc.devRef .tc main_arg5) = V (Proc.devRef .tc main_arg5) := by
  after_results_simp
set_option maxHeartbeats 4000000 in
theorem host3_arg5 : after hostOps3 V (Proc.devRef .tc main_arg5) = V (Proc.devRef .tc main_arg5) := by
  after_results_simp
set_option maxHeartbeats 4000000 in
theorem host1_arg6 : after hostOps1 V (Proc.devRef .tc main_arg6) = V (Proc.devRef .tc main_arg6) := by
  after_results_simp
set_option maxHeartbeats 4000000 in
theorem host2_arg6 : after hostOps2 V (Proc.devRef .tc main_arg6) = V (Proc.devRef .tc main_arg6) := by
  after_results_simp
set_option maxHeartbeats 4000000 in
theorem host3_arg6 : after hostOps3 V (Proc.devRef .tc main_arg6) = V (Proc.devRef .tc main_arg6) := by
  after_results_simp
set_option maxHeartbeats 4000000 in
theorem pre0_arg7 : pre0 V (Proc.devRef .tc main_arg7) = V (Proc.devRef .tc main_arg7) := by
  unfold pre0; after_results_simp
set_option maxHeartbeats 4000000 in
theorem host1_arg7 : after hostOps1 V (Proc.devRef .tc main_arg7) = V (Proc.devRef .tc main_arg7) := by
  after_results_simp
set_option maxHeartbeats 4000000 in
theorem host2_arg7 : after hostOps2 V (Proc.devRef .tc main_arg7) = V (Proc.devRef .tc main_arg7) := by
  after_results_simp
set_option maxHeartbeats 4000000 in
theorem host3_arg7 : after hostOps3 V (Proc.devRef .tc main_arg7) = V (Proc.devRef .tc main_arg7) := by
  after_results_simp
set_option maxHeartbeats 4000000 in
theorem pre0_arg8 : pre0 V (Proc.devRef .tc main_arg8) = V (Proc.devRef .tc main_arg8) := by
  unfold pre0; after_results_simp
set_option maxHeartbeats 4000000 in
theorem host1_arg8 : after hostOps1 V (Proc.devRef .tc main_arg8) = V (Proc.devRef .tc main_arg8) := by
  after_results_simp
set_option maxHeartbeats 4000000 in
theorem host2_arg8 : after hostOps2 V (Proc.devRef .tc main_arg8) = V (Proc.devRef .tc main_arg8) := by
  after_results_simp
set_option maxHeartbeats 4000000 in
theorem host3_arg8 : after hostOps3 V (Proc.devRef .tc main_arg8) = V (Proc.devRef .tc main_arg8) := by
  after_results_simp
set_option maxHeartbeats 4000000 in
theorem pre0_arg9 : pre0 V (Proc.devRef .tc main_arg9) = V (Proc.devRef .tc main_arg9) := by
  unfold pre0; after_results_simp
set_option maxHeartbeats 4000000 in
theorem host1_arg9 : after hostOps1 V (Proc.devRef .tc main_arg9) = V (Proc.devRef .tc main_arg9) := by
  after_results_simp
set_option maxHeartbeats 4000000 in
theorem host2_arg9 : after hostOps2 V (Proc.devRef .tc main_arg9) = V (Proc.devRef .tc main_arg9) := by
  after_results_simp
set_option maxHeartbeats 4000000 in
theorem host3_arg9 : after hostOps3 V (Proc.devRef .tc main_arg9) = V (Proc.devRef .tc main_arg9) := by
  after_results_simp
set_option maxHeartbeats 4000000 in
theorem pre0_arg10 : pre0 V (Proc.devRef .tc main_arg10) = V (Proc.devRef .tc main_arg10) := by
  unfold pre0; after_results_simp
set_option maxHeartbeats 4000000 in
theorem host1_arg10 : after hostOps1 V (Proc.devRef .tc main_arg10) = V (Proc.devRef .tc main_arg10) := by
  after_results_simp
set_option maxHeartbeats 4000000 in
theorem host2_arg10 : after hostOps2 V (Proc.devRef .tc main_arg10) = V (Proc.devRef .tc main_arg10) := by
  after_results_simp
set_option maxHeartbeats 4000000 in
theorem host3_arg10 : after hostOps3 V (Proc.devRef .tc main_arg10) = V (Proc.devRef .tc main_arg10) := by
  after_results_simp
set_option maxHeartbeats 4000000 in
theorem pre0_arg11 : pre0 V (Proc.devRef .tc main_arg11) = V (Proc.devRef .tc main_arg11) := by
  unfold pre0; after_results_simp
set_option maxHeartbeats 4000000 in
theorem host1_arg11 : after hostOps1 V (Proc.devRef .tc main_arg11) = V (Proc.devRef .tc main_arg11) := by
  after_results_simp
set_option maxHeartbeats 4000000 in
theorem host3_arg11 : after hostOps3 V (Proc.devRef .tc main_arg11) = V (Proc.devRef .tc main_arg11) := by
  after_results_simp
set_option maxHeartbeats 4000000 in
theorem pre0_arg12 : pre0 V (Proc.devRef .tc main_arg12) = V (Proc.devRef .tc main_arg12) := by
  unfold pre0; after_results_simp
set_option maxHeartbeats 4000000 in
theorem host1_arg12 : after hostOps1 V (Proc.devRef .tc main_arg12) = V (Proc.devRef .tc main_arg12) := by
  after_results_simp
set_option maxHeartbeats 4000000 in
theorem host2_arg12 : after hostOps2 V (Proc.devRef .tc main_arg12) = V (Proc.devRef .tc main_arg12) := by
  after_results_simp
set_option maxHeartbeats 4000000 in
theorem host3_arg12 : after hostOps3 V (Proc.devRef .tc main_arg12) = V (Proc.devRef .tc main_arg12) := by
  after_results_simp
set_option maxHeartbeats 4000000 in
theorem pre0_arg13 : pre0 V (Proc.devRef .tc main_arg13) = V (Proc.devRef .tc main_arg13) := by
  unfold pre0; after_results_simp
set_option maxHeartbeats 4000000 in
theorem host1_arg13 : after hostOps1 V (Proc.devRef .tc main_arg13) = V (Proc.devRef .tc main_arg13) := by
  after_results_simp
set_option maxHeartbeats 4000000 in
theorem host2_arg13 : after hostOps2 V (Proc.devRef .tc main_arg13) = V (Proc.devRef .tc main_arg13) := by
  after_results_simp
set_option maxHeartbeats 4000000 in
theorem host3_arg13 : after hostOps3 V (Proc.devRef .tc main_arg13) = V (Proc.devRef .tc main_arg13) := by
  after_results_simp
set_option maxHeartbeats 4000000 in
theorem pre0_arg14 : pre0 V (Proc.devRef .tc main_arg14) = V (Proc.devRef .tc main_arg14) := by
  unfold pre0; after_results_simp
set_option maxHeartbeats 4000000 in
theorem host1_arg14 : after hostOps1 V (Proc.devRef .tc main_arg14) = V (Proc.devRef .tc main_arg14) := by
  after_results_simp
set_option maxHeartbeats 4000000 in
theorem host2_arg14 : after hostOps2 V (Proc.devRef .tc main_arg14) = V (Proc.devRef .tc main_arg14) := by
  after_results_simp
set_option maxHeartbeats 4000000 in
theorem host3_arg14 : after hostOps3 V (Proc.devRef .tc main_arg14) = V (Proc.devRef .tc main_arg14) := by
  after_results_simp
set_option maxHeartbeats 4000000 in
theorem pre0_arg15 : pre0 V (Proc.devRef .tc main_arg15) = V (Proc.devRef .tc main_arg15) := by
  unfold pre0; after_results_simp
set_option maxHeartbeats 4000000 in
theorem host1_arg15 : after hostOps1 V (Proc.devRef .tc main_arg15) = V (Proc.devRef .tc main_arg15) := by
  after_results_simp
set_option maxHeartbeats 4000000 in
theorem host2_arg15 : after hostOps2 V (Proc.devRef .tc main_arg15) = V (Proc.devRef .tc main_arg15) := by
  after_results_simp
set_option maxHeartbeats 4000000 in
theorem host3_arg15 : after hostOps3 V (Proc.devRef .tc main_arg15) = V (Proc.devRef .tc main_arg15) := by
  after_results_simp
set_option maxHeartbeats 4000000 in
theorem pre0_arg16 : pre0 V (Proc.devRef .tc main_arg16) = V (Proc.devRef .tc main_arg16) := by
  unfold pre0; after_results_simp
set_option maxHeartbeats 4000000 in
theorem host1_arg16 : after hostOps1 V (Proc.devRef .tc main_arg16) = V (Proc.devRef .tc main_arg16) := by
  after_results_simp
set_option maxHeartbeats 4000000 in
theorem host2_arg16 : after hostOps2 V (Proc.devRef .tc main_arg16) = V (Proc.devRef .tc main_arg16) := by
  after_results_simp
set_option maxHeartbeats 4000000 in
theorem host3_arg16 : after hostOps3 V (Proc.devRef .tc main_arg16) = V (Proc.devRef .tc main_arg16) := by
  after_results_simp
set_option maxHeartbeats 4000000 in
theorem pre0_arg17 : pre0 V (Proc.devRef .tc main_arg17) = V (Proc.devRef .tc main_arg17) := by
  unfold pre0; after_results_simp
set_option maxHeartbeats 4000000 in
theorem host1_arg17 : after hostOps1 V (Proc.devRef .tc main_arg17) = V (Proc.devRef .tc main_arg17) := by
  after_results_simp
set_option maxHeartbeats 4000000 in
theorem host2_arg17 : after hostOps2 V (Proc.devRef .tc main_arg17) = V (Proc.devRef .tc main_arg17) := by
  after_results_simp
set_option maxHeartbeats 4000000 in
theorem host3_arg17 : after hostOps3 V (Proc.devRef .tc main_arg17) = V (Proc.devRef .tc main_arg17) := by
  after_results_simp
set_option maxHeartbeats 4000000 in
theorem pre0_arg18 : pre0 V (Proc.devRef .tc main_arg18) = V (Proc.devRef .tc main_arg18) := by
  unfold pre0; after_results_simp
set_option maxHeartbeats 4000000 in
theorem host1_arg18 : after hostOps1 V (Proc.devRef .tc main_arg18) = V (Proc.devRef .tc main_arg18) := by
  after_results_simp
set_option maxHeartbeats 4000000 in
theorem host2_arg18 : after hostOps2 V (Proc.devRef .tc main_arg18) = V (Proc.devRef .tc main_arg18) := by
  after_results_simp
set_option maxHeartbeats 4000000 in
theorem host3_arg18 : after hostOps3 V (Proc.devRef .tc main_arg18) = V (Proc.devRef .tc main_arg18) := by
  after_results_simp
set_option maxHeartbeats 4000000 in
theorem pre0_arg19 : pre0 V (Proc.devRef .tc main_arg19) = V (Proc.devRef .tc main_arg19) := by
  unfold pre0; after_results_simp
set_option maxHeartbeats 4000000 in
theorem host1_arg19 : after hostOps1 V (Proc.devRef .tc main_arg19) = V (Proc.devRef .tc main_arg19) := by
  after_results_simp
set_option maxHeartbeats 4000000 in
theorem host2_arg19 : after hostOps2 V (Proc.devRef .tc main_arg19) = V (Proc.devRef .tc main_arg19) := by
  after_results_simp
set_option maxHeartbeats 4000000 in
theorem host3_arg19 : after hostOps3 V (Proc.devRef .tc main_arg19) = V (Proc.devRef .tc main_arg19) := by
  after_results_simp
set_option maxHeartbeats 4000000 in
theorem pre0_arg20 : pre0 V (Proc.devRef .tc main_arg20) = V (Proc.devRef .tc main_arg20) := by
  unfold pre0; after_results_simp
set_option maxHeartbeats 4000000 in
theorem host1_arg20 : after hostOps1 V (Proc.devRef .tc main_arg20) = V (Proc.devRef .tc main_arg20) := by
  after_results_simp
set_option maxHeartbeats 4000000 in
theorem host2_arg20 : after hostOps2 V (Proc.devRef .tc main_arg20) = V (Proc.devRef .tc main_arg20) := by
  after_results_simp
set_option maxHeartbeats 4000000 in
theorem host3_arg20 : after hostOps3 V (Proc.devRef .tc main_arg20) = V (Proc.devRef .tc main_arg20) := by
  after_results_simp
set_option maxHeartbeats 4000000 in
theorem pre0_arg21 : pre0 V (Proc.devRef .tc main_arg21) = V (Proc.devRef .tc main_arg21) := by
  unfold pre0; after_results_simp
set_option maxHeartbeats 4000000 in
theorem host1_arg21 : after hostOps1 V (Proc.devRef .tc main_arg21) = V (Proc.devRef .tc main_arg21) := by
  after_results_simp
set_option maxHeartbeats 4000000 in
theorem host2_arg21 : after hostOps2 V (Proc.devRef .tc main_arg21) = V (Proc.devRef .tc main_arg21) := by
  after_results_simp
set_option maxHeartbeats 4000000 in
theorem host3_arg21 : after hostOps3 V (Proc.devRef .tc main_arg21) = V (Proc.devRef .tc main_arg21) := by
  after_results_simp
set_option maxHeartbeats 4000000 in
theorem pre0_arg22 : pre0 V (Proc.devRef .tc main_arg22) = V (Proc.devRef .tc main_arg22) := by
  unfold pre0; after_results_simp
set_option maxHeartbeats 4000000 in
theorem host1_arg22 : after hostOps1 V (Proc.devRef .tc main_arg22) = V (Proc.devRef .tc main_arg22) := by
  after_results_simp
set_option maxHeartbeats 4000000 in
theorem host2_arg22 : after hostOps2 V (Proc.devRef .tc main_arg22) = V (Proc.devRef .tc main_arg22) := by
  after_results_simp
set_option maxHeartbeats 4000000 in
theorem host3_arg22 : after hostOps3 V (Proc.devRef .tc main_arg22) = V (Proc.devRef .tc main_arg22) := by
  after_results_simp
set_option maxHeartbeats 4000000 in
theorem pre0_arg23 : pre0 V (Proc.devRef .tc main_arg23) = V (Proc.devRef .tc main_arg23) := by
  unfold pre0; after_results_simp
set_option maxHeartbeats 4000000 in
theorem host1_arg23 : after hostOps1 V (Proc.devRef .tc main_arg23) = V (Proc.devRef .tc main_arg23) := by
  after_results_simp
set_option maxHeartbeats 4000000 in
theorem host2_arg23 : after hostOps2 V (Proc.devRef .tc main_arg23) = V (Proc.devRef .tc main_arg23) := by
  after_results_simp
set_option maxHeartbeats 4000000 in
theorem host3_arg23 : after hostOps3 V (Proc.devRef .tc main_arg23) = V (Proc.devRef .tc main_arg23) := by
  after_results_simp
set_option maxHeartbeats 4000000 in
theorem pre0_arg24 : pre0 V (Proc.devRef .tc main_arg24) = V (Proc.devRef .tc main_arg24) := by
  unfold pre0; after_results_simp
set_option maxHeartbeats 4000000 in
theorem host1_arg24 : after hostOps1 V (Proc.devRef .tc main_arg24) = V (Proc.devRef .tc main_arg24) := by
  after_results_simp
set_option maxHeartbeats 4000000 in
theorem host2_arg24 : after hostOps2 V (Proc.devRef .tc main_arg24) = V (Proc.devRef .tc main_arg24) := by
  after_results_simp
set_option maxHeartbeats 4000000 in
theorem host3_arg24 : after hostOps3 V (Proc.devRef .tc main_arg24) = V (Proc.devRef .tc main_arg24) := by
  after_results_simp
set_option maxHeartbeats 4000000 in
theorem pre0_arg25 : pre0 V (Proc.devRef .tc main_arg25) = V (Proc.devRef .tc main_arg25) := by
  unfold pre0; after_results_simp
set_option maxHeartbeats 4000000 in
theorem host1_arg25 : after hostOps1 V (Proc.devRef .tc main_arg25) = V (Proc.devRef .tc main_arg25) := by
  after_results_simp
set_option maxHeartbeats 4000000 in
theorem host2_arg25 : after hostOps2 V (Proc.devRef .tc main_arg25) = V (Proc.devRef .tc main_arg25) := by
  after_results_simp
set_option maxHeartbeats 4000000 in
theorem host3_arg25 : after hostOps3 V (Proc.devRef .tc main_arg25) = V (Proc.devRef .tc main_arg25) := by
  after_results_simp
set_option maxHeartbeats 4000000 in
theorem host1_keeps_main_v16 : after hostOps1 V (Proc.devRef .tc main_v16) = V (Proc.devRef .tc main_v16) := by
  after_results_simp
set_option maxHeartbeats 4000000 in
theorem host2_keeps_main_v16 : after hostOps2 V (Proc.devRef .tc main_v16) = V (Proc.devRef .tc main_v16) := by
  after_results_simp
set_option maxHeartbeats 4000000 in
theorem host3_keeps_main_v16 : after hostOps3 V (Proc.devRef .tc main_v16) = V (Proc.devRef .tc main_v16) := by
  after_results_simp
set_option maxHeartbeats 4000000 in
theorem host1_keeps_main_v25 : after hostOps1 V (Proc.devRef .tc main_v25) = V (Proc.devRef .tc main_v25) := by
  after_results_simp
set_option maxHeartbeats 4000000 in
theorem host2_keeps_main_v25 : after hostOps2 V (Proc.devRef .tc main_v25) = V (Proc.devRef .tc main_v25) := by
  after_results_simp
set_option maxHeartbeats 4000000 in
theorem host3_keeps_main_v25 : after hostOps3 V (Proc.devRef .tc main_v25) = V (Proc.devRef .tc main_v25) := by
  after_results_simp

end Cert.KernelIdeal.KHost

end
-- ==== Proof.KArgsW.lean ====
/-
  The argument arrays, and the two degree-norm vectors, at the boundaries of the kernel program's run: no host
  stretch and no region writes them, so at every boundary up to the last region's exit an argument holds its launch
  contents and a degree-norm vector what the first stretches computed.
-/
import proofs.«122415_j30588757082611_2_alg».proof.Proof.Gen.KernelIdeal.Frame
import proofs.«122415_j30588757082611_2_alg».proof.Proof.KArgsV

set_option maxRecDepth 16384

noncomputable section

namespace Cert.KernelIdeal.KW

open Cert.KernelIdeal Cert.KernelIdeal.Gen Cert.KernelIdeal.KHost
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem W5_arg0 : W5 m ρ c (Proc.devRef .tc main_arg0) = m ((c : Thread nD τ).loc main_arg0) := pre0_arg0 (W0 m ρ c)
theorem W6_arg0 : W6 m ρ c (Proc.devRef .tc main_arg0) = m ((c : Thread nD τ).loc main_arg0) := (W6_of_ne m ρ c main_arg0 (by decide)).trans (W5_arg0 m ρ c)
theorem W7_arg0 : W7 m ρ c (Proc.devRef .tc main_arg0) = m ((c : Thread nD τ).loc main_arg0) := (host1_arg0 (W6 m ρ c)).trans (W6_arg0 m ρ c)
theorem W8_arg0 : W8 m ρ c (Proc.devRef .tc main_arg0) = m ((c : Thread nD τ).loc main_arg0) := (W8_of_ne m ρ c main_arg0 (by decide)).trans (W7_arg0 m ρ c)
theorem W9_arg0 : W9 m ρ c (Proc.devRef .tc main_arg0) = m ((c : Thread nD τ).loc main_arg0) := (host2_arg0 (W8 m ρ c)).trans (W8_arg0 m ρ c)
theorem W10_arg0 : W10 m ρ c (Proc.devRef .tc main_arg0) = m ((c : Thread nD τ).loc main_arg0) := (W10_of_ne m ρ c main_arg0 (by decide)).trans (W9_arg0 m ρ c)
theorem W11_arg0 : W11 m ρ c (Proc.devRef .tc main_arg0) = m ((c : Thread nD τ).loc main_arg0) := (host3_arg0 (W10 m ρ c)).trans (W10_arg0 m ρ c)
theorem W12_arg0 : W12 m ρ c (Proc.devRef .tc main_arg0) = m ((c : Thread nD τ).loc main_arg0) := (W12_of_ne m ρ c main_arg0 (by decide)).trans (W11_arg0 m ρ c)
theorem W5_arg1 : W5 m ρ c (Proc.devRef .tc main_arg1) = m ((c : Thread nD τ).loc main_arg1) := pre0_arg1 (W0 m ρ c)
theorem W6_arg1 : W6 m ρ c (Proc.devRef .tc main_arg1) = m ((c : Thread nD τ).loc main_arg1) := (W6_of_ne m ρ c main_arg1 (by decide)).trans (W5_arg1 m ρ c)
theorem W7_arg1 : W7 m ρ c (Proc.devRef .tc main_arg1) = m ((c : Thread nD τ).loc main_arg1) := (host1_arg1 (W6 m ρ c)).trans (W6_arg1 m ρ c)
theorem W8_arg1 : W8 m ρ c (Proc.devRef .tc main_arg1) = m ((c : Thread nD τ).loc main_arg1) := (W8_of_ne m ρ c main_arg1 (by decide)).trans (W7_arg1 m ρ c)
theorem W9_arg1 : W9 m ρ c (Proc.devRef .tc main_arg1) = m ((c : Thread nD τ).loc main_arg1) := (host2_arg1 (W8 m ρ c)).trans (W8_arg1 m ρ c)
theorem W10_arg1 : W10 m ρ c (Proc.devRef .tc main_arg1) = m ((c : Thread nD τ).loc main_arg1) := (W10_of_ne m ρ c main_arg1 (by decide)).trans (W9_arg1 m ρ c)
theorem W11_arg1 : W11 m ρ c (Proc.devRef .tc main_arg1) = m ((c : Thread nD τ).loc main_arg1) := (host3_arg1 (W10 m ρ c)).trans (W10_arg1 m ρ c)
theorem W12_arg1 : W12 m ρ c (Proc.devRef .tc main_arg1) = m ((c : Thread nD τ).loc main_arg1) := (W12_of_ne m ρ c main_arg1 (by decide)).trans (W11_arg1 m ρ c)
theorem W5_arg2 : W5 m ρ c (Proc.devRef .tc main_arg2) = m ((c : Thread nD τ).loc main_arg2) := pre0_arg2 (W0 m ρ c)
theorem W6_arg2 : W6 m ρ c (Proc.devRef .tc main_arg2) = m ((c : Thread nD τ).loc main_arg2) := (W6_of_ne m ρ c main_arg2 (by decide)).trans (W5_arg2 m ρ c)
theorem W7_arg2 : W7 m ρ c (Proc.devRef .tc main_arg2) = m ((c : Thread nD τ).loc main_arg2) := (host1_arg2 (W6 m ρ c)).trans (W6_arg2 m ρ c)
theorem W8_arg2 : W8 m ρ c (Proc.devRef .tc main_arg2) = m ((c : Thread nD τ).loc main_arg2) := (W8_of_ne m ρ c main_arg2 (by decide)).trans (W7_arg2 m ρ c)
theorem W9_arg2 : W9 m ρ c (Proc.devRef .tc main_arg2) = m ((c : Thread nD τ).loc main_arg2) := (host2_arg2 (W8 m ρ c)).trans (W8_arg2 m ρ c)
theorem W10_arg2 : W10 m ρ c (Proc.devRef .tc main_arg2) = m ((c : Thread nD τ).loc main_arg2) := (W10_of_ne m ρ c main_arg2 (by decide)).trans (W9_arg2 m ρ c)
theorem W11_arg2 : W11 m ρ c (Proc.devRef .tc main_arg2) = m ((c : Thread nD τ).loc main_arg2) := (host3_arg2 (W10 m ρ c)).trans (W10_arg2 m ρ c)
theorem W12_arg2 : W12 m ρ c (Proc.devRef .tc main_arg2) = m ((c : Thread nD τ).loc main_arg2) := (W12_of_ne m ρ c main_arg2 (by decide)).trans (W11_arg2 m ρ c)
theorem W5_arg3 : W5 m ρ c (Proc.devRef .tc main_arg3) = m ((c : Thread nD τ).loc main_arg3) := pre0_arg3 (W0 m ρ c)
theorem W6_arg3 : W6 m ρ c (Proc.devRef .tc main_arg3) = m ((c : Thread nD τ).loc main_arg3) := (W6_of_ne m ρ c main_arg3 (by decide)).trans (W5_arg3 m ρ c)
theorem W7_arg3 : W7 m ρ c (Proc.devRef .tc main_arg3) = m ((c : Thread nD τ).loc main_arg3) := (host1_arg3 (W6 m ρ c)).trans (W6_arg3 m ρ c)
theorem W8_arg3 : W8 m ρ c (Proc.devRef .tc main_arg3) = m ((c : Thread nD τ).loc main_arg3) := (W8_of_ne m ρ c main_arg3 (by decide)).trans (W7_arg3 m ρ c)
theorem W9_arg3 : W9 m ρ c (Proc.devRef .tc main_arg3) = m ((c : Thread nD τ).loc main_arg3) := (host2_arg3 (W8 m ρ c)).trans (W8_arg3 m ρ c)
theorem W10_arg3 : W10 m ρ c (Proc.devRef .tc main_arg3) = m ((c : Thread nD τ).loc main_arg3) := (W10_of_ne m ρ c main_arg3 (by decide)).trans (W9_arg3 m ρ c)
theorem W11_arg3 : W11 m ρ c (Proc.devRef .tc main_arg3) = m ((c : Thread nD τ).loc main_arg3) := (host3_arg3 (W10 m ρ c)).trans (W10_arg3 m ρ c)
theorem W12_arg3 : W12 m ρ c (Proc.devRef .tc main_arg3) = m ((c : Thread nD τ).loc main_arg3) := (W12_of_ne m ρ c main_arg3 (by decide)).trans (W11_arg3 m ρ c)
theorem W5_arg4 : W5 m ρ c (Proc.devRef .tc main_arg4) = m ((c : Thread nD τ).loc main_arg4) := pre0_arg4 (W0 m ρ c)
theorem W6_arg4 : W6 m ρ c (Proc.devRef .tc main_arg4) = m ((c : Thread nD τ).loc main_arg4) := (W6_of_ne m ρ c main_arg4 (by decide)).trans (W5_arg4 m ρ c)
theorem W7_arg4 : W7 m ρ c (Proc.devRef .tc main_arg4) = m ((c : Thread nD τ).loc main_arg4) := (host1_arg4 (W6 m ρ c)).trans (W6_arg4 m ρ c)
theorem W8_arg4 : W8 m ρ c (Proc.devRef .tc main_arg4) = m ((c : Thread nD τ).loc main_arg4) := (W8_of_ne m ρ c main_arg4 (by decide)).trans (W7_arg4 m ρ c)
theorem W9_arg4 : W9 m ρ c (Proc.devRef .tc main_arg4) = m ((c : Thread nD τ).loc main_arg4) := (host2_arg4 (W8 m ρ c)).trans (W8_arg4 m ρ c)
theorem W10_arg4 : W10 m ρ c (Proc.devRef .tc main_arg4) = m ((c : Thread nD τ).loc main_arg4) := (W10_of_ne m ρ c main_arg4 (by decide)).trans (W9_arg4 m ρ c)
theorem W11_arg4 : W11 m ρ c (Proc.devRef .tc main_arg4) = m ((c : Thread nD τ).loc main_arg4) := (host3_arg4 (W10 m ρ c)).trans (W10_arg4 m ρ c)
theorem W12_arg4 : W12 m ρ c (Proc.devRef .tc main_arg4) = m ((c : Thread nD τ).loc main_arg4) := (W12_of_ne m ρ c main_arg4 (by decide)).trans (W11_arg4 m ρ c)
theorem W5_arg5 : W5 m ρ c (Proc.devRef .tc main_arg5) = m ((c : Thread nD τ).loc main_arg5) := pre0_arg5 (W0 m ρ c)
theorem W6_arg5 : W6 m ρ c (Proc.devRef .tc main_arg5) = m ((c : Thread nD τ).loc main_arg5) := (W6_of_ne m ρ c main_arg5 (by decide)).trans (W5_arg5 m ρ c)
theorem W7_arg5 : W7 m ρ c (Proc.devRef .tc main_arg5) = m ((c : Thread nD τ).loc main_arg5) := (host1_arg5 (W6 m ρ c)).trans (W6_arg5 m ρ c)
theorem W8_arg5 : W8 m ρ c (Proc.devRef .tc main_arg5) = m ((c : Thread nD τ).loc main_arg5) := (W8_of_ne m ρ c main_arg5 (by decide)).trans (W7_arg5 m ρ c)
theorem W9_arg5 : W9 m ρ c (Proc.devRef .tc main_arg5) = m ((c : Thread nD τ).loc main_arg5) := (host2_arg5 (W8 m ρ c)).trans (W8_arg5 m ρ c)
theorem W10_arg5 : W10 m ρ c (Proc.devRef .tc main_arg5) = m ((c : Thread nD τ).loc main_arg5) := (W10_of_ne m ρ c main_arg5 (by decide)).trans (W9_arg5 m ρ c)
theorem W11_arg5 : W11 m ρ c (Proc.devRef .tc main_arg5) = m ((c : Thread nD τ).loc main_arg5) := (host3_arg5 (W10 m ρ c)).trans (W10_arg5 m ρ c)
theorem W12_arg5 : W12 m ρ c (Proc.devRef .tc main_arg5) = m ((c : Thread nD τ).loc main_arg5) := (W12_of_ne m ρ c main_arg5 (by decide)).trans (W11_arg5 m ρ c)
theorem W5_arg6 : W5 m ρ c (Proc.devRef .tc main_arg6) = m ((c : Thread nD τ).loc main_arg6) := pre0_arg6 (W0 m ρ c)
theorem W6_arg6 : W6 m ρ c (Proc.devRef .tc main_arg6) = m ((c : Thread nD τ).loc main_arg6) :=
  ((W6_arr m ρ c 1).trans (((dat0 (V5 m ρ) c).arrAt_in 1 rfl _).trans (A_eq0 (V5 m ρ) c 1))).trans (W5_arg6 m ρ c)
theorem W7_arg6 : W7 m ρ c (Proc.devRef .tc main_arg6) = m ((c : Thread nD τ).loc main_arg6) := (host1_arg6 (W6 m ρ c)).trans (W6_arg6 m ρ c)
theorem W8_arg6 : W8 m ρ c (Proc.devRef .tc main_arg6) = m ((c : Thread nD τ).loc main_arg6) := (W8_of_ne m ρ c main_arg6 (by decide)).trans (W7_arg6 m ρ c)
theorem W9_arg6 : W9 m ρ c (Proc.devRef .tc main_arg6) = m ((c : Thread nD τ).loc main_arg6) := (host2_arg6 (W8 m ρ c)).trans (W8_arg6 m ρ c)
theorem W10_arg6 : W10 m ρ c (Proc.devRef .tc main_arg6) = m ((c : Thread nD τ).loc main_arg6) := (W10_of_ne m ρ c main_arg6 (by decide)).trans (W9_arg6 m ρ c)
theorem W11_arg6 : W11 m ρ c (Proc.devRef .tc main_arg6) = m ((c : Thread nD τ).loc main_arg6) := (host3_arg6 (W10 m ρ c)).trans (W10_arg6 m ρ c)
theorem W12_arg6 : W12 m ρ c (Proc.devRef .tc main_arg6) = m ((c : Thread nD τ).loc main_arg6) := (W12_of_ne m ρ c main_arg6 (by decide)).trans (W11_arg6 m ρ c)
theorem W5_arg7 : W5 m ρ c (Proc.devRef .tc main_arg7) = m ((c : Thread nD τ).loc main_arg7) := pre0_arg7 (W0 m ρ c)
theorem W6_arg7 : W6 m ρ c (Proc.devRef .tc main_arg7) = m ((c : Thread nD τ).loc main_arg7) := (W6_of_ne m ρ c main_arg7 (by decide)).trans (W5_arg7 m ρ c)
theorem W7_arg7 : W7 m ρ c (Proc.devRef .tc main_arg7) = m ((c : Thread nD τ).loc main_arg7) := (host1_arg7 (W6 m ρ c)).trans (W6_arg7 m ρ c)
theorem W8_arg7 : W8 m ρ c (Proc.devRef .tc main_arg7) = m ((c : Thread nD τ).loc main_arg7) := (W8_of_ne m ρ c main_arg7 (by decide)).trans (W7_arg7 m ρ c)
theorem W9_arg7 : W9 m ρ c (Proc.devRef .tc main_arg7) = m ((c : Thread nD τ).loc main_arg7) := (host2_arg7 (W8 m ρ c)).trans (W8_arg7 m ρ c)
theorem W10_arg7 : W10 m ρ c (Proc.devRef .tc main_arg7) = m ((c : Thread nD τ).loc main_arg7) := (W10_of_ne m ρ c main_arg7 (by decide)).trans (W9_arg7 m ρ c)
theorem W11_arg7 : W11 m ρ c (Proc.devRef .tc main_arg7) = m ((c : Thread nD τ).loc main_arg7) := (host3_arg7 (W10 m ρ c)).trans (W10_arg7 m ρ c)
theorem W12_arg7 : W12 m ρ c (Proc.devRef .tc main_arg7) = m ((c : Thread nD τ).loc main_arg7) := (W12_of_ne m ρ c main_arg7 (by decide)).trans (W11_arg7 m ρ c)
theorem W5_arg8 : W5 m ρ c (Proc.devRef .tc main_arg8) = m ((c : Thread nD τ).loc main_arg8) := pre0_arg8 (W0 m ρ c)
theorem W6_arg8 : W6 m ρ c (Proc.devRef .tc main_arg8) = m ((c : Thread nD τ).loc main_arg8) := (W6_of_ne m ρ c main_arg8 (by decide)).trans (W5_arg8 m ρ c)
theorem W7_arg8 : W7 m ρ c (Proc.devRef .tc main_arg8) = m ((c : Thread nD τ).loc main_arg8) := (host1_arg8 (W6 m ρ c)).trans (W6_arg8 m ρ c)
theorem W8_arg8 : W8 m ρ c (Proc.devRef .tc main_arg8) = m ((c : Thread nD τ).loc main_arg8) := (W8_of_ne m ρ c main_arg8 (by decide)).trans (W7_arg8 m ρ c)
theorem W9_arg8 : W9 m ρ c (Proc.devRef .tc main_arg8) = m ((c : Thread nD τ).loc main_arg8) := (host2_arg8 (W8 m ρ c)).trans (W8_arg8 m ρ c)
theorem W10_arg8 : W10 m ρ c (Proc.devRef .tc main_arg8) = m ((c : Thread nD τ).loc main_arg8) := (W10_of_ne m ρ c main_arg8 (by decide)).trans (W9_arg8 m ρ c)
theorem W11_arg8 : W11 m ρ c (Proc.devRef .tc main_arg8) = m ((c : Thread nD τ).loc main_arg8) := (host3_arg8 (W10 m ρ c)).trans (W10_arg8 m ρ c)
theorem W12_arg8 : W12 m ρ c (Proc.devRef .tc main_arg8) = m ((c : Thread nD τ).loc main_arg8) := (W12_of_ne m ρ c main_arg8 (by decide)).trans (W11_arg8 m ρ c)
theorem W5_arg9 : W5 m ρ c (Proc.devRef .tc main_arg9) = m ((c : Thread nD τ).loc main_arg9) := pre0_arg9 (W0 m ρ c)
theorem W6_arg9 : W6 m ρ c (Proc.devRef .tc main_arg9) = m ((c : Thread nD τ).loc main_arg9) := (W6_of_ne m ρ c main_arg9 (by decide)).trans (W5_arg9 m ρ c)
theorem W7_arg9 : W7 m ρ c (Proc.devRef .tc main_arg9) = m ((c : Thread nD τ).loc main_arg9) := (host1_arg9 (W6 m ρ c)).trans (W6_arg9 m ρ c)
theorem W8_arg9 : W8 m ρ c (Proc.devRef .tc main_arg9) = m ((c : Thread nD τ).loc main_arg9) := (W8_of_ne m ρ c main_arg9 (by decide)).trans (W7_arg9 m ρ c)
theorem W9_arg9 : W9 m ρ c (Proc.devRef .tc main_arg9) = m ((c : Thread nD τ).loc main_arg9) := (host2_arg9 (W8 m ρ c)).trans (W8_arg9 m ρ c)
theorem W10_arg9 : W10 m ρ c (Proc.devRef .tc main_arg9) = m ((c : Thread nD τ).loc main_arg9) := (W10_of_ne m ρ c main_arg9 (by decide)).trans (W9_arg9 m ρ c)
theorem W11_arg9 : W11 m ρ c (Proc.devRef .tc main_arg9) = m ((c : Thread nD τ).loc main_arg9) := (host3_arg9 (W10 m ρ c)).trans (W10_arg9 m ρ c)
theorem W12_arg9 : W12 m ρ c (Proc.devRef .tc main_arg9) = m ((c : Thread nD τ).loc main_arg9) := (W12_of_ne m ρ c main_arg9 (by decide)).trans (W11_arg9 m ρ c)
theorem W5_arg10 : W5 m ρ c (Proc.devRef .tc main_arg10) = m ((c : Thread nD τ).loc main_arg10) := pre0_arg10 (W0 m ρ c)
theorem W6_arg10 : W6 m ρ c (Proc.devRef .tc main_arg10) = m ((c : Thread nD τ).loc main_arg10) := (W6_of_ne m ρ c main_arg10 (by decide)).trans (W5_arg10 m ρ c)
theorem W7_arg10 : W7 m ρ c (Proc.devRef .tc main_arg10) = m ((c : Thread nD τ).loc main_arg10) := (host1_arg10 (W6 m ρ c)).trans (W6_arg10 m ρ c)
theorem W8_arg10 : W8 m ρ c (Proc.devRef .tc main_arg10) = m ((c : Thread nD τ).loc main_arg10) := (W8_of_ne m ρ c main_arg10 (by decide)).trans (W7_arg10 m ρ c)
theorem W9_arg10 : W9 m ρ c (Proc.devRef .tc main_arg10) = m ((c : Thread nD τ).loc main_arg10) := (host2_arg10 (W8 m ρ c)).trans (W8_arg10 m ρ c)
theorem W10_arg10 : W10 m ρ c (Proc.devRef .tc main_arg10) = m ((c : Thread nD τ).loc main_arg10) := (W10_of_ne m ρ c main_arg10 (by decide)).trans (W9_arg10 m ρ c)
theorem W11_arg10 : W11 m ρ c (Proc.devRef .tc main_arg10) = m ((c : Thread nD τ).loc main_arg10) := (host3_arg10 (W10 m ρ c)).trans (W10_arg10 m ρ c)
theorem W12_arg10 : W12 m ρ c (Proc.devRef .tc main_arg10) = m ((c : Thread nD τ).loc main_arg10) := (W12_of_ne m ρ c main_arg10 (by decide)).trans (W11_arg10 m ρ c)
theorem W5_arg11 : W5 m ρ c (Proc.devRef .tc main_arg11) = m ((c : Thread nD τ).loc main_arg11) := pre0_arg11 (W0 m ρ c)
theorem W6_arg11 : W6 m ρ c (Proc.devRef .tc main_arg11) = m ((c : Thread nD τ).loc main_arg11) := (W6_of_ne m ρ c main_arg11 (by decide)).trans (W5_arg11 m ρ c)
theorem W7_arg11 : W7 m ρ c (Proc.devRef .tc main_arg11) = m ((c : Thread nD τ).loc main_arg11) := (host1_arg11 (W6 m ρ c)).trans (W6_arg11 m ρ c)
theorem W8_arg11 : W8 m ρ c (Proc.devRef .tc main_arg11) = m ((c : Thread nD τ).loc main_arg11) := (W8_of_ne m ρ c main_arg11 (by decide)).trans (W7_arg11 m ρ c)
theorem W9_arg11 : W9 m ρ c (Proc.devRef .tc main_arg11) = m ((c : Thread nD τ).loc main_arg11) := (host2_arg11 (W8 m ρ c)).trans (W8_arg11 m ρ c)
theorem W10_arg11 : W10 m ρ c (Proc.devRef .tc main_arg11) = m ((c : Thread nD τ).loc main_arg11) :=
  ((W10_arr m ρ c 6).trans (((dat2 (V9 m ρ) c).arrAt_in 6 rfl _).trans (A_eq2 (V9 m ρ) c 6))).trans (W9_arg11 m ρ c)
theorem W11_arg11 : W11 m ρ c (Proc.devRef .tc main_arg11) = m ((c : Thread nD τ).loc main_arg11) := (host3_arg11 (W10 m ρ c)).trans (W10_arg11 m ρ c)
theorem W12_arg11 : W12 m ρ c (Proc.devRef .tc main_arg11) = m ((c : Thread nD τ).loc main_arg11) := (W12_of_ne m ρ c main_arg11 (by decide)).trans (W11_arg11 m ρ c)
theorem W5_arg12 : W5 m ρ c (Proc.devRef .tc main_arg12) = m ((c : Thread nD τ).loc main_arg12) := pre0_arg12 (W0 m ρ c)
theorem W6_arg12 : W6 m ρ c (Proc.devRef .tc main_arg12) = m ((c : Thread nD τ).loc main_arg12) := (W6_of_ne m ρ c main_arg12 (by decide)).trans (W5_arg12 m ρ c)
theorem W7_arg12 : W7 m ρ c (Proc.devRef .tc main_arg12) = m ((c : Thread nD τ).loc main_arg12) := (host1_arg12 (W6 m ρ c)).trans (W6_arg12 m ρ c)
theorem W8_arg12 : W8 m ρ c (Proc.devRef .tc main_arg12) = m ((c : Thread nD τ).loc main_arg12) := (W8_of_ne m ρ c main_arg12 (by decide)).trans (W7_arg12 m ρ c)
theorem W9_arg12 : W9 m ρ c (Proc.devRef .tc main_arg12) = m ((c : Thread nD τ).loc main_arg12) := (host2_arg12 (W8 m ρ c)).trans (W8_arg12 m ρ c)
theorem W10_arg12 : W10 m ρ c (Proc.devRef .tc main_arg12) = m ((c : Thread nD τ).loc main_arg12) := (W10_of_ne m ρ c main_arg12 (by decide)).trans (W9_arg12 m ρ c)
theorem W11_arg12 : W11 m ρ c (Proc.devRef .tc main_arg12) = m ((c : Thread nD τ).loc main_arg12) := (host3_arg12 (W10 m ρ c)).trans (W10_arg12 m ρ c)
theorem W12_arg12 : W12 m ρ c (Proc.devRef .tc main_arg12) = m ((c : Thread nD τ).loc main_arg12) := (W12_of_ne m ρ c main_arg12 (by decide)).trans (W11_arg12 m ρ c)
theorem W5_arg13 : W5 m ρ c (Proc.devRef .tc main_arg13) = m ((c : Thread nD τ).loc main_arg13) := pre0_arg13 (W0 m ρ c)
theorem W6_arg13 : W6 m ρ c (Proc.devRef .tc main_arg13) = m ((c : Thread nD τ).loc main_arg13) := (W6_of_ne m ρ c main_arg13 (by decide)).trans (W5_arg13 m ρ c)
theorem W7_arg13 : W7 m ρ c (Proc.devRef .tc main_arg13) = m ((c : Thread nD τ).loc main_arg13) := (host1_arg13 (W6 m ρ c)).trans (W6_arg13 m ρ c)
theorem W8_arg13 : W8 m ρ c (Proc.devRef .tc main_arg13) = m ((c : Thread nD τ).loc main_arg13) := (W8_of_ne m ρ c main_arg13 (by decide)).trans (W7_arg13 m ρ c)
theorem W9_arg13 : W9 m ρ c (Proc.devRef .tc main_arg13) = m ((c : Thread nD τ).loc main_arg13) := (host2_arg13 (W8 m ρ c)).trans (W8_arg13 m ρ c)
theorem W10_arg13 : W10 m ρ c (Proc.devRef .tc main_arg13) = m ((c : Thread nD τ).loc main_arg13) := (W10_of_ne m ρ c main_arg13 (by decide)).trans (W9_arg13 m ρ c)
theorem W11_arg13 : W11 m ρ c (Proc.devRef .tc main_arg13) = m ((c : Thread nD τ).loc main_arg13) := (host3_arg13 (W10 m ρ c)).trans (W10_arg13 m ρ c)
theorem W12_arg13 : W12 m ρ c (Proc.devRef .tc main_arg13) = m ((c : Thread nD τ).loc main_arg13) := (W12_of_ne m ρ c main_arg13 (by decide)).trans (W11_arg13 m ρ c)
theorem W5_arg14 : W5 m ρ c (Proc.devRef .tc main_arg14) = m ((c : Thread nD τ).loc main_arg14) := pre0_arg14 (W0 m ρ c)
theorem W6_arg14 : W6 m ρ c (Proc.devRef .tc main_arg14) = m ((c : Thread nD τ).loc main_arg14) := (W6_of_ne m ρ c main_arg14 (by decide)).trans (W5_arg14 m ρ c)
theorem W7_arg14 : W7 m ρ c (Proc.devRef .tc main_arg14) = m ((c : Thread nD τ).loc main_arg14) := (host1_arg14 (W6 m ρ c)).trans (W6_arg14 m ρ c)
theorem W8_arg14 : W8 m ρ c (Proc.devRef .tc main_arg14) = m ((c : Thread nD τ).loc main_arg14) := (W8_of_ne m ρ c main_arg14 (by decide)).trans (W7_arg14 m ρ c)
theorem W9_arg14 : W9 m ρ c (Proc.devRef .tc main_arg14) = m ((c : Thread nD τ).loc main_arg14) := (host2_arg14 (W8 m ρ c)).trans (W8_arg14 m ρ c)
theorem W10_arg14 : W10 m ρ c (Proc.devRef .tc main_arg14) = m ((c : Thread nD τ).loc main_arg14) := (W10_of_ne m ρ c main_arg14 (by decide)).trans (W9_arg14 m ρ c)
theorem W11_arg14 : W11 m ρ c (Proc.devRef .tc main_arg14) = m ((c : Thread nD τ).loc main_arg14) := (host3_arg14 (W10 m ρ c)).trans (W10_arg14 m ρ c)
theorem W12_arg14 : W12 m ρ c (Proc.devRef .tc main_arg14) = m ((c : Thread nD τ).loc main_arg14) := (W12_of_ne m ρ c main_arg14 (by decide)).trans (W11_arg14 m ρ c)
theorem W5_arg15 : W5 m ρ c (Proc.devRef .tc main_arg15) = m ((c : Thread nD τ).loc main_arg15) := pre0_arg15 (W0 m ρ c)
theorem W6_arg15 : W6 m ρ c (Proc.devRef .tc main_arg15) = m ((c : Thread nD τ).loc main_arg15) := (W6_of_ne m ρ c main_arg15 (by decide)).trans (W5_arg15 m ρ c)
theorem W7_arg15 : W7 m ρ c (Proc.devRef .tc main_arg15) = m ((c : Thread nD τ).loc main_arg15) := (host1_arg15 (W6 m ρ c)).trans (W6_arg15 m ρ c)
theorem W8_arg15 : W8 m ρ c (Proc.devRef .tc main_arg15) = m ((c : Thread nD τ).loc main_arg15) := (W8_of_ne m ρ c main_arg15 (by decide)).trans (W7_arg15 m ρ c)
theorem W9_arg15 : W9 m ρ c (Proc.devRef .tc main_arg15) = m ((c : Thread nD τ).loc main_arg15) := (host2_arg15 (W8 m ρ c)).trans (W8_arg15 m ρ c)
theorem W10_arg15 : W10 m ρ c (Proc.devRef .tc main_arg15) = m ((c : Thread nD τ).loc main_arg15) := (W10_of_ne m ρ c main_arg15 (by decide)).trans (W9_arg15 m ρ c)
theorem W11_arg15 : W11 m ρ c (Proc.devRef .tc main_arg15) = m ((c : Thread nD τ).loc main_arg15) := (host3_arg15 (W10 m ρ c)).trans (W10_arg15 m ρ c)
theorem W12_arg15 : W12 m ρ c (Proc.devRef .tc main_arg15) = m ((c : Thread nD τ).loc main_arg15) := (W12_of_ne m ρ c main_arg15 (by decide)).trans (W11_arg15 m ρ c)
theorem W5_arg16 : W5 m ρ c (Proc.devRef .tc main_arg16) = m ((c : Thread nD τ).loc main_arg16) := pre0_arg16 (W0 m ρ c)
theorem W6_arg16 : W6 m ρ c (Proc.devRef .tc main_arg16) = m ((c : Thread nD τ).loc main_arg16) := (W6_of_ne m ρ c main_arg16 (by decide)).trans (W5_arg16 m ρ c)
theorem W7_arg16 : W7 m ρ c (Proc.devRef .tc main_arg16) = m ((c : Thread nD τ).loc main_arg16) := (host1_arg16 (W6 m ρ c)).trans (W6_arg16 m ρ c)
theorem W8_arg16 : W8 m ρ c (Proc.devRef .tc main_arg16) = m ((c : Thread nD τ).loc main_arg16) := (W8_of_ne m ρ c main_arg16 (by decide)).trans (W7_arg16 m ρ c)
theorem W9_arg16 : W9 m ρ c (Proc.devRef .tc main_arg16) = m ((c : Thread nD τ).loc main_arg16) := (host2_arg16 (W8 m ρ c)).trans (W8_arg16 m ρ c)
theorem W10_arg16 : W10 m ρ c (Proc.devRef .tc main_arg16) = m ((c : Thread nD τ).loc main_arg16) := (W10_of_ne m ρ c main_arg16 (by decide)).trans (W9_arg16 m ρ c)
theorem W11_arg16 : W11 m ρ c (Proc.devRef .tc main_arg16) = m ((c : Thread nD τ).loc main_arg16) := (host3_arg16 (W10 m ρ c)).trans (W10_arg16 m ρ c)
theorem W12_arg16 : W12 m ρ c (Proc.devRef .tc main_arg16) = m ((c : Thread nD τ).loc main_arg16) := (W12_of_ne m ρ c main_arg16 (by decide)).trans (W11_arg16 m ρ c)
theorem W5_arg17 : W5 m ρ c (Proc.devRef .tc main_arg17) = m ((c : Thread nD τ).loc main_arg17) := pre0_arg17 (W0 m ρ c)
theorem W6_arg17 : W6 m ρ c (Proc.devRef .tc main_arg17) = m ((c : Thread nD τ).loc main_arg17) := (W6_of_ne m ρ c main_arg17 (by decide)).trans (W5_arg17 m ρ c)
theorem W7_arg17 : W7 m ρ c (Proc.devRef .tc main_arg17) = m ((c : Thread nD τ).loc main_arg17) := (host1_arg17 (W6 m ρ c)).trans (W6_arg17 m ρ c)
theorem W8_arg17 : W8 m ρ c (Proc.devRef .tc main_arg17) = m ((c : Thread nD τ).loc main_arg17) := (W8_of_ne m ρ c main_arg17 (by decide)).trans (W7_arg17 m ρ c)
theorem W9_arg17 : W9 m ρ c (Proc.devRef .tc main_arg17) = m ((c : Thread nD τ).loc main_arg17) := (host2_arg17 (W8 m ρ c)).trans (W8_arg17 m ρ c)
theorem W10_arg17 : W10 m ρ c (Proc.devRef .tc main_arg17) = m ((c : Thread nD τ).loc main_arg17) := (W10_of_ne m ρ c main_arg17 (by decide)).trans (W9_arg17 m ρ c)
theorem W11_arg17 : W11 m ρ c (Proc.devRef .tc main_arg17) = m ((c : Thread nD τ).loc main_arg17) := (host3_arg17 (W10 m ρ c)).trans (W10_arg17 m ρ c)
theorem W12_arg17 : W12 m ρ c (Proc.devRef .tc main_arg17) = m ((c : Thread nD τ).loc main_arg17) := (W12_of_ne m ρ c main_arg17 (by decide)).trans (W11_arg17 m ρ c)
theorem W5_arg18 : W5 m ρ c (Proc.devRef .tc main_arg18) = m ((c : Thread nD τ).loc main_arg18) := pre0_arg18 (W0 m ρ c)
theorem W6_arg18 : W6 m ρ c (Proc.devRef .tc main_arg18) = m ((c : Thread nD τ).loc main_arg18) := (W6_of_ne m ρ c main_arg18 (by decide)).trans (W5_arg18 m ρ c)
theorem W7_arg18 : W7 m ρ c (Proc.devRef .tc main_arg18) = m ((c : Thread nD τ).loc main_arg18) := (host1_arg18 (W6 m ρ c)).trans (W6_arg18 m ρ c)
theorem W8_arg18 : W8 m ρ c (Proc.devRef .tc main_arg18) = m ((c : Thread nD τ).loc main_arg18) := (W8_of_ne m ρ c main_arg18 (by decide)).trans (W7_arg18 m ρ c)
theorem W9_arg18 : W9 m ρ c (Proc.devRef .tc main_arg18) = m ((c : Thread nD τ).loc main_arg18) := (host2_arg18 (W8 m ρ c)).trans (W8_arg18 m ρ c)
theorem W10_arg18 : W10 m ρ c (Proc.devRef .tc main_arg18) = m ((c : Thread nD τ).loc main_arg18) := (W10_of_ne m ρ c main_arg18 (by decide)).trans (W9_arg18 m ρ c)
theorem W11_arg18 : W11 m ρ c (Proc.devRef .tc main_arg18) = m ((c : Thread nD τ).loc main_arg18) := (host3_arg18 (W10 m ρ c)).trans (W10_arg18 m ρ c)
theorem W12_arg18 : W12 m ρ c (Proc.devRef .tc main_arg18) = m ((c : Thread nD τ).loc main_arg18) := (W12_of_ne m ρ c main_arg18 (by decide)).trans (W11_arg18 m ρ c)
theorem W5_arg19 : W5 m ρ c (Proc.devRef .tc main_arg19) = m ((c : Thread nD τ).loc main_arg19) := pre0_arg19 (W0 m ρ c)
theorem W6_arg19 : W6 m ρ c (Proc.devRef .tc main_arg19) = m ((c : Thread nD τ).loc main_arg19) := (W6_of_ne m ρ c main_arg19 (by decide)).trans (W5_arg19 m ρ c)
theorem W7_arg19 : W7 m ρ c (Proc.devRef .tc main_arg19) = m ((c : Thread nD τ).loc main_arg19) := (host1_arg19 (W6 m ρ c)).trans (W6_arg19 m ρ c)
theorem W8_arg19 : W8 m ρ c (Proc.devRef .tc main_arg19) = m ((c : Thread nD τ).loc main_arg19) := (W8_of_ne m ρ c main_arg19 (by decide)).trans (W7_arg19 m ρ c)
theorem W9_arg19 : W9 m ρ c (Proc.devRef .tc main_arg19) = m ((c : Thread nD τ).loc main_arg19) := (host2_arg19 (W8 m ρ c)).trans (W8_arg19 m ρ c)
theorem W10_arg19 : W10 m ρ c (Proc.devRef .tc main_arg19) = m ((c : Thread nD τ).loc main_arg19) := (W10_of_ne m ρ c main_arg19 (by decide)).trans (W9_arg19 m ρ c)
theorem W11_arg19 : W11 m ρ c (Proc.devRef .tc main_arg19) = m ((c : Thread nD τ).loc main_arg19) := (host3_arg19 (W10 m ρ c)).trans (W10_arg19 m ρ c)
theorem W12_arg19 : W12 m ρ c (Proc.devRef .tc main_arg19) = m ((c : Thread nD τ).loc main_arg19) := (W12_of_ne m ρ c main_arg19 (by decide)).trans (W11_arg19 m ρ c)
theorem W5_arg20 : W5 m ρ c (Proc.devRef .tc main_arg20) = m ((c : Thread nD τ).loc main_arg20) := pre0_arg20 (W0 m ρ c)
theorem W6_arg20 : W6 m ρ c (Proc.devRef .tc main_arg20) = m ((c : Thread nD τ).loc main_arg20) := (W6_of_ne m ρ c main_arg20 (by decide)).trans (W5_arg20 m ρ c)
theorem W7_arg20 : W7 m ρ c (Proc.devRef .tc main_arg20) = m ((c : Thread nD τ).loc main_arg20) := (host1_arg20 (W6 m ρ c)).trans (W6_arg20 m ρ c)
theorem W8_arg20 : W8 m ρ c (Proc.devRef .tc main_arg20) = m ((c : Thread nD τ).loc main_arg20) := (W8_of_ne m ρ c main_arg20 (by decide)).trans (W7_arg20 m ρ c)
theorem W9_arg20 : W9 m ρ c (Proc.devRef .tc main_arg20) = m ((c : Thread nD τ).loc main_arg20) := (host2_arg20 (W8 m ρ c)).trans (W8_arg20 m ρ c)
theorem W10_arg20 : W10 m ρ c (Proc.devRef .tc main_arg20) = m ((c : Thread nD τ).loc main_arg20) := (W10_of_ne m ρ c main_arg20 (by decide)).trans (W9_arg20 m ρ c)
theorem W11_arg20 : W11 m ρ c (Proc.devRef .tc main_arg20) = m ((c : Thread nD τ).loc main_arg20) := (host3_arg20 (W10 m ρ c)).trans (W10_arg20 m ρ c)
theorem W12_arg20 : W12 m ρ c (Proc.devRef .tc main_arg20) = m ((c : Thread nD τ).loc main_arg20) := (W12_of_ne m ρ c main_arg20 (by decide)).trans (W11_arg20 m ρ c)
theorem W5_arg21 : W5 m ρ c (Proc.devRef .tc main_arg21) = m ((c : Thread nD τ).loc main_arg21) := pre0_arg21 (W0 m ρ c)
theorem W6_arg21 : W6 m ρ c (Proc.devRef .tc main_arg21) = m ((c : Thread nD τ).loc main_arg21) := (W6_of_ne m ρ c main_arg21 (by decide)).trans (W5_arg21 m ρ c)
theorem W7_arg21 : W7 m ρ c (Proc.devRef .tc main_arg21) = m ((c : Thread nD τ).loc main_arg21) := (host1_arg21 (W6 m ρ c)).trans (W6_arg21 m ρ c)
theorem W8_arg21 : W8 m ρ c (Proc.devRef .tc main_arg21) = m ((c : Thread nD τ).loc main_arg21) := (W8_of_ne m ρ c main_arg21 (by decide)).trans (W7_arg21 m ρ c)
theorem W9_arg21 : W9 m ρ c (Proc.devRef .tc main_arg21) = m ((c : Thread nD τ).loc main_arg21) := (host2_arg21 (W8 m ρ c)).trans (W8_arg21 m ρ c)
theorem W10_arg21 : W10 m ρ c (Proc.devRef .tc main_arg21) = m ((c : Thread nD τ).loc main_arg21) := (W10_of_ne m ρ c main_arg21 (by decide)).trans (W9_arg21 m ρ c)
theorem W11_arg21 : W11 m ρ c (Proc.devRef .tc main_arg21) = m ((c : Thread nD τ).loc main_arg21) := (host3_arg21 (W10 m ρ c)).trans (W10_arg21 m ρ c)
theorem W12_arg21 : W12 m ρ c (Proc.devRef .tc main_arg21) = m ((c : Thread nD τ).loc main_arg21) := (W12_of_ne m ρ c main_arg21 (by decide)).trans (W11_arg21 m ρ c)
theorem W5_arg22 : W5 m ρ c (Proc.devRef .tc main_arg22) = m ((c : Thread nD τ).loc main_arg22) := pre0_arg22 (W0 m ρ c)
theorem W6_arg22 : W6 m ρ c (Proc.devRef .tc main_arg22) = m ((c : Thread nD τ).loc main_arg22) := (W6_of_ne m ρ c main_arg22 (by decide)).trans (W5_arg22 m ρ c)
theorem W7_arg22 : W7 m ρ c (Proc.devRef .tc main_arg22) = m ((c : Thread nD τ).loc main_arg22) := (host1_arg22 (W6 m ρ c)).trans (W6_arg22 m ρ c)
theorem W8_arg22 : W8 m ρ c (Proc.devRef .tc main_arg22) = m ((c : Thread nD τ).loc main_arg22) := (W8_of_ne m ρ c main_arg22 (by decide)).trans (W7_arg22 m ρ c)
theorem W9_arg22 : W9 m ρ c (Proc.devRef .tc main_arg22) = m ((c : Thread nD τ).loc main_arg22) := (host2_arg22 (W8 m ρ c)).trans (W8_arg22 m ρ c)
theorem W10_arg22 : W10 m ρ c (Proc.devRef .tc main_arg22) = m ((c : Thread nD τ).loc main_arg22) := (W10_of_ne m ρ c main_arg22 (by decide)).trans (W9_arg22 m ρ c)
theorem W11_arg22 : W11 m ρ c (Proc.devRef .tc main_arg22) = m ((c : Thread nD τ).loc main_arg22) := (host3_arg22 (W10 m ρ c)).trans (W10_arg22 m ρ c)
theorem W12_arg22 : W12 m ρ c (Proc.devRef .tc main_arg22) = m ((c : Thread nD τ).loc main_arg22) := (W12_of_ne m ρ c main_arg22 (by decide)).trans (W11_arg22 m ρ c)
theorem W5_arg23 : W5 m ρ c (Proc.devRef .tc main_arg23) = m ((c : Thread nD τ).loc main_arg23) := pre0_arg23 (W0 m ρ c)
theorem W6_arg23 : W6 m ρ c (Proc.devRef .tc main_arg23) = m ((c : Thread nD τ).loc main_arg23) := (W6_of_ne m ρ c main_arg23 (by decide)).trans (W5_arg23 m ρ c)
theorem W7_arg23 : W7 m ρ c (Proc.devRef .tc main_arg23) = m ((c : Thread nD τ).loc main_arg23) := (host1_arg23 (W6 m ρ c)).trans (W6_arg23 m ρ c)
theorem W8_arg23 : W8 m ρ c (Proc.devRef .tc main_arg23) = m ((c : Thread nD τ).loc main_arg23) := (W8_of_ne m ρ c main_arg23 (by decide)).trans (W7_arg23 m ρ c)
theorem W9_arg23 : W9 m ρ c (Proc.devRef .tc main_arg23) = m ((c : Thread nD τ).loc main_arg23) := (host2_arg23 (W8 m ρ c)).trans (W8_arg23 m ρ c)
theorem W10_arg23 : W10 m ρ c (Proc.devRef .tc main_arg23) = m ((c : Thread nD τ).loc main_arg23) := (W10_of_ne m ρ c main_arg23 (by decide)).trans (W9_arg23 m ρ c)
theorem W11_arg23 : W11 m ρ c (Proc.devRef .tc main_arg23) = m ((c : Thread nD τ).loc main_arg23) := (host3_arg23 (W10 m ρ c)).trans (W10_arg23 m ρ c)
theorem W12_arg23 : W12 m ρ c (Proc.devRef .tc main_arg23) = m ((c : Thread nD τ).loc main_arg23) := (W12_of_ne m ρ c main_arg23 (by decide)).trans (W11_arg23 m ρ c)
theorem W5_arg24 : W5 m ρ c (Proc.devRef .tc main_arg24) = m ((c : Thread nD τ).loc main_arg24) := pre0_arg24 (W0 m ρ c)
theorem W6_arg24 : W6 m ρ c (Proc.devRef .tc main_arg24) = m ((c : Thread nD τ).loc main_arg24) := (W6_of_ne m ρ c main_arg24 (by decide)).trans (W5_arg24 m ρ c)
theorem W7_arg24 : W7 m ρ c (Proc.devRef .tc main_arg24) = m ((c : Thread nD τ).loc main_arg24) := (host1_arg24 (W6 m ρ c)).trans (W6_arg24 m ρ c)
theorem W8_arg24 : W8 m ρ c (Proc.devRef .tc main_arg24) = m ((c : Thread nD τ).loc main_arg24) := (W8_of_ne m ρ c main_arg24 (by decide)).trans (W7_arg24 m ρ c)
theorem W9_arg24 : W9 m ρ c (Proc.devRef .tc main_arg24) = m ((c : Thread nD τ).loc main_arg24) := (host2_arg24 (W8 m ρ c)).trans (W8_arg24 m ρ c)
theorem W10_arg24 : W10 m ρ c (Proc.devRef .tc main_arg24) = m ((c : Thread nD τ).loc main_arg24) := (W10_of_ne m ρ c main_arg24 (by decide)).trans (W9_arg24 m ρ c)
theorem W11_arg24 : W11 m ρ c (Proc.devRef .tc main_arg24) = m ((c : Thread nD τ).loc main_arg24) := (host3_arg24 (W10 m ρ c)).trans (W10_arg24 m ρ c)
theorem W12_arg24 : W12 m ρ c (Proc.devRef .tc main_arg24) = m ((c : Thread nD τ).loc main_arg24) := (W12_of_ne m ρ c main_arg24 (by decide)).trans (W11_arg24 m ρ c)
theorem W5_arg25 : W5 m ρ c (Proc.devRef .tc main_arg25) = m ((c : Thread nD τ).loc main_arg25) := pre0_arg25 (W0 m ρ c)
theorem W6_arg25 : W6 m ρ c (Proc.devRef .tc main_arg25) = m ((c : Thread nD τ).loc main_arg25) := (W6_of_ne m ρ c main_arg25 (by decide)).trans (W5_arg25 m ρ c)
theorem W7_arg25 : W7 m ρ c (Proc.devRef .tc main_arg25) = m ((c : Thread nD τ).loc main_arg25) := (host1_arg25 (W6 m ρ c)).trans (W6_arg25 m ρ c)
theorem W8_arg25 : W8 m ρ c (Proc.devRef .tc main_arg25) = m ((c : Thread nD τ).loc main_arg25) := (W8_of_ne m ρ c main_arg25 (by decide)).trans (W7_arg25 m ρ c)
theorem W9_arg25 : W9 m ρ c (Proc.devRef .tc main_arg25) = m ((c : Thread nD τ).loc main_arg25) := (host2_arg25 (W8 m ρ c)).trans (W8_arg25 m ρ c)
theorem W10_arg25 : W10 m ρ c (Proc.devRef .tc main_arg25) = m ((c : Thread nD τ).loc main_arg25) := (W10_of_ne m ρ c main_arg25 (by decide)).trans (W9_arg25 m ρ c)
theorem W11_arg25 : W11 m ρ c (Proc.devRef .tc main_arg25) = m ((c : Thread nD τ).loc main_arg25) := (host3_arg25 (W10 m ρ c)).trans (W10_arg25 m ρ c)
theorem W12_arg25 : W12 m ρ c (Proc.devRef .tc main_arg25) = m ((c : Thread nD τ).loc main_arg25) := (W12_of_ne m ρ c main_arg25 (by decide)).trans (W11_arg25 m ρ c)

/-- The source-degree norm, computed before region 0, is still there at every later boundary. -/
theorem W5_v16 : W5 m ρ c (Proc.devRef .tc main_v16) = degNormOf (m ((c : Thread nD τ).loc main_arg1)) := pre0_v16 (W0 m ρ c)
theorem W5_v25 : W5 m ρ c (Proc.devRef .tc main_v25) = degNormOf (m ((c : Thread nD τ).loc main_arg2)) := pre0_v25 (W0 m ρ c)
theorem W6_v16 : W6 m ρ c (Proc.devRef .tc main_v16) = degNormOf (m ((c : Thread nD τ).loc main_arg1)) := (W6_of_ne m ρ c main_v16 (by decide)).trans (W5_v16 m ρ c)
theorem W7_v16 : W7 m ρ c (Proc.devRef .tc main_v16) = degNormOf (m ((c : Thread nD τ).loc main_arg1)) := (host1_keeps_main_v16 (W6 m ρ c)).trans (W6_v16 m ρ c)
theorem W8_v16 : W8 m ρ c (Proc.devRef .tc main_v16) = degNormOf (m ((c : Thread nD τ).loc main_arg1)) := (W8_of_ne m ρ c main_v16 (by decide)).trans (W7_v16 m ρ c)
theorem W9_v16 : W9 m ρ c (Proc.devRef .tc main_v16) = degNormOf (m ((c : Thread nD τ).loc main_arg1)) := (host2_keeps_main_v16 (W8 m ρ c)).trans (W8_v16 m ρ c)
theorem W10_v16 : W10 m ρ c (Proc.devRef .tc main_v16) = degNormOf (m ((c : Thread nD τ).loc main_arg1)) := (W10_of_ne m ρ c main_v16 (by decide)).trans (W9_v16 m ρ c)
theorem W6_v25 : W6 m ρ c (Proc.devRef .tc main_v25) = degNormOf (m ((c : Thread nD τ).loc main_arg2)) := (W6_of_ne m ρ c main_v25 (by decide)).trans (W5_v25 m ρ c)
theorem W7_v25 : W7 m ρ c (Proc.devRef .tc main_v25) = degNormOf (m ((c : Thread nD τ).loc main_arg2)) := (host1_keeps_main_v25 (W6 m ρ c)).trans (W6_v25 m ρ c)
theorem W8_v25 : W8 m ρ c (Proc.devRef .tc main_v25) = degNormOf (m ((c : Thread nD τ).loc main_arg2)) := (W8_of_ne m ρ c main_v25 (by decide)).trans (W7_v25 m ρ c)
theorem W9_v25 : W9 m ρ c (Proc.devRef .tc main_v25) = degNormOf (m ((c : Thread nD τ).loc main_arg2)) := (host2_keeps_main_v25 (W8 m ρ c)).trans (W8_v25 m ρ c)
theorem W10_v25 : W10 m ρ c (Proc.devRef .tc main_v25) = degNormOf (m ((c : Thread nD τ).loc main_arg2)) := (W10_of_ne m ρ c main_v25 (by decide)).trans (W9_v25 m ρ c)

end Cert.KernelIdeal.KW

end
-- ==== Proof.KHostAt.lean ====
/-
  The host-side values of the idealized kernel program between its regions, read at an index.

  Each of the named whole-array values — a vector laid out as a column or as a row, the slope spread over a row, the
  mean row and the inverse-deviation row computed from the twenty per-tile partial sums — is read here at one entry,
  on the extended reals: a re-layout reads the operand at the entry with the same row-major position; a number spread
  over a row is that number; the host's sum along the tile axis from a zero initial value is the plain sum of the
  twenty entries; the quotient, the products and the reciprocal square root act entry by entry.
-/
import proofs.«122415_j30588757082611_2_alg».proof.Proof.KHost
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KHostAt

open Cert.KernelIdeal Cert.KernelIdeal.Gen Cert.KernelIdeal.KHost
open Idealize.ShloMosaic Idealize.ShloMosaic.TcCoe Idealize.SL.Sem
open Idealize.ShloMosaic.ValueIdx

/-- A vector over the nodes laid out as a column holds, in row `r`, the vector's entry `r`. -/
theorem colOf_apply (v : FVec Ideal S100000 .f32) (r : Fin 100000) : colOf v (ix2 r (0 : Fin 1)) = v (ix1 r) := by
  unfold colOf
  refine shapeCast_apply v shapeCasts_S100000_S100000x1 (ix2 r (0 : Fin 1)) (ix1 r) ?_
  rw [Shape.rowMajor_val_one, Shape.rowMajor_val_two]
  show r.val = r.val * 1 + 0
  omega

/-- A vector over the channels laid out as a row holds, in column `q`, the vector's entry `q`. -/
theorem rowOf_apply (v : FVec Ideal S128 .f32) (q : Fin 128) : rowOf v (ix2 (0 : Fin 1) q) = v (ix1 q) := by
  unfold rowOf
  exact shapeCast_a_1a_apply v shapeCasts_S128_S1x128 (0 : Fin 1) q

/-- The slope, one number, spread over a row holds that number in every column. -/
theorem slopeOf_apply (a : FVec Ideal S_ .f32) (k : Fin 128) : slopeOf a (ix2 (0 : Fin 1) k) = a ix0 := by
  unfold slopeOf
  refine (broadcastInDim_apply _ bcast_S1x1_S1x128_0_1 (shapeCast S1x1 a shapeCasts_S_S1x1) (ix2 (0 : Fin 1) k)
    (ix2 (0 : Fin 1) (0 : Fin 1)) (fun ax => match ax with
      | ⟨0, _⟩ => by show 0 = if (1 : Nat) = 1 then 0 else 0; rw [if_pos rfl]
      | ⟨1, _⟩ => by show 0 = if (1 : Nat) = 1 then 0 else k.val; rw [if_pos rfl])).trans ?_
  unfold shapeCast
  exact congrArg a (eq_ix0 _)

/-- A number spread over a row holds that number in every column. -/
theorem splatRow_apply (w : BitVec 32) (q : Fin 128) :
    broadcastInDim S1x128 ![] bcast_S_S1x128 (constant (F := Ideal) S_ .f32 w) (ix2 (0 : Fin 1) q) = Ideal.ofBits .f32 w :=
  broadcastInDim_apply _ bcast_S_S1x128 (constant (F := Ideal) S_ .f32 w) (ix2 (0 : Fin 1) q) (fun a => a.elim0) (fun a => a.elim0)

/-- The sum of the twenty partial rows, from a zero initial value, holds in column `q` the sum of their entries `q`. -/
theorem sumRows_apply (ps : FVec Ideal S20x1x128 .f32) (q : Fin 128) :
    Host.reduceAdd (F := Ideal) ps (constant (F := Ideal) S_ .f32 0#32) reducesTo_S20x1x128_S1x128_d0 h_S_ (ix2 (0 : Fin 1) q)
      = ∑ t : Fin 20, ps (ix3 t (0 : Fin 1) q) := by
  simp only [Host.reduceAdd, Ideal.hostReduceAdd_def]
  rw [Ideal.hostReduceAdd_single reducesTo_S20x1x128_S1x128_d0 (by decide)]
  rw [constant_apply, Ideal.ofBits_zero_f32, zero_add]
  refine Finset.sum_congr rfl fun t _ => ?_
  exact congrArg ps (funext fun a => Fin.ext (by match a with | ⟨0, _⟩ => rfl | ⟨1, _⟩ => rfl | ⟨2, _⟩ => rfl))

/-- The mean row: in column `q`, the sum of the twenty partial sums over the node count. -/
theorem meanOf_apply (ps : FVec Ideal S20x1x128 .f32) (q : Fin 128) :
    meanOf ps (ix2 (0 : Fin 1) q)
      = Ideal.div (∑ t : Fin 20, ps (ix3 t (0 : Fin 1) q)) (Ideal.ofBits .f32 0x47C35000#32) := by
  unfold meanOf
  show Ideal.div (Host.reduceAdd (F := Ideal) ps (constant (F := Ideal) S_ .f32 0#32) reducesTo_S20x1x128_S1x128_d0 h_S_ (ix2 (0 : Fin 1) q))
      (broadcastInDim S1x128 ![] bcast_S_S1x128 (constant (F := Ideal) S_ .f32 1203982336#32) (ix2 (0 : Fin 1) q)) = _
  rw [sumRows_apply, splatRow_apply]

/-- The inverse deviation row: in column `q`, the reciprocal square root of the mean of squares minus the squared mean
    plus the small constant. -/
theorem invOf_apply (ps pss : FVec Ideal S20x1x128 .f32) (q : Fin 128) :
    invOf ps pss (ix2 (0 : Fin 1) q)
      = Ideal.rsqrt (Ideal.div (∑ t : Fin 20, pss (ix3 t (0 : Fin 1) q)) (Ideal.ofBits .f32 0x47C35000#32)
          - Ideal.div (∑ t : Fin 20, ps (ix3 t (0 : Fin 1) q)) (Ideal.ofBits .f32 0x47C35000#32)
            * Ideal.div (∑ t : Fin 20, ps (ix3 t (0 : Fin 1) q)) (Ideal.ofBits .f32 0x47C35000#32)
          + Ideal.ofBits .f32 0x3727C5AC#32) := by
  unfold invOf
  show Ideal.rsqrt (meanOf pss (ix2 (0 : Fin 1) q) - meanOf ps (ix2 (0 : Fin 1) q) * meanOf ps (ix2 (0 : Fin 1) q)
      + broadcastInDim S1x128 ![] bcast_S_S1x128 (constant (F := Ideal) S_ .f32 925353388#32) (ix2 (0 : Fin 1) q)) = _
  rw [meanOf_apply, meanOf_apply, splatRow_apply]

end Cert.KernelIdeal.KHostAt

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibColumnBroadcast.lean ====
/-
  A column spread along the columns of a matrix, read at an index, for any extents: an `[a, 1]` array
  broadcast to `[a, b]` holds, at `(p, c)`, the column's entry `p` whatever `c` is.
-/
import Idealize.ShloMosaic.Lib.ValueIdx
import Idealize.ShloMosaic.Lib.Pipeline.Value

noncomputable section

namespace Cert.Layout

open Idealize.ShloMosaic Idealize.ShloMosaic.ValueIdx

variable {α : Type}

/-- An `[a, 1]` array broadcast to `[a, b]` reads, at `(p, c)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout

end
-- ==== Proof.Region0.lean ====
/-
  Region 0 of the idealized kernel program, read as a value.

  The region's grid has twenty points; point `t` reads rows `5000 t … 5000 t + 4999` of the left operand `x`
  (a [100000,128] array) and of the one-column scale `d` ([100000,1]), the whole [128,128] weight `w`, and writes
  the same rows of the output. On the extended reals the body computes, for its block, the matrix product of the
  rows with the weight — the narrowing of the float format before the product is the identity there, and the
  product accumulates into zero — and multiplies row `p` by the scale's entry `p`. Each entry of a block depends
  only on its own row of `x` and `d` and on `w`, so the blocks are the restrictions of ONE whole-array function,
  `scaledProduct`; the twenty blocks tile the array (row `r` lies in block `r / 5000`), hence after the region's
  run the output array IS that function of the arrays the region found, whatever those are (`V`).
-/
import proofs.«122415_j30588757082611_2_alg».proof.Proof.Gen.KernelIdeal.Frame
import proofs.«122415_j30588757082611_2_alg».proof.Proof.LibPlainDot
import proofs.«122415_j30588757082611_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The block's arithmetic at an entry -/

/-- Entry `(p, q)` of what the body stores: row `p` of the left block against column `q` of the weight block,
    summed over the 128 shared coordinates, times row `p`'s scale. The change of float format before the product
    is the identity on the extended reals, and the product accumulates into zero. -/
theorem scaledProduct_block_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p 0) := by
  unfold k0_pay1
  have e0 : shapeCast S5000x128 x0 shapeCasts_S5000x128_S5000x128 = x0 := shapeCast_self _ _
  have e2 : shapeCast S5000x1 x2 shapeCasts_S5000x1_S5000x1 = x2 := shapeCast_self _ _
  rw [e0, e2]
  have hm : FloatOps.matmul (DotDims.plain 5000 128 128) none (truncf .bf16 x0 bitsLt_bf16_f32) (truncf .bf16 x1 bitsLt_bf16_f32)
      (constant (F := Ideal) ⟨2, ![5000, 128]⟩ .f32 0x00000000#32) (ix2 p q) = ∑ k : Fin 128, x0 (ix2 p k) * x1 (ix2 k q) :=
    Cert.Sage.matmul_plain_zero_apply none (truncf .bf16 x0 bitsLt_bf16_f32) (truncf .bf16 x1 bitsLt_bf16_f32) p q
  have hb : broadcastTo S5000x128 x2 broadcasts_S5000x1_S5000x128 (ix2 p q) = x2 (ix2 p 0) :=
    Cert.Layout.broadcastTo_a1_ab_apply x2 broadcasts_S5000x1_S5000x128 p q
  exact congrArg₂ (· * ·) hm hb

/-! ## The whole array -/

/-- Entry `(r, q)` of the product of `X` and `W` with row `r` scaled by `D`'s entry `r`. -/
def scaledProductAt (X : S100000x128.Idx → EReal) (W : S128x128.Idx → EReal) (D : S100000x1.Idx → EReal)
    (r : Fin 100000) (q : Fin 128) : EReal :=
  (∑ k : Fin 128, X (ix2 r k) * W (ix2 k q)) * D (ix2 r 0)

/-- The definition, as an equation to rewrite with. -/
theorem scaledProductAt_eq (X : S100000x128.Idx → EReal) (W : S128x128.Idx → EReal) (D : S100000x1.Idx → EReal)
    (r : Fin 100000) (q : Fin 128) :
    scaledProductAt X W D r q = (∑ k : Fin 128, X (ix2 r k) * W (ix2 k q)) * D (ix2 r 0) := rfl

/-- The same as one function of the array's index. -/
def scaledProduct (X : S100000x128.Idx → EReal) (W : S128x128.Idx → EReal) (D : S100000x1.Idx → EReal) :
    S100000x128.Idx → EReal :=
  fun i => scaledProductAt X W D (i 0) (i 1)

theorem zeroOffsets0 : (![0, 0] : Fin 2 → Nat) = fun _ => 0 := funext fun a => by fin_cases a <;> rfl

/-- Row `p` of the block of grid point `t` is row `5000 t + p` of the array. -/
def rowOfBlock0 (t : Fin cfg0.N) (p : Fin 5000) : Fin 100000 :=
  ⟨5000 * t.val + p.val, by have h : t.val < cfg0.N := t.isLt; have hN : cfg0.N = 20 := N_0; have := p.isLt; omega⟩

/-- The printed index maps over the grid: the row-blocked windows sit at block row `t`, block column 0; the weight
    window always at its one block. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The left operand's block at point `t` holds rows `5000 t …` of its array. -/
theorem leftBlock0_apply (c : Dev nD) (t : Fin cfg0.N) (p : Fin 5000) (k : Fin 128) :
    (iblk0 V c 0 t : Vec Ideal S5000x128 .f32) (ix2 p k) = (V c main_v7 : S100000x128.Idx → EReal) (ix2 (rowOfBlock0 t p) k) := by
  obtain ⟨e0, e1, -⟩ := blockIndex0 t
  unfold iblk0
  rw [View.read_apply]
  show V c main_v7 _ = V c main_v7 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The weight's block at every point is the whole weight. -/
theorem weightBlock0_apply (c : Dev nD) (t : Fin cfg0.N) (k : Fin 128) (q : Fin 128) :
    (iblk0 V c 1 t : Vec Ideal S128x128 .f32) (ix2 k q) = (V c main_arg6 : S128x128.Idx → EReal) (ix2 k q) := by
  obtain ⟨-, -, e0, e1, -⟩ := blockIndex0 t
  unfold iblk0
  rw [View.read_apply]
  show V c main_arg6 _ = V c main_arg6 _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The scale's block at point `t` holds rows `5000 t …` of its one-column array. -/
theorem scaleBlock0_apply (c : Dev nD) (t : Fin cfg0.N) (p : Fin 5000) :
    (iblk0 V c 2 t : Vec Ideal S5000x1 .f32) (ix2 p 0) = (V c main_v26 : S100000x1.Idx → EReal) (ix2 (rowOfBlock0 t p) 0) := by
  obtain ⟨-, -, -, -, e0, e1, -⟩ := blockIndex0 t
  unfold iblk0
  rw [View.read_apply]
  show V c main_v26 _ = V c main_v26 _
  congr 1
  funext a
  apply Fin.ext
  match a with
  | ⟨0, _⟩ => show win0_2.index t (0 : Fin 2) * 5000 + 1 * p.val = 5000 * t.val + p.val; rw [e0]; omega
  | ⟨1, _⟩ => show win0_2.index t (1 : Fin 2) * 1 + 1 * 0 = 0; rw [e1]

/-- Entry `(p, q)` of the output's block at point `t` is entry `(5000 t + p, q)` of the array. -/
theorem outBlock0_emb (t : Fin cfg0.N) (p : Fin 5000) (q : Fin 128) :
    ((cfg0.win 3).blk t).view.emb (ix2 p q) = (ix2 (rowOfBlock0 t p) q : S100000x128.Idx) := by
  obtain ⟨-, -, -, -, -, -, e0, e1⟩ := blockIndex0 t
  funext a
  apply Fin.ext
  match a with
  | ⟨0, _⟩ => show win0_3.index t (0 : Fin 2) * 5000 + 1 * p.val = 5000 * t.val + p.val; rw [e0]; omega
  | ⟨1, _⟩ => show win0_3.index t (1 : Fin 2) * 128 + 1 * q.val = q.val; rw [e1]; omega

/-- What grid point `t` writes back is block `t` of the scaled product of the arrays the region finds. -/
theorem flushed0_eq (c : Dev nD) (t : Fin cfg0.N) :
    (dat0 V c).flushed 3 t
      = ((cfg0.win 3).blk t).view.read (Elt Ideal) (scaledProduct (V c main_v7) (V c main_arg6) (V c main_v26)) := by
  show (cfg0.win 3).cut (grid0.coords t) ((dat0 V c).after 3 t) = _
  rw [after0_3]
  unfold out0_3
  rw [View.canon_unit_zero zeroOffsets0]
  simp only [View.ld_unit_zero (S := S5000x128) zeroOffsets0, View.ld_unit_zero (S := S128x128) zeroOffsets0,
    View.ld_unit_zero (S := S5000x1) zeroOffsets0]
  funext j
  obtain ⟨p, q, rfl⟩ : ∃ (p : Fin 5000) (q : Fin 128), j = ix2 p q := ⟨j 0, j 1, eq_ix2 (n0 := 5000) (n1 := 128) j⟩
  show k0_pay1 (iblk0 V c 0 t) (iblk0 V c 1 t) (iblk0 V c 2 t) (ix2 p q)
    = scaledProduct (V c main_v7) (V c main_arg6) (V c main_v26) (((cfg0.win 3).blk t).view.emb (ix2 p q))
  rw [outBlock0_emb]
  refine (scaledProduct_block_apply (iblk0 V c 0 t) (iblk0 V c 1 t) (iblk0 V c 2 t) p q).trans ?_
  show _ = scaledProductAt (V c main_v7) (V c main_arg6) (V c main_v26) (rowOfBlock0 t p) q
  unfold scaledProductAt
  rw [scaleBlock0_apply V c t p]
  exact congrArg (· * _) (Finset.sum_congr rfl fun k _ => by rw [leftBlock0_apply V c t p k, weightBlock0_apply V c t k q])

/-- An index of the array is in point `t`'s block iff each coordinate is in the block's range on its axis. -/
theorem mem_outBlock0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v27).slice (win0_3.rect t)).set ↔ _
  rw [View.set_slice_whole, Rect.mem_set_unit]
  exact Iff.rfl

/-- Row `r` lies in the block of point `r / 5000`: the twenty blocks tile the array. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, e0, e1⟩ := blockIndex0 t
  have ht : t.val = (i 0).val / 5000 := rfl
  refine ⟨t, flush0_3 t, ?_⟩
  rw [mem_outBlock0]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

/-- The output array of region 0 after its run, as one function of the arrays the region finds. -/
theorem region0_array (c : Dev nD) :
    (dat0 V c).arrAt 3 cfg0.N = scaledProduct (V c main_v7) (V c main_arg6) (V c main_v26) :=
  (dat0 V c).arrAt_eq_of_cover 3 (scaledProduct (V c main_v7) (V c main_arg6) (V c main_v26))
    (fun t _ => flushed0_eq V c t) cover0

/-- REGION 0, entry by entry: the output array holds the product of `x` and `w` with each row scaled. -/
theorem region0_value (c : Dev nD) (r : Fin 100000) (q : Fin 128) :
    (dat0 V c).arrAt 3 cfg0.N (ix2 r q) = scaledProductAt (V c main_v7) (V c main_arg6) (V c main_v26) r q := by
  rw [region0_array V c]
  rfl

end Cert.KernelIdeal.RegionValue

end
-- ==== Proof.Region1.lean ====
/-
  The values of the three outputs of the second TensorCore region (pipeline 1), over the extended reals, for ANY contents V of the
  buffers at the region's entry.  With Agg [100000,128], D [100000,1], B [1,128] the region's three input arrays and
      y(r, q) = Agg(r, q) * D(r, 0) + B(0, q),
  the region leaves  out0(r, q) = y(r, q),  out1(t, 0, q) = Σ_{j < 5000} y(5000 t + j, q),  out2(t, 0, q) = Σ_{j < 5000} y(5000 t + j, q)²
  (t < 20).  Grid point t handles rows 5000 t … 5000 t + 4999: it reads those rows of Agg and D and the one row of B, stores y on
  them, and stores the two column sums over them into row t of the two [20,1,128] arrays.  The blocks of the 20 points tile each
  output array, so each array ends as one function of the inputs (`final3`, `final4`, `final5`), read at an index in `arr3`, `arr4`,
  `arr5`.  The lemmas before `namespace R1` speak only of the body's arithmetic on a block and are shared with the fourth region, which
  runs the same body.
-/
import proofs.«122415_j30588757082611_2_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- y(r, q) = agg(r, q) * dn(r, 0) + b(0, q). -/
def yAt (Agg : S100000x128.Idx → EReal) (D : S100000x1.Idx → EReal) (B : S1x128.Idx → EReal)
    (r : Fin 100000) (q : Fin 128) : EReal :=
  Agg (ix2 r q) * D (ix2 r 0) + B (ix2 0 q)

theorem hz2 : (![0, 0] : Fin 2 → Nat) = fun _ => 0 := funext fun a => by fin_cases a <;> rfl
theorem hz3 : (![0, 0, 0] : Fin 3 → Nat) = fun _ => 0 := funext fun a => by fin_cases a <;> rfl

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay1_apply (x0 : Vec Ideal S5000x128 .f32) (x1 : Vec Ideal S5000x1 .f32) (x2 : Vec Ideal S1x128 .f32)
    (p : Fin 5000) (q : Fin 128) :
    k1_pay1 (F := Ideal) x0 x1 x2 (ix2 p q) = x0 (ix2 p q) * x1 (ix2 p 0) + x2 (ix2 0 q) := by
  unfold k1_pay1
  show shapeCast S5000x128 x0 _ (ix2 p q) * broadcastTo S5000x128 (shapeCast S5000x1 x1 _) _ (ix2 p q)
      + broadcastTo S5000x128 (shapeCast S1x128 x2 _) _ (ix2 p q) = _
  rw [shapeCast_self, shapeCast_self, shapeCast_self, broadcastTo_1b_ab_apply, broadcastTo_a1_ab_apply]

/-- The first output as one function of the three arrays. -/
def G3 (Agg : S100000x128.Idx → EReal) (D : S100000x1.Idx → EReal) (B : S1x128.Idx → EReal) : S100000x128.Idx → EReal :=
  fun i => yAt Agg D B ⟨(i 0).val, idx2_lt0 i⟩ ⟨(i 1).val, idx2_lt1 i⟩

/-- The payload of the first output at a block index, once the three blocks are rows of the arrays: the array function at the
    corresponding array index. -/
theorem blk3_core (Agg : S100000x128.Idx → EReal) (D : S100000x1.Idx → EReal) (B : S1x128.Idx → EReal)
    (x0 : Vec Ideal S5000x128 .f32) (x1 : Vec Ideal S5000x1 .f32) (x2 : Vec Ideal S1x128 .f32) (tv : Nat)
    (y : S5000x128.Idx) (i : S100000x128.Idx)
    (h0 : ∀ (p : Fin 5000) (q : Fin 128) (k : Fin 100000), k.val = 5000 * tv + p.val → x0 (ix2 p q) = Agg (ix2 k q))
    (h1 : ∀ (p : Fin 5000) (k : Fin 100000), k.val = 5000 * tv + p.val → x1 (ix2 p 0) = D (ix2 k 0))
    (h2 : ∀ q : Fin 128, x2 (ix2 0 q) = B (ix2 0 q))
    (hi0 : (i 0).val = 5000 * tv + (y 0).val) (hi1 : (i 1).val = (y 1).val) :
    k1_pay1 (F := Ideal) x0 x1 x2 y = G3 Agg D B i := by
  obtain ⟨p, q, rfl⟩ : ∃ (p : Fin 5000) (q : Fin 128), y = ix2 p q := ⟨y 0, y 1, eq_ix2 y⟩
  rw [pay1_apply, h0 p q ⟨(i 0).val, idx2_lt0 i⟩ hi0, h1 p ⟨(i 0).val, idx2_lt0 i⟩ hi0, h2 q]
  have eq : q = ⟨(i 1).val, idx2_lt1 i⟩ := Fin.ext hi1.symm
  unfold G3 yAt
  rw [← eq]

/-! ## The two reduced outputs -/

theorem idx3_lt0 {n0 n1 n2 : Nat} (j : (⟨3, ![n0, n1, n2]⟩ : Shape).Idx) : (j 0).val < n0 := (j 0).isLt
theorem idx3_lt2 {n0 n1 n2 : Nat} (j : (⟨3, ![n0, n1, n2]⟩ : Shape).Idx) : (j 2).val < n2 := (j 2).isLt

/-- The sum of a [5000, 128] block over its rows, read at column q. -/
theorem rowsum_apply (src : FVec Ideal S5000x128 .f32) (hφ : FKind.Formats .f32)
    (hacc : (0x00000000#32 : BitVec 32) = 0x00000000#32) (q : Fin 128) :
    multiReduction (F := Ideal) .add [0] S128 src 0x00000000#32 reduces_S5000x128_S128 hφ hacc (ix1 q)
      = ∑ k : Fin 5000, src (ix2 k q) := by
  refine (Ideal.multiReduction_add_single src 0x00000000#32 reduces_S5000x128_S128 hφ hacc (ix1 q)).trans ?_
  refine Finset.sum_congr rfl fun k _ => congrArg src ?_
  funext a
  match a with
  | ⟨0, _⟩ => rfl
  | ⟨1, _⟩ => rfl

/-- The second output's block: the column sums of the first output's block. -/
theorem pay2_apply (x0 : Vec Ideal S5000x128 .f32) (x1 : Vec Ideal S5000x1 .f32) (x2 : Vec Ideal S1x128 .f32)
    (u v : Fin 1) (q : Fin 128) :
    k1_pay2 (F := Ideal) x0 x1 x2 (ix3 u v q) = ∑ k : Fin 5000, k1_pay1 (F := Ideal) x0 x1 x2 (ix2 k q) := by
  unfold k1_pay2
  show shapeCast S1x1x128 (shapeCast S1x128 (multiReduction (F := Ideal) .add [0] S128 (k1_pay1 (F := Ideal) x0 x1 x2) 0x00000000#32 reduces_S5000x128_S128 _ _) shapeCasts_S128_S1x128) shapeCasts_S1x128_S1x1x128 (ix3 u v q) = _
  rw [shapeCast_ab_1ab_apply, shapeCast_a_1a_apply]
  exact rowsum_apply _ _ _ q

/-- The third output's block: the column sums of the squares of the first output's block. -/
theorem pay3_apply (x0 : Vec Ideal S5000x128 .f32) (x1 : Vec Ideal S5000x1 .f32) (x2 : Vec Ideal S1x128 .f32)
    (u v : Fin 1) (q : Fin 128) :
    k1_pay3 (F := Ideal) x0 x1 x2 (ix3 u v q)
      = ∑ k : Fin 5000, k1_pay1 (F := Ideal) x0 x1 x2 (ix2 k q) * k1_pay1 (F := Ideal) x0 x1 x2 (ix2 k q) := by
  unfold k1_pay3
  show shapeCast S1x1x128 (shapeCast S1x128 (multiReduction (F := Ideal) .add [0] S128 (mulf (k1_pay1 (F := Ideal) x0 x1 x2) (k1_pay1 (F := Ideal) x0 x1 x2)) 0x00000000#32 reduces_S5000x128_S128 _ _) shapeCasts_S128_S1x128) shapeCasts_S1x128_S1x1x128 (ix3 u v q) = _
  rw [shapeCast_ab_1ab_apply, shapeCast_a_1a_apply]
  exact rowsum_apply _ _ _ q

/-- The second output as one function of the three arrays: entry (t, 0, q) is the sum of y over rows 5000 t … 5000 t + 4999 of column q. -/
def G4 (Agg : S100000x128.Idx → EReal) (D : S100000x1.Idx → EReal) (B : S1x128.Idx → EReal) : S20x1x128.Idx → EReal :=
  fun i => ∑ k : Fin 5000, yAt Agg D B ⟨5000 * (i 0).val + k.val, by have := idx3_lt0 i; have := k.isLt; omega⟩ ⟨(i 2).val, idx3_lt2 i⟩

/-- The third output: the same sums of y * y. -/
def G5 (Agg : S100000x128.Idx → EReal) (D : S100000x1.Idx → EReal) (B : S1x128.Idx → EReal) : S20x1x128.Idx → EReal :=
  fun i => ∑ k : Fin 5000, yAt Agg D B ⟨5000 * (i 0).val + k.val, by have := idx3_lt0 i; have := k.isLt; omega⟩ ⟨(i 2).val, idx3_lt2 i⟩
    * yAt Agg D B ⟨5000 * (i 0).val + k.val, by have := idx3_lt0 i; have := k.isLt; omega⟩ ⟨(i 2).val, idx3_lt2 i⟩

/-- The first output's block entry (k, q) as y at row 5000 tv + k, once the three blocks are rows of the arrays. -/
theorem pay1_rows (Agg : S100000x128.Idx → EReal) (D : S100000x1.Idx → EReal) (B : S1x128.Idx → EReal)
    (x0 : Vec Ideal S5000x128 .f32) (x1 : Vec Ideal S5000x1 .f32) (x2 : Vec Ideal S1x128 .f32) (tv : Nat)
    (h0 : ∀ (p : Fin 5000) (q : Fin 128) (k : Fin 100000), k.val = 5000 * tv + p.val → x0 (ix2 p q) = Agg (ix2 k q))
    (h1 : ∀ (p : Fin 5000) (k : Fin 100000), k.val = 5000 * tv + p.val → x1 (ix2 p 0) = D (ix2 k 0))
    (h2 : ∀ q : Fin 128, x2 (ix2 0 q) = B (ix2 0 q))
    (k : Fin 5000) (q : Fin 128) (r : Fin 100000) (hr : r.val = 5000 * tv + k.val) :
    k1_pay1 (F := Ideal) x0 x1 x2 (ix2 k q) = yAt Agg D B r q := by
  rw [pay1_apply, h0 k q r hr, h1 k r hr, h2 q]
  rfl

theorem blk4_core (Agg : S100000x128.Idx → EReal) (D : S100000x1.Idx → EReal) (B : S1x128.Idx → EReal)
    (x0 : Vec Ideal S5000x128 .f32) (x1 : Vec Ideal S5000x1 .f32) (x2 : Vec Ideal S1x128 .f32) (tv : Nat)
    (y : S1x1x128.Idx) (i : S20x1x128.Idx)
    (h0 : ∀ (p : Fin 5000) (q : Fin 128) (k : Fin 100000), k.val = 5000 * tv + p.val → x0 (ix2 p q) = Agg (ix2 k q))
    (h1 : ∀ (p : Fin 5000) (k : Fin 100000), k.val = 5000 * tv + p.val → x1 (ix2 p 0) = D (ix2 k 0))
    (h2 : ∀ q : Fin 128, x2 (ix2 0 q) = B (ix2 0 q))
    (hi0 : (i 0).val = tv) (hi2 : (i 2).val = (y 2).val) :
    k1_pay2 (F := Ideal) x0 x1 x2 y = G4 Agg D B i := by
  obtain ⟨u, v, q, rfl⟩ : ∃ (u v : Fin 1) (q : Fin 128), y = ix3 u v q := ⟨y 0, y 1, y 2, eq_ix3 y⟩
  rw [pay2_apply]
  unfold G4
  refine Finset.sum_congr rfl fun k _ => ?_
  have eq : q = ⟨(i 2).val, idx3_lt2 i⟩ := Fin.ext hi2.symm
  rw [← eq]
  exact pay1_rows Agg D B x0 x1 x2 tv h0 h1 h2 k q _ (by show 5000 * (i 0).val + k.val = _; rw [hi0])

theorem blk5_core (Agg : S100000x128.Idx → EReal) (D : S100000x1.Idx → EReal) (B : S1x128.Idx → EReal)
    (x0 : Vec Ideal S5000x128 .f32) (x1 : Vec Ideal S5000x1 .f32) (x2 : Vec Ideal S1x128 .f32) (tv : Nat)
    (y : S1x1x128.Idx) (i : S20x1x128.Idx)
    (h0 : ∀ (p : Fin 5000) (q : Fin 128) (k : Fin 100000), k.val = 5000 * tv + p.val → x0 (ix2 p q) = Agg (ix2 k q))
    (h1 : ∀ (p : Fin 5000) (k : Fin 100000), k.val = 5000 * tv + p.val → x1 (ix2 p 0) = D (ix2 k 0))
    (h2 : ∀ q : Fin 128, x2 (ix2 0 q) = B (ix2 0 q))
    (hi0 : (i 0).val = tv) (hi2 : (i 2).val = (y 2).val) :
    k1_pay3 (F := Ideal) x0 x1 x2 y = G5 Agg D B i := by
  obtain ⟨u, v, q, rfl⟩ : ∃ (u v : Fin 1) (q : Fin 128), y = ix3 u v q := ⟨y 0, y 1, y 2, eq_ix3 y⟩
  rw [pay3_apply]
  unfold G5
  refine Finset.sum_congr rfl fun k _ => ?_
  have eq : q = ⟨(i 2).val, idx3_lt2 i⟩ := Fin.ext hi2.symm
  rw [← eq]
  have hk := pay1_rows Agg D B x0 x1 x2 tv h0 h1 h2 k q
    ⟨5000 * (i 0).val + k.val, by have := idx3_lt0 i; have := k.isLt; omega⟩ (by show 5000 * (i 0).val + k.val = _; rw [hi0])
  rw [hk]

/-! ## Region 1: from the blocks to the arrays -/

namespace R1

variable (V : (c : Dev nD) → (b : Ref sig .tc) → Buf (Elt Ideal) ((c : Thread nD τ).loc b))

/-- The index maps over the 20 grid points: windows 0, 1, 3 sit at row block t, column block 0; window 2 at block (0, 0);
    windows 4 and 5 at block (t, 0, 0). -/
theorem idx_w0 : ∀ t : Fin cfg1.N, win1_0.index t (0 : Fin 2) = t.val ∧ win1_0.index t (1 : Fin 2) = 0 :=
  (by decide +kernel : ∀ t : Fin grid1.N, _)
theorem idx_w1 : ∀ t : Fin cfg1.N, win1_1.index t (0 : Fin 2) = t.val ∧ win1_1.index t (1 : Fin 2) = 0 :=
  (by decide +kernel : ∀ t : Fin grid1.N, _)
theorem idx_w2 : ∀ t : Fin cfg1.N, win1_2.index t (0 : Fin 2) = 0 ∧ win1_2.index t (1 : Fin 2) = 0 :=
  (by decide +kernel : ∀ t : Fin grid1.N, _)
theorem idx_w3 : ∀ t : Fin cfg1.N, win1_3.index t (0 : Fin 2) = t.val ∧ win1_3.index t (1 : Fin 2) = 0 :=
  (by decide +kernel : ∀ t : Fin grid1.N, _)
theorem idx_w4 : ∀ t : Fin cfg1.N, win1_4.index t (0 : Fin 3) = t.val ∧ win1_4.index t (1 : Fin 3) = 0 ∧ win1_4.index t (2 : Fin 3) = 0 :=
  (by decide +kernel : ∀ t : Fin grid1.N, _)
theorem idx_w5 : ∀ t : Fin cfg1.N, win1_5.index t (0 : Fin 3) = t.val ∧ win1_5.index t (1 : Fin 3) = 0 ∧ win1_5.index t (2 : Fin 3) = 0 :=
  (by decide +kernel : ∀ t : Fin grid1.N, _)

theorem t_lt (t : Fin cfg1.N) : t.val < 20 := lt_of_lt_of_eq t.isLt N_1

/-- Block t of the first input is rows 5000 t … 5000 t + 4999 of its array. -/
theorem iblk0_apply (c : Dev nD) (t : Fin cfg1.N) (p : Fin 5000) (q : Fin 128) (k : Fin 100000)
    (hk : k.val = 5000 * t.val + p.val) :
    (iblk1 V c 0 t : Vec Ideal S5000x128 .f32) (ix2 p q)
      = (V c (Pipeline.arrRef spec1 0) : S100000x128.Idx → EReal) (ix2 k q) := by
  have e0 := (idx_w0 t).1
  have e1 := (idx_w0 t).2
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 5000 + 1 * p.val = k.val; rw [e0, hk]; omega
  | ⟨1, _⟩ => show win1_0.index t (1 : Fin 2) * 128 + 1 * q.val = q.val; rw [e1]; omega

/-- Block t of the second input is the same rows of the column array. -/
theorem iblk1_apply (c : Dev nD) (t : Fin cfg1.N) (p : Fin 5000) (k : Fin 100000)
    (hk : k.val = 5000 * t.val + p.val) :
    (iblk1 V c 1 t : Vec Ideal S5000x1 .f32) (ix2 p 0)
      = (V c (Pipeline.arrRef spec1 1) : S100000x1.Idx → EReal) (ix2 k 0) := by
  have e0 := (idx_w1 t).1
  have e1 := (idx_w1 t).2
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 5000 + 1 * p.val = k.val; rw [e0, hk]; omega
  | ⟨1, _⟩ => show win1_1.index t (1 : Fin 2) * 1 + 1 * 0 = 0; rw [e1]

/-- The third input's block is the whole row at every point. -/
theorem iblk2_apply (c : Dev nD) (t : Fin cfg1.N) (q : Fin 128) :
    (iblk1 V c 2 t : Vec Ideal S1x128 .f32) (ix2 0 q)
      = (V c (Pipeline.arrRef spec1 2) : S1x128.Idx → EReal) (ix2 0 q) := by
  have e0 := (idx_w2 t).1
  have e1 := (idx_w2 t).2
  unfold iblk1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * q.val = q.val; rw [e1]; omega

set_option maxHeartbeats 1000000 in
/-- What point t writes back to the first output is block t of the array function. -/
theorem flushed3_eq (c : Dev nD) (t : Fin cfg1.N) :
    (dat1 V c).flushed 3 t = ((cfg1.win 3).blk t).view.read (Elt Ideal)
      (G3 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S5000x1) hz2, View.ld_unit_zero (S := S1x128) hz2]
  funext j
  generalize hG : G3 (V c (Pipeline.arrRef spec1 0)) (V c (Pipeline.arrRef spec1 1)) (V c (Pipeline.arrRef spec1 2)) = G
  generalize hX : k1_pay1 (F := Ideal) (iblk1 V c 0 t) (iblk1 V c 1 t) (iblk1 V c 2 t) = X
  show X j = G (((cfg1.win 3).blk t).view.emb j)
  rw [← hG, ← hX]
  have hi0 : ((((cfg1.win 3).blk t).view.emb j : S100000x128.Idx) 0).val = 5000 * t.val + ((j : S5000x128.Idx) 0).val := by
    show win1_3.index t (0 : Fin 2) * 5000 + 1 * (j 0).val = 5000 * t.val + (j 0).val; rw [(idx_w3 t).1]; omega
  have hi1 : ((((cfg1.win 3).blk t).view.emb j : S100000x128.Idx) 1).val = ((j : S5000x128.Idx) 1).val := by
    show win1_3.index t (1 : Fin 2) * 128 + 1 * (j 1).val = (j 1).val; rw [(idx_w3 t).2]; omega
  exact blk3_core (V c (Pipeline.arrRef spec1 0)) (V c (Pipeline.arrRef spec1 1)) (V c (Pipeline.arrRef spec1 2))
    (iblk1 V c 0 t) (iblk1 V c 1 t) (iblk1 V c 2 t) t.val j (((cfg1.win 3).blk t).view.emb j) (iblk0_apply V c t) (iblk1_apply V c t) (iblk2_apply V c t) hi0 hi1

/-- An index of the array is in point t's block iff each coordinate is in the block's range on its axis. -/
theorem mem_blk3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v40_0).slice (win1_3.rect t)).set ↔ _
  rw [View.set_slice_whole, Rect.mem_set_unit]
  exact Iff.rfl

theorem cover3 (i : S100000x128.Idx) : ∃ t : Fin cfg1.N, (cfg1.win 3).flush t = true ∧ i ∈ ((cfg1.win 3).blk t).view.set := by
  have hi0 : (i 0).val < 100000 := idx2_lt0 i
  have hi1 : (i 1).val < 128 := idx2_lt1 i
  have hN : cfg1.N = 20 := N_1
  refine ⟨⟨(i 0).val / 5000, by rw [hN]; omega⟩, flush1_3 _, ?_⟩
  have e0 := (idx_w3 ⟨(i 0).val / 5000, by rw [hN]; omega⟩).1
  have e1 := (idx_w3 ⟨(i 0).val / 5000, by rw [hN]; omega⟩).2
  rw [mem_blk3]
  intro a
  match a with
  | ⟨0, _⟩ => show win1_3.index _ (0 : Fin 2) * 5000 ≤ (i 0).val ∧ (i 0).val < win1_3.index _ (0 : Fin 2) * 5000 + 5000; rw [e0]; show (i 0).val / 5000 * 5000 ≤ (i 0).val ∧ (i 0).val < (i 0).val / 5000 * 5000 + 5000; omega
  | ⟨1, _⟩ => show win1_3.index _ (1 : Fin 2) * 128 ≤ (i 1).val ∧ (i 1).val < win1_3.index _ (1 : Fin 2) * 128 + 128; rw [e1]; omega

theorem final3 (c : Dev nD) : (dat1 V c).arrAt 3 cfg1.N
    = G3 (V c (Pipeline.arrRef spec1 0)) (V c (Pipeline.arrRef spec1 1)) (V c (Pipeline.arrRef spec1 2)) :=
  (dat1 V c).arrAt_eq_of_cover 3 _ (fun t _ => flushed3_eq V c t) cover3

theorem arr3 (c : Dev nD) (r : Fin 100000) (q : Fin 128) :
    (Gen.dat1 (F := Ideal) V c).arrAt 3 cfg1.N (ix2 r q)
      = yAt (V c (Pipeline.arrRef spec1 0)) (V c (Pipeline.arrRef spec1 1)) (V c (Pipeline.arrRef spec1 2)) r q := by
  rw [final3]; rfl

set_option maxHeartbeats 1000000 in
/-- What point t writes back to output window 4 is block t of the array function. -/
theorem flushed4_eq (c : Dev nD) (t : Fin cfg1.N) :
    (dat1 V c).flushed 4 t = ((cfg1.win 4).blk t).view.read (Elt Ideal)
      (G4 (V c (Pipeline.arrRef spec1 0)) (V c (Pipeline.arrRef spec1 1)) (V c (Pipeline.arrRef spec1 2))) := by
  show (cfg1.win 4).cut (grid1.coords t) ((dat1 V c).after 4 t) = _
  rw [after1_4]
  unfold out1_4
  rw [View.canon_unit_zero hz3]
  simp only [View.ld_unit_zero (S := S5000x128) hz2, View.ld_unit_zero (S := S5000x1) hz2, View.ld_unit_zero (S := S1x128) hz2]
  funext j
  generalize hG : G4 (V c (Pipeline.arrRef spec1 0)) (V c (Pipeline.arrRef spec1 1)) (V c (Pipeline.arrRef spec1 2)) = G
  generalize hX : k1_pay2 (F := Ideal) (iblk1 V c 0 t) (iblk1 V c 1 t) (iblk1 V c 2 t) = X
  show X j = G (((cfg1.win 4).blk t).view.emb j)
  rw [← hG, ← hX]
  have hi0 : ((((cfg1.win 4).blk t).view.emb j : S20x1x128.Idx) 0).val = t.val := by
    have hj : ((j : S1x1x128.Idx) 0).val < 1 := idx3_lt0 j
    show win1_4.index t (0 : Fin 3) * 1 + 1 * (j 0).val = t.val; rw [(idx_w4 t).1]; omega
  have hi2 : ((((cfg1.win 4).blk t).view.emb j : S20x1x128.Idx) 2).val = ((j : S1x1x128.Idx) 2).val := by
    show win1_4.index t (2 : Fin 3) * 128 + 1 * (j 2).val = (j 2).val; rw [(idx_w4 t).2.2]; omega
  exact blk4_core (V c (Pipeline.arrRef spec1 0)) (V c (Pipeline.arrRef spec1 1)) (V c (Pipeline.arrRef spec1 2))
    (iblk1 V c 0 t) (iblk1 V c 1 t) (iblk1 V c 2 t) t.val j (((cfg1.win 4).blk t).view.emb j) (iblk0_apply V c t) (iblk1_apply V c t) (iblk2_apply V c t) hi0 hi2

theorem mem_blk4 (t : Fin cfg1.N) (i : S20x1x128.Idx) :
    i ∈ ((cfg1.win 4).blk t).view.set ↔ ∀ a : Fin 3, win1_4.index t a * S1x1x128.size a ≤ (i a).val ∧ (i a).val < win1_4.index t a * S1x1x128.size a + S1x1x128.size a := by
  show i ∈ ((View.whole main_v40_1).slice (win1_4.rect t)).set ↔ _
  rw [View.set_slice_whole, Rect.mem_set_unit]
  exact Iff.rfl

/-- Entry (t, 0, q) lies in point t's block. -/
theorem cover4 (i : S20x1x128.Idx) : ∃ t : Fin cfg1.N, (cfg1.win 4).flush t = true ∧ i ∈ ((cfg1.win 4).blk t).view.set := by
  have hi0 : (i 0).val < 20 := idx3_lt0 i
  have hi1 : (i 1).val < 1 := (i 1).isLt
  have hi2 : (i 2).val < 128 := idx3_lt2 i
  have hN : cfg1.N = 20 := N_1
  refine ⟨⟨(i 0).val, by rw [hN]; exact hi0⟩, flush1_4 _, ?_⟩
  have e0 := (idx_w4 ⟨(i 0).val, by rw [hN]; exact hi0⟩).1
  have e1 := (idx_w4 ⟨(i 0).val, by rw [hN]; exact hi0⟩).2.1
  have e2 := (idx_w4 ⟨(i 0).val, by rw [hN]; exact hi0⟩).2.2
  rw [mem_blk4]
  intro a
  match a with
  | ⟨0, _⟩ => show win1_4.index _ (0 : Fin 3) * 1 ≤ (i 0).val ∧ (i 0).val < win1_4.index _ (0 : Fin 3) * 1 + 1; rw [e0]; show (i 0).val * 1 ≤ (i 0).val ∧ (i 0).val < (i 0).val * 1 + 1; omega
  | ⟨1, _⟩ => show win1_4.index _ (1 : Fin 3) * 1 ≤ (i 1).val ∧ (i 1).val < win1_4.index _ (1 : Fin 3) * 1 + 1; rw [e1]; omega
  | ⟨2, _⟩ => show win1_4.index _ (2 : Fin 3) * 128 ≤ (i 2).val ∧ (i 2).val < win1_4.index _ (2 : Fin 3) * 128 + 128; rw [e2]; omega

theorem final4 (c : Dev nD) : (dat1 V c).arrAt 4 cfg1.N
    = G4 (V c (Pipeline.arrRef spec1 0)) (V c (Pipeline.arrRef spec1 1)) (V c (Pipeline.arrRef spec1 2)) :=
  (dat1 V c).arrAt_eq_of_cover 4 _ (fun t _ => flushed4_eq V c t) cover4

set_option maxHeartbeats 1000000 in
/-- What point t writes back to output window 5 is block t of the array function. -/
theorem flushed5_eq (c : Dev nD) (t : Fin cfg1.N) :
    (dat1 V c).flushed 5 t = ((cfg1.win 5).blk t).view.read (Elt Ideal)
      (G5 (V c (Pipeline.arrRef spec1 0)) (V c (Pipeline.arrRef spec1 1)) (V c (Pipeline.arrRef spec1 2))) := by
  show (cfg1.win 5).cut (grid1.coords t) ((dat1 V c).after 5 t) = _
  rw [after1_5]
  unfold out1_5
  rw [View.canon_unit_zero hz3]
  simp only [View.ld_unit_zero (S := S5000x128) hz2, View.ld_unit_zero (S := S5000x1) hz2, View.ld_unit_zero (S := S1x128) hz2]
  funext j
  generalize hG : G5 (V c (Pipeline.arrRef spec1 0)) (V c (Pipeline.arrRef spec1 1)) (V c (Pipeline.arrRef spec1 2)) = G
  generalize hX : k1_pay3 (F := Ideal) (iblk1 V c 0 t) (iblk1 V c 1 t) (iblk1 V c 2 t) = X
  show X j = G (((cfg1.win 5).blk t).view.emb j)
  rw [← hG, ← hX]
  have hi0 : ((((cfg1.win 5).blk t).view.emb j : S20x1x128.Idx) 0).val = t.val := by
    have hj : ((j : S1x1x128.Idx) 0).val < 1 := idx3_lt0 j
    show win1_5.index t (0 : Fin 3) * 1 + 1 * (j 0).val = t.val; rw [(idx_w5 t).1]; omega
  have hi2 : ((((cfg1.win 5).blk t).view.emb j : S20x1x128.Idx) 2).val = ((j : S1x1x128.Idx) 2).val := by
    show win1_5.index t (2 : Fin 3) * 128 + 1 * (j 2).val = (j 2).val; rw [(idx_w5 t).2.2]; omega
  exact blk5_core (V c (Pipeline.arrRef spec1 0)) (V c (Pipeline.arrRef spec1 1)) (V c (Pipeline.arrRef spec1 2))
    (iblk1 V c 0 t) (iblk1 V c 1 t) (iblk1 V c 2 t) t.val j (((cfg1.win 5).blk t).view.emb j) (iblk0_apply V c t) (iblk1_apply V c t) (iblk2_apply V c t) hi0 hi2

theorem mem_blk5 (t : Fin cfg1.N) (i : S20x1x128.Idx) :
    i ∈ ((cfg1.win 5).blk t).view.set ↔ ∀ a : Fin 3, win1_5.index t a * S1x1x128.size a ≤ (i a).val ∧ (i a).val < win1_5.index t a * S1x1x128.size a + S1x1x128.size a := by
  show i ∈ ((View.whole main_v40_2).slice (win1_5.rect t)).set ↔ _
  rw [View.set_slice_whole, Rect.mem_set_unit]
  exact Iff.rfl

/-- Entry (t, 0, q) lies in point t's block. -/
theorem cover5 (i : S20x1x128.Idx) : ∃ t : Fin cfg1.N, (cfg1.win 5).flush t = true ∧ i ∈ ((cfg1.win 5).blk t).view.set := by
  have hi0 : (i 0).val < 20 := idx3_lt0 i
  have hi1 : (i 1).val < 1 := (i 1).isLt
  have hi2 : (i 2).val < 128 := idx3_lt2 i
  have hN : cfg1.N = 20 := N_1
  refine ⟨⟨(i 0).val, by rw [hN]; exact hi0⟩, flush1_5 _, ?_⟩
  have e0 := (idx_w5 ⟨(i 0).val, by rw [hN]; exact hi0⟩).1
  have e1 := (idx_w5 ⟨(i 0).val, by rw [hN]; exact hi0⟩).2.1
  have e2 := (idx_w5 ⟨(i 0).val, by rw [hN]; exact hi0⟩).2.2
  rw [mem_blk5]
  intro a
  match a with
  | ⟨0, _⟩ => show win1_5.index _ (0 : Fin 3) * 1 ≤ (i 0).val ∧ (i 0).val < win1_5.index _ (0 : Fin 3) * 1 + 1; rw [e0]; show (i 0).val * 1 ≤ (i 0).val ∧ (i 0).val < (i 0).val * 1 + 1; omega
  | ⟨1, _⟩ => show win1_5.index _ (1 : Fin 3) * 1 ≤ (i 1).val ∧ (i 1).val < win1_5.index _ (1 : Fin 3) * 1 + 1; rw [e1]; omega
  | ⟨2, _⟩ => show win1_5.index _ (2 : Fin 3) * 128 ≤ (i 2).val ∧ (i 2).val < win1_5.index _ (2 : Fin 3) * 128 + 128; rw [e2]; omega

theorem final5 (c : Dev nD) : (dat1 V c).arrAt 5 cfg1.N
    = G5 (V c (Pipeline.arrRef spec1 0)) (V c (Pipeline.arrRef spec1 1)) (V c (Pipeline.arrRef spec1 2)) :=
  (dat1 V c).arrAt_eq_of_cover 5 _ (fun t _ => flushed5_eq V c t) cover5

/-- The second output: entry (t, 0, q) is the sum of y over rows 5000 t … 5000 t + 4999 of column q. -/
theorem arr4 (c : Dev nD) (t : Fin 20) (q : Fin 128) :
    (Gen.dat1 (F := Ideal) V c).arrAt 4 cfg1.N (ix3 t 0 q)
      = ∑ j : Fin 5000, yAt (V c (Pipeline.arrRef spec1 0)) (V c (Pipeline.arrRef spec1 1)) (V c (Pipeline.arrRef spec1 2))
          ⟨5000 * t.val + j.val, by omega⟩ q := by
  rw [final4]; rfl

/-- The third output: the same sums of y * y. -/
theorem arr5 (c : Dev nD) (t : Fin 20) (q : Fin 128) :
    (Gen.dat1 (F := Ideal) V c).arrAt 5 cfg1.N (ix3 t 0 q)
      = ∑ j : Fin 5000, yAt (V c (Pipeline.arrRef spec1 0)) (V c (Pipeline.arrRef spec1 1)) (V c (Pipeline.arrRef spec1 2))
          ⟨5000 * t.val + j.val, by omega⟩ q
        * yAt (V c (Pipeline.arrRef spec1 0)) (V c (Pipeline.arrRef spec1 1)) (V c (Pipeline.arrRef spec1 2))
          ⟨5000 * t.val + j.val, by omega⟩ q := by
  rw [final5]; rfl

end R1

end Cert.KernelIdeal.RegionValue

end
-- ==== Proof.Region2.lean ====
/-
  Region 2 of the idealized kernel program, read as a value.

  The region's grid has twenty points; point `t` reads rows `5000 t … 5000 t + 4999` of the input `y` (a
  [100000,128] array) and of the one-column scale `d` ([100000,1]), the whole of five one-row arrays ([1,128]: a
  centre, two scales, a shift, a slope) and of the [128,128] weight `w`, and writes the same rows of the output. On
  the extended reals the body first works entry by entry — entry `(p, k)` of the block becomes
  `((y - m) * i) * g + b` with column `k`'s entries of the rows, then passes through the leaky rectifier whose slope is
  column `k`'s — and then multiplies the resulting block into the weight (the narrowing of the float format before
  the product is the identity there, and the product accumulates into zero) and scales row `p` by `d`'s entry `p`.
  Each entry of a block depends only on its own row of `y` and `d` and on the arrays read whole, so the blocks are
  the restrictions of ONE whole-array function, `fused`; the twenty blocks tile the array (row `r` lies in block
  `r / 5000`), hence after the region's run the output array IS that function of the arrays the region found,
  whatever those are (`V`).
-/
import proofs.«122415_j30588757082611_2_alg».proof.Proof.Gen.KernelIdeal.Frame
import proofs.«122415_j30588757082611_2_alg».proof.Proof.LibPlainDot
import proofs.«122415_j30588757082611_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The entry-wise stage before the product -/

/-- An entry centred, scaled twice and shifted: `((y - m) * i) * g + b`. -/
def normalizedEntry (y m i g b : EReal) : EReal := ((y - m) * i) * g + b

/-- The leaky rectifier of slope `a`: `z` itself where the comparison `z ≥ 0` answers true, `a * z` elsewhere. The
    comparison is the extended reals' own (at the bottom element too), the zero is the zero word's value. -/
def leakyEntry (a z : EReal) : EReal :=
  Scalar.select (Ideal.cmp .oge z (Ideal.ofBits .f32 0x00000000#32)) z (a * z)

/-- The stage on a block, as the vector unit computes it: the five one-row operands spread down the rows. -/
def hiddenBlock (x0 : FVec Ideal S5000x128 .f32) (x1 x2 x3 x4 x5 : FVec Ideal S1x128 .f32) : FVec Ideal S5000x128 .f32 :=
  select
    (cmpf .oge
      (addf (mulf (mulf (subf x0 (broadcastTo S5000x128 x1 broadcasts_S1x128_S5000x128))
        (broadcastTo S5000x128 x2 broadcasts_S1x128_S5000x128)) (broadcastTo S5000x128 x3 broadcasts_S1x128_S5000x128))
        (broadcastTo S5000x128 x4 broadcasts_S1x128_S5000x128))
      (broadcast S5000x128 (FloatOps.ofBits .f32 0x00000000#32)))
    (addf (mulf (mulf (subf x0 (broadcastTo S5000x128 x1 broadcasts_S1x128_S5000x128))
      (broadcastTo S5000x128 x2 broadcasts_S1x128_S5000x128)) (broadcastTo S5000x128 x3 broadcasts_S1x128_S5000x128))
      (broadcastTo S5000x128 x4 broadcasts_S1x128_S5000x128))
    (mulf (broadcastTo S5000x128 x5 broadcasts_S1x128_S5000x128)
      (addf (mulf (mulf (subf x0 (broadcastTo S5000x128 x1 broadcasts_S1x128_S5000x128))
        (broadcastTo S5000x128 x2 broadcasts_S1x128_S5000x128)) (broadcastTo S5000x128 x3 broadcasts_S1x128_S5000x128))
        (broadcastTo S5000x128 x4 broadcasts_S1x128_S5000x128)))

/-- Entry `(p, k)` of that stage reads entry `(p, k)` of the block and entry `k` of each row. -/
theorem hiddenBlock_apply (x0 : FVec Ideal S5000x128 .f32) (x1 x2 x3 x4 x5 : FVec Ideal S1x128 .f32) (p : Fin 5000) (k : Fin 128) :
    hiddenBlock x0 x1 x2 x3 x4 x5 (ix2 p k)
      = leakyEntry (x5 (ix2 0 k)) (normalizedEntry (x0 (ix2 p k)) (x1 (ix2 0 k)) (x2 (ix2 0 k)) (x3 (ix2 0 k)) (x4 (ix2 0 k))) := by
  have h1 := broadcastTo_1b_ab_apply x1 broadcasts_S1x128_S5000x128 p k
  have h2 := broadcastTo_1b_ab_apply x2 broadcasts_S1x128_S5000x128 p k
  have h3 := broadcastTo_1b_ab_apply x3 broadcasts_S1x128_S5000x128 p k
  have h4 := broadcastTo_1b_ab_apply x4 broadcasts_S1x128_S5000x128 p k
  have h5 := broadcastTo_1b_ab_apply x5 broadcasts_S1x128_S5000x128 p k
  show leakyEntry (broadcastTo S5000x128 x5 broadcasts_S1x128_S5000x128 (ix2 p k))
      (normalizedEntry (x0 (ix2 p k)) (broadcastTo S5000x128 x1 broadcasts_S1x128_S5000x128 (ix2 p k))
        (broadcastTo S5000x128 x2 broadcasts_S1x128_S5000x128 (ix2 p k))
        (broadcastTo S5000x128 x3 broadcasts_S1x128_S5000x128 (ix2 p k))
        (broadcastTo S5000x128 x4 broadcasts_S1x128_S5000x128 (ix2 p k))) = _
  rw [h1, h2, h3, h4, h5]

/-- The body's stored value is that stage multiplied into the weight, each row then scaled. -/
theorem fused_block_eq (x0 : Vec Ideal S5000x128 .f32) (x1 x2 x3 x4 x5 : Vec Ideal S1x128 .f32) (x6 : Vec Ideal S128x128 .f32)
    (x7 : Vec Ideal S5000x1 .f32) :
    k2_pay1 x0 x1 x2 x3 x4 x5 x6 x7
      = mulf (matmul dot_S5000x128_S128x128_S5000x128_1_0_0_1_n_n none
            (truncf .bf16 (hiddenBlock x0 x1 x2 x3 x4 x5) bitsLt_bf16_f32) (truncf .bf16 x6 bitsLt_bf16_f32)
            (constant S5000x128 .f32 0x00000000#32))
          (broadcastTo S5000x128 x7 broadcasts_S5000x1_S5000x128) := by
  unfold k2_pay1 hiddenBlock
  simp only [shapeCast_self]

/-- Entry `(p, q)` of what the body stores. -/
theorem fused_block_apply (x0 : Vec Ideal S5000x128 .f32) (x1 x2 x3 x4 x5 : Vec Ideal S1x128 .f32) (x6 : Vec Ideal S128x128 .f32)
    (x7 : Vec Ideal S5000x1 .f32) (p : Fin 5000) (q : Fin 128) :
    k2_pay1 x0 x1 x2 x3 x4 x5 x6 x7 (ix2 p q)
      = (∑ k : Fin 128, leakyEntry (x5 (ix2 0 k))
            (normalizedEntry (x0 (ix2 p k)) (x1 (ix2 0 k)) (x2 (ix2 0 k)) (x3 (ix2 0 k)) (x4 (ix2 0 k))) * x6 (ix2 k q))
          * x7 (ix2 p 0) := by
  rw [fused_block_eq]
  have hm : FloatOps.matmul (DotDims.plain 5000 128 128) none (truncf .bf16 (hiddenBlock x0 x1 x2 x3 x4 x5) bitsLt_bf16_f32)
      (truncf .bf16 x6 bitsLt_bf16_f32) (constant (F := Ideal) ⟨2, ![5000, 128]⟩ .f32 0x00000000#32) (ix2 p q)
        = ∑ k : Fin 128, hiddenBlock x0 x1 x2 x3 x4 x5 (ix2 p k) * x6 (ix2 k q) :=
    Cert.Sage.matmul_plain_zero_apply none (truncf .bf16 (hiddenBlock x0 x1 x2 x3 x4 x5) bitsLt_bf16_f32)
      (truncf .bf16 x6 bitsLt_bf16_f32) p q
  have hs : (∑ k : Fin 128, hiddenBlock x0 x1 x2 x3 x4 x5 (ix2 p k) * x6 (ix2 k q))
      = ∑ k : Fin 128, leakyEntry (x5 (ix2 0 k))
            (normalizedEntry (x0 (ix2 p k)) (x1 (ix2 0 k)) (x2 (ix2 0 k)) (x3 (ix2 0 k)) (x4 (ix2 0 k))) * x6 (ix2 k q) :=
    Finset.sum_congr rfl fun k _ => by rw [hiddenBlock_apply]
  have hb : broadcastTo S5000x128 x7 broadcasts_S5000x1_S5000x128 (ix2 p q) = x7 (ix2 p 0) :=
    Cert.Layout.broadcastTo_a1_ab_apply x7 broadcasts_S5000x1_S5000x128 p q
  exact congrArg₂ (· * ·) (hm.trans hs) hb

/-! ## The whole array -/

/-- Entry `(r, k)` of the stage over whole arrays: `Y` normalized column by column with the rows `M` (centre), `I` and
    `G` (scales) and `B` (shift), then the leaky rectifier with column `k`'s slope `A`. -/
def hiddenAt (Y : S100000x128.Idx → EReal) (M I G B A : S1x128.Idx → EReal) (r : Fin 100000) (k : Fin 128) : EReal :=
  leakyEntry (A (ix2 0 k)) (normalizedEntry (Y (ix2 r k)) (M (ix2 0 k)) (I (ix2 0 k)) (G (ix2 0 k)) (B (ix2 0 k)))

/-- The definition spelt out. -/
theorem hiddenAt_eq (Y : S100000x128.Idx → EReal) (M I G B A : S1x128.Idx → EReal) (r : Fin 100000) (k : Fin 128) :
    hiddenAt Y M I G B A r k
      = Scalar.select
          (Ideal.cmp .oge (((Y (ix2 r k) - M (ix2 0 k)) * I (ix2 0 k)) * G (ix2 0 k) + B (ix2 0 k)) (Ideal.ofBits .f32 0x00000000#32))
          (((Y (ix2 r k) - M (ix2 0 k)) * I (ix2 0 k)) * G (ix2 0 k) + B (ix2 0 k))
          (A (ix2 0 k) * (((Y (ix2 r k) - M (ix2 0 k)) * I (ix2 0 k)) * G (ix2 0 k) + B (ix2 0 k))) := rfl

/-- Entry `(r, q)` of the stage multiplied into `W`, row `r` then scaled by `D`'s entry `r`. -/
def fusedAt (Y : S100000x128.Idx → EReal) (M I G B A : S1x128.Idx → EReal) (W : S128x128.Idx → EReal)
    (D : S100000x1.Idx → EReal) (r : Fin 100000) (q : Fin 128) : EReal :=
  (∑ k : Fin 128, hiddenAt Y M I G B A r k * W (ix2 k q)) * D (ix2 r 0)

/-- The definition, as an equation to rewrite with. -/
theorem fusedAt_eq (Y : S100000x128.Idx → EReal) (M I G B A : S1x128.Idx → EReal) (W : S128x128.Idx → EReal)
    (D : S100000x1.Idx → EReal) (r : Fin 100000) (q : Fin 128) :
    fusedAt Y M I G B A W D r q = (∑ k : Fin 128, hiddenAt Y M I G B A r k * W (ix2 k q)) * D (ix2 r 0) := rfl

/-- The same as one function of the array's index. -/
def fused (Y : S100000x128.Idx → EReal) (M I G B A : S1x128.Idx → EReal) (W : S128x128.Idx → EReal)
    (D : S100000x1.Idx → EReal) : S100000x128.Idx → EReal :=
  fun i => fusedAt Y M I G B A W D (i 0) (i 1)

theorem zeroOffsets2 : (![0, 0] : Fin 2 → Nat) = fun _ => 0 := funext fun a => by fin_cases a <;> rfl

/-- Row `p` of the block of grid point `t` is row `5000 t + p` of the array. -/
def rowOfBlock2 (t : Fin cfg2.N) (p : Fin 5000) : Fin 100000 :=
  ⟨5000 * t.val + p.val, by have h : t.val < cfg2.N := t.isLt; have hN : cfg2.N = 20 := N_2; have := p.isLt; omega⟩

/-! The printed index maps over the grid: the row-blocked windows (0, 7, 8) sit at block row `t`, block column 0; every
    other window always at its one block. -/
theorem index2_0 : ∀ t : Fin cfg2.N, win2_0.index t (0 : Fin 2) = t.val ∧ win2_0.index t (1 : Fin 2) = 0 :=
  (by decide +kernel : ∀ t : Fin grid2.N, _)
theorem index2_1 : ∀ t : Fin cfg2.N, win2_1.index t (0 : Fin 2) = 0 ∧ win2_1.index t (1 : Fin 2) = 0 :=
  (by decide +kernel : ∀ t : Fin grid2.N, _)
theorem index2_2 : ∀ t : Fin cfg2.N, win2_2.index t (0 : Fin 2) = 0 ∧ win2_2.index t (1 : Fin 2) = 0 :=
  (by decide +kernel : ∀ t : Fin grid2.N, _)
theorem index2_3 : ∀ t : Fin cfg2.N, win2_3.index t (0 : Fin 2) = 0 ∧ win2_3.index t (1 : Fin 2) = 0 :=
  (by decide +kernel : ∀ t : Fin grid2.N, _)
theorem index2_4 : ∀ t : Fin cfg2.N, win2_4.index t (0 : Fin 2) = 0 ∧ win2_4.index t (1 : Fin 2) = 0 :=
  (by decide +kernel : ∀ t : Fin grid2.N, _)
theorem index2_5 : ∀ t : Fin cfg2.N, win2_5.index t (0 : Fin 2) = 0 ∧ win2_5.index t (1 : Fin 2) = 0 :=
  (by decide +kernel : ∀ t : Fin grid2.N, _)
theorem index2_6 : ∀ t : Fin cfg2.N, win2_6.index t (0 : Fin 2) = 0 ∧ win2_6.index t (1 : Fin 2) = 0 :=
  (by decide +kernel : ∀ t : Fin grid2.N, _)
theorem index2_7 : ∀ t : Fin cfg2.N, win2_7.index t (0 : Fin 2) = t.val ∧ win2_7.index t (1 : Fin 2) = 0 :=
  (by decide +kernel : ∀ t : Fin grid2.N, _)
theorem index2_8 : ∀ t : Fin cfg2.N, win2_8.index t (0 : Fin 2) = t.val ∧ win2_8.index t (1 : Fin 2) = 0 :=
  (by decide +kernel : ∀ t : Fin grid2.N, _)

variable (V : (c : Dev nD) → (b : Ref sig .tc) → Buf (Elt Ideal) ((c : Thread nD τ).loc b))

/-- The input's block at point `t` holds rows `5000 t …` of its array. -/
theorem inputBlock2_apply (c : Dev nD) (t : Fin cfg2.N) (p : Fin 5000) (k : Fin 128) :
    (iblk2 V c 0 t : Vec Ideal S5000x128 .f32) (ix2 p k) = (V c main_v40_0 : S100000x128.Idx → EReal) (ix2 (rowOfBlock2 t p) k) := by
  obtain ⟨e0, e1⟩ := index2_0 t
  unfold iblk2
  rw [View.read_apply]
  show V c main_v40_0 _ = V c main_v40_0 _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- The mean row's block at every point is the whole one-row array. -/
theorem meanBlock2_apply (c : Dev nD) (t : Fin cfg2.N) (k : Fin 128) :
    (iblk2 V c 1 t : Vec Ideal S1x128 .f32) (ix2 0 k) = (V c main_v44 : S1x128.Idx → EReal) (ix2 0 k) := by
  obtain ⟨e0, e1⟩ := index2_1 t
  unfold iblk2
  rw [View.read_apply]
  show V c main_v44 _ = V c main_v44 _
  congr 1
  funext a
  apply Fin.ext
  match a with
  | ⟨0, _⟩ => show win2_1.index t (0 : Fin 2) * 1 + 1 * 0 = 0; rw [e0]
  | ⟨1, _⟩ => show win2_1.index t (1 : Fin 2) * 128 + 1 * k.val = k.val; rw [e1]; omega

/-- The invStd row's block at every point is the whole one-row array. -/
theorem invStdBlock2_apply (c : Dev nD) (t : Fin cfg2.N) (k : Fin 128) :
    (iblk2 V c 2 t : Vec Ideal S1x128 .f32) (ix2 0 k) = (V c main_v51 : S1x128.Idx → EReal) (ix2 0 k) := by
  obtain ⟨e0, e1⟩ := index2_2 t
  unfold iblk2
  rw [View.read_apply]
  show V c main_v51 _ = V c main_v51 _
  congr 1
  funext a
  apply Fin.ext
  match a with
  | ⟨0, _⟩ => show win2_2.index t (0 : Fin 2) * 1 + 1 * 0 = 0; rw [e0]
  | ⟨1, _⟩ => show win2_2.index t (1 : Fin 2) * 128 + 1 * k.val = k.val; rw [e1]; omega

/-- The gain row's block at every point is the whole one-row array. -/
theorem gainBlock2_apply (c : Dev nD) (t : Fin cfg2.N) (k : Fin 128) :
    (iblk2 V c 3 t : Vec Ideal S1x128 .f32) (ix2 0 k) = (V c main_v53 : S1x128.Idx → EReal) (ix2 0 k) := by
  obtain ⟨e0, e1⟩ := index2_3 t
  unfold iblk2
  rw [View.read_apply]
  show V c main_v53 _ = V c main_v53 _
  congr 1
  funext a
  apply Fin.ext
  match a with
  | ⟨0, _⟩ => show win2_3.index t (0 : Fin 2) * 1 + 1 * 0 = 0; rw [e0]
  | ⟨1, _⟩ => show win2_3.index t (1 : Fin 2) * 128 + 1 * k.val = k.val; rw [e1]; omega

/-- The shift row's block at every point is the whole one-row array. -/
theorem shiftBlock2_apply (c : Dev nD) (t : Fin cfg2.N) (k : Fin 128) :
    (iblk2 V c 4 t : Vec Ideal S1x128 .f32) (ix2 0 k) = (V c main_v54 : S1x128.Idx → EReal) (ix2 0 k) := by
  obtain ⟨e0, e1⟩ := index2_4 t
  unfold iblk2
  rw [View.read_apply]
  show V c main_v54 _ = V c main_v54 _
  congr 1
  funext a
  apply Fin.ext
  match a with
  | ⟨0, _⟩ => show win2_4.index t (0 : Fin 2) * 1 + 1 * 0 = 0; rw [e0]
  | ⟨1, _⟩ => show win2_4.index t (1 : Fin 2) * 128 + 1 * k.val = k.val; rw [e1]; omega

/-- The slope row's block at every point is the whole one-row array. -/
theorem slopeBlock2_apply (c : Dev nD) (t : Fin cfg2.N) (k : Fin 128) :
    (iblk2 V c 5 t : Vec Ideal S1x128 .f32) (ix2 0 k) = (V c main_v56 : S1x128.Idx → EReal) (ix2 0 k) := by
  obtain ⟨e0, e1⟩ := index2_5 t
  unfold iblk2
  rw [View.read_apply]
  show V c main_v56 _ = V c main_v56 _
  congr 1
  funext a
  apply Fin.ext
  match a with
  | ⟨0, _⟩ => show win2_5.index t (0 : Fin 2) * 1 + 1 * 0 = 0; rw [e0]
  | ⟨1, _⟩ => show win2_5.index t (1 : Fin 2) * 128 + 1 * k.val = k.val; rw [e1]; omega

/-- The weight's block at every point is the whole weight. -/
theorem weightBlock2_apply (c : Dev nD) (t : Fin cfg2.N) (k : Fin 128) (q : Fin 128) :
    (iblk2 V c 6 t : Vec Ideal S128x128 .f32) (ix2 k q) = (V c main_arg11 : S128x128.Idx → EReal) (ix2 k q) := by
  obtain ⟨e0, e1⟩ := index2_6 t
  unfold iblk2
  rw [View.read_apply]
  show V c main_arg11 _ = V c main_arg11 _
  congr 1
  funext a
  apply Fin.ext
  match a with
  | ⟨0, _⟩ => show win2_6.index t (0 : Fin 2) * 128 + 1 * k.val = k.val; rw [e0]; omega
  | ⟨1, _⟩ => show win2_6.index t (1 : Fin 2) * 128 + 1 * q.val = q.val; rw [e1]; omega

/-- The scale's block at point `t` holds rows `5000 t …` of its one-column array. -/
theorem scaleBlock2_apply (c : Dev nD) (t : Fin cfg2.N) (p : Fin 5000) :
    (iblk2 V c 7 t : Vec Ideal S5000x1 .f32) (ix2 p 0) = (V c main_v52 : S100000x1.Idx → EReal) (ix2 (rowOfBlock2 t p) 0) := by
  obtain ⟨e0, e1⟩ := index2_7 t
  unfold iblk2
  rw [View.read_apply]
  show V c main_v52 _ = V c main_v52 _
  congr 1
  funext a
  apply Fin.ext
  match a with
  | ⟨0, _⟩ => show win2_7.index t (0 : Fin 2) * 5000 + 1 * p.val = 5000 * t.val + p.val; rw [e0]; omega
  | ⟨1, _⟩ => show win2_7.index t (1 : Fin 2) * 1 + 1 * 0 = 0; rw [e1]

/-- Entry `(p, q)` of the output's block at point `t` is entry `(5000 t + p, q)` of the array. -/
theorem outBlock2_emb (t : Fin cfg2.N) (p : Fin 5000) (q : Fin 128) :
    ((cfg2.win 8).blk t).view.emb (ix2 p q) = (ix2 (rowOfBlock2 t p) q : S100000x128.Idx) := by
  obtain ⟨e0, e1⟩ := index2_8 t
  funext a
  apply Fin.ext
  match a with
  | ⟨0, _⟩ => show win2_8.index t (0 : Fin 2) * 5000 + 1 * p.val = 5000 * t.val + p.val; rw [e0]; omega
  | ⟨1, _⟩ => show win2_8.index t (1 : Fin 2) * 128 + 1 * q.val = q.val; rw [e1]; omega

/-- What grid point `t` writes back is block `t` of `fused` of the arrays the region finds. -/
theorem flushed2_eq (c : Dev nD) (t : Fin cfg2.N) :
    (dat2 V c).flushed 8 t
      = ((cfg2.win 8).blk t).view.read (Elt Ideal)
          (fused (V c main_v40_0) (V c main_v44) (V c main_v51) (V c main_v53) (V c main_v54) (V c main_v56)
            (V c main_arg11) (V c main_v52)) := by
  show (cfg2.win 8).cut (grid2.coords t) ((dat2 V c).after 8 t) = _
  rw [after2_8]
  unfold out2_8
  rw [View.canon_unit_zero zeroOffsets2]
  simp only [View.ld_unit_zero (S := S5000x128) zeroOffsets2, View.ld_unit_zero (S := S128x128) zeroOffsets2,
    View.ld_unit_zero (S := S5000x1) zeroOffsets2, View.ld_unit_zero (S := S1x128) zeroOffsets2]
  funext j
  obtain ⟨p, q, rfl⟩ : ∃ (p : Fin 5000) (q : Fin 128), j = ix2 p q := ⟨j 0, j 1, eq_ix2 (n0 := 5000) (n1 := 128) j⟩
  show k2_pay1 (iblk2 V c 0 t) (iblk2 V c 1 t) (iblk2 V c 2 t) (iblk2 V c 3 t) (iblk2 V c 4 t) (iblk2 V c 5 t)
      (iblk2 V c 6 t) (iblk2 V c 7 t) (ix2 p q)
    = fused (V c main_v40_0) (V c main_v44) (V c main_v51) (V c main_v53) (V c main_v54) (V c main_v56)
        (V c main_arg11) (V c main_v52) (((cfg2.win 8).blk t).view.emb (ix2 p q))
  rw [outBlock2_emb]
  refine (fused_block_apply (iblk2 V c 0 t) (iblk2 V c 1 t) (iblk2 V c 2 t) (iblk2 V c 3 t) (iblk2 V c 4 t)
    (iblk2 V c 5 t) (iblk2 V c 6 t) (iblk2 V c 7 t) p q).trans ?_
  show _ = fusedAt (V c main_v40_0) (V c main_v44) (V c main_v51) (V c main_v53) (V c main_v54) (V c main_v56)
      (V c main_arg11) (V c main_v52) (rowOfBlock2 t p) q
  unfold fusedAt hiddenAt
  rw [scaleBlock2_apply V c t p]
  exact congrArg (· * _) (Finset.sum_congr rfl fun k _ => by
    rw [inputBlock2_apply V c t p k, meanBlock2_apply V c t k, invStdBlock2_apply V c t k, gainBlock2_apply V c t k,
      shiftBlock2_apply V c t k, slopeBlock2_apply V c t k, weightBlock2_apply V c t k q])

/-- An index of the array is in point `t`'s block iff each coordinate is in the block's range on its axis. -/
theorem mem_outBlock2 (t : Fin cfg2.N) (i : S100000x128.Idx) :
    i ∈ ((cfg2.win 8).blk t).view.set ↔ ∀ a : Fin 2, win2_8.index t a * S5000x128.size a ≤ (i a).val
      ∧ (i a).val < win2_8.index t a * S5000x128.size a + S5000x128.size a := by
  show i ∈ ((View.whole main_v57).slice (win2_8.rect t)).set ↔ _
  rw [View.set_slice_whole, Rect.mem_set_unit]
  exact Iff.rfl

/-- Row `r` lies in the block of point `r / 5000`: the twenty blocks tile the array. -/
theorem cover2 (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨e0, e1⟩ := index2_8 t
  have ht : t.val = (i 0).val / 5000 := rfl
  refine ⟨t, flush2_8 t, ?_⟩
  rw [mem_outBlock2]
  intro a
  match a with
  | ⟨0, _⟩ => show win2_8.index t (0 : Fin 2) * 5000 ≤ (i 0).val ∧ (i 0).val < win2_8.index t (0 : Fin 2) * 5000 + 5000; rw [e0, ht]; omega
  | ⟨1, _⟩ => show win2_8.index t (1 : Fin 2) * 128 ≤ (i 1).val ∧ (i 1).val < win2_8.index t (1 : Fin 2) * 128 + 128; rw [e1]; omega

/-- The output array of region 2 after its run, as one function of the arrays the region finds. -/
theorem region2_array (c : Dev nD) :
    (dat2 V c).arrAt 8 cfg2.N
      = fused (V c main_v40_0) (V c main_v44) (V c main_v51) (V c main_v53) (V c main_v54) (V c main_v56)
          (V c main_arg11) (V c main_v52) :=
  (dat2 V c).arrAt_eq_of_cover 8
    (fused (V c main_v40_0) (V c main_v44) (V c main_v51) (V c main_v53) (V c main_v54) (V c main_v56)
      (V c main_arg11) (V c main_v52))
    (fun t _ => flushed2_eq V c t) cover2

/-- REGION 2, entry by entry: the output array holds the normalized, rectified input multiplied into `w`, each row
    scaled. -/
theorem region2_value (c : Dev nD) (r : Fin 100000) (q : Fin 128) :
    (dat2 V c).arrAt 8 cfg2.N (ix2 r q)
      = fusedAt (V c main_v40_0) (V c main_v44) (V c main_v51) (V c main_v53) (V c main_v54) (V c main_v56)
          (V c main_arg11) (V c main_v52) r q := by
  rw [region2_array V c]
  rfl

end Cert.KernelIdeal.RegionValue

end
-- ==== Proof.Region3.lean ====
/-
  The values of the three outputs of the fourth TensorCore region (pipeline 3), over the extended reals, for ANY contents V of the
  buffers at the region's entry.  The region runs the same body as the second one on its own three input arrays Agg [100000,128],
  D [100000,1], B [1,128]: with  y(r, q) = Agg(r, q) * D(r, 0) + B(0, q)  it leaves  out0(r, q) = y(r, q),
  out1(t, 0, q) = Σ_{j < 5000} y(5000 t + j, q),  out2(t, 0, q) = Σ_{j < 5000} y(5000 t + j, q)²  (t < 20).  The body's arithmetic on a
  block is that of the second region (`pay1_eq`, `pay2_eq`, `pay3_eq`, and the block lemmas `blk3_core'`, `blk4_core'`, `blk5_core'`), so only the passage from the 20 blocks to the arrays is
  redone here, for this region's windows.
-/
import proofs.«122415_j30588757082611_2_alg».proof.Proof.Gen.KernelIdeal.Frame
import proofs.«122415_j30588757082611_2_alg».proof.Proof.Region1
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R3

/-- The fourth region runs the same body as the second: its three stored values are the same functions of the loaded blocks. -/
theorem pay1_eq (x0 : Vec Ideal S5000x128 .f32) (x1 : Vec Ideal S5000x1 .f32) (x2 : Vec Ideal S1x128 .f32) :
    k3_pay1 (F := Ideal) x0 x1 x2 = k1_pay1 (F := Ideal) x0 x1 x2 := rfl
theorem pay2_eq (x0 : Vec Ideal S5000x128 .f32) (x1 : Vec Ideal S5000x1 .f32) (x2 : Vec Ideal S1x128 .f32) :
    k3_pay2 (F := Ideal) x0 x1 x2 = k1_pay2 (F := Ideal) x0 x1 x2 := rfl
theorem pay3_eq (x0 : Vec Ideal S5000x128 .f32) (x1 : Vec Ideal S5000x1 .f32) (x2 : Vec Ideal S1x128 .f32) :
    k3_pay3 (F := Ideal) x0 x1 x2 = k1_pay3 (F := Ideal) x0 x1 x2 := rfl

/-- So the three block lemmas of the second region hold of this region's stored values. -/
theorem blk3_core' (Agg : S100000x128.Idx → EReal) (D : S100000x1.Idx → EReal) (B : S1x128.Idx → EReal)
    (x0 : Vec Ideal S5000x128 .f32) (x1 : Vec Ideal S5000x1 .f32) (x2 : Vec Ideal S1x128 .f32) (tv : Nat)
    (y : S5000x128.Idx) (i : S100000x128.Idx)
    (h0 : ∀ (p : Fin 5000) (q : Fin 128) (k : Fin 100000), k.val = 5000 * tv + p.val → x0 (ix2 p q) = Agg (ix2 k q))
    (h1 : ∀ (p : Fin 5000) (k : Fin 100000), k.val = 5000 * tv + p.val → x1 (ix2 p 0) = D (ix2 k 0))
    (h2 : ∀ q : Fin 128, x2 (ix2 0 q) = B (ix2 0 q))
    (hi0 : (i 0).val = 5000 * tv + (y 0).val) (hi1 : (i 1).val = (y 1).val) :
    k3_pay1 (F := Ideal) x0 x1 x2 y = G3 Agg D B i :=
  (congrFun (pay1_eq x0 x1 x2) y).trans (blk3_core Agg D B x0 x1 x2 tv y i h0 h1 h2 hi0 hi1)

theorem blk4_core' (Agg : S100000x128.Idx → EReal) (D : S100000x1.Idx → EReal) (B : S1x128.Idx → EReal)
    (x0 : Vec Ideal S5000x128 .f32) (x1 : Vec Ideal S5000x1 .f32) (x2 : Vec Ideal S1x128 .f32) (tv : Nat)
    (y : S1x1x128.Idx) (i : S20x1x128.Idx)
    (h0 : ∀ (p : Fin 5000) (q : Fin 128) (k : Fin 100000), k.val = 5000 * tv + p.val → x0 (ix2 p q) = Agg (ix2 k q))
    (h1 : ∀ (p : Fin 5000) (k : Fin 100000), k.val = 5000 * tv + p.val → x1 (ix2 p 0) = D (ix2 k 0))
    (h2 : ∀ q : Fin 128, x2 (ix2 0 q) = B (ix2 0 q))
    (hi0 : (i 0).val = tv) (hi2 : (i 2).val = (y 2).val) :
    k3_pay2 (F := Ideal) x0 x1 x2 y = G4 Agg D B i :=
  (congrFun (pay2_eq x0 x1 x2) y).trans (blk4_core Agg D B x0 x1 x2 tv y i h0 h1 h2 hi0 hi2)

theorem blk5_core' (Agg : S100000x128.Idx → EReal) (D : S100000x1.Idx → EReal) (B : S1x128.Idx → EReal)
    (x0 : Vec Ideal S5000x128 .f32) (x1 : Vec Ideal S5000x1 .f32) (x2 : Vec Ideal S1x128 .f32) (tv : Nat)
    (y : S1x1x128.Idx) (i : S20x1x128.Idx)
    (h0 : ∀ (p : Fin 5000) (q : Fin 128) (k : Fin 100000), k.val = 5000 * tv + p.val → x0 (ix2 p q) = Agg (ix2 k q))
    (h1 : ∀ (p : Fin 5000) (k : Fin 100000), k.val = 5000 * tv + p.val → x1 (ix2 p 0) = D (ix2 k 0))
    (h2 : ∀ q : Fin 128, x2 (ix2 0 q) = B (ix2 0 q))
    (hi0 : (i 0).val = tv) (hi2 : (i 2).val = (y 2).val) :
    k3_pay3 (F := Ideal) x0 x1 x2 y = G5 Agg D B i :=
  (congrFun (pay3_eq x0 x1 x2) y).trans (blk5_core Agg D B x0 x1 x2 tv y i h0 h1 h2 hi0 hi2)

variable (V : (c : Dev nD) → (b : Ref sig .tc) → Buf (Elt Ideal) ((c : Thread nD τ).loc b))

/-- The index maps over the 20 grid points: windows 0, 1, 3 sit at row block t, column block 0; window 2 at block (0, 0);
    windows 4 and 5 at block (t, 0, 0). -/
theorem idx_w0 : ∀ t : Fin cfg3.N, win3_0.index t (0 : Fin 2) = t.val ∧ win3_0.index t (1 : Fin 2) = 0 :=
  (by decide +kernel : ∀ t : Fin grid3.N, _)
theorem idx_w1 : ∀ t : Fin cfg3.N, win3_1.index t (0 : Fin 2) = t.val ∧ win3_1.index t (1 : Fin 2) = 0 :=
  (by decide +kernel : ∀ t : Fin grid3.N, _)
theorem idx_w2 : ∀ t : Fin cfg3.N, win3_2.index t (0 : Fin 2) = 0 ∧ win3_2.index t (1 : Fin 2) = 0 :=
  (by decide +kernel : ∀ t : Fin grid3.N, _)
theorem idx_w3 : ∀ t : Fin cfg3.N, win3_3.index t (0 : Fin 2) = t.val ∧ win3_3.index t (1 : Fin 2) = 0 :=
  (by decide +kernel : ∀ t : Fin grid3.N, _)
theorem idx_w4 : ∀ t : Fin cfg3.N, win3_4.index t (0 : Fin 3) = t.val ∧ win3_4.index t (1 : Fin 3) = 0 ∧ win3_4.index t (2 : Fin 3) = 0 :=
  (by decide +kernel : ∀ t : Fin grid3.N, _)
theorem idx_w5 : ∀ t : Fin cfg3.N, win3_5.index t (0 : Fin 3) = t.val ∧ win3_5.index t (1 : Fin 3) = 0 ∧ win3_5.index t (2 : Fin 3) = 0 :=
  (by decide +kernel : ∀ t : Fin grid3.N, _)

theorem t_lt (t : Fin cfg3.N) : t.val < 20 := lt_of_lt_of_eq t.isLt N_3

/-- Block t of the first input is rows 5000 t … 5000 t + 4999 of its array. -/
theorem iblk0_apply (c : Dev nD) (t : Fin cfg3.N) (p : Fin 5000) (q : Fin 128) (k : Fin 100000)
    (hk : k.val = 5000 * t.val + p.val) :
    (iblk3 V c 0 t : Vec Ideal S5000x128 .f32) (ix2 p q)
      = (V c (Pipeline.arrRef spec3 0) : S100000x128.Idx → EReal) (ix2 k q) := by
  have e0 := (idx_w0 t).1
  have e1 := (idx_w0 t).2
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 5000 + 1 * p.val = k.val; rw [e0, hk]; omega
  | ⟨1, _⟩ => show win3_0.index t (1 : Fin 2) * 128 + 1 * q.val = q.val; rw [e1]; omega

/-- Block t of the second input is the same rows of the column array. -/
theorem iblk3_apply (c : Dev nD) (t : Fin cfg3.N) (p : Fin 5000) (k : Fin 100000)
    (hk : k.val = 5000 * t.val + p.val) :
    (iblk3 V c 1 t : Vec Ideal S5000x1 .f32) (ix2 p 0)
      = (V c (Pipeline.arrRef spec3 1) : S100000x1.Idx → EReal) (ix2 k 0) := by
  have e0 := (idx_w1 t).1
  have e1 := (idx_w1 t).2
  unfold iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 5000 + 1 * p.val = k.val; rw [e0, hk]; omega
  | ⟨1, _⟩ => show win3_1.index t (1 : Fin 2) * 1 + 1 * 0 = 0; rw [e1]

/-- The third input's block is the whole row at every point. -/
theorem iblk2_apply (c : Dev nD) (t : Fin cfg3.N) (q : Fin 128) :
    (iblk3 V c 2 t : Vec Ideal S1x128 .f32) (ix2 0 q)
      = (V c (Pipeline.arrRef spec3 2) : S1x128.Idx → EReal) (ix2 0 q) := by
  have e0 := (idx_w2 t).1
  have e1 := (idx_w2 t).2
  unfold iblk3
  rw [View.read_apply]
  show V c (Pipeline.arrRef spec3 2) _ = V c (Pipeline.arrRef spec3 2) _
  refine congrArg _ (funext fun a => Fin.ext ?_)
  match a with
  | ⟨0, _⟩ => show win3_2.index t (0 : Fin 2) * 1 + 1 * 0 = 0; rw [e0]
  | ⟨1, _⟩ => show win3_2.index t (1 : Fin 2) * 128 + 1 * q.val = q.val; rw [e1]; omega

set_option maxHeartbeats 1000000 in
/-- What point t writes back to the first output is block t of the array function. -/
theorem flushed3_eq (c : Dev nD) (t : Fin cfg3.N) :
    (dat3 V c).flushed 3 t = ((cfg3.win 3).blk t).view.read (Elt Ideal)
      (G3 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S5000x1) hz2, View.ld_unit_zero (S := S1x128) hz2]
  funext j
  generalize hG : G3 (V c (Pipeline.arrRef spec3 0)) (V c (Pipeline.arrRef spec3 1)) (V c (Pipeline.arrRef spec3 2)) = G
  generalize hX : k3_pay1 (F := Ideal) (iblk3 V c 0 t) (iblk3 V c 1 t) (iblk3 V c 2 t) = X
  show X j = G (((cfg3.win 3).blk t).view.emb j)
  rw [← hG, ← hX]
  have hi0 : ((((cfg3.win 3).blk t).view.emb j : S100000x128.Idx) 0).val = 5000 * t.val + ((j : S5000x128.Idx) 0).val := by
    show win3_3.index t (0 : Fin 2) * 5000 + 1 * (j 0).val = 5000 * t.val + (j 0).val; rw [(idx_w3 t).1]; omega
  have hi1 : ((((cfg3.win 3).blk t).view.emb j : S100000x128.Idx) 1).val = ((j : S5000x128.Idx) 1).val := by
    show win3_3.index t (1 : Fin 2) * 128 + 1 * (j 1).val = (j 1).val; rw [(idx_w3 t).2]; omega
  exact blk3_core' (V c (Pipeline.arrRef spec3 0)) (V c (Pipeline.arrRef spec3 1)) (V c (Pipeline.arrRef spec3 2))
    (iblk3 V c 0 t) (iblk3 V c 1 t) (iblk3 V c 2 t) t.val j (((cfg3.win 3).blk t).view.emb j) (iblk0_apply V c t) (iblk3_apply V c t) (iblk2_apply V c t) hi0 hi1

/-- An index of the array is in point t's block iff each coordinate is in the block's range on its axis. -/
theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v70_0).slice (win3_3.rect t)).set ↔ _
  rw [View.set_slice_whole, Rect.mem_set_unit]
  exact Iff.rfl

theorem cover3 (i : S100000x128.Idx) : ∃ t : Fin cfg3.N, (cfg3.win 3).flush t = true ∧ i ∈ ((cfg3.win 3).blk t).view.set := by
  have hi0 : (i 0).val < 100000 := idx2_lt0 i
  have hi1 : (i 1).val < 128 := idx2_lt1 i
  have hN : cfg3.N = 20 := N_3
  refine ⟨⟨(i 0).val / 5000, by rw [hN]; omega⟩, flush3_3 _, ?_⟩
  have e0 := (idx_w3 ⟨(i 0).val / 5000, by rw [hN]; omega⟩).1
  have e1 := (idx_w3 ⟨(i 0).val / 5000, by rw [hN]; omega⟩).2
  rw [mem_blk3]
  intro a
  match a with
  | ⟨0, _⟩ => show win3_3.index _ (0 : Fin 2) * 5000 ≤ (i 0).val ∧ (i 0).val < win3_3.index _ (0 : Fin 2) * 5000 + 5000; rw [e0]; show (i 0).val / 5000 * 5000 ≤ (i 0).val ∧ (i 0).val < (i 0).val / 5000 * 5000 + 5000; omega
  | ⟨1, _⟩ => show win3_3.index _ (1 : Fin 2) * 128 ≤ (i 1).val ∧ (i 1).val < win3_3.index _ (1 : Fin 2) * 128 + 128; rw [e1]; omega

theorem final3 (c : Dev nD) : (dat3 V c).arrAt 3 cfg3.N
    = G3 (V c (Pipeline.arrRef spec3 0)) (V c (Pipeline.arrRef spec3 1)) (V c (Pipeline.arrRef spec3 2)) :=
  (dat3 V c).arrAt_eq_of_cover 3 _ (fun t _ => flushed3_eq V c t) cover3

theorem arr3 (c : Dev nD) (r : Fin 100000) (q : Fin 128) :
    (Gen.dat3 (F := Ideal) V c).arrAt 3 cfg3.N (ix2 r q)
      = yAt (V c (Pipeline.arrRef spec3 0)) (V c (Pipeline.arrRef spec3 1)) (V c (Pipeline.arrRef spec3 2)) r q := by
  rw [final3]; rfl

set_option maxHeartbeats 1000000 in
/-- What point t writes back to output window 4 is block t of the array function. -/
theorem flushed4_eq (c : Dev nD) (t : Fin cfg3.N) :
    (dat3 V c).flushed 4 t = ((cfg3.win 4).blk t).view.read (Elt Ideal)
      (G4 (V c (Pipeline.arrRef spec3 0)) (V c (Pipeline.arrRef spec3 1)) (V c (Pipeline.arrRef spec3 2))) := by
  show (cfg3.win 4).cut (grid3.coords t) ((dat3 V c).after 4 t) = _
  rw [after3_4]
  unfold out3_4
  rw [View.canon_unit_zero hz3]
  simp only [View.ld_unit_zero (S := S5000x128) hz2, View.ld_unit_zero (S := S5000x1) hz2, View.ld_unit_zero (S := S1x128) hz2]
  funext j
  generalize hG : G4 (V c (Pipeline.arrRef spec3 0)) (V c (Pipeline.arrRef spec3 1)) (V c (Pipeline.arrRef spec3 2)) = G
  generalize hX : k3_pay2 (F := Ideal) (iblk3 V c 0 t) (iblk3 V c 1 t) (iblk3 V c 2 t) = X
  show X j = G (((cfg3.win 4).blk t).view.emb j)
  rw [← hG, ← hX]
  have hi0 : ((((cfg3.win 4).blk t).view.emb j : S20x1x128.Idx) 0).val = t.val := by
    have hj : ((j : S1x1x128.Idx) 0).val < 1 := idx3_lt0 j
    show win3_4.index t (0 : Fin 3) * 1 + 1 * (j 0).val = t.val; rw [(idx_w4 t).1]; omega
  have hi2 : ((((cfg3.win 4).blk t).view.emb j : S20x1x128.Idx) 2).val = ((j : S1x1x128.Idx) 2).val := by
    show win3_4.index t (2 : Fin 3) * 128 + 1 * (j 2).val = (j 2).val; rw [(idx_w4 t).2.2]; omega
  exact blk4_core' (V c (Pipeline.arrRef spec3 0)) (V c (Pipeline.arrRef spec3 1)) (V c (Pipeline.arrRef spec3 2))
    (iblk3 V c 0 t) (iblk3 V c 1 t) (iblk3 V c 2 t) t.val j (((cfg3.win 4).blk t).view.emb j) (iblk0_apply V c t) (iblk3_apply V c t) (iblk2_apply V c t) hi0 hi2

theorem mem_blk4 (t : Fin cfg3.N) (i : S20x1x128.Idx) :
    i ∈ ((cfg3.win 4).blk t).view.set ↔ ∀ a : Fin 3, win3_4.index t a * S1x1x128.size a ≤ (i a).val ∧ (i a).val < win3_4.index t a * S1x1x128.size a + S1x1x128.size a := by
  show i ∈ ((View.whole main_v70_1).slice (win3_4.rect t)).set ↔ _
  rw [View.set_slice_whole, Rect.mem_set_unit]
  exact Iff.rfl

/-- Entry (t, 0, q) lies in point t's block. -/
theorem cover4 (i : S20x1x128.Idx) : ∃ t : Fin cfg3.N, (cfg3.win 4).flush t = true ∧ i ∈ ((cfg3.win 4).blk t).view.set := by
  have hi0 : (i 0).val < 20 := idx3_lt0 i
  have hi1 : (i 1).val < 1 := (i 1).isLt
  have hi2 : (i 2).val < 128 := idx3_lt2 i
  have hN : cfg3.N = 20 := N_3
  refine ⟨⟨(i 0).val, by rw [hN]; exact hi0⟩, flush3_4 _, ?_⟩
  have e0 := (idx_w4 ⟨(i 0).val, by rw [hN]; exact hi0⟩).1
  have e1 := (idx_w4 ⟨(i 0).val, by rw [hN]; exact hi0⟩).2.1
  have e2 := (idx_w4 ⟨(i 0).val, by rw [hN]; exact hi0⟩).2.2
  rw [mem_blk4]
  intro a
  match a with
  | ⟨0, _⟩ => show win3_4.index _ (0 : Fin 3) * 1 ≤ (i 0).val ∧ (i 0).val < win3_4.index _ (0 : Fin 3) * 1 + 1; rw [e0]; show (i 0).val * 1 ≤ (i 0).val ∧ (i 0).val < (i 0).val * 1 + 1; omega
  | ⟨1, _⟩ => show win3_4.index _ (1 : Fin 3) * 1 ≤ (i 1).val ∧ (i 1).val < win3_4.index _ (1 : Fin 3) * 1 + 1; rw [e1]; omega
  | ⟨2, _⟩ => show win3_4.index _ (2 : Fin 3) * 128 ≤ (i 2).val ∧ (i 2).val < win3_4.index _ (2 : Fin 3) * 128 + 128; rw [e2]; omega

theorem final4 (c : Dev nD) : (dat3 V c).arrAt 4 cfg3.N
    = G4 (V c (Pipeline.arrRef spec3 0)) (V c (Pipeline.arrRef spec3 1)) (V c (Pipeline.arrRef spec3 2)) :=
  (dat3 V c).arrAt_eq_of_cover 4 _ (fun t _ => flushed4_eq V c t) cover4

set_option maxHeartbeats 1000000 in
/-- What point t writes back to output window 5 is block t of the array function. -/
theorem flushed5_eq (c : Dev nD) (t : Fin cfg3.N) :
    (dat3 V c).flushed 5 t = ((cfg3.win 5).blk t).view.read (Elt Ideal)
      (G5 (V c (Pipeline.arrRef spec3 0)) (V c (Pipeline.arrRef spec3 1)) (V c (Pipeline.arrRef spec3 2))) := by
  show (cfg3.win 5).cut (grid3.coords t) ((dat3 V c).after 5 t) = _
  rw [after3_5]
  unfold out3_5
  rw [View.canon_unit_zero hz3]
  simp only [View.ld_unit_zero (S := S5000x128) hz2, View.ld_unit_zero (S := S5000x1) hz2, View.ld_unit_zero (S := S1x128) hz2]
  funext j
  generalize hG : G5 (V c (Pipeline.arrRef spec3 0)) (V c (Pipeline.arrRef spec3 1)) (V c (Pipeline.arrRef spec3 2)) = G
  generalize hX : k3_pay3 (F := Ideal) (iblk3 V c 0 t) (iblk3 V c 1 t) (iblk3 V c 2 t) = X
  show X j = G (((cfg3.win 5).blk t).view.emb j)
  rw [← hG, ← hX]
  have hi0 : ((((cfg3.win 5).blk t).view.emb j : S20x1x128.Idx) 0).val = t.val := by
    have hj : ((j : S1x1x128.Idx) 0).val < 1 := idx3_lt0 j
    show win3_5.index t (0 : Fin 3) * 1 + 1 * (j 0).val = t.val; rw [(idx_w5 t).1]; omega
  have hi2 : ((((cfg3.win 5).blk t).view.emb j : S20x1x128.Idx) 2).val = ((j : S1x1x128.Idx) 2).val := by
    show win3_5.index t (2 : Fin 3) * 128 + 1 * (j 2).val = (j 2).val; rw [(idx_w5 t).2.2]; omega
  exact blk5_core' (V c (Pipeline.arrRef spec3 0)) (V c (Pipeline.arrRef spec3 1)) (V c (Pipeline.arrRef spec3 2))
    (iblk3 V c 0 t) (iblk3 V c 1 t) (iblk3 V c 2 t) t.val j (((cfg3.win 5).blk t).view.emb j) (iblk0_apply V c t) (iblk3_apply V c t) (iblk2_apply V c t) hi0 hi2

theorem mem_blk5 (t : Fin cfg3.N) (i : S20x1x128.Idx) :
    i ∈ ((cfg3.win 5).blk t).view.set ↔ ∀ a : Fin 3, win3_5.index t a * S1x1x128.size a ≤ (i a).val ∧ (i a).val < win3_5.index t a * S1x1x128.size a + S1x1x128.size a := by
  show i ∈ ((View.whole main_v70_2).slice (win3_5.rect t)).set ↔ _
  rw [View.set_slice_whole, Rect.mem_set_unit]
  exact Iff.rfl

/-- Entry (t, 0, q) lies in point t's block. -/
theorem cover5 (i : S20x1x128.Idx) : ∃ t : Fin cfg3.N, (cfg3.win 5).flush t = true ∧ i ∈ ((cfg3.win 5).blk t).view.set := by
  have hi0 : (i 0).val < 20 := idx3_lt0 i
  have hi1 : (i 1).val < 1 := (i 1).isLt
  have hi2 : (i 2).val < 128 := idx3_lt2 i
  have hN : cfg3.N = 20 := N_3
  refine ⟨⟨(i 0).val, by rw [hN]; exact hi0⟩, flush3_5 _, ?_⟩
  have e0 := (idx_w5 ⟨(i 0).val, by rw [hN]; exact hi0⟩).1
  have e1 := (idx_w5 ⟨(i 0).val, by rw [hN]; exact hi0⟩).2.1
  have e2 := (idx_w5 ⟨(i 0).val, by rw [hN]; exact hi0⟩).2.2
  rw [mem_blk5]
  intro a
  match a with
  | ⟨0, _⟩ => show win3_5.index _ (0 : Fin 3) * 1 ≤ (i 0).val ∧ (i 0).val < win3_5.index _ (0 : Fin 3) * 1 + 1; rw [e0]; show (i 0).val * 1 ≤ (i 0).val ∧ (i 0).val < (i 0).val * 1 + 1; omega
  | ⟨1, _⟩ => show win3_5.index _ (1 : Fin 3) * 1 ≤ (i 1).val ∧ (i 1).val < win3_5.index _ (1 : Fin 3) * 1 + 1; rw [e1]; omega
  | ⟨2, _⟩ => show win3_5.index _ (2 : Fin 3) * 128 ≤ (i 2).val ∧ (i 2).val < win3_5.index _ (2 : Fin 3) * 128 + 128; rw [e2]; omega

theorem final5 (c : Dev nD) : (dat3 V c).arrAt 5 cfg3.N
    = G5 (V c (Pipeline.arrRef spec3 0)) (V c (Pipeline.arrRef spec3 1)) (V c (Pipeline.arrRef spec3 2)) :=
  (dat3 V c).arrAt_eq_of_cover 5 _ (fun t _ => flushed5_eq V c t) cover5

/-- The second output: entry (t, 0, q) is the sum of y over rows 5000 t … 5000 t + 4999 of column q. -/
theorem arr4 (c : Dev nD) (t : Fin 20) (q : Fin 128) :
    (Gen.dat3 (F := Ideal) V c).arrAt 4 cfg3.N (ix3 t 0 q)
      = ∑ j : Fin 5000, yAt (V c (Pipeline.arrRef spec3 0)) (V c (Pipeline.arrRef spec3 1)) (V c (Pipeline.arrRef spec3 2))
          ⟨5000 * t.val + j.val, by omega⟩ q := by
  rw [final4]; rfl

/-- The third output: the same sums of y * y. -/
theorem arr5 (c : Dev nD) (t : Fin 20) (q : Fin 128) :
    (Gen.dat3 (F := Ideal) V c).arrAt 5 cfg3.N (ix3 t 0 q)
      = ∑ j : Fin 5000, yAt (V c (Pipeline.arrRef spec3 0)) (V c (Pipeline.arrRef spec3 1)) (V c (Pipeline.arrRef spec3 2))
          ⟨5000 * t.val + j.val, by omega⟩ q
        * yAt (V c (Pipeline.arrRef spec3 0)) (V c (Pipeline.arrRef spec3 1)) (V c (Pipeline.arrRef spec3 2))
          ⟨5000 * t.val + j.val, by omega⟩ q := by
  rw [final5]; rfl

end R3

end Cert.KernelIdeal.RegionValue

end
-- ==== Proof.KChain.lean ====
/-
  The kernel program's run, boundary by boundary, as pure functions of the argument arrays. Each boundary's contents of the buffers the next region or stretch
  reads are named: layer 1's scaled product, its aggregation, the convolution output with its per-tile partial sums,
  the batch statistics, layer 2's fused product, and so on down to the three arrays region 3 leaves.
-/
import proofs.«122415_j30588757082611_2_alg».proof.Proof.Gen.KernelIdeal.Frame
import proofs.«122415_j30588757082611_2_alg».proof.Proof.KArgsW
import proofs.«122415_j30588757082611_2_alg».proof.Proof.KHostAt
import proofs.«122415_j30588757082611_2_alg».proof.Proof.Region0
import proofs.«122415_j30588757082611_2_alg».proof.Proof.Region1
import proofs.«122415_j30588757082611_2_alg».proof.Proof.Region2
import proofs.«122415_j30588757082611_2_alg».proof.Proof.Region3

set_option maxRecDepth 16384

noncomputable section

namespace Cert.KernelIdeal.KChain

open Cert.KernelIdeal Cert.KernelIdeal.Gen Cert.KernelIdeal.KHost Cert.KernelIdeal.KW Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Layer 1's scaled product: (masked features) · W1, each row scaled by the source-degree norm. -/
def h1 : FVec Ideal S100000x128 .f32 :=
  scaledProduct (maskedOf (m ((c : Thread nD τ).loc main_arg0)) (m ((c : Thread nD τ).loc main_arg5))) (m ((c : Thread nD τ).loc main_arg6)) (colOf (degNormOf (m ((c : Thread nD τ).loc main_arg1))))

/-- Layer 1's aggregation over the edges. -/
def agg1 : FVec Ideal S100000x128 .f32 := aggOf (h1 m c) (m ((c : Thread nD τ).loc main_arg1)) (m ((c : Thread nD τ).loc main_arg2))

/-- Layer 1's convolution output and its per-tile partial sums and partial sums of squares. -/
def y1 : S100000x128.Idx → EReal := G3 (agg1 m c) (colOf (degNormOf (m ((c : Thread nD τ).loc main_arg2)))) (rowOf (m ((c : Thread nD τ).loc main_arg7)))
def ps1 : S20x1x128.Idx → EReal := G4 (agg1 m c) (colOf (degNormOf (m ((c : Thread nD τ).loc main_arg2)))) (rowOf (m ((c : Thread nD τ).loc main_arg7)))
def pss1 : S20x1x128.Idx → EReal := G5 (agg1 m c) (colOf (degNormOf (m ((c : Thread nD τ).loc main_arg2)))) (rowOf (m ((c : Thread nD τ).loc main_arg7)))

/-- Layer 2's fused product: normalise, leaky-rectify, · W2, scale by the source-degree norm. -/
def h2 : S100000x128.Idx → EReal :=
  fused (y1 m c) (meanOf (ps1 m c)) (invOf (ps1 m c) (pss1 m c)) (rowOf (m ((c : Thread nD τ).loc main_arg8))) (rowOf (m ((c : Thread nD τ).loc main_arg9))) (slopeOf (m ((c : Thread nD τ).loc main_arg10)))
    (m ((c : Thread nD τ).loc main_arg11)) (colOf (degNormOf (m ((c : Thread nD τ).loc main_arg1))))

/-- Layer 2's aggregation over the edges. -/
def agg2 : FVec Ideal S100000x128 .f32 := aggOf (h2 m c) (m ((c : Thread nD τ).loc main_arg1)) (m ((c : Thread nD τ).loc main_arg2))

/-- Layer 2's convolution output and its per-tile partial sums and partial sums of squares. -/
def y2 : S100000x128.Idx → EReal := G3 (agg2 m c) (colOf (degNormOf (m ((c : Thread nD τ).loc main_arg2)))) (rowOf (m ((c : Thread nD τ).loc main_arg12)))
def ps2 : S20x1x128.Idx → EReal := G4 (agg2 m c) (colOf (degNormOf (m ((c : Thread nD τ).loc main_arg2)))) (rowOf (m ((c : Thread nD τ).loc main_arg12)))
def pss2 : S20x1x128.Idx → EReal := G5 (agg2 m c) (colOf (degNormOf (m ((c : Thread nD τ).loc main_arg2)))) (rowOf (m ((c : Thread nD τ).loc main_arg12)))

theorem W6_v27 : W6 m ρ c (Proc.devRef .tc main_v27) = h1 m c := by
  have e := W6_arr m ρ c 3
  rw [region0_array (V5 m ρ) c] at e
  have i0 : V5 m ρ c main_v7 = maskedOf (m ((c : Thread nD τ).loc main_arg0)) (m ((c : Thread nD τ).loc main_arg5)) := pre0_v7 (W0 m ρ c)
  have i1 : V5 m ρ c main_arg6 = (m ((c : Thread nD τ).loc main_arg6)) := pre0_arg6 (W0 m ρ c)
  have i2 : V5 m ρ c main_v26 = colOf (degNormOf (m ((c : Thread nD τ).loc main_arg1))) := pre0_v26 (W0 m ρ c)
  rw [i0, i1, i2] at e
  exact e

theorem W7_v37 : W7 m ρ c (Proc.devRef .tc main_v37) = agg1 m c := by
  have e := host1_v37 (W6 m ρ c)
  rw [W6_v27, W6_arg1, W6_arg2] at e
  exact e

theorem W7_v38 : W7 m ρ c (Proc.devRef .tc main_v38) = colOf (degNormOf (m ((c : Thread nD τ).loc main_arg2))) := by
  have e := host1_v38 (W6 m ρ c)
  rw [W6_v25] at e
  exact e

theorem W7_v39 : W7 m ρ c (Proc.devRef .tc main_v39) = rowOf (m ((c : Thread nD τ).loc main_arg7)) := by
  have e := host1_v39 (W6 m ρ c)
  rw [W6_arg7] at e
  exact e

theorem W8_v40_0 : W8 m ρ c (Proc.devRef .tc main_v40_0) = y1 m c := by
  have e := W8_arr m ρ c 3
  rw [R1.final3 (V7 m ρ) c] at e
  have i0 : V7 m ρ c (Pipeline.arrRef spec1 0) = agg1 m c := W7_v37 m ρ c
  have i1 : V7 m ρ c (Pipeline.arrRef spec1 1) = colOf (degNormOf (m ((c : Thread nD τ).loc main_arg2))) := W7_v38 m ρ c
  have i2 : V7 m ρ c (Pipeline.arrRef spec1 2) = rowOf (m ((c : Thread nD τ).loc main_arg7)) := W7_v39 m ρ c
  rw [i0, i1, i2] at e
  exact e

theorem W8_v40_1 : W8 m ρ c (Proc.devRef .tc main_v40_1) = ps1 m c := by
  have e := W8_arr m ρ c 4
  rw [R1.final4 (V7 m ρ) c] at e
  have i0 : V7 m ρ c (Pipeline.arrRef spec1 0) = agg1 m c := W7_v37 m ρ c
  have i1 : V7 m ρ c (Pipeline.arrRef spec1 1) = colOf (degNormOf (m ((c : Thread nD τ).loc main_arg2))) := W7_v38 m ρ c
  have i2 : V7 m ρ c (Pipeline.arrRef spec1 2) = rowOf (m ((c : Thread nD τ).loc main_arg7)) := W7_v39 m ρ c
  rw [i0, i1, i2] at e
  exact e

theorem W8_v40_2 : W8 m ρ c (Proc.devRef .tc main_v40_2) = pss1 m c := by
  have e := W8_arr m ρ c 5
  rw [R1.final5 (V7 m ρ) c] at e
  have i0 : V7 m ρ c (Pipeline.arrRef spec1 0) = agg1 m c := W7_v37 m ρ c
  have i1 : V7 m ρ c (Pipeline.arrRef spec1 1) = colOf (degNormOf (m ((c : Thread nD τ).loc main_arg2))) := W7_v38 m ρ c
  have i2 : V7 m ρ c (Pipeline.arrRef spec1 2) = rowOf (m ((c : Thread nD τ).loc main_arg7)) := W7_v39 m ρ c
  rw [i0, i1, i2] at e
  exact e

theorem W10_v57 : W10 m ρ c (Proc.devRef .tc main_v57) = h2 m c := by
  have e := W10_arr m ρ c 8
  rw [region2_array (V9 m ρ) c] at e
  have i0 : V9 m ρ c main_v40_0 = y1 m c := (host2_v40_0 (W8 m ρ c)).trans (W8_v40_0 m ρ c)
  have i1 : V9 m ρ c main_v44 = meanOf (ps1 m c) := (host2_v44 (W8 m ρ c)).trans (by rw [W8_v40_1])
  have i2 : V9 m ρ c main_v51 = invOf (ps1 m c) (pss1 m c) := (host2_v51 (W8 m ρ c)).trans (by rw [W8_v40_1, W8_v40_2])
  have i3 : V9 m ρ c main_v53 = rowOf (m ((c : Thread nD τ).loc main_arg8)) := (host2_v53 (W8 m ρ c)).trans (by rw [W8_arg8])
  have i4 : V9 m ρ c main_v54 = rowOf (m ((c : Thread nD τ).loc main_arg9)) := (host2_v54 (W8 m ρ c)).trans (by rw [W8_arg9])
  have i5 : V9 m ρ c main_v56 = slopeOf (m ((c : Thread nD τ).loc main_arg10)) := (host2_v56 (W8 m ρ c)).trans (by rw [W8_arg10])
  have i6 : V9 m ρ c main_arg11 = (m ((c : Thread nD τ).loc main_arg11)) := (host2_arg11 (W8 m ρ c)).trans (W8_arg11 m ρ c)
  have i7 : V9 m ρ c main_v52 = colOf (degNormOf (m ((c : Thread nD τ).loc main_arg1))) := (host2_v52 (W8 m ρ c)).trans (by rw [W8_v16])
  rw [i0, i1, i2, i3, i4, i5, i6, i7] at e
  exact e

theorem W11_v67 : W11 m ρ c (Proc.devRef .tc main_v67) = agg2 m c := by
  have e := host3_v67 (W10 m ρ c)
  rw [W10_v57, W10_arg1, W10_arg2] at e
  exact e

theorem W11_v68 : W11 m ρ c (Proc.devRef .tc main_v68) = colOf (degNormOf (m ((c : Thread nD τ).loc main_arg2))) := by
  have e := host3_v68 (W10 m ρ c)
  rw [W10_v25] at e
  exact e

theorem W11_v69 : W11 m ρ c (Proc.devRef .tc main_v69) = rowOf (m ((c : Thread nD τ).loc main_arg12)) := by
  have e := host3_v69 (W10 m ρ c)
  rw [W10_arg12] at e
  exact e

theorem W12_v70_0 : W12 m ρ c (Proc.devRef .tc main_v70_0) = y2 m c := by
  have e := W12_arr m ρ c 3
  rw [R3.final3 (V11 m ρ) c] at e
  have i0 : V11 m ρ c (Pipeline.arrRef spec3 0) = agg2 m c := W11_v67 m ρ c
  have i1 : V11 m ρ c (Pipeline.arrRef spec3 1) = colOf (degNormOf (m ((c : Thread nD τ).loc main_arg2))) := W11_v68 m ρ c
  have i2 : V11 m ρ c (Pipeline.arrRef spec3 2) = rowOf (m ((c : Thread nD τ).loc main_arg12)) := W11_v69 m ρ c
  rw [i0, i1, i2] at e
  exact e

theorem W12_v70_1 : W12 m ρ c (Proc.devRef .tc main_v70_1) = ps2 m c := by
  have e := W12_arr m ρ c 4
  rw [R3.final4 (V11 m ρ) c] at e
  have i0 : V11 m ρ c (Pipeline.arrRef spec3 0) = agg2 m c := W11_v67 m ρ c
  have i1 : V11 m ρ c (Pipeline.arrRef spec3 1) = colOf (degNormOf (m ((c : Thread nD τ).loc main_arg2))) := W11_v68 m ρ c
  have i2 : V11 m ρ c (Pipeline.arrRef spec3 2) = rowOf (m ((c : Thread nD τ).loc main_arg12)) := W11_v69 m ρ c
  rw [i0, i1, i2] at e
  exact e

theorem W12_v70_2 : W12 m ρ c (Proc.devRef .tc main_v70_2) = pss2 m c := by
  have e := W12_arr m ρ c 5
  rw [R3.final5 (V11 m ρ) c] at e
  have i0 : V11 m ρ c (Pipeline.arrRef spec3 0) = agg2 m c := W11_v67 m ρ c
  have i1 : V11 m ρ c (Pipeline.arrRef spec3 1) = colOf (degNormOf (m ((c : Thread nD τ).loc main_arg2))) := W11_v68 m ρ c
  have i2 : V11 m ρ c (Pipeline.arrRef spec3 2) = rowOf (m ((c : Thread nD τ).loc main_arg12)) := W11_v69 m ρ c
  rw [i0, i1, i2] at e
  exact e

end Cert.KernelIdeal.KChain

end
-- ==== Proof.LibGatherRows.lean ====
/-
  Whole rows of a table gathered at a column of row numbers, read at an index, for any extents.

  What `table[rows]` lowers to for a table `[N, C]` and row numbers `[R]` held as an `[R, 1]` array: a gather with one
  offset axis (the columns), the row axis collapsed, slices of one row. Result entry `(r, k)` is the table at column `k`
  of the row whose number is `rows (r, 0)`, read as a signed integer and clamped into `0 … N − 1`; the column passes
  through.
-/
import Idealize.ShloMosaic.Lib.ValueIdx

noncomputable section

namespace Cert.LibGatherRows

open Idealize.ShloMosaic Idealize.ShloMosaic.ValueIdx

variable {α : Type}

/-- The dimension numbers of that gather; their conditions are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(r, k)`: column `k` of the row numbered `rows (r, 0)`, read signed and clamped into the table. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k)
      = x (ix2 ⟨min (idx (ix2 r (0 : Fin 1))).toInt.toNat (N - 1), by omega⟩ k) := by
  unfold Host.gather
  refine congrArg x (funext fun a => Fin.ext ?_)
  match a with
  | ⟨0, _⟩ =>
    show (rowDims N R C wf).start (ix2 r k) idx 0 + (rowDims N R C wf).batchCoord (ix2 r k) 0
      + (rowDims N R C wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r k) idx 1 + (rowDims N R C wf).batchCoord (ix2 r k) 1
      + (rowDims N R C wf).offCoord (ix2 r k) 1 = k.val
    rw [GatherDims.batchCoord_eq_zero _ _ _ List.not_mem_nil]
    unfold GatherDims.start
    rw [dif_neg (show ¬ (1 : Fin 2) ∈ (rowDims N R C wf).startIndexMap from
      fun h => Nat.one_ne_zero (congrArg Fin.val (List.mem_singleton.mp h)))]
    simp only [Nat.add_zero, Nat.zero_add]
    rfl

end Cert.LibGatherRows

end
-- ==== Proof.KTail.lean ====
/-
  The host side of the idealized kernel program after its last region, read as values.

  The first stretch computes the online branch's rows at the 17 masked nodes — the rows of the last region's output
  numbered by the (wrapped) mask, normalized with the batch statistics of the 20 per-tile partial sums and mapped
  affinely — and their mean over the 17 rows. The next ten stretches compute the target branch and write neither that
  mean nor any argument of the program. The last four compute the loss from the two branches' mean rows: one minus
  the inner product of the two rows, each over its length floored at a small constant.
  Every statement is about an arbitrary valuation of the buffers at the stretch's start.
-/
import proofs.«122415_j30588757082611_2_alg».proof.Proof.KHost
import proofs.«122415_j30588757082611_2_alg».proof.Proof.KCast
import proofs.«122415_j30588757082611_2_alg».proof.Proof.LibGatherRows
import Idealize.ShloMosaic.PureOps.Ideal
import Idealize.ShloMosaic.PureOps.Ideal.Laws
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KTail

open Cert.KernelIdeal Cert.KernelIdeal.Gen Cert.KernelIdeal.KHost Cert.KernelIdeal.KCast
open Idealize.ShloMosaic Idealize.ShloMosaic.TcCoe Idealize.ShloMosaic.Tactic Idealize.SL.Sem Idealize.ShloMosaic.StableHlo

/-- The mask's node numbers with a negative number counted from the end: `x + 100000` where `x < 0`, else `x`. -/
def wrappedMask (mask : IVec S17 32) : IVec S17 32 :=
  select (cmpi .slt mask (broadcastInDim S17 ![] bcast_S_S17 (constantI S_ 32 0#32)))
    (addi mask (broadcastInDim S17 ![] bcast_S_S17 (constantI S_ 32 100000#32))) mask

/-- The online branch's rows at the masked nodes: the rows of `y2` numbered by the wrapped mask, centred by the mean
    row, scaled by the inverse-deviation row and by `g`, shifted by `be`. -/
def onlineRowsOf (y2 : FVec Ideal S100000x128 .f32) (mean inv : FVec Ideal S1x128 .f32) (mask : IVec S17 32)
    (g be : FVec Ideal S128 .f32) : FVec Ideal S17x128 .f32 :=
  addf
    (mulf
      (mulf
        (subf
          (Host.gather gather_S100000x128_S17x1_S17x128_1_0_n_n_0_1_1128 y2
            (broadcastInDim S17x1 ![0] bcast_S17_S17x1_0 (wrappedMask mask)))
          (broadcastInDim S17x128 ![0, 1] bcast_S1x128_S17x128_0_1 mean))
        (broadcastInDim S17x128 ![0, 1] bcast_S1x128_S17x128_0_1 inv))
      (broadcastInDim S17x128 ![0, 1] bcast_S1x128_S17x128_0_1 (broadcastInDim S1x128 ![1] bcast_S128_S1x128_1 g)))
    (broadcastInDim S17x128 ![0, 1] bcast_S1x128_S17x128_0_1 (broadcastInDim S1x128 ![1] bcast_S128_S1x128_1 be))

/-- The mean over the 17 rows: their sum from a zero initial value, over 17. -/
def rowsMeanOf (rows : FVec Ideal S17x128 .f32) : FVec Ideal S128 .f32 :=
  Host.divf (F := Ideal) (Host.reduceAdd (F := Ideal) rows (constant (F := Ideal) S_ .f32 0#32) reducesTo_S17x128_S128_d0 h_S_)
    (broadcastInDim S128 ![] bcast_S_S128 (constant (F := Ideal) S_ .f32 1099431936#32))

variable (V : Valuation τ sig (Elt Ideal))

/-- The online rows as the first stretch after region 3 computes them, from the contents `V` it starts from. -/
abbrev onlineRowsAt : FVec Ideal S17x128 .f32 :=
  onlineRowsOf (V (Proc.devRef .tc main_v70_0)) (meanOf (V (Proc.devRef .tc main_v70_1)))
    (invOf (V (Proc.devRef .tc main_v70_1)) (V (Proc.devRef .tc main_v70_2))) (V (Proc.devRef .tc main_arg5))
    (V (Proc.devRef .tc main_arg13)) (V (Proc.devRef .tc main_arg14))

set_option maxHeartbeats 4000000 in
theorem host4_v98 : after hostOps4 V (Proc.devRef .tc main_v98) = onlineRowsAt V := by
  after_results_simp; rfl

set_option maxHeartbeats 4000000 in
theorem host4_v101 : after hostOps4 V (Proc.devRef .tc main_v101) = rowsMeanOf (onlineRowsAt V) := by
  after_results_simp; rfl

/-! ## What the stretches after region 3 leave alone -/

/-- The buffers the operations of `hostOps4` write. -/
abbrev written4 : List (Ref sig .tc) :=
  [main_cst_22, main_v71, main_cst_23, main_v72, main_cst_24, main_v73, main_v74, main_cst_25, main_v75, main_v76,
   main_v77, main_v78, main_cst_26, main_v79, main_v80, main_v81, main_c_27, main_v82, main_v83, main_c_28,
   main_v84, main_v85, main_v86, main_v87, main_v88, main_v89, main_v90, main_v91, main_v92, main_v93,
   main_v94, main_v95, main_v96, main_v97, main_v98, main_cst_29, main_v99, main_cst_30, main_v100, main_v101,
   main_c_31, main_v102, main_v103, main_c_32, main_v104, main_v105, main_v106, main_v107, main_v108, main_v109,
   main_cst_33, main_v110, main_cst_34, main_v111, main_v112, main_v113, main_cst_35, main_v114, main_v115, main_cst_36,
   main_v116, main_v117, main_cst_37]
theorem hostOps4_writes : (hostOps4 : List (HloOp τ sig (Elt Ideal))).Forall fun op =>
    op.writes ⊆ (written4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps4_1` write. -/
abbrev written4_1 : List (Ref sig .tc) :=
  [main_call2_v0, main_call2_v1, main_v118]
theorem hostOps4_1_writes : (hostOps4_1 : List (HloOp τ sig (Elt Ideal))).Forall fun op =>
    op.writes ⊆ (written4_1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps4_2` write. -/
abbrev written4_2 : List (Ref sig .tc) :=
  [main_v119, main_v120, main_v121, main_c_38, main_v122, main_v123, main_c_39, main_v124, main_v125, main_v126,
   main_v127, main_v128, main_cst_40, main_v129, main_v130, main_v131, main_cst_41, main_v132, main_cst_42, main_v133,
   main_v134, main_v135, main_cst_43, main_v136, main_v137, main_cst_44, main_v138, main_v139, main_cst_45]
theorem hostOps4_2_writes : (hostOps4_2 : List (HloOp τ sig (Elt Ideal))).Forall fun op =>
    op.writes ⊆ (written4_2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps4_3` write. -/
abbrev written4_3 : List (Ref sig .tc) :=
  [main_call3_v0, main_call3_v1, main_v140]
theorem hostOps4_3_writes : (hostOps4_3 : List (HloOp τ sig (Elt Ideal))).Forall fun op =>
    op.writes ⊆ (written4_3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps4_4` write. -/
abbrev written4_4 : List (Ref sig .tc) :=
  [main_v141, main_v142, main_v143, main_v144, main_v145, main_v146, main_cst_46, main_v147, main_cst_47, main_v148,
   main_v149, main_v150, main_v151, main_v152, main_v153, main_cst_48, main_v154, main_cst_49, main_v155, main_v156,
   main_v157, main_v158, main_v159, main_cst_50, main_v160, main_v161, main_v162, main_v163, main_v164, main_v165,
   main_v166, main_v167, main_v168, main_v169, main_v170, main_v171, main_cst_51, main_v172, main_v173, main_v174,
   main_v175]
theorem hostOps4_4_writes : (hostOps4_4 : List (HloOp τ sig (Elt Ideal))).Forall fun op =>
    op.writes ⊆ (written4_4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps4_5` write. -/
abbrev written4_5 : List (Ref sig .tc) :=
  [main_v176]
theorem hostOps4_5_writes : (hostOps4_5 : List (HloOp τ sig (Elt Ideal))).Forall fun op =>
    op.writes ⊆ (written4_5.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps4_6` write. -/
abbrev written4_6 : List (Ref sig .tc) :=
  [main_v177, main_cst_52, main_v178, main_cst_53, main_v179, main_v180, main_v181, main_cst_54, main_v182, main_v183,
   main_cst_55, main_v184, main_v185, main_cst_56]
theorem hostOps4_6_writes : (hostOps4_6 : List (HloOp τ sig (Elt Ideal))).Forall fun op =>
    op.writes ⊆ (written4_6.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps4_7` write. -/
abbrev written4_7 : List (Ref sig .tc) :=
  [main_call5_v0, main_call5_v1, main_v186]
theorem hostOps4_7_writes : (hostOps4_7 : List (HloOp τ sig (Elt Ideal))).Forall fun op =>
    op.writes ⊆ (written4_7.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps4_8` write. -/
abbrev written4_8 : List (Ref sig .tc) :=
  [main_v187, main_v188, main_v189, main_c_57, main_v190, main_v191, main_c_58, main_v192, main_v193, main_v194,
   main_v195, main_v196, main_cst_59, main_v197, main_v198, main_v199, main_cst_60, main_v200, main_cst_61, main_v201,
   main_v202, main_v203, main_cst_62, main_v204, main_v205, main_cst_63, main_v206, main_v207, main_cst_64]
theorem hostOps4_8_writes : (hostOps4_8 : List (HloOp τ sig (Elt Ideal))).Forall fun op =>
    op.writes ⊆ (written4_8.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps4_9` write. -/
abbrev written4_9 : List (Ref sig .tc) :=
  [main_call6_v0, main_call6_v1, main_v208]
theorem hostOps4_9_writes : (hostOps4_9 : List (HloOp τ sig (Elt Ideal))).Forall fun op =>
    op.writes ⊆ (written4_9.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps4_10` write. -/
abbrev written4_10 : List (Ref sig .tc) :=
  [main_v209, main_v210, main_v211, main_v212, main_v213, main_v214, main_cst_65, main_v215, main_cst_66, main_v216,
   main_v217, main_v218, main_v219, main_v220, main_v221, main_cst_67, main_v222, main_cst_68, main_v223, main_v224,
   main_v225, main_v226, main_v227, main_cst_69, main_v228, main_v229, main_v230, main_v231, main_v232, main_v233,
   main_v234, main_v235, main_v236, main_v237, main_v238, main_v239, main_cst_70, main_v240, main_cst_71, main_v241,
   main_v242]
theorem hostOps4_10_writes : (hostOps4_10 : List (HloOp τ sig (Elt Ideal))).Forall fun op =>
    op.writes ⊆ (written4_10.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The ten stretches after the first, in order. -/
abbrev tailLater (U : Valuation τ sig (Elt Ideal)) : Valuation τ sig (Elt Ideal) :=
  after hostOps4_10 (after hostOps4_9 (after hostOps4_8 (after hostOps4_7 (after hostOps4_6 (after hostOps4_5
    (after hostOps4_4 (after hostOps4_3 (after hostOps4_2 (after hostOps4_1 U)))))))))

/-- The eleven stretches from the end of region 3 up to the target branch's mean row. -/
abbrev tailA : Valuation τ sig (Elt Ideal) := tailLater (after hostOps4 V)

/-- Every buffer the ten later stretches write. -/
abbrev writtenLater : List (Ref sig .tc) :=
  written4_1 ++ written4_2 ++ written4_3 ++ written4_4 ++ written4_5 ++ written4_6 ++ written4_7 ++ written4_8 ++ written4_9 ++ written4_10

/-- A buffer none of the ten later stretches writes comes through them unchanged. -/
theorem tailLater_of (U : Valuation τ sig (Elt Ideal)) (r : Ref sig .tc) (h : r ∉ writtenLater) :
    tailLater U (Proc.devRef .tc r) = U (Proc.devRef .tc r) := by
  simp only [writtenLater, List.mem_append, not_or] at h
  obtain ⟨⟨⟨⟨⟨⟨⟨⟨⟨h1, h2⟩, h3⟩, h4⟩, h5⟩, h6⟩, h7⟩, h8⟩, h9⟩, h10⟩ := h
  show after hostOps4_10 _ _ = _
  rw [after_of_writes_sub hostOps4_10 _ hostOps4_10_writes h10, after_of_writes_sub hostOps4_9 _ hostOps4_9_writes h9,
    after_of_writes_sub hostOps4_8 _ hostOps4_8_writes h8, after_of_writes_sub hostOps4_7 _ hostOps4_7_writes h7,
    after_of_writes_sub hostOps4_6 _ hostOps4_6_writes h6, after_of_writes_sub hostOps4_5 _ hostOps4_5_writes h5,
    after_of_writes_sub hostOps4_4 _ hostOps4_4_writes h4, after_of_writes_sub hostOps4_3 _ hostOps4_3_writes h3,
    after_of_writes_sub hostOps4_2 _ hostOps4_2_writes h2, after_of_writes_sub hostOps4_1 _ hostOps4_1_writes h1]

/-- A buffer none of the eleven stretches writes comes through them unchanged. -/
theorem tailA_of (r : Ref sig .tc) (h0 : r ∉ written4) (h : r ∉ writtenLater) :
    tailA V (Proc.devRef .tc r) = V (Proc.devRef .tc r) :=
  (tailLater_of (after hostOps4 V) r h).trans (after_of_writes_sub hostOps4 V hostOps4_writes h0)

/-- The online branch's mean row is computed by the first stretch and not written again. -/
theorem tailA_v101 : tailA V (Proc.devRef .tc main_v101) = rowsMeanOf (onlineRowsAt V) :=
  (tailLater_of (after hostOps4 V) main_v101 (by decide)).trans (host4_v101 V)

theorem tailA_arg0 : tailA V (Proc.devRef .tc main_arg0) = V (Proc.devRef .tc main_arg0) :=
  tailA_of V main_arg0 (by decide) (by decide)
theorem tailA_arg1 : tailA V (Proc.devRef .tc main_arg1) = V (Proc.devRef .tc main_arg1) :=
  tailA_of V main_arg1 (by decide) (by decide)
theorem tailA_arg2 : tailA V (Proc.devRef .tc main_arg2) = V (Proc.devRef .tc main_arg2) :=
  tailA_of V main_arg2 (by decide) (by decide)
theorem tailA_arg3 : tailA V (Proc.devRef .tc main_arg3) = V (Proc.devRef .tc main_arg3) :=
  tailA_of V main_arg3 (by decide) (by decide)
theorem tailA_arg4 : tailA V (Proc.devRef .tc main_arg4) = V (Proc.devRef .tc main_arg4) :=
  tailA_of V main_arg4 (by decide) (by decide)
theorem tailA_arg5 : tailA V (Proc.devRef .tc main_arg5) = V (Proc.devRef .tc main_arg5) :=
  tailA_of V main_arg5 (by decide) (by decide)
theorem tailA_arg6 : tailA V (Proc.devRef .tc main_arg6) = V (Proc.devRef .tc main_arg6) :=
  tailA_of V main_arg6 (by decide) (by decide)
theorem tailA_arg7 : tailA V (Proc.devRef .tc main_arg7) = V (Proc.devRef .tc main_arg7) :=
  tailA_of V main_arg7 (by decide) (by decide)
theorem tailA_arg8 : tailA V (Proc.devRef .tc main_arg8) = V (Proc.devRef .tc main_arg8) :=
  tailA_of V main_arg8 (by decide) (by decide)
theorem tailA_arg9 : tailA V (Proc.devRef .tc main_arg9) = V (Proc.devRef .tc main_arg9) :=
  tailA_of V main_arg9 (by decide) (by decide)
theorem tailA_arg10 : tailA V (Proc.devRef .tc main_arg10) = V (Proc.devRef .tc main_arg10) :=
  tailA_of V main_arg10 (by decide) (by decide)
theorem tailA_arg11 : tailA V (Proc.devRef .tc main_arg11) = V (Proc.devRef .tc main_arg11) :=
  tailA_of V main_arg11 (by decide) (by decide)
theorem tailA_arg12 : tailA V (Proc.devRef .tc main_arg12) = V (Proc.devRef .tc main_arg12) :=
  tailA_of V main_arg12 (by decide) (by decide)
theorem tailA_arg13 : tailA V (Proc.devRef .tc main_arg13) = V (Proc.devRef .tc main_arg13) :=
  tailA_of V main_arg13 (by decide) (by decide)
theorem tailA_arg14 : tailA V (Proc.devRef .tc main_arg14) = V (Proc.devRef .tc main_arg14) :=
  tailA_of V main_arg14 (by decide) (by decide)
theorem tailA_arg15 : tailA V (Proc.devRef .tc main_arg15) = V (Proc.devRef .tc main_arg15) :=
  tailA_of V main_arg15 (by decide) (by decide)
theorem tailA_arg16 : tailA V (Proc.devRef .tc main_arg16) = V (Proc.devRef .tc main_arg16) :=
  tailA_of V main_arg16 (by decide) (by decide)
theorem tailA_arg17 : tailA V (Proc.devRef .tc main_arg17) = V (Proc.devRef .tc main_arg17) :=
  tailA_of V main_arg17 (by decide) (by decide)
theorem tailA_arg18 : tailA V (Proc.devRef .tc main_arg18) = V (Proc.devRef .tc main_arg18) :=
  tailA_of V main_arg18 (by decide) (by decide)
theorem tailA_arg19 : tailA V (Proc.devRef .tc main_arg19) = V (Proc.devRef .tc main_arg19) :=
  tailA_of V main_arg19 (by decide) (by decide)
theorem tailA_arg20 : tailA V (Proc.devRef .tc main_arg20) = V (Proc.devRef .tc main_arg20) :=
  tailA_of V main_arg20 (by decide) (by decide)
theorem tailA_arg21 : tailA V (Proc.devRef .tc main_arg21) = V (Proc.devRef .tc main_arg21) :=
  tailA_of V main_arg21 (by decide) (by decide)
theorem tailA_arg22 : tailA V (Proc.devRef .tc main_arg22) = V (Proc.devRef .tc main_arg22) :=
  tailA_of V main_arg22 (by decide) (by decide)
theorem tailA_arg23 : tailA V (Proc.devRef .tc main_arg23) = V (Proc.devRef .tc main_arg23) :=
  tailA_of V main_arg23 (by decide) (by decide)
theorem tailA_arg24 : tailA V (Proc.devRef .tc main_arg24) = V (Proc.devRef .tc main_arg24) :=
  tailA_of V main_arg24 (by decide) (by decide)
theorem tailA_arg25 : tailA V (Proc.devRef .tc main_arg25) = V (Proc.devRef .tc main_arg25) :=
  tailA_of V main_arg25 (by decide) (by decide)

/-! ## The loss -/

/-- A vector over its length, the length floored at a small constant. -/
def unitOf (x : FVec Ideal S128 .f32) : FVec Ideal S128 .f32 :=
  Host.divf (F := Ideal) x
    (broadcastInDim S128 ![] bcast_S_S128
      (maximumf
        (Host.sqrt (F := Ideal)
          (Host.reduceAdd (F := Ideal) (mulf x x) (constant (F := Ideal) S_ .f32 0#32) reducesTo_S128_S_d0 h_S_))
        (constant (F := Ideal) S_ .f32 730643660#32)))

/-- One minus the inner product of the two vectors, each over its floored length. -/
def lossOf (x y : FVec Ideal S128 .f32) : FVec Ideal S_ .f32 :=
  subf (constant (F := Ideal) S_ .f32 1065353216#32)
    (Host.reduceAdd (F := Ideal) (mulf (unitOf x) (unitOf y)) (constant (F := Ideal) S_ .f32 0#32) reducesTo_S128_S_d0 h_S_)

/-- The last four stretches: the two lengths, then the loss. -/
abbrev tailB (U : Valuation τ sig (Elt Ideal)) : Valuation τ sig (Elt Ideal) :=
  after hostOps4_14 (after hostOps4_13 (after hostOps4_12 (after hostOps4_11 U)))

set_option maxHeartbeats 4000000 in
theorem tailB_v253 (U : Valuation τ sig (Elt Ideal)) :
    tailB U (Proc.devRef .tc main_v253) = lossOf (U (Proc.devRef .tc main_v101)) (U (Proc.devRef .tc main_v242)) := by
  unfold tailB; after_results_simp; strip_typed; rfl

/-! ## The online rows, entry by entry -/

open Idealize.ShloMosaic.ValueIdx

/-- The row of the table the `i`-th masked node reads: its wrapped number as a signed integer, kept inside the table. -/
def rowAt (mask : IVec S17 32) (i : Fin 17) : Fin 100000 :=
  ⟨min (wrappedMask mask (ix1 i)).toInt.toNat (100000 - 1), by omega⟩

/-- A row spread down the 17 rows reads, at `(i, q)`, the row's entry `q`. -/
theorem spread17_apply {α : Type} (x : S1x128.Idx → α) (i : Fin 17) (q : Fin 128) :
    broadcastInDim S17x128 ![0, 1] bcast_S1x128_S17x128_0_1 x (ix2 i q) = x (ix2 (0 : Fin 1) q) :=
  broadcastInDim_apply _ bcast_S1x128_S17x128_0_1 x (ix2 i q) (ix2 (0 : Fin 1) q) (fun a => match a with
    | ⟨0, _⟩ => by show 0 = if (1 : Nat) = 1 then 0 else i.val; rw [if_pos rfl]
    | ⟨1, _⟩ => by show q.val = if (128 : Nat) = 1 then 0 else q.val; rw [if_neg (by decide)])

/-- A vector laid out as one row reads, in column `q`, the vector's entry `q`. -/
theorem asRow_apply {α : Type} (x : S128.Idx → α) (q : Fin 128) :
    broadcastInDim S1x128 ![1] bcast_S128_S1x128_1 x (ix2 (0 : Fin 1) q) = x (ix1 q) :=
  broadcastInDim_apply _ bcast_S128_S1x128_1 x (ix2 (0 : Fin 1) q) (ix1 q) (fun a => match a with
    | ⟨0, _⟩ => by show q.val = if (128 : Nat) = 1 then 0 else q.val; rw [if_neg (by decide)])

/-- The node numbers laid out as a column read, in row `i`, the `i`-th number. -/
theorem asColumn17_apply (x : IVec S17 32) (i : Fin 17) :
    broadcastInDim S17x1 ![0] bcast_S17_S17x1_0 x (ix2 i (0 : Fin 1)) = x (ix1 i) :=
  broadcastInDim_apply _ bcast_S17_S17x1_0 x (ix2 i (0 : Fin 1)) (ix1 i) (fun a => match a with
    | ⟨0, _⟩ => by show i.val = if (17 : Nat) = 1 then 0 else i.val; rw [if_neg (by decide)])

/-- The gathered table read at `(i, q)`: column `q` of the row `rowAt mask i`. -/
theorem gatherRows_apply (y2 : FVec Ideal S100000x128 .f32) (mask : IVec S17 32) (i : Fin 17) (q : Fin 128) :
    Host.gather gather_S100000x128_S17x1_S17x128_1_0_n_n_0_1_1128 y2
        (broadcastInDim S17x1 ![0] bcast_S17_S17x1_0 (wrappedMask mask)) (ix2 i q)
      = y2 (ix2 (rowAt mask i) q) := by
  have h := Cert.LibGatherRows.gather_rows_apply (N := 100000) (R := 17) (C := 128) (by decide)
    gather_S100000x128_S17x1_S17x128_1_0_n_n_0_1_1128_wf y2
    (broadcastInDim S17x1 ![0] bcast_S17_S17x1_0 (wrappedMask mask)) i q
  refine Eq.trans h ?_
  refine congrArg y2 (congrArg (fun r => ix2 r q) (Fin.ext ?_))
  show min (broadcastInDim S17x1 ![0] bcast_S17_S17x1_0 (wrappedMask mask) (ix2 i (0 : Fin 1))).toInt.toNat (100000 - 1)
    = min (wrappedMask mask (ix1 i)).toInt.toNat (100000 - 1)
  rw [asColumn17_apply]

/-- The online rows at `(i, q)`: the gathered entry centred, scaled twice and shifted with column `q`'s entries. -/
theorem onlineRowsOf_apply (y2 : FVec Ideal S100000x128 .f32) (mean inv : FVec Ideal S1x128 .f32) (mask : IVec S17 32)
    (g be : FVec Ideal S128 .f32) (i : Fin 17) (q : Fin 128) :
    onlineRowsOf y2 mean inv mask g be (ix2 i q)
      = ((y2 (ix2 (rowAt mask i) q) - mean (ix2 (0 : Fin 1) q)) * inv (ix2 (0 : Fin 1) q)) * g (ix1 q) + be (ix1 q) := by
  unfold onlineRowsOf
  show ((Host.gather gather_S100000x128_S17x1_S17x128_1_0_n_n_0_1_1128 y2
        (broadcastInDim S17x1 ![0] bcast_S17_S17x1_0 (wrappedMask mask)) (ix2 i q)
      - broadcastInDim S17x128 ![0, 1] bcast_S1x128_S17x128_0_1 mean (ix2 i q))
      * broadcastInDim S17x128 ![0, 1] bcast_S1x128_S17x128_0_1 inv (ix2 i q))
      * broadcastInDim S17x128 ![0, 1] bcast_S1x128_S17x128_0_1 (broadcastInDim S1x128 ![1] bcast_S128_S1x128_1 g) (ix2 i q)
      + broadcastInDim S17x128 ![0, 1] bcast_S1x128_S17x128_0_1 (broadcastInDim S1x128 ![1] bcast_S128_S1x128_1 be) (ix2 i q) = _
  rw [gatherRows_apply, spread17_apply, spread17_apply, spread17_apply, spread17_apply, asRow_apply, asRow_apply]

end Cert.KernelIdeal.KTail

end
-- ==== Proof.RefAt.lean ====
/-
  The reference computation, stage by stage, read at an index.

  The reference is a two-layer message-passing network over 100000 nodes with 128 features. Each layer multiplies
  the (masked, respectively activated) features by a 128 x 128 weight matrix and scales each row; gathers and
  scatter-adds the rows along the edges; scales each row again and adds a bias; and then normalises every column
  over all 100000 rows: the column mean, the column variance as the mean of squared deviations, the inverse
  square root of the variance plus a small constant, and an affine map. Between the layers sits an activation
  that keeps nonnegative values and multiplies the others by a scalar slope.

  Every lemma reads one stage's value at an index built from literal coordinates (`r : Fin 100000` a row,
  `q k : Fin 128` a column) in terms of the EARLIER stages' values at such indices: a matrix product is a sum
  over the contracted coordinate, a column reduction is a sum over the rows (the zero initial value dropped),
  a broadcast reads its operand at the coordinates it keeps. Scatters and gathers are never opened.
-/
import proofs.«122415_j30588757082611_2_alg».proof.Proof.RefReadP
import Idealize.ShloMosaic.Lib.ValueIdx
import Idealize.ShloMosaic.PureOps.Ideal.Laws

noncomputable section

namespace Cert.ReferenceIdeal.RefAt

open Cert.ReferenceIdeal Cert.ReferenceIdeal.ReadP Idealize.ShloMosaic Idealize.ShloMosaic.ValueIdx

variable (x0 : (⟨S100000x128, .f32⟩ : BufTy).Contents (Elt Ideal))
  (x1 x2 : (⟨S1600000, .i32⟩ : BufTy).Contents (Elt Ideal))
  (x5 : (⟨S17, .i32⟩ : BufTy).Contents (Elt Ideal))
  (x6 : (⟨S128x128, .f32⟩ : BufTy).Contents (Elt Ideal))
  (x7 x8 x9 : (⟨S128, .f32⟩ : BufTy).Contents (Elt Ideal))
  (x10 : (⟨S_, .f32⟩ : BufTy).Contents (Elt Ideal))
  (x11 : (⟨S128x128, .f32⟩ : BufTy).Contents (Elt Ideal))
  (x12 x13 x14 : (⟨S128, .f32⟩ : BufTy).Contents (Elt Ideal))

/-! ### Layer 1: the weight product -/

/-- Layer 1's scaled weight product at row `r`, column `q`: the masked features' row `r` against column `q` of
    the weights, a sum over the 128 contracted coordinates, times the row's scale. -/
theorem v20_at (r : Fin 100000) (q : Fin 128) :
    val_main_v20 (F := Ideal) x0 x1 x5 x6 (ix2 r q)
      = (∑ k : Fin 128, val_main_v7 (F := Ideal) x0 x5 (ix2 r k) * x6 (ix2 k q)) * val_main_v17 (F := Ideal) x1 (ix1 r) := by
  have el : ∀ k : Fin 128, lidx_main_v8 (ix2 r q) k = ix2 r k := fun k => funext fun a => Fin.ext (by match a with | ⟨0, _⟩ => rfl | ⟨1, _⟩ => rfl)
  have er : ∀ k : Fin 128, ridx_main_v8 (ix2 r q) k = ix2 k q := fun k => funext fun a => Fin.ext (by match a with | ⟨0, _⟩ => rfl | ⟨1, _⟩ => rfl)
  have e1 : idx_main_v18 (idx_main_v19 (ix2 r q)) = ix1 r := funext fun a => Fin.ext (by match a with | ⟨0, _⟩ => rfl)
  rw [val_main_v20_apply, val_main_v8_apply, val_main_v19_apply, val_main_v18_apply, e1]
  simp only [el, er, Ideal.mulf_def]

/-! ### Layer 1: the affine step, the column statistics and the normalisation -/

/-- Layer 1's pre-normalisation activation at row `r`, column `q`: the aggregated message times the row's
    scale, plus the column's bias. -/
theorem v45_at (r : Fin 100000) (q : Fin 128) :
    val_main_v45 (F := Ideal) x0 x1 x2 x5 x6 x7 (ix2 r q)
      = val_main_v30 (F := Ideal) x0 x1 x2 x5 x6 (ix2 r q) * val_main_v39 (F := Ideal) x2 (ix1 r) + x7 (ix1 q) := by
  have e1 : idx_main_v40 (idx_main_v41 (ix2 r q)) = ix1 r := funext fun a => Fin.ext (by match a with | ⟨0, _⟩ => rfl)
  have e2 : idx_main_v43 (idx_main_v44 (ix2 r q)) = ix1 q := funext fun a => Fin.ext (by match a with | ⟨0, _⟩ => rfl)
  rw [val_main_v45_apply, val_main_v42_apply, val_main_v41_apply, val_main_v40_apply,
    val_main_v44_apply, val_main_v43_apply, e1, e2]
  simp only [Ideal.addf_def, Ideal.mulf_def]

/-- Layer 1's column mean: the sum of column `q` over all 100000 rows, divided by the word for `100000`. -/
theorem v48_at (q : Fin 128) :
    val_main_v48 (F := Ideal) x0 x1 x2 x5 x6 x7 (ix1 q)
      = Ideal.div (∑ r : Fin 100000, val_main_v45 (F := Ideal) x0 x1 x2 x5 x6 x7 (ix2 r q)) (Ideal.ofBits .f32 0x47C35000#32) := by
  have e : ∀ k : Fin 100000, idx_main_v46 (ix1 q) k = ix2 k q := fun k => funext fun a => Fin.ext (by match a with | ⟨0, _⟩ => rfl | ⟨1, _⟩ => rfl)
  rw [val_main_v48_apply, val_main_v46_apply, val_main_v47_apply, val_main_cst_14_apply,
    val_main_cst_15_apply]
  simp only [e, Ideal.hostDivf_def, Ideal.ofBits_def]
  rw [Ideal.ofBits_zero_f32, zero_add]

/-- Layer 1's deviation from the column mean at row `r`, column `q` (the operand of the variance's square). -/
theorem v51_at (r : Fin 100000) (q : Fin 128) :
    val_main_v51 (F := Ideal) x0 x1 x2 x5 x6 x7 (ix2 r q)
      = val_main_v45 (F := Ideal) x0 x1 x2 x5 x6 x7 (ix2 r q) - val_main_v48 (F := Ideal) x0 x1 x2 x5 x6 x7 (ix1 q) := by
  have e : idx_main_v49 (idx_main_v50 (ix2 r q)) = ix1 q := funext fun a => Fin.ext (by match a with | ⟨0, _⟩ => rfl)
  rw [val_main_v51_apply, val_main_v50_apply, val_main_v49_apply, e]
  simp only [Ideal.subf_def]

/-- Layer 1's column variance: the sum over all rows of the squared deviation from the column mean, divided
    by the word for `100000`. -/
theorem v55_at (q : Fin 128) :
    val_main_v55 (F := Ideal) x0 x1 x2 x5 x6 x7 (ix1 q)
      = Ideal.div (∑ r : Fin 100000,
          (val_main_v45 (F := Ideal) x0 x1 x2 x5 x6 x7 (ix2 r q) - val_main_v48 (F := Ideal) x0 x1 x2 x5 x6 x7 (ix1 q))
            * (val_main_v45 (F := Ideal) x0 x1 x2 x5 x6 x7 (ix2 r q) - val_main_v48 (F := Ideal) x0 x1 x2 x5 x6 x7 (ix1 q)))
          (Ideal.ofBits .f32 0x47C35000#32) := by
  have e : ∀ k : Fin 100000, idx_main_v53 (ix1 q) k = ix2 k q := fun k => funext fun a => Fin.ext (by match a with | ⟨0, _⟩ => rfl | ⟨1, _⟩ => rfl)
  have hf : (fun k : Fin 100000 => val_main_v52 (F := Ideal) x0 x1 x2 x5 x6 x7 (idx_main_v53 (ix1 q) k))
      = fun r : Fin 100000 => (val_main_v45 (F := Ideal) x0 x1 x2 x5 x6 x7 (ix2 r q) - val_main_v48 (F := Ideal) x0 x1 x2 x5 x6 x7 (ix1 q)) * (val_main_v45 (F := Ideal) x0 x1 x2 x5 x6 x7 (ix2 r q) - val_main_v48 (F := Ideal) x0 x1 x2 x5 x6 x7 (ix1 q)) := by
    funext k
    rw [e k, val_main_v52_apply, v51_at, Ideal.mulf_def]
  rw [val_main_v55_apply, val_main_v53_apply, val_main_v54_apply, val_main_cst_16_apply,
    val_main_cst_17_apply, Ideal.hostDivf_def, Ideal.ofBits_def, Ideal.ofBits_def, Ideal.ofBits_zero_f32, zero_add, hf]

/-- Layer 1's inverse standard deviation of column `q`: the inverse square root of the variance plus the
    stabilising constant. -/
theorem v61_at (q : Fin 128) :
    val_main_v61 (F := Ideal) x0 x1 x2 x5 x6 x7 (ix1 q)
      = Ideal.rsqrt (val_main_v55 (F := Ideal) x0 x1 x2 x5 x6 x7 (ix1 q) + Ideal.ofBits .f32 0x3727C5AC#32) := by
  rw [val_main_v61_apply, val_main_v60_apply, val_main_v59_apply, val_main_cst_18_apply]
  simp only [Ideal.hostUnary_rsqrt_def, Ideal.addf_def, Ideal.ofBits_def]

/-- Layer 1's normalised, scaled and shifted activation at row `r`, column `q`. -/
theorem v70_at (r : Fin 100000) (q : Fin 128) :
    val_main_v70 (F := Ideal) x0 x1 x2 x5 x6 x7 x8 x9 (ix2 r q)
      = ((val_main_v45 (F := Ideal) x0 x1 x2 x5 x6 x7 (ix2 r q) - val_main_v48 (F := Ideal) x0 x1 x2 x5 x6 x7 (ix1 q)) * val_main_v61 (F := Ideal) x0 x1 x2 x5 x6 x7 (ix1 q)) * x8 (ix1 q) + x9 (ix1 q) := by
  have e1 : idx_main_v56 (idx_main_v57 (ix2 r q)) = ix1 q := funext fun a => Fin.ext (by match a with | ⟨0, _⟩ => rfl)
  have e2 : idx_main_v62 (idx_main_v63 (ix2 r q)) = ix1 q := funext fun a => Fin.ext (by match a with | ⟨0, _⟩ => rfl)
  have e3 : idx_main_v65 (idx_main_v66 (ix2 r q)) = ix1 q := funext fun a => Fin.ext (by match a with | ⟨0, _⟩ => rfl)
  have e4 : idx_main_v68 (idx_main_v69 (ix2 r q)) = ix1 q := funext fun a => Fin.ext (by match a with | ⟨0, _⟩ => rfl)
  rw [val_main_v70_apply, val_main_v67_apply, val_main_v64_apply, val_main_v58_apply,
    val_main_v57_apply, val_main_v56_apply, val_main_v63_apply, val_main_v62_apply,
    val_main_v66_apply, val_main_v65_apply, val_main_v69_apply, val_main_v68_apply, e1, e2, e3, e4]
  simp only [Ideal.addf_def, Ideal.mulf_def, Ideal.subf_def]

/-! ### The activation between the layers -/

/-- The activation at row `r`, column `k`: where the normalised value is at least zero it is kept, elsewhere
    it is multiplied by the scalar slope. `Scalar.select c a b` is by definition `if c = 1 then a else b`, and the
    comparison is the order of the extended reals against the value `0` of the zero word. -/
theorem v75_at (r : Fin 100000) (k : Fin 128) :
    val_main_v75 (F := Ideal) x0 x1 x2 x5 x6 x7 x8 x9 x10 (ix2 r k)
      = Scalar.select (Ideal.cmp .oge (val_main_v70 (F := Ideal) x0 x1 x2 x5 x6 x7 x8 x9 (ix2 r k)) 0)
          (val_main_v70 (F := Ideal) x0 x1 x2 x5 x6 x7 x8 x9 (ix2 r k))
          (x10 ix0 * val_main_v70 (F := Ideal) x0 x1 x2 x5 x6 x7 x8 x9 (ix2 r k)) := by
  rw [val_main_v75_apply, val_main_v72_apply, val_main_v74_apply, val_main_v71_apply, val_main_cst_19_apply,
    val_main_v73_apply]
  simp only [Ideal.mulf_def, Ideal.ofBits_def, Ideal.ofBits_zero_f32]
  rfl

/-! ### Layer 2: the weight product -/

/-- Layer 2's scaled weight product at row `r`, column `q`: the activated row `r` against column `q` of the
    second weights, a sum over the 128 contracted coordinates, times the row's scale. -/
theorem v88_at (r : Fin 100000) (q : Fin 128) :
    val_main_v88 (F := Ideal) x0 x1 x2 x5 x6 x7 x8 x9 x10 x11 (ix2 r q)
      = (∑ k : Fin 128, val_main_v75 (F := Ideal) x0 x1 x2 x5 x6 x7 x8 x9 x10 (ix2 r k) * x11 (ix2 k q)) * val_main_v85 (F := Ideal) x1 (ix1 r) := by
  have el : ∀ k : Fin 128, lidx_main_v76 (ix2 r q) k = ix2 r k := fun k => funext fun a => Fin.ext (by match a with | ⟨0, _⟩ => rfl | ⟨1, _⟩ => rfl)
  have er : ∀ k : Fin 128, ridx_main_v76 (ix2 r q) k = ix2 k q := fun k => funext fun a => Fin.ext (by match a with | ⟨0, _⟩ => rfl | ⟨1, _⟩ => rfl)
  have e1 : idx_main_v86 (idx_main_v87 (ix2 r q)) = ix1 r := funext fun a => Fin.ext (by match a with | ⟨0, _⟩ => rfl)
  rw [val_main_v88_apply, val_main_v76_apply, val_main_v87_apply, val_main_v86_apply, e1]
  simp only [el, er, Ideal.mulf_def]

/-! ### Layer 2: the affine step, the column statistics and the normalisation -/

/-- Layer 2's pre-normalisation activation at row `r`, column `q`: the aggregated message times the row's
    scale, plus the column's bias. -/
theorem v113_at (r : Fin 100000) (q : Fin 128) :
    val_main_v113 (F := Ideal) x0 x1 x2 x5 x6 x7 x8 x9 x10 x11 x12 (ix2 r q)
      = val_main_v98 (F := Ideal) x0 x1 x2 x5 x6 x7 x8 x9 x10 x11 (ix2 r q) * val_main_v107 (F := Ideal) x2 (ix1 r) + x12 (ix1 q) := by
  have e1 : idx_main_v108 (idx_main_v109 (ix2 r q)) = ix1 r := funext fun a => Fin.ext (by match a with | ⟨0, _⟩ => rfl)
  have e2 : idx_main_v111 (idx_main_v112 (ix2 r q)) = ix1 q := funext fun a => Fin.ext (by match a with | ⟨0, _⟩ => rfl)
  rw [val_main_v113_apply, val_main_v110_apply, val_main_v109_apply, val_main_v108_apply,
    val_main_v112_apply, val_main_v111_apply, e1, e2]
  simp only [Ideal.addf_def, Ideal.mulf_def]

/-- Layer 2's column mean: the sum of column `q` over all 100000 rows, divided by the word for `100000`. -/
theorem v116_at (q : Fin 128) :
    val_main_v116 (F := Ideal) x0 x1 x2 x5 x6 x7 x8 x9 x10 x11 x12 (ix1 q)
      = Ideal.div (∑ r : Fin 100000, val_main_v113 (F := Ideal) x0 x1 x2 x5 x6 x7 x8 x9 x10 x11 x12 (ix2 r q)) (Ideal.ofBits .f32 0x47C35000#32) := by
  have e : ∀ k : Fin 100000, idx_main_v114 (ix1 q) k = ix2 k q := fun k => funext fun a => Fin.ext (by match a with | ⟨0, _⟩ => rfl | ⟨1, _⟩ => rfl)
  rw [val_main_v116_apply, val_main_v114_apply, val_main_v115_apply, val_main_cst_33_apply,
    val_main_cst_34_apply]
  simp only [e, Ideal.hostDivf_def, Ideal.ofBits_def]
  rw [Ideal.ofBits_zero_f32, zero_add]

/-- Layer 2's deviation from the column mean at row `r`, column `q` (the operand of the variance's square). -/
theorem v119_at (r : Fin 100000) (q : Fin 128) :
    val_main_v119 (F := Ideal) x0 x1 x2 x5 x6 x7 x8 x9 x10 x11 x12 (ix2 r q)
      = val_main_v113 (F := Ideal) x0 x1 x2 x5 x6 x7 x8 x9 x10 x11 x12 (ix2 r q) - val_main_v116 (F := Ideal) x0 x1 x2 x5 x6 x7 x8 x9 x10 x11 x12 (ix1 q) := by
  have e : idx_main_v117 (idx_main_v118 (ix2 r q)) = ix1 q := funext fun a => Fin.ext (by match a with | ⟨0, _⟩ => rfl)
  rw [val_main_v119_apply, val_main_v118_apply, val_main_v117_apply, e]
  simp only [Ideal.subf_def]

/-- Layer 2's column variance: the sum over all rows of the squared deviation from the column mean, divided
    by the word for `100000`. -/
theorem v123_at (q : Fin 128) :
    val_main_v123 (F := Ideal) x0 x1 x2 x5 x6 x7 x8 x9 x10 x11 x12 (ix1 q)
      = Ideal.div (∑ r : Fin 100000,
          (val_main_v113 (F := Ideal) x0 x1 x2 x5 x6 x7 x8 x9 x10 x11 x12 (ix2 r q) - val_main_v116 (F := Ideal) x0 x1 x2 x5 x6 x7 x8 x9 x10 x11 x12 (ix1 q))
            * (val_main_v113 (F := Ideal) x0 x1 x2 x5 x6 x7 x8 x9 x10 x11 x12 (ix2 r q) - val_main_v116 (F := Ideal) x0 x1 x2 x5 x6 x7 x8 x9 x10 x11 x12 (ix1 q)))
          (Ideal.ofBits .f32 0x47C35000#32) := by
  have e : ∀ k : Fin 100000, idx_main_v121 (ix1 q) k = ix2 k q := fun k => funext fun a => Fin.ext (by match a with | ⟨0, _⟩ => rfl | ⟨1, _⟩ => rfl)
  have hf : (fun k : Fin 100000 => val_main_v120 (F := Ideal) x0 x1 x2 x5 x6 x7 x8 x9 x10 x11 x12 (idx_main_v121 (ix1 q) k))
      = fun r : Fin 100000 => (val_main_v113 (F := Ideal) x0 x1 x2 x5 x6 x7 x8 x9 x10 x11 x12 (ix2 r q) - val_main_v116 (F := Ideal) x0 x1 x2 x5 x6 x7 x8 x9 x10 x11 x12 (ix1 q)) * (val_main_v113 (F := Ideal) x0 x1 x2 x5 x6 x7 x8 x9 x10 x11 x12 (ix2 r q) - val_main_v116 (F := Ideal) x0 x1 x2 x5 x6 x7 x8 x9 x10 x11 x12 (ix1 q)) := by
    funext k
    rw [e k, val_main_v120_apply, v119_at, Ideal.mulf_def]
  rw [val_main_v123_apply, val_main_v121_apply, val_main_v122_apply, val_main_cst_35_apply,
    val_main_cst_36_apply, Ideal.hostDivf_def, Ideal.ofBits_def, Ideal.ofBits_def, Ideal.ofBits_zero_f32, zero_add, hf]

/-- Layer 2's inverse standard deviation of column `q`: the inverse square root of the variance plus the
    stabilising constant. -/
theorem v129_at (q : Fin 128) :
    val_main_v129 (F := Ideal) x0 x1 x2 x5 x6 x7 x8 x9 x10 x11 x12 (ix1 q)
      = Ideal.rsqrt (val_main_v123 (F := Ideal) x0 x1 x2 x5 x6 x7 x8 x9 x10 x11 x12 (ix1 q) + Ideal.ofBits .f32 0x3727C5AC#32) := by
  rw [val_main_v129_apply, val_main_v128_apply, val_main_v127_apply, val_main_cst_37_apply]
  simp only [Ideal.hostUnary_rsqrt_def, Ideal.addf_def, Ideal.ofBits_def]

/-- Layer 2's normalised, scaled and shifted activation at row `r`, column `q`. -/
theorem v138_at (r : Fin 100000) (q : Fin 128) :
    val_main_v138 (F := Ideal) x0 x1 x2 x5 x6 x7 x8 x9 x10 x11 x12 x13 x14 (ix2 r q)
      = ((val_main_v113 (F := Ideal) x0 x1 x2 x5 x6 x7 x8 x9 x10 x11 x12 (ix2 r q) - val_main_v116 (F := Ideal) x0 x1 x2 x5 x6 x7 x8 x9 x10 x11 x12 (ix1 q)) * val_main_v129 (F := Ideal) x0 x1 x2 x5 x6 x7 x8 x9 x10 x11 x12 (ix1 q)) * x13 (ix1 q) + x14 (ix1 q) := by
  have e1 : idx_main_v124 (idx_main_v125 (ix2 r q)) = ix1 q := funext fun a => Fin.ext (by match a with | ⟨0, _⟩ => rfl)
  have e2 : idx_main_v130 (idx_main_v131 (ix2 r q)) = ix1 q := funext fun a => Fin.ext (by match a with | ⟨0, _⟩ => rfl)
  have e3 : idx_main_v133 (idx_main_v134 (ix2 r q)) = ix1 q := funext fun a => Fin.ext (by match a with | ⟨0, _⟩ => rfl)
  have e4 : idx_main_v136 (idx_main_v137 (ix2 r q)) = ix1 q := funext fun a => Fin.ext (by match a with | ⟨0, _⟩ => rfl)
  rw [val_main_v138_apply, val_main_v135_apply, val_main_v132_apply, val_main_v126_apply,
    val_main_v125_apply, val_main_v124_apply, val_main_v131_apply, val_main_v130_apply,
    val_main_v134_apply, val_main_v133_apply, val_main_v137_apply, val_main_v136_apply, e1, e2, e3, e4]
  simp only [Ideal.addf_def, Ideal.mulf_def, Ideal.subf_def]

end Cert.ReferenceIdeal.RefAt

end
-- ==== Proof.TailMatch.lean ====
/-
  The end of the kernel program against the end of the reference.

  Both programs finish the same way. The online branch takes the rows of the normalised layer-2 output at the 17 masked
  nodes (the mask's numbers wrapped, read signed and kept inside the table) and averages them; the target branch runs
  the small target encoder on the masked nodes' input rows and averages its rows; the loss is one minus the inner
  product of the two mean rows, each over its length floored at a small constant. Here the reference's stages are
  identified with the named values of the kernel program's last host stretches: the gathered rows entry by entry, the
  two means and the loss as the same terms, and the target branch operation by operation.
-/
import proofs.«122415_j30588757082611_2_alg».proof.Proof.KTail
import proofs.«122415_j30588757082611_2_alg».proof.Proof.RefReadP
import proofs.«122415_j30588757082611_2_alg».proof.Proof.RefAt
import Idealize.ShloMosaic.PureOps.Ideal
import Idealize.ShloMosaic.PureOps.Ideal.Laws
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.TailMatch

open Cert.KernelIdeal Cert.KernelIdeal.Gen Cert.KernelIdeal.KHost Cert.KernelIdeal.KCast Cert.KernelIdeal.KTail
open Idealize.ShloMosaic Idealize.ShloMosaic.TcCoe Idealize.ShloMosaic.Tactic Idealize.SL.Sem Idealize.ShloMosaic.StableHlo
open Idealize.ShloMosaic.ValueIdx
open Cert.ReferenceIdeal.ReadP (val_main_v113 val_main_v116 val_main_v129 val_main_v138 val_main_v283 val_main_v286 val_main_v289 val_main_v300)

variable (x0 : FVec Ideal S100000x128 .f32) (x1 x2 : IVec S1600000 32) (x3 x4 : IVec S64 32) (x5 : IVec S17 32)
  (x6 : FVec Ideal S128x128 .f32) (x7 x8 x9 : FVec Ideal S128 .f32) (x10 : FVec Ideal S_ .f32)
  (x11 : FVec Ideal S128x128 .f32) (x12 x13 x14 : FVec Ideal S128 .f32)
  (x16 : FVec Ideal S128x128 .f32) (x17 x18 x19 : FVec Ideal S128 .f32) (x20 : FVec Ideal S_ .f32)
  (x21 : FVec Ideal S128x128 .f32) (x22 x23 x24 : FVec Ideal S128 .f32)

/-- The reference's gathered rows at `(i, q)`: its normalised layer-2 output at the row the wrapped mask names. -/
theorem refRows_apply (i : Fin 17) (q : Fin 128) :
    val_main_v283 (F := Ideal) x0 x1 x2 x5 x6 x7 x8 x9 x10 x11 x12 x13 x14 (ix2 i q)
      = val_main_v138 (F := Ideal) x0 x1 x2 x5 x6 x7 x8 x9 x10 x11 x12 x13 x14 (ix2 (rowAt x5 i) q) := by
  show Host.gather gather_S100000x128_S17x1_S17x128_1_0_n_n_0_1_1128 (val_main_v138 (F := Ideal) x0 x1 x2 x5 x6 x7 x8 x9 x10 x11 x12 x13 x14)
      (broadcastInDim S17x1 ![0] bcast_S17_S17x1_0 (wrappedMask x5)) (ix2 i q) = _
  exact gatherRows_apply (val_main_v138 (F := Ideal) x0 x1 x2 x5 x6 x7 x8 x9 x10 x11 x12 x13 x14) x5 i q

/-- The online rows of the kernel program are the reference's, once the table, the mean row and the inverse-deviation
    row are the reference's. -/
theorem onlineRows_eq (y2 : FVec Ideal S100000x128 .f32) (mean inv : FVec Ideal S1x128 .f32)
    (hY : y2 = val_main_v113 (F := Ideal) x0 x1 x2 x5 x6 x7 x8 x9 x10 x11 x12)
    (hM : ∀ q : Fin 128, mean (ix2 (0 : Fin 1) q) = val_main_v116 (F := Ideal) x0 x1 x2 x5 x6 x7 x8 x9 x10 x11 x12 (ix1 q))
    (hI : ∀ q : Fin 128, inv (ix2 (0 : Fin 1) q) = val_main_v129 (F := Ideal) x0 x1 x2 x5 x6 x7 x8 x9 x10 x11 x12 (ix1 q)) :
    onlineRowsOf y2 mean inv x5 x13 x14 = val_main_v283 (F := Ideal) x0 x1 x2 x5 x6 x7 x8 x9 x10 x11 x12 x13 x14 := by
  funext j
  obtain ⟨i, q, rfl⟩ : ∃ (i : Fin 17) (q : Fin 128), j = ix2 i q := ⟨j 0, j 1, eq_ix2 (n0 := 17) (n1 := 128) j⟩
  rw [onlineRowsOf_apply, refRows_apply, Cert.ReferenceIdeal.RefAt.v138_at, hM q, hI q, hY]

/-- The reference's online mean row is the mean over the 17 gathered rows. -/
theorem refMean_eq :
    val_main_v286 (F := Ideal) x0 x1 x2 x5 x6 x7 x8 x9 x10 x11 x12 x13 x14 = rowsMeanOf (val_main_v283 (F := Ideal) x0 x1 x2 x5 x6 x7 x8 x9 x10 x11 x12 x13 x14) := rfl

/-- The reference's loss is `lossOf` of its two branches' mean rows. -/
theorem refLoss_eq :
    val_main_v300 (F := Ideal) x0 x1 x2 x3 x4 x5 x6 x7 x8 x9 x10 x11 x12 x13 x14 x16 x17 x18 x19 x20 x21 x22 x23 x24
      = lossOf (val_main_v286 (F := Ideal) x0 x1 x2 x5 x6 x7 x8 x9 x10 x11 x12 x13 x14) (val_main_v289 (F := Ideal) x0 x3 x4 x5 x16 x17 x18 x19 x20 x21 x22 x23 x24) := rfl

set_option maxHeartbeats 0 in
/-- The target branch is the same operations in both programs: its mean row, read off the eleven stretches, is the
    reference's stage of the arguments. -/
theorem target_eq (V : Valuation τ sig (Elt Ideal)) :
    tailA V (Proc.devRef .tc main_v242)
      = val_main_v289 (F := Ideal) (V (Proc.devRef .tc main_arg0)) (V (Proc.devRef .tc main_arg3)) (V (Proc.devRef .tc main_arg4))
          (V (Proc.devRef .tc main_arg5)) (V (Proc.devRef .tc main_arg16)) (V (Proc.devRef .tc main_arg17))
          (V (Proc.devRef .tc main_arg18)) (V (Proc.devRef .tc main_arg19)) (V (Proc.devRef .tc main_arg20))
          (V (Proc.devRef .tc main_arg21)) (V (Proc.devRef .tc main_arg22)) (V (Proc.devRef .tc main_arg23))
          (V (Proc.devRef .tc main_arg24)) := by
  show after hostOps4_10 (after hostOps4_9 (after hostOps4_8 (after hostOps4_7 (after hostOps4_6 (after hostOps4_5
      (after hostOps4_4 (after hostOps4_3 (after hostOps4_2 (after hostOps4_1 (after hostOps4 V))))))))))
        (Proc.devRef .tc main_v242) = _
  after_results_simp; strip_typed; rfl

end Cert.TailMatch

end
-- ==== Proof.LibRealClosure.lean ====
/-
  Finiteness carried through host operations at the ideal instance.

  At the ideal instance a float is an extended real. This file says when the result of a host
  operation has only real entries (no infinity, no junk value), given that its operands have:
  a literal whose exponent field is not all ones; a broadcast, a gather, a scatter whose body
  returns the update (each result entry is an entry of an operand); a sum, difference or product
  entry by entry; a selection between two arrays under any mask; a dot product (a finite sum of
  products); a scatter with an add body and a sum along axes (an entry plus a finite sum of
  entries); a quotient by a positive real; a real power of a real (the real power function is
  total); and the reciprocal square root of a POSITIVE real. Two finer predicates, "every entry
  is a real that is not negative" and "every entry is a positive real", carry the sign through
  a square, a sum and a quotient, which is what the reciprocal square root of a variance plus a
  positive constant needs. All statements are generic in the shapes and the dimension numbers.
-/
import Idealize.ShloMosaic.PureOps.Ideal.Laws
import Idealize.ShloMosaic.Lib.IdealHost

namespace Idealize.ShloMosaic.RealClosure

open Idealize.ShloMosaic
open scoped BigOperators

/-! ## One extended real -/

/-- The extended real is a real number. -/
def IsReal (x : EReal) : Prop := ∃ r : ℝ, x = (r : EReal)
/-- The extended real is a real number that is not negative. -/
def IsNonneg (x : EReal) : Prop := ∃ r : ℝ, 0 ≤ r ∧ x = (r : EReal)
/-- The extended real is a positive real number. -/
def IsPos (x : EReal) : Prop := ∃ r : ℝ, 0 < r ∧ x = (r : EReal)

theorem IsNonneg.isReal {x : EReal} (h : IsNonneg x) : IsReal x := let ⟨r, _, e⟩ := h; ⟨r, e⟩
theorem IsPos.isNonneg {x : EReal} (h : IsPos x) : IsNonneg x := let ⟨r, p, e⟩ := h; ⟨r, p.le, e⟩
theorem IsPos.isReal {x : EReal} (h : IsPos x) : IsReal x := h.isNonneg.isReal

theorem isReal_zero : IsReal 0 := ⟨0, EReal.coe_zero.symm⟩
theorem isNonneg_zero : IsNonneg 0 := ⟨0, le_refl _, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- The square of a real is a real that is not negative. -/
theorem IsReal.mul_self {x : EReal} (hx : IsReal x) : IsNonneg (x * x) := by
  obtain ⟨a, rfl⟩ := hx; exact ⟨a * a, mul_self_nonneg a, (EReal.coe_mul a a).symm⟩
theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- A finite sum of reals is a real. -/
theorem IsReal.sum {ι : Type} (s : Finset ι) (f : ι → EReal) (h : ∀ i ∈ s, IsReal (f i)) :
    IsReal (∑ i ∈ s, f i) :=
  Finset.sum_induction f IsReal (fun _ _ ha hb => ha.add hb) isReal_zero h
/-- A finite sum of reals that are not negative is one. -/
theorem IsNonneg.sum {ι : Type} (s : Finset ι) (f : ι → EReal) (h : ∀ i ∈ s, IsNonneg (f i)) :
    IsNonneg (∑ i ∈ s, f i) :=
  Finset.sum_induction f IsNonneg (fun _ _ ha hb => ha.add hb) isNonneg_zero h

/-- A real divided by a positive real is a real. -/
theorem IsReal.div_pos {x y : EReal} (hx : IsReal x) (hy : IsPos y) : IsReal (Ideal.div x y) := by
  obtain ⟨a, rfl⟩ := hx; obtain ⟨b, hb, rfl⟩ := hy
  rw [Ideal.div_coe hb.ne']
  exact ⟨a * (1 / b), (EReal.coe_mul a (1 / b)).symm⟩
/-- A real that is not negative divided by a positive real is not negative. -/
theorem IsNonneg.div_pos {x y : EReal} (hx : IsNonneg x) (hy : IsPos y) : IsNonneg (Ideal.div x y) := by
  obtain ⟨a, ha, rfl⟩ := hx; obtain ⟨b, hb, rfl⟩ := hy
  rw [Ideal.div_coe hb.ne']
  exact ⟨a * (1 / b), mul_nonneg ha (one_div_pos.mpr hb).le, (EReal.coe_mul a (1 / b)).symm⟩
/-- A real power of a real is a real: the real power function is total. -/
theorem IsReal.pow {x y : EReal} (hx : IsReal x) (hy : IsReal y) : IsReal (Ideal.pow x y) := by
  obtain ⟨a, rfl⟩ := hx; obtain ⟨b, rfl⟩ := hy; exact ⟨Real.rpow a b, Ideal.pow_coe_coe a b⟩
/-- The reciprocal square root of a positive real is a real. -/
theorem IsPos.rsqrt {x : EReal} (hx : IsPos x) : IsReal (Ideal.rsqrt x) := by
  obtain ⟨a, ha, rfl⟩ := hx
  rw [Ideal.rsqrt_coe, if_neg (not_lt.mpr ha.le), if_neg ha.ne']
  exact ⟨_, rfl⟩

/-! ## Literals -/

/-- A pattern whose exponent field is not all ones denotes a real. -/
theorem isReal_ieee (e m : Nat) {w : Nat} (b : BitVec w) (h : (b.extractLsb' m e).toNat ≠ 2 ^ e - 1) :
    IsReal (Ideal.ieee e m b) := by
  unfold Ideal.ieee
  dsimp only
  rw [if_neg h]
  split_ifs <;> exact ⟨_, rfl⟩

/-- A pattern with a clear sign bit and an exponent field neither zero nor all ones denotes a
    positive real (a normal number). -/
theorem isPos_ieee (e m : Nat) {w : Nat} (b : BitVec w) (hs : (b.extractLsb' (e + m) 1 == 1#1) = false)
    (h : (b.extractLsb' m e).toNat ≠ 2 ^ e - 1) (h0 : (b.extractLsb' m e).toNat ≠ 0) :
    IsPos (Ideal.ieee e m b) := by
  unfold Ideal.ieee
  dsimp only
  rw [if_neg h, if_neg h0, hs]
  refine ⟨_, ?_, rfl⟩
  rw [if_neg (by decide)]
  positivity

/-! ## Arrays -/

/-- Every entry is a real. -/
def AllReal {ι : Type} (v : ι → EReal) : Prop := ∀ i, IsReal (v i)
/-- Every entry is a real that is not negative. -/
def AllNonneg {ι : Type} (v : ι → EReal) : Prop := ∀ i, IsNonneg (v i)
/-- Every entry is a positive real. -/
def AllPos {ι : Type} (v : ι → EReal) : Prop := ∀ i, IsPos (v i)

theorem AllNonneg.allReal {ι : Type} {v : ι → EReal} (h : AllNonneg v) : AllReal v := fun i => (h i).isReal
theorem AllPos.allReal {ι : Type} {v : ι → EReal} (h : AllPos v) : AllReal v := fun i => (h i).isReal
theorem AllPos.allNonneg {ι : Type} {v : ι → EReal} (h : AllPos v) : AllNonneg v := fun i => (h i).isNonneg

section ops
variable {s t : Shape}

/-- A float literal spread over a shape. -/
theorem allReal_constant (b : BitVec 32) (h : IsReal (Ideal.ofBits .f32 b)) :
    AllReal (constant (F := Ideal) s .f32 b) := fun _ => h
theorem allNonneg_constant (b : BitVec 32) (h : IsNonneg (Ideal.ofBits .f32 b)) :
    AllNonneg (constant (F := Ideal) s .f32 b) := fun _ => h
theorem allPos_constant (b : BitVec 32) (h : IsPos (Ideal.ofBits .f32 b)) :
    AllPos (constant (F := Ideal) s .f32 b) := fun _ => h

/-- Each entry of a broadcast is an entry of its operand. -/
theorem broadcastInDim_all (P : EReal → Prop) (dims : Fin s.rank → Fin t.rank) (h : s.BroadcastsInDim t dims)
    (x : s.Idx → EReal) (hx : ∀ i, P (x i)) : ∀ j, P (broadcastInDim t dims h x j) := fun _ => hx _
theorem allReal_broadcastInDim {dims : Fin s.rank → Fin t.rank} {h : s.BroadcastsInDim t dims}
    {x : s.Idx → EReal} (hx : AllReal x) : AllReal (broadcastInDim t dims h x) :=
  broadcastInDim_all IsReal dims h x hx
theorem allPos_broadcastInDim {dims : Fin s.rank → Fin t.rank} {h : s.BroadcastsInDim t dims}
    {x : s.Idx → EReal} (hx : AllPos x) : AllPos (broadcastInDim t dims h x) :=
  broadcastInDim_all IsPos dims h x hx

theorem allReal_addf {x y : FVec Ideal s .f32} (hx : AllReal x) (hy : AllReal y) : AllReal (addf x y) :=
  fun i => (hx i).add (hy i)
theorem allReal_subf {x y : FVec Ideal s .f32} (hx : AllReal x) (hy : AllReal y) : AllReal (subf x y) :=
  fun i => (hx i).sub (hy i)
theorem allReal_mulf {x y : FVec Ideal s .f32} (hx : AllReal x) (hy : AllReal y) : AllReal (mulf x y) :=
  fun i => (hx i).mul (hy i)
/-- The entrywise square of an array of reals. -/
theorem allNonneg_mulf_self {x : FVec Ideal s .f32} (hx : AllReal x) : AllNonneg (mulf x x) :=
  fun i => (hx i).mul_self
theorem allPos_addf {x y : FVec Ideal s .f32} (hx : AllNonneg x) (hy : AllPos y) : AllPos (addf x y) :=
  fun i => (hx i).add_pos (hy i)

/-- A selection between two arrays of reals, under any mask. -/
theorem allReal_select (c : IVec s 1) {a b : s.Idx → EReal} (ha : AllReal a) (hb : AllReal b) :
    AllReal (select c a b) := by
  intro i
  show IsReal (if c i = 1 then a i else b i)
  split_ifs
  · exact ha i
  · exact hb i

theorem allReal_hostDivf {x y : FVec Ideal s .f32} (hx : AllReal x) (hy : AllPos y) : AllReal (Host.divf x y) :=
  fun i => (hx i).div_pos (hy i)
theorem allNonneg_hostDivf {x y : FVec Ideal s .f32} (hx : AllNonneg x) (hy : AllPos y) :
    AllNonneg (Host.divf x y) :=
  fun i => (hx i).div_pos (hy i)
theorem allReal_hostPowf {x y : FVec Ideal s .f32} (hx : AllReal x) (hy : AllReal y) : AllReal (Host.powf x y) :=
  fun i => (hx i).pow (hy i)
theorem allReal_hostRsqrt {x : FVec Ideal s .f32} (hx : AllPos x) : AllReal (Host.rsqrt x) :=
  fun i => (hx i).rsqrt

/-- A dot product of arrays of reals: each entry is a finite sum of products. -/
theorem allReal_dotGeneral {sl sr so : Shape} (d : DotDims sl sr so) (prec : Option ContractPrecision)
    {l : FVec Ideal sl .f32} {r : FVec Ideal sr .f32} (hl : AllReal l) (hr : AllReal r) :
    AllReal (Host.dotGeneral d prec l r) := by
  intro j
  show IsReal (FloatOps.dotGeneral d prec .single l r j)
  rw [Ideal.dotGeneral_apply]
  exact IsReal.sum _ _ fun k _ => (hl _).mul (hr _)

/-- Each entry of a gather is an entry of its operand. -/
theorem allReal_gather {si : Shape} {w : Nat} (d : GatherDims s si t) {x : s.Idx → EReal} (idx : IVec si w)
    (hx : AllReal x) : AllReal (Host.gather d x idx) := fun _ => hx _

/-- A scatter whose body returns the update: each entry of the result is an entry of the operand
    or an entry of the updates, whatever the indices. -/
theorem scatter_set_all {si u : Shape} {w : Nat} (P : EReal → Prop) (d : ScatterDims s si u) (idx : IVec si w)
    (upd : u.Idx → EReal) (hu : ∀ j, P (upd j)) (l : List (Fin u.numel)) :
    ∀ (x : s.Idx → EReal), (∀ i, P (x i)) → ∀ i, P (l.foldl (fun r n =>
      match d.resultIdx? (u.rowMajor.symm n) idx with
      | some i => fun i' => if i' = i then (fun _ b => b) (r i) (upd (u.rowMajor.symm n)) else r i'
      | none => r) x i) := by
  induction l with
  | nil => intro x hx; exact hx
  | cons n l ih =>
    intro x hx
    rw [List.foldl_cons]
    apply ih
    intro i'
    generalize d.resultIdx? (u.rowMajor.symm n) idx = o
    cases o with
    | none => exact hx i'
    | some i =>
      show P (if i' = i then upd (u.rowMajor.symm n) else x i')
      split_ifs
      · exact hu _
      · exact hx _

theorem allReal_scatter_set {si u : Shape} {w : Nat} (d : ScatterDims s si u) {x : s.Idx → EReal} (idx : IVec si w)
    {upd : u.Idx → EReal} (hx : AllReal x) (hu : AllReal upd) :
    AllReal (Host.scatter d (fun _ b => b) x idx upd) :=
  scatter_set_all IsReal d idx upd hu _ x hx

/-- A scatter with an add body: an entry of the operand plus a finite sum of entries of the updates. -/
theorem allReal_scatterAdd {si u : Shape} {w : Nat} (d : ScatterDims s si u) {x : FVec Ideal s .f32} (idx : IVec si w)
    {upd : FVec Ideal u .f32} (hx : AllReal x) (hu : AllReal upd) : AllReal (Host.scatterAdd d x idx upd) := by
  intro i
  show IsReal (x i + ∑ j ∈ Finset.univ.filter (fun j => d.resultIdx? j idx = some i), upd j)
  exact (hx i).add (IsReal.sum _ _ fun j _ => hu j)

/-- A sum along axes: the initial value plus a finite sum of entries. -/
theorem allReal_reduceAdd {axes : List (Fin s.rank)} {u : Shape} {x : FVec Ideal s .f32} {init : u.Idx → EReal}
    (h : s.ReducesTo axes t) (hu : 0 < u.numel) (hx : AllReal x) (hi : AllReal init) :
    AllReal (Host.reduceAdd (F := Ideal) (φ := .f32) x init h hu) := by
  intro j
  show IsReal (init (Shape.Idx.first hu) + ∑ i ∈ Finset.univ.filter (fun i => h.drop i = j), x i)
  exact (hi _).add (IsReal.sum _ _ fun i _ => hx i)
theorem allNonneg_reduceAdd {axes : List (Fin s.rank)} {u : Shape} {x : FVec Ideal s .f32} {init : u.Idx → EReal}
    (h : s.ReducesTo axes t) (hu : 0 < u.numel) (hx : AllNonneg x) (hi : AllNonneg init) :
    AllNonneg (Host.reduceAdd (F := Ideal) (φ := .f32) x init h hu) := by
  intro j
  show IsNonneg (init (Shape.Idx.first hu) + ∑ i ∈ Finset.univ.filter (fun i => h.drop i = j), x i)
  exact (hi _).add (IsNonneg.sum _ _ fun i _ => hx i)

end ops

/-! ## The literals of a normalized graph convolution -/

theorem isReal_ofBits_f32 (b : BitVec 32) (h : (b.extractLsb' 23 8).toNat ≠ 2 ^ 8 - 1) :
    IsReal (Ideal.ofBits .f32 b) := isReal_ieee 8 23 b h
theorem isPos_ofBits_f32 (b : BitVec 32) (hs : (b.extractLsb' (8 + 23) 1 == 1#1) = false)
    (h : (b.extractLsb' 23 8).toNat ≠ 2 ^ 8 - 1) (h0 : (b.extractLsb' 23 8).toNat ≠ 0) :
    IsPos (Ideal.ofBits .f32 b) := isPos_ieee 8 23 b hs h h0

/-- 0.0 -/
theorem lit_zero : IsReal (Ideal.ofBits .f32 0x00000000#32) := isReal_ofBits_f32 _ (by decide)
theorem lit_zero_nonneg : IsNonneg (Ideal.ofBits .f32 0x00000000#32) := by
  rw [Ideal.ofBits_zero_f32]; exact isNonneg_zero
/-- 1.0 -/
theorem lit_one : IsReal (Ideal.ofBits .f32 0x3F800000#32) := isReal_ofBits_f32 _ (by decide)
/-- -0.5 -/
theorem lit_neg_half : IsReal (Ideal.ofBits .f32 0xBF000000#32) := isReal_ofBits_f32 _ (by decide)
/-- 100000.0 -/
theorem lit_count_pos : IsPos (Ideal.ofBits .f32 0x47C35000#32) :=
  isPos_ofBits_f32 _ (by decide) (by decide) (by decide)
/-- about 1e-5 -/
theorem lit_eps_pos : IsPos (Ideal.ofBits .f32 0x3727C5AC#32) :=
  isPos_ofBits_f32 _ (by decide) (by decide) (by decide)

end Idealize.ShloMosaic.RealClosure
-- ==== Proof.RefReal.lean ====
/-
  The idealized reference computes only real numbers up to each layer's aggregate.

  The reference is a two-layer graph convolution. At the ideal instance a float is an extended
  real; this file shows that, when every entry of the float arguments (features, weights, biases,
  the normalization's scale and shift, the activation's slope) is a real number, so is every entry
  of the first layer's aggregate with its bias (R1) and of the second layer's (R2) — for ARBITRARY
  integer arguments (edge sources, edge targets, masked nodes): a scatter or a gather only moves
  or adds entries, wherever its indices point.

  The proof walks the program's operations in order, one closure step each: a masked row becomes
  the literal zero; a dot product is a finite sum of products; a degree count is a finite sum of
  ones; the degree norm is a real power of a real (the real power function is total, so the count
  zero needs no separate care) or the literal zero; gathering rows and adding them at their
  targets is an entry plus a finite sum of entries. Between the layers the column mean is a finite
  sum over 100000; the variance is a finite sum of squares over the same positive count, hence a
  real that is not negative, and adding the positive literal makes it positive, where the
  reciprocal square root is a real; the activation selects between a real and a real multiple.
-/
import proofs.«122415_j30588757082611_2_alg».proof.Proof.RefReadP
import proofs.«122415_j30588757082611_2_alg».proof.Proof.LibRealClosure

namespace Cert.ReferenceIdeal.RefReal

open Cert.ReferenceIdeal Cert.ReferenceIdeal.Gen Cert.ReferenceIdeal.ReadP
open Idealize.ShloMosaic Idealize.ShloMosaic.RealClosure Idealize.ShloMosaic.TcCoe Idealize.SL.Sem Idealize.ShloMosaic.StableHlo

/-- A float array of the program at the ideal instance. -/
abbrev VF (S : Shape) : Type := (⟨S, .f32⟩ : BufTy).Contents (Elt Ideal)
/-- An integer array of the program. -/
abbrev VI (S : Shape) : Type := (⟨S, .i32⟩ : BufTy).Contents (Elt Ideal)

/-! ## Layer 1 -/

/-- The features with the masked rows set to the literal zero. -/
theorem r_v7 (x0 : VF S100000x128) (x5 : VI S17) (h0 : AllReal x0) : AllReal (val_main_v7 (F := Ideal) x0 x5) := by
  unfold val_main_v7 val_main_v6 val_main_cst
  exact allReal_scatter_set _ _ h0 (allReal_broadcastInDim (allReal_constant _ lit_zero))
/-- Their product with the first weights. -/
theorem r_v8 (x0 : VF S100000x128) (x5 : VI S17) (x6 : VF S128x128) (h0 : AllReal x0) (h6 : AllReal x6) :
    AllReal (val_main_v8 (F := Ideal) x0 x5 x6) := by
  unfold val_main_v8
  exact allReal_dotGeneral _ _ (r_v7 x0 x5 h0) h6

/-- The out-degree counts: zeros plus a finite sum of ones. -/
theorem r_v12 (x1 : VI S1600000) : AllReal (val_main_v12 (F := Ideal) x1) := by
  unfold val_main_v12 val_main_v10 val_main_cst_2 val_main_v9 val_main_cst_1
  exact allReal_scatterAdd _ _ (allReal_broadcastInDim (allReal_constant _ lit_zero)) (allReal_broadcastInDim (allReal_constant _ lit_one))
/-- The out-degree norm: where the count is positive its power -1/2 (a real power of a real),
    elsewhere the literal zero. -/
theorem r_v17 (x1 : VI S1600000) : AllReal (val_main_v17 (F := Ideal) x1) := by
  unfold val_main_v17 val_main_v16 val_main_v15 val_main_cst_4 val_main_call0_v1 val_main_call0_v0 val_main_cst_5
  exact allReal_select _ (allReal_hostPowf (r_v12 x1) (allReal_broadcastInDim (allReal_constant _ lit_neg_half))) (allReal_broadcastInDim (allReal_constant _ lit_zero))
theorem r_v19 (x1 : VI S1600000) : AllReal (val_main_v19 (F := Ideal) x1) := by
  unfold val_main_v19 val_main_v18
  exact allReal_broadcastInDim (allReal_broadcastInDim (r_v17 x1))

/-- The product scaled by the out-degree norm of its row. -/
theorem r_v20 (x0 : VF S100000x128) (x1 : VI S1600000) (x5 : VI S17) (x6 : VF S128x128) (h0 : AllReal x0) (h6 : AllReal x6) : AllReal (val_main_v20 (F := Ideal) x0 x1 x5 x6) := by
  unfold val_main_v20
  exact allReal_mulf (r_v8 x0 x5 x6 h0 h6) (r_v19 x1)
/-- Its rows gathered at the edge sources: each entry is an entry of the table. -/
theorem r_v27 (x0 : VF S100000x128) (x1 : VI S1600000) (x5 : VI S17) (x6 : VF S128x128) (h0 : AllReal x0) (h6 : AllReal x6) : AllReal (val_main_v27 (F := Ideal) x0 x1 x5 x6) := by
  unfold val_main_v27
  exact allReal_gather _ _ (r_v20 x0 x1 x5 x6 h0 h6)
/-- The gathered rows added at the edge targets: zero plus a finite sum of entries. -/
theorem r_v30 (x0 : VF S100000x128) (x1 x2 : VI S1600000) (x5 : VI S17) (x6 : VF S128x128) (h0 : AllReal x0) (h6 : AllReal x6) : AllReal (val_main_v30 (F := Ideal) x0 x1 x2 x5 x6) := by
  unfold val_main_v30 val_main_v28 val_main_cst_8
  exact allReal_scatterAdd _ _ (allReal_broadcastInDim (allReal_constant _ lit_zero)) (r_v27 x0 x1 x5 x6 h0 h6)

/-- The in-degree counts: zeros plus a finite sum of ones. -/
theorem r_v34 (x2 : VI S1600000) : AllReal (val_main_v34 (F := Ideal) x2) := by
  unfold val_main_v34 val_main_v32 val_main_cst_10 val_main_v31 val_main_cst_9
  exact allReal_scatterAdd _ _ (allReal_broadcastInDim (allReal_constant _ lit_zero)) (allReal_broadcastInDim (allReal_constant _ lit_one))
/-- The in-degree norm: where the count is positive its power -1/2 (a real power of a real),
    elsewhere the literal zero. -/
theorem r_v39 (x2 : VI S1600000) : AllReal (val_main_v39 (F := Ideal) x2) := by
  unfold val_main_v39 val_main_v38 val_main_v37 val_main_cst_12 val_main_call1_v1 val_main_call1_v0 val_main_cst_13
  exact allReal_select _ (allReal_hostPowf (r_v34 x2) (allReal_broadcastInDim (allReal_constant _ lit_neg_half))) (allReal_broadcastInDim (allReal_constant _ lit_zero))
theorem r_v41 (x2 : VI S1600000) : AllReal (val_main_v41 (F := Ideal) x2) := by
  unfold val_main_v41 val_main_v40
  exact allReal_broadcastInDim (allReal_broadcastInDim (r_v39 x2))

theorem r_v42 (x0 : VF S100000x128) (x1 x2 : VI S1600000) (x5 : VI S17) (x6 : VF S128x128) (h0 : AllReal x0) (h6 : AllReal x6) : AllReal (val_main_v42 (F := Ideal) x0 x1 x2 x5 x6) := by
  unfold val_main_v42
  exact allReal_mulf (r_v30 x0 x1 x2 x5 x6 h0 h6) (r_v41 x2)

/-- The first bias spread over the rows. -/
theorem r_v44 (x7 : VF S128) (h : AllReal x7) : AllReal (val_main_v44 (F := Ideal) x7) := by
  unfold val_main_v44 val_main_v43
  exact allReal_broadcastInDim (allReal_broadcastInDim h)

/-- The first layer's aggregate, scaled by the in-degree norm, plus the bias. -/
theorem r_v45 (x0 : VF S100000x128) (x1 x2 : VI S1600000) (x5 : VI S17) (x6 : VF S128x128) (x7 : VF S128) (h0 : AllReal x0) (h6 : AllReal x6) (h7 : AllReal x7) : AllReal (val_main_v45 (F := Ideal) x0 x1 x2 x5 x6 x7) := by
  unfold val_main_v45
  exact allReal_addf (r_v42 x0 x1 x2 x5 x6 h0 h6) (r_v44 x7 h7)

/-- (R1) Every entry of the first layer's aggregate is a real, whatever the integer arguments. -/
theorem real_v45
    (x0 : (⟨S100000x128, .f32⟩ : BufTy).Contents (Elt Ideal)) (x1 x2 : (⟨S1600000, .i32⟩ : BufTy).Contents (Elt Ideal))
    (x5 : (⟨S17, .i32⟩ : BufTy).Contents (Elt Ideal)) (x6 : (⟨S128x128, .f32⟩ : BufTy).Contents (Elt Ideal))
    (x7 : (⟨S128, .f32⟩ : BufTy).Contents (Elt Ideal))
    (h0 : ∀ i, ∃ r : ℝ, x0 i = (r : EReal)) (h6 : ∀ i, ∃ r : ℝ, x6 i = (r : EReal))
    (h7 : ∀ i, ∃ r : ℝ, x7 i = (r : EReal)) :
    ∀ i : S100000x128.Idx, ∃ r : ℝ, val_main_v45 (F := Ideal) x0 x1 x2 x5 x6 x7 i = (r : EReal) :=
  r_v45 x0 x1 x2 x5 x6 x7 h0 h6 h7

/-! ## The normalization and the activation between the layers -/

/-- The column sums. -/
theorem r_v46 (x0 : VF S100000x128) (x1 x2 : VI S1600000) (x5 : VI S17) (x6 : VF S128x128) (x7 : VF S128) (h0 : AllReal x0) (h6 : AllReal x6) (h7 : AllReal x7) : AllReal (val_main_v46 (F := Ideal) x0 x1 x2 x5 x6 x7) := by
  unfold val_main_v46 val_main_cst_14
  exact allReal_reduceAdd _ _ (r_v45 x0 x1 x2 x5 x6 x7 h0 h6 h7) (allReal_constant _ lit_zero)
/-- The row count 100000, a positive real. -/
theorem p_v47 : AllPos (val_main_v47 (F := Ideal)) := by
  unfold val_main_v47 val_main_cst_15
  exact allPos_broadcastInDim (allPos_constant _ lit_count_pos)
/-- The column means. -/
theorem r_v48 (x0 : VF S100000x128) (x1 x2 : VI S1600000) (x5 : VI S17) (x6 : VF S128x128) (x7 : VF S128) (h0 : AllReal x0) (h6 : AllReal x6) (h7 : AllReal x7) : AllReal (val_main_v48 (F := Ideal) x0 x1 x2 x5 x6 x7) := by
  unfold val_main_v48
  exact allReal_hostDivf (r_v46 x0 x1 x2 x5 x6 x7 h0 h6 h7) p_v47
theorem r_v50 (x0 : VF S100000x128) (x1 x2 : VI S1600000) (x5 : VI S17) (x6 : VF S128x128) (x7 : VF S128) (h0 : AllReal x0) (h6 : AllReal x6) (h7 : AllReal x7) : AllReal (val_main_v50 (F := Ideal) x0 x1 x2 x5 x6 x7) := by
  unfold val_main_v50 val_main_v49
  exact allReal_broadcastInDim (allReal_broadcastInDim (r_v48 x0 x1 x2 x5 x6 x7 h0 h6 h7))
/-- The deviations from the mean. -/
theorem r_v51 (x0 : VF S100000x128) (x1 x2 : VI S1600000) (x5 : VI S17) (x6 : VF S128x128) (x7 : VF S128) (h0 : AllReal x0) (h6 : AllReal x6) (h7 : AllReal x7) : AllReal (val_main_v51 (F := Ideal) x0 x1 x2 x5 x6 x7) := by
  unfold val_main_v51
  exact allReal_subf (r_v45 x0 x1 x2 x5 x6 x7 h0 h6 h7) (r_v50 x0 x1 x2 x5 x6 x7 h0 h6 h7)
/-- Their squares: reals that are not negative. -/
theorem n_v52 (x0 : VF S100000x128) (x1 x2 : VI S1600000) (x5 : VI S17) (x6 : VF S128x128) (x7 : VF S128) (h0 : AllReal x0) (h6 : AllReal x6) (h7 : AllReal x7) : AllNonneg (val_main_v52 (F := Ideal) x0 x1 x2 x5 x6 x7) := by
  unfold val_main_v52
  exact allNonneg_mulf_self (r_v51 x0 x1 x2 x5 x6 x7 h0 h6 h7)
theorem n_v53 (x0 : VF S100000x128) (x1 x2 : VI S1600000) (x5 : VI S17) (x6 : VF S128x128) (x7 : VF S128) (h0 : AllReal x0) (h6 : AllReal x6) (h7 : AllReal x7) : AllNonneg (val_main_v53 (F := Ideal) x0 x1 x2 x5 x6 x7) := by
  unfold val_main_v53 val_main_cst_16
  exact allNonneg_reduceAdd _ _ (n_v52 x0 x1 x2 x5 x6 x7 h0 h6 h7) (allNonneg_constant _ lit_zero_nonneg)
theorem p_v54 : AllPos (val_main_v54 (F := Ideal)) := by
  unfold val_main_v54 val_main_cst_17
  exact allPos_broadcastInDim (allPos_constant _ lit_count_pos)
/-- The column variances: not negative. -/
theorem n_v55 (x0 : VF S100000x128) (x1 x2 : VI S1600000) (x5 : VI S17) (x6 : VF S128x128) (x7 : VF S128) (h0 : AllReal x0) (h6 : AllReal x6) (h7 : AllReal x7) : AllNonneg (val_main_v55 (F := Ideal) x0 x1 x2 x5 x6 x7) := by
  unfold val_main_v55
  exact allNonneg_hostDivf (n_v53 x0 x1 x2 x5 x6 x7 h0 h6 h7) p_v54
/-- The variance plus the positive literal: positive. -/
theorem p_v60 (x0 : VF S100000x128) (x1 x2 : VI S1600000) (x5 : VI S17) (x6 : VF S128x128) (x7 : VF S128) (h0 : AllReal x0) (h6 : AllReal x6) (h7 : AllReal x7) : AllPos (val_main_v60 (F := Ideal) x0 x1 x2 x5 x6 x7) := by
  unfold val_main_v60 val_main_v59 val_main_cst_18
  exact allPos_addf (n_v55 x0 x1 x2 x5 x6 x7 h0 h6 h7) (allPos_broadcastInDim (allPos_constant _ lit_eps_pos))
/-- Its reciprocal square root: a real, the argument being positive. -/
theorem r_v61 (x0 : VF S100000x128) (x1 x2 : VI S1600000) (x5 : VI S17) (x6 : VF S128x128) (x7 : VF S128) (h0 : AllReal x0) (h6 : AllReal x6) (h7 : AllReal x7) : AllReal (val_main_v61 (F := Ideal) x0 x1 x2 x5 x6 x7) := by
  unfold val_main_v61
  exact allReal_hostRsqrt (p_v60 x0 x1 x2 x5 x6 x7 h0 h6 h7)
theorem r_v63 (x0 : VF S100000x128) (x1 x2 : VI S1600000) (x5 : VI S17) (x6 : VF S128x128) (x7 : VF S128) (h0 : AllReal x0) (h6 : AllReal x6) (h7 : AllReal x7) : AllReal (val_main_v63 (F := Ideal) x0 x1 x2 x5 x6 x7) := by
  unfold val_main_v63 val_main_v62
  exact allReal_broadcastInDim (allReal_broadcastInDim (r_v61 x0 x1 x2 x5 x6 x7 h0 h6 h7))
theorem r_v58 (x0 : VF S100000x128) (x1 x2 : VI S1600000) (x5 : VI S17) (x6 : VF S128x128) (x7 : VF S128) (h0 : AllReal x0) (h6 : AllReal x6) (h7 : AllReal x7) : AllReal (val_main_v58 (F := Ideal) x0 x1 x2 x5 x6 x7) := by
  unfold val_main_v58 val_main_v57 val_main_v56
  exact allReal_subf (r_v45 x0 x1 x2 x5 x6 x7 h0 h6 h7) (allReal_broadcastInDim (allReal_broadcastInDim (r_v48 x0 x1 x2 x5 x6 x7 h0 h6 h7)))
theorem r_v64 (x0 : VF S100000x128) (x1 x2 : VI S1600000) (x5 : VI S17) (x6 : VF S128x128) (x7 : VF S128) (h0 : AllReal x0) (h6 : AllReal x6) (h7 : AllReal x7) : AllReal (val_main_v64 (F := Ideal) x0 x1 x2 x5 x6 x7) := by
  unfold val_main_v64
  exact allReal_mulf (r_v58 x0 x1 x2 x5 x6 x7 h0 h6 h7) (r_v63 x0 x1 x2 x5 x6 x7 h0 h6 h7)

/-- The normalization's scale spread over the rows. -/
theorem r_v66 (x8 : VF S128) (h : AllReal x8) : AllReal (val_main_v66 (F := Ideal) x8) := by
  unfold val_main_v66 val_main_v65
  exact allReal_broadcastInDim (allReal_broadcastInDim h)

theorem r_v67 (x0 : VF S100000x128) (x1 x2 : VI S1600000) (x5 : VI S17) (x6 : VF S128x128) (x7 x8 : VF S128) (h0 : AllReal x0) (h6 : AllReal x6) (h7 : AllReal x7) (h8 : AllReal x8) : AllReal (val_main_v67 (F := Ideal) x0 x1 x2 x5 x6 x7 x8) := by
  unfold val_main_v67
  exact allReal_mulf (r_v64 x0 x1 x2 x5 x6 x7 h0 h6 h7) (r_v66 x8 h8)

/-- The normalization's shift spread over the rows. -/
theorem r_v69 (x9 : VF S128) (h : AllReal x9) : AllReal (val_main_v69 (F := Ideal) x9) := by
  unfold val_main_v69 val_main_v68
  exact allReal_broadcastInDim (allReal_broadcastInDim h)

/-- The normalized aggregate. -/
theorem r_v70 (x0 : VF S100000x128) (x1 x2 : VI S1600000) (x5 : VI S17) (x6 : VF S128x128) (x7 x8 x9 : VF S128) (h0 : AllReal x0) (h6 : AllReal x6) (h7 : AllReal x7) (h8 : AllReal x8) (h9 : AllReal x9) : AllReal (val_main_v70 (F := Ideal) x0 x1 x2 x5 x6 x7 x8 x9) := by
  unfold val_main_v70
  exact allReal_addf (r_v67 x0 x1 x2 x5 x6 x7 x8 h0 h6 h7 h8) (r_v69 x9 h9)
/-- The activation: the entry itself or its multiple by the slope, under any mask. -/
theorem r_v75 (x0 : VF S100000x128) (x1 x2 : VI S1600000) (x5 : VI S17) (x6 : VF S128x128) (x7 x8 x9 : VF S128) (x10 : VF S_) (h0 : AllReal x0) (h6 : AllReal x6) (h7 : AllReal x7) (h8 : AllReal x8) (h9 : AllReal x9) (h10 : AllReal x10) : AllReal (val_main_v75 (F := Ideal) x0 x1 x2 x5 x6 x7 x8 x9 x10) := by
  unfold val_main_v75 val_main_v74 val_main_v73
  exact allReal_select _ (r_v70 x0 x1 x2 x5 x6 x7 x8 x9 h0 h6 h7 h8 h9) (allReal_mulf (allReal_broadcastInDim h10) (r_v70 x0 x1 x2 x5 x6 x7 x8 x9 h0 h6 h7 h8 h9))

/-! ## Layer 2 -/

theorem r_v76 (x0 : VF S100000x128) (x1 x2 : VI S1600000) (x5 : VI S17) (x6 : VF S128x128) (x7 x8 x9 : VF S128) (x10 : VF S_) (x11 : VF S128x128) (h0 : AllReal x0) (h6 : AllReal x6) (h7 : AllReal x7) (h8 : AllReal x8) (h9 : AllReal x9) (h10 : AllReal x10) (h11 : AllReal x11) : AllReal (val_main_v76 (F := Ideal) x0 x1 x2 x5 x6 x7 x8 x9 x10 x11) := by
  unfold val_main_v76
  exact allReal_dotGeneral _ _ (r_v75 x0 x1 x2 x5 x6 x7 x8 x9 x10 h0 h6 h7 h8 h9 h10) h11

/-- The out-degree counts: zeros plus a finite sum of ones. -/
theorem r_v80 (x1 : VI S1600000) : AllReal (val_main_v80 (F := Ideal) x1) := by
  unfold val_main_v80 val_main_v78 val_main_cst_21 val_main_v77 val_main_cst_20
  exact allReal_scatterAdd _ _ (allReal_broadcastInDim (allReal_constant _ lit_zero)) (allReal_broadcastInDim (allReal_constant _ lit_one))
/-- The out-degree norm: where the count is positive its power -1/2 (a real power of a real),
    elsewhere the literal zero. -/
theorem r_v85 (x1 : VI S1600000) : AllReal (val_main_v85 (F := Ideal) x1) := by
  unfold val_main_v85 val_main_v84 val_main_v83 val_main_cst_23 val_main_call3_v1 val_main_call3_v0 val_main_cst_24
  exact allReal_select _ (allReal_hostPowf (r_v80 x1) (allReal_broadcastInDim (allReal_constant _ lit_neg_half))) (allReal_broadcastInDim (allReal_constant _ lit_zero))
theorem r_v87 (x1 : VI S1600000) : AllReal (val_main_v87 (F := Ideal) x1) := by
  unfold val_main_v87 val_main_v86
  exact allReal_broadcastInDim (allReal_broadcastInDim (r_v85 x1))

theorem r_v88 (x0 : VF S100000x128) (x1 x2 : VI S1600000) (x5 : VI S17) (x6 : VF S128x128) (x7 x8 x9 : VF S128) (x10 : VF S_) (x11 : VF S128x128) (h0 : AllReal x0) (h6 : AllReal x6) (h7 : AllReal x7) (h8 : AllReal x8) (h9 : AllReal x9) (h10 : AllReal x10) (h11 : AllReal x11) : AllReal (val_main_v88 (F := Ideal) x0 x1 x2 x5 x6 x7 x8 x9 x10 x11) := by
  unfold val_main_v88
  exact allReal_mulf (r_v76 x0 x1 x2 x5 x6 x7 x8 x9 x10 x11 h0 h6 h7 h8 h9 h10 h11) (r_v87 x1)
theorem r_v95 (x0 : VF S100000x128) (x1 x2 : VI S1600000) (x5 : VI S17) (x6 : VF S128x128) (x7 x8 x9 : VF S128) (x10 : VF S_) (x11 : VF S128x128) (h0 : AllReal x0) (h6 : AllReal x6) (h7 : AllReal x7) (h8 : AllReal x8) (h9 : AllReal x9) (h10 : AllReal x10) (h11 : AllReal x11) : AllReal (val_main_v95 (F := Ideal) x0 x1 x2 x5 x6 x7 x8 x9 x10 x11) := by
  unfold val_main_v95
  exact allReal_gather _ _ (r_v88 x0 x1 x2 x5 x6 x7 x8 x9 x10 x11 h0 h6 h7 h8 h9 h10 h11)
theorem r_v98 (x0 : VF S100000x128) (x1 x2 : VI S1600000) (x5 : VI S17) (x6 : VF S128x128) (x7 x8 x9 : VF S128) (x10 : VF S_) (x11 : VF S128x128) (h0 : AllReal x0) (h6 : AllReal x6) (h7 : AllReal x7) (h8 : AllReal x8) (h9 : AllReal x9) (h10 : AllReal x10) (h11 : AllReal x11) : AllReal (val_main_v98 (F := Ideal) x0 x1 x2 x5 x6 x7 x8 x9 x10 x11) := by
  unfold val_main_v98 val_main_v96 val_main_cst_27
  exact allReal_scatterAdd _ _ (allReal_broadcastInDim (allReal_constant _ lit_zero)) (r_v95 x0 x1 x2 x5 x6 x7 x8 x9 x10 x11 h0 h6 h7 h8 h9 h10 h11)

/-- The in-degree counts: zeros plus a finite sum of ones. -/
theorem r_v102 (x2 : VI S1600000) : AllReal (val_main_v102 (F := Ideal) x2) := by
  unfold val_main_v102 val_main_v100 val_main_cst_29 val_main_v99 val_main_cst_28
  exact allReal_scatterAdd _ _ (allReal_broadcastInDim (allReal_constant _ lit_zero)) (allReal_broadcastInDim (allReal_constant _ lit_one))
/-- The in-degree norm: where the count is positive its power -1/2 (a real power of a real),
    elsewhere the literal zero. -/
theorem r_v107 (x2 : VI S1600000) : AllReal (val_main_v107 (F := Ideal) x2) := by
  unfold val_main_v107 val_main_v106 val_main_v105 val_main_cst_31 val_main_call4_v1 val_main_call4_v0 val_main_cst_32
  exact allReal_select _ (allReal_hostPowf (r_v102 x2) (allReal_broadcastInDim (allReal_constant _ lit_neg_half))) (allReal_broadcastInDim (allReal_constant _ lit_zero))
theorem r_v109 (x2 : VI S1600000) : AllReal (val_main_v109 (F := Ideal) x2) := by
  unfold val_main_v109 val_main_v108
  exact allReal_broadcastInDim (allReal_broadcastInDim (r_v107 x2))

theorem r_v110 (x0 : VF S100000x128) (x1 x2 : VI S1600000) (x5 : VI S17) (x6 : VF S128x128) (x7 x8 x9 : VF S128) (x10 : VF S_) (x11 : VF S128x128) (h0 : AllReal x0) (h6 : AllReal x6) (h7 : AllReal x7) (h8 : AllReal x8) (h9 : AllReal x9) (h10 : AllReal x10) (h11 : AllReal x11) : AllReal (val_main_v110 (F := Ideal) x0 x1 x2 x5 x6 x7 x8 x9 x10 x11) := by
  unfold val_main_v110
  exact allReal_mulf (r_v98 x0 x1 x2 x5 x6 x7 x8 x9 x10 x11 h0 h6 h7 h8 h9 h10 h11) (r_v109 x2)

/-- The second bias spread over the rows. -/
theorem r_v112 (x12 : VF S128) (h : AllReal x12) : AllReal (val_main_v112 (F := Ideal) x12) := by
  unfold val_main_v112 val_main_v111
  exact allReal_broadcastInDim (allReal_broadcastInDim h)

/-- The second layer's aggregate, scaled by the in-degree norm, plus the bias. -/
theorem r_v113 (x0 : VF S100000x128) (x1 x2 : VI S1600000) (x5 : VI S17) (x6 : VF S128x128) (x7 x8 x9 : VF S128) (x10 : VF S_) (x11 : VF S128x128) (x12 : VF S128) (h0 : AllReal x0) (h6 : AllReal x6) (h7 : AllReal x7) (h8 : AllReal x8) (h9 : AllReal x9) (h10 : AllReal x10) (h11 : AllReal x11) (h12 : AllReal x12) : AllReal (val_main_v113 (F := Ideal) x0 x1 x2 x5 x6 x7 x8 x9 x10 x11 x12) := by
  unfold val_main_v113
  exact allReal_addf (r_v110 x0 x1 x2 x5 x6 x7 x8 x9 x10 x11 h0 h6 h7 h8 h9 h10 h11) (r_v112 x12 h12)

/-- (R2) Every entry of the second layer's aggregate is a real, whatever the integer arguments. -/
theorem real_v113
    (x0 : (⟨S100000x128, .f32⟩ : BufTy).Contents (Elt Ideal)) (x1 x2 : (⟨S1600000, .i32⟩ : BufTy).Contents (Elt Ideal))
    (x5 : (⟨S17, .i32⟩ : BufTy).Contents (Elt Ideal)) (x6 : (⟨S128x128, .f32⟩ : BufTy).Contents (Elt Ideal))
    (x7 x8 x9 : (⟨S128, .f32⟩ : BufTy).Contents (Elt Ideal)) (x10 : (⟨S_, .f32⟩ : BufTy).Contents (Elt Ideal))
    (x11 : (⟨S128x128, .f32⟩ : BufTy).Contents (Elt Ideal)) (x12 : (⟨S128, .f32⟩ : BufTy).Contents (Elt Ideal))
    (h0 : ∀ i, ∃ r : ℝ, x0 i = (r : EReal)) (h6 : ∀ i, ∃ r : ℝ, x6 i = (r : EReal))
    (h7 : ∀ i, ∃ r : ℝ, x7 i = (r : EReal)) (h8 : ∀ i, ∃ r : ℝ, x8 i = (r : EReal))
    (h9 : ∀ i, ∃ r : ℝ, x9 i = (r : EReal)) (h10 : ∀ i, ∃ r : ℝ, x10 i = (r : EReal))
    (h11 : ∀ i, ∃ r : ℝ, x11 i = (r : EReal)) (h12 : ∀ i, ∃ r : ℝ, x12 i = (r : EReal)) :
    ∀ i : S100000x128.Idx, ∃ r : ℝ,
      val_main_v113 (F := Ideal) x0 x1 x2 x5 x6 x7 x8 x9 x10 x11 x12 i = (r : EReal) :=
  r_v113 x0 x1 x2 x5 x6 x7 x8 x9 x10 x11 x12 h0 h6 h7 h8 h9 h10 h11 h12

end Cert.ReferenceIdeal.RefReal
-- ==== Proof.Match.lean ====
/-
  The reference's stages and the kernel side's named host values are the same functions.

  The reference recomputes, stage by stage, what the kernel side's program computes on the host between its
  regions: the feature matrix with the masked rows set to zero, the degree norm of an index list (the inverse
  square root of the count where the count is positive, zero elsewhere; recomputed in each layer, always the
  same term), and the aggregation of a node array over the edges (rows gathered at the wrapped source index and
  summed at the destination index). Both programs spell these with the same operations on the same literal
  shapes, so each pair of terms is equal by unfolding the names, the scatters and gathers themselves untouched.

  On top of these, the whole-array functions the kernel's regions compute agree with the reference's stages
  entry by entry: the scaled weight product of region 0 is the reference's layer-1 product, and the fused
  normalisation, activation and second weight product of region 2 is the reference's layer-2 product, given
  that the rows of column statistics it is handed are the reference's column mean and inverse deviation.
-/
import proofs.«122415_j30588757082611_2_alg».proof.Proof.RefReadP
import proofs.«122415_j30588757082611_2_alg».proof.Proof.RefAt
import proofs.«122415_j30588757082611_2_alg».proof.Proof.KHost
import proofs.«122415_j30588757082611_2_alg».proof.Proof.KHostAt
import proofs.«122415_j30588757082611_2_alg».proof.Proof.Region0
import proofs.«122415_j30588757082611_2_alg».proof.Proof.Region2

noncomputable section

namespace Cert.Match

open Cert.ReferenceIdeal Cert.ReferenceIdeal.ReadP Idealize.ShloMosaic Idealize.ShloMosaic.ValueIdx

variable (x0 : (⟨S100000x128, .f32⟩ : BufTy).Contents (Elt Ideal))
  (x1 x2 : (⟨S1600000, .i32⟩ : BufTy).Contents (Elt Ideal))
  (x5 : (⟨S17, .i32⟩ : BufTy).Contents (Elt Ideal))
  (x6 : (⟨S128x128, .f32⟩ : BufTy).Contents (Elt Ideal))
  (x7 x8 x9 : (⟨S128, .f32⟩ : BufTy).Contents (Elt Ideal))
  (x10 : (⟨S_, .f32⟩ : BufTy).Contents (Elt Ideal))
  (x11 : (⟨S128x128, .f32⟩ : BufTy).Contents (Elt Ideal))

/-! ### The host values -/

/-- The reference's masked feature matrix is the kernel side's: the same scatter of zero rows at the wrapped
    mask indices. -/
theorem masked_eq : val_main_v7 (F := Ideal) x0 x5 = Cert.KernelIdeal.KHost.maskedOf x0 x5 := rfl

/-- Layer 1's source-side degree norm is the kernel side's degree norm of the source list. -/
theorem degNorm_src_eq : val_main_v17 (F := Ideal) x1 = Cert.KernelIdeal.KHost.degNormOf x1 := rfl

/-- Layer 1's destination-side degree norm is the kernel side's degree norm of the destination list. -/
theorem degNorm_dst_eq : val_main_v39 (F := Ideal) x2 = Cert.KernelIdeal.KHost.degNormOf x2 := rfl

/-- Layer 2 recomputes the source-side degree norm: the same term again. -/
theorem degNorm_src2_eq : val_main_v85 (F := Ideal) x1 = Cert.KernelIdeal.KHost.degNormOf x1 := rfl

/-- Layer 2 recomputes the destination-side degree norm: the same term again. -/
theorem degNorm_dst2_eq : val_main_v107 (F := Ideal) x2 = Cert.KernelIdeal.KHost.degNormOf x2 := rfl

/-- Layer 1's aggregation over the edges is the kernel side's aggregation of the layer's scaled product. -/
theorem agg1_eq : val_main_v30 (F := Ideal) x0 x1 x2 x5 x6
    = Cert.KernelIdeal.KHost.aggOf (val_main_v20 (F := Ideal) x0 x1 x5 x6) x1 x2 := rfl

/-- Layer 2's aggregation over the edges is the kernel side's aggregation of the layer's scaled product. -/
theorem agg2_eq : val_main_v98 (F := Ideal) x0 x1 x2 x5 x6 x7 x8 x9 x10 x11
    = Cert.KernelIdeal.KHost.aggOf (val_main_v88 (F := Ideal) x0 x1 x2 x5 x6 x7 x8 x9 x10 x11) x1 x2 := rfl

/-! ### The regions' whole-array functions against the reference -/

/-- Region 0's function of the masked features, the first weights and the source-side degree norm laid out as a
    column is the reference's layer-1 scaled weight product: entry by entry both are the row of masked features
    against the weight's column, summed over the 128 shared coordinates, times the row's degree norm. -/
theorem region0_is_v20 :
    Cert.KernelIdeal.RegionValue.scaledProduct (Cert.KernelIdeal.KHost.maskedOf x0 x5) x6
        (Cert.KernelIdeal.KHost.colOf (Cert.KernelIdeal.KHost.degNormOf x1))
      = val_main_v20 (F := Ideal) x0 x1 x5 x6 := by
  funext i
  obtain ⟨r, q, rfl⟩ : ∃ (r : Fin 100000) (q : Fin 128), i = ix2 r q :=
    ⟨i 0, i 1, eq_ix2 (n0 := 100000) (n1 := 128) i⟩
  show Cert.KernelIdeal.RegionValue.scaledProductAt (Cert.KernelIdeal.KHost.maskedOf x0 x5) x6
      (Cert.KernelIdeal.KHost.colOf (Cert.KernelIdeal.KHost.degNormOf x1)) r q = _
  rw [Cert.KernelIdeal.RegionValue.scaledProductAt_eq, Cert.KernelIdeal.KHostAt.colOf_apply,
    Cert.ReferenceIdeal.RefAt.v20_at, masked_eq, degNorm_src_eq]

/-- Region 2's function of layer 1's pre-normalisation activation, a row of column means, a row of inverse
    deviations, the gain, the shift and the slope as rows, the second weights and the source-side degree norm as a
    column is the reference's layer-2 scaled weight product, provided the two rows of statistics hold the
    reference's column mean and inverse deviation: entry by entry both normalise, scale and shift the entry,
    apply the activation, multiply the row into the weight's column and scale by the row's degree norm. -/
theorem region2_is_v88 (M I : FVec Ideal Cert.KernelIdeal.S1x128 .f32)
    (hM : ∀ k : Fin 128, M (ix2 (0 : Fin 1) k) = val_main_v48 (F := Ideal) x0 x1 x2 x5 x6 x7 (ix1 k))
    (hI : ∀ k : Fin 128, I (ix2 (0 : Fin 1) k) = val_main_v61 (F := Ideal) x0 x1 x2 x5 x6 x7 (ix1 k)) :
    Cert.KernelIdeal.RegionValue.fused (val_main_v45 (F := Ideal) x0 x1 x2 x5 x6 x7) M I
        (Cert.KernelIdeal.KHost.rowOf x8) (Cert.KernelIdeal.KHost.rowOf x9) (Cert.KernelIdeal.KHost.slopeOf x10) x11
        (Cert.KernelIdeal.KHost.colOf (Cert.KernelIdeal.KHost.degNormOf x1))
      = val_main_v88 (F := Ideal) x0 x1 x2 x5 x6 x7 x8 x9 x10 x11 := by
  funext i
  obtain ⟨r, q, rfl⟩ : ∃ (r : Fin 100000) (q : Fin 128), i = ix2 r q :=
    ⟨i 0, i 1, eq_ix2 (n0 := 100000) (n1 := 128) i⟩
  show Cert.KernelIdeal.RegionValue.fusedAt (val_main_v45 (F := Ideal) x0 x1 x2 x5 x6 x7) M I
      (Cert.KernelIdeal.KHost.rowOf x8) (Cert.KernelIdeal.KHost.rowOf x9) (Cert.KernelIdeal.KHost.slopeOf x10) x11
      (Cert.KernelIdeal.KHost.colOf (Cert.KernelIdeal.KHost.degNormOf x1)) r q = _
  have hh : (fun k : Fin 128 => Cert.KernelIdeal.RegionValue.hiddenAt (val_main_v45 (F := Ideal) x0 x1 x2 x5 x6 x7) M I
        (Cert.KernelIdeal.KHost.rowOf x8) (Cert.KernelIdeal.KHost.rowOf x9) (Cert.KernelIdeal.KHost.slopeOf x10) r k
          * x11 (ix2 k q))
      = fun k : Fin 128 => val_main_v75 (F := Ideal) x0 x1 x2 x5 x6 x7 x8 x9 x10 (ix2 r k) * x11 (ix2 k q) := by
    funext k
    rw [Cert.KernelIdeal.RegionValue.hiddenAt_eq, hM, hI, Cert.KernelIdeal.KHostAt.rowOf_apply,
      Cert.KernelIdeal.KHostAt.rowOf_apply, Cert.KernelIdeal.KHostAt.slopeOf_apply, Ideal.ofBits_zero_f32,
      Cert.ReferenceIdeal.RefAt.v75_at, Cert.ReferenceIdeal.RefAt.v70_at]
  rw [Cert.KernelIdeal.RegionValue.fusedAt_eq, hh, Cert.KernelIdeal.KHostAt.colOf_apply,
    Cert.ReferenceIdeal.RefAt.v88_at, degNorm_src2_eq]

end Cert.Match

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.LibMoments.lean ====
/-
  Moments of a finite real sample, computed on the extended reals.

  A sample of `n` real numbers has first moment `S1 = ∑ y i` and second moment `S2 = ∑ y i * y i`. Its mean is
  `μ = S1 / n`, and its variance can be written in two ways: as the mean of squares minus the squared mean,
  `S2 / n - μ * μ`, or as the mean of the squared deviations, `(∑ (y i - μ) * (y i - μ)) / n`. Over the reals the
  two agree because `∑ (y i - μ)² = S2 - 2 μ S1 + n μ²` and `S1 = n μ`. On the extended reals the identity is
  FALSE at the infinities (`⊤ - ⊤` is `⊥`), so every statement here takes a real-valued sample; the sums, the
  mean and the variance are then coercions of real numbers, the variance of a nonnegative one, and the inverse
  square root of a positive real is again a real.

  The module also records that a sum of `m * n` terms is the sum over `m` consecutive blocks of `n` terms
  (a sample of 100000 numbers accumulated as 20 partial sums of 5000), and the real numbers two
  single-precision words denote.
-/
import Idealize.ShloMosaic.PureOps.Ideal
import proofs.«122415_j30588757082611_2_alg».proof.Proof.LibSumBlocks

noncomputable section

namespace Cert.Moments

open Idealize.ShloMosaic Finset

/-! ### Coercion of a finite real sum -/

/-- The coercion `ℝ → EReal` commutes with finite sums: it is additive and sends `0` to `0`. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### A sum taken block by block -/

/-- Position `b` of block `a`, among `m` blocks of `n` terms, is a position of the whole. -/
theorem block_lt {m n : ℕ} (a : Fin m) (b : Fin n) : n * a.val + b.val < m * n := by
  have ha := a.isLt
  have hb := b.isLt
  calc n * a.val + b.val < n * a.val + n := by omega
    _ = n * (a.val + 1) := (Nat.mul_succ n a.val).symm
    _ ≤ n * m := Nat.mul_le_mul_left n ha
    _ = m * n := Nat.mul_comm n m

/-- A sum of `m * n` terms in a commutative additive monoid is the sum, over `m` consecutive blocks, of each
    block's `n` terms: term `b` of block `a` is term `n * a + b` of the whole. -/
theorem sum_blocks_val {M : Type*} [AddCommMonoid M] (m n : ℕ) (f : Fin (m * n) → M) :
    ∑ i, f i = ∑ a : Fin m, ∑ b : Fin n, f ⟨n * a.val + b.val, block_lt a b⟩ :=
  (Cert.SumBlocks.sum_blocks m n f).trans
    (Finset.sum_congr rfl fun a _ => Finset.sum_congr rfl fun b _ =>
      congrArg f (Fin.ext ((Cert.SumBlocks.block_pos m n a b).trans (Nat.add_comm _ _))))

/-- A sum of 100000 terms is the sum of 20 consecutive partial sums of 5000 terms: term `j` of partial sum
    `t` is term `5000 * t + j`. -/
theorem sum_100000_blocks {M : Type*} [AddCommMonoid M] (g : Fin 100000 → M) :
    ∑ r : Fin 100000, g r
      = ∑ t : Fin 20, ∑ j : Fin 5000, g ⟨5000 * t.val + j.val, by omega⟩ :=
  sum_blocks_val 20 5000 g

/-! ### The variance identity over the reals -/

/-- The mean of a real sample, written as the product with the reciprocal of the sample size. -/
def mean {n : ℕ} (y : Fin n → ℝ) : ℝ := (∑ i, y i) * (1 / (n : ℝ))

/-- The variance of a real sample: the mean of the squared deviations from the mean. -/
def variance {n : ℕ} (y : Fin n → ℝ) : ℝ := (∑ i, (y i - mean y) * (y i - mean y)) * (1 / (n : ℝ))

/-- A variance is nonnegative: it is a sum of squares times a nonnegative factor. -/
theorem variance_nonneg {n : ℕ} (y : Fin n → ℝ) : 0 ≤ variance y :=
  mul_nonneg (Finset.sum_nonneg fun i _ => mul_self_nonneg _) (by positivity)

/-- Mean of squares minus squared mean is the mean of squared deviations: expanding the square,
    `∑ (y i - μ)² = ∑ y i² - 2 μ ∑ y i + n μ²`, and `∑ y i = n μ`. -/
theorem real_variance {n : ℕ} (hn : 0 < n) (y : Fin n → ℝ) :
    (∑ i, y i * y i) * (1 / (n : ℝ)) - mean y * mean y = variance y := by
  have hn' : (n : ℝ) ≠ 0 := Nat.cast_ne_zero.mpr hn.ne'
  have hsum : ∑ i, y i = (n : ℝ) * mean y := by
    unfold mean; field_simp
  have hexp : ∀ i, (y i - mean y) * (y i - mean y) = y i * y i - 2 * mean y * y i + mean y * mean y :=
    fun i => by ring
  unfold variance
  simp only [hexp, Finset.sum_add_distrib, Finset.sum_sub_distrib, ← Finset.mul_sum, Finset.sum_const,
    Finset.card_univ, Fintype.card_fin, nsmul_eq_mul]
  rw [hsum]
  field_simp
  ring

/-! ### The same on the extended reals, for a real-valued sample -/

/-- The mean of a real-valued sample computed on the extended reals, `(∑ y i) / n`, is the coercion of its
    real mean. -/
theorem div_sum_eq_mean {n : ℕ} (hn : 0 < n) (y : Fin n → ℝ) (N : EReal) (hN : N = ((n : ℝ) : EReal)) :
    Ideal.div (∑ i, (y i : EReal)) N = ((mean y : ℝ) : EReal) := by
  have hn' : (n : ℝ) ≠ 0 := Nat.cast_ne_zero.mpr hn.ne'
  subst hN
  rw [← coe_sum, Ideal.div_coe hn', ← EReal.coe_mul]
  rfl

/-- The mean of a real-valued sample computed on the extended reals is a real number. -/
theorem div_sum_real {n : ℕ} (hn : 0 < n) (y : Fin n → ℝ) (N : EReal) (hN : N = ((n : ℝ) : EReal)) :
    ∃ u : ℝ, Ideal.div (∑ i, (y i : EReal)) N = (u : EReal) :=
  ⟨mean y, div_sum_eq_mean hn y N hN⟩

/-- The mean of squares of a real-valued sample computed on the extended reals, `(∑ y i * y i) / n`, is the
    coercion of the real mean of squares. -/
theorem div_sum_sq_eq {n : ℕ} (hn : 0 < n) (y : Fin n → ℝ) (N : EReal) (hN : N = ((n : ℝ) : EReal)) :
    Ideal.div (∑ i, (y i : EReal) * (y i : EReal)) N = (((∑ i, y i * y i) * (1 / (n : ℝ)) : ℝ) : EReal) := by
  have hn' : (n : ℝ) ≠ 0 := Nat.cast_ne_zero.mpr hn.ne'
  subst hN
  simp only [← EReal.coe_mul, ← coe_sum]
  rw [Ideal.div_coe hn', ← EReal.coe_mul]

/-- The mean of the squared deviations from the mean, everything computed on the extended reals, is the
    coercion of the real variance. -/
theorem div_sum_dev_eq_variance {n : ℕ} (hn : 0 < n) (y : Fin n → ℝ) (N : EReal)
    (hN : N = ((n : ℝ) : EReal)) :
    Ideal.div (∑ i, ((y i : EReal) - Ideal.div (∑ i, (y i : EReal)) N)
        * ((y i : EReal) - Ideal.div (∑ i, (y i : EReal)) N)) N = ((variance y : ℝ) : EReal) := by
  have hn' : (n : ℝ) ≠ 0 := Nat.cast_ne_zero.mpr hn.ne'
  rw [div_sum_eq_mean hn y N hN]
  subst hN
  simp only [← EReal.coe_sub, ← EReal.coe_mul, ← coe_sum]
  rw [Ideal.div_coe hn', ← EReal.coe_mul]
  rfl

/-- Mean of squares minus squared mean, everything computed on the extended reals, is the coercion of the
    real variance. -/
theorem div_sum_sq_sub_eq_variance {n : ℕ} (hn : 0 < n) (y : Fin n → ℝ) (N : EReal)
    (hN : N = ((n : ℝ) : EReal)) :
    Ideal.div (∑ i, (y i : EReal) * (y i : EReal)) N
        - Ideal.div (∑ i, (y i : EReal)) N * Ideal.div (∑ i, (y i : EReal)) N
      = ((variance y : ℝ) : EReal) := by
  rw [div_sum_eq_mean hn y N hN, div_sum_sq_eq hn y N hN, ← EReal.coe_mul, ← EReal.coe_sub,
    real_variance hn y]

/-- The variance identity on the extended reals, for a real-valued sample of positive size `n` and a divisor
    `N` that is the real number `n`: the mean of squares minus the squared mean is the mean of the squared
    deviations from the mean. -/
theorem variance_identity {n : ℕ} (hn : 0 < n) (y : Fin n → ℝ) (N : EReal) (hN : N = ((n : ℝ) : EReal)) :
    Ideal.div (∑ i, (y i : EReal) * (y i : EReal)) N
        - Ideal.div (∑ i, (y i : EReal)) N * Ideal.div (∑ i, (y i : EReal)) N
      = Ideal.div (∑ i, ((y i : EReal) - Ideal.div (∑ i, (y i : EReal)) N)
        * ((y i : EReal) - Ideal.div (∑ i, (y i : EReal)) N)) N := by
  rw [div_sum_sq_sub_eq_variance hn y N hN, div_sum_dev_eq_variance hn y N hN]

/-- Both sides of the variance identity are the coercion of one nonnegative real number. -/
theorem div_sum_dev_real_nonneg {n : ℕ} (hn : 0 < n) (y : Fin n → ℝ) (N : EReal)
    (hN : N = ((n : ℝ) : EReal)) :
    ∃ v : ℝ, 0 ≤ v ∧ Ideal.div (∑ i, ((y i : EReal) - Ideal.div (∑ i, (y i : EReal)) N)
        * ((y i : EReal) - Ideal.div (∑ i, (y i : EReal)) N)) N = (v : EReal) :=
  ⟨variance y, variance_nonneg y, div_sum_dev_eq_variance hn y N hN⟩

/-- Mean of squares minus squared mean of a real-valued sample is the coercion of a nonnegative real. -/
theorem div_sum_sq_sub_real_nonneg {n : ℕ} (hn : 0 < n) (y : Fin n → ℝ) (N : EReal)
    (hN : N = ((n : ℝ) : EReal)) :
    ∃ v : ℝ, 0 ≤ v ∧ Ideal.div (∑ i, (y i : EReal) * (y i : EReal)) N
        - Ideal.div (∑ i, (y i : EReal)) N * Ideal.div (∑ i, (y i : EReal)) N = (v : EReal) :=
  ⟨variance y, variance_nonneg y, div_sum_sq_sub_eq_variance hn y N hN⟩

/-! ### The inverse square root of a positive real -/

/-- The inverse square root of a positive real is the real number `(√v)⁻¹`. -/
theorem rsqrt_coe_pos {v : ℝ} (hv : 0 < v) :
    Ideal.rsqrt (v : EReal) = (((Real.sqrt v)⁻¹ : ℝ) : EReal) := by
  rw [Ideal.rsqrt_coe, if_neg (not_lt.mpr hv.le), if_neg hv.ne']

/-- The inverse square root of a positive real is a real number. -/
theorem rsqrt_real {v : ℝ} (hv : 0 < v) : ∃ w : ℝ, Ideal.rsqrt (v : EReal) = (w : EReal) :=
  ⟨(Real.sqrt v)⁻¹, rsqrt_coe_pos hv⟩

/-- The inverse square root of a nonnegative real plus a positive real is a (positive) real number: the
    shape of a variance with a stabilising constant added. -/
theorem rsqrt_add_real {v e : ℝ} (hv : 0 ≤ v) (he : 0 < e) :
    ∃ w : ℝ, 0 < w ∧ Ideal.rsqrt ((v : EReal) + (e : EReal)) = (w : EReal) := by
  have h : 0 < v + e := by linarith
  refine ⟨(Real.sqrt (v + e))⁻¹, inv_pos.mpr (Real.sqrt_pos.mpr h), ?_⟩
  rw [← EReal.coe_add, rsqrt_coe_pos h]

/-! ### Two single-precision words -/

/-- The word `0x47C35000` (sign `0`, exponent field `143`, fraction `4411392`) denotes
    `(2^23 + 4411392) · 2^(143 - 127 - 23) = 100000`. -/
theorem ofBits_100000 : Ideal.ofBits .f32 0x47C35000#32 = ((100000 : ℝ) : EReal) := by
  simp [Ideal.ofBits, Ideal.ieee, -EReal.coe_mul]; norm_num

/-- The word `0x3727C5AC` (sign `0`, exponent field `110`, fraction `2606508`) denotes the positive real
    `(2^23 + 2606508) · 2^(110 - 127 - 23) = 10995116 / 2^40`, the single-precision number nearest `10⁻⁵`. -/
theorem ofBits_eps : Ideal.ofBits .f32 0x3727C5AC#32 = ((10995116 / 2 ^ 40 : ℝ) : EReal) := by
  simp [Ideal.ofBits, Ideal.ieee, -EReal.coe_mul]; norm_num

/-- The word `0x3727C5AC` denotes a positive real number. -/
theorem ofBits_eps_pos : ∃ e : ℝ, 0 < e ∧ Ideal.ofBits .f32 0x3727C5AC#32 = (e : EReal) :=
  ⟨10995116 / 2 ^ 40, by positivity, ofBits_eps⟩

/-- The word `0x47C35000` denotes the real number that the natural number `100000` casts to: the form in
    which a sample size enters the statements above. -/
theorem ofBits_100000_cast : Ideal.ofBits .f32 0x47C35000#32 = (((100000 : ℕ) : ℝ) : EReal) := by
  rw [ofBits_100000]; norm_num

end Cert.Moments

end
-- ==== Proof.Stats.lean ====
/-
  The batch statistics of the kernel side against the reference's.

  The kernel side never forms the mean of squared deviations. Its region 1 writes, for each of the 20 row tiles
  of 5000 rows and each column, the tile's partial sum of the activation `y` and of `y * y`; the host then adds
  the 20 partial sums, divides by the row count, and takes the inverse square root of the mean of squares minus
  the squared mean plus a small constant. The reference computes the column mean the same way up to the grouping
  of the sum, and the variance as the mean of squared deviations from that mean.

  The 20 partial sums of 5000 terms regroup into the one sum over all 100000 rows (commutativity and
  associativity of addition only). The two forms of the variance agree for a real-valued column — on the
  extended reals the identity fails at the infinities, which is why the statements that need it assume every
  entry of the activation is a real number. With both in hand, the kernel side's mean row and inverse deviation
  row hold, column by column, exactly the reference's column mean and inverse deviation, in either layer.
-/
import proofs.«122415_j30588757082611_2_alg».proof.Proof.Region1
import proofs.«122415_j30588757082611_2_alg».proof.Proof.KHostAt
import proofs.«122415_j30588757082611_2_alg».proof.Proof.LibMoments
import proofs.«122415_j30588757082611_2_alg».proof.Proof.RefAt

noncomputable section

namespace Cert.Stats

open Cert.KernelIdeal Cert.KernelIdeal.KHost Cert.KernelIdeal.KHostAt Cert.KernelIdeal.RegionValue
open Idealize.ShloMosaic Idealize.ShloMosaic.ValueIdx

/-! ### The variance identity for a real-valued column of 100000 entries -/

/-- For a column of 100000 real entries, the mean of squares minus the squared mean is the mean of the squared
    deviations from the mean, all computed on the extended reals with the word for `100000` as divisor. -/
theorem column_variance (c : Fin 100000 → EReal) (hc : ∀ r, ∃ t : ℝ, c r = (t : EReal)) :
    Ideal.div (∑ r : Fin 100000, c r * c r) (Ideal.ofBits .f32 0x47C35000#32)
        - Ideal.div (∑ r : Fin 100000, c r) (Ideal.ofBits .f32 0x47C35000#32)
          * Ideal.div (∑ r : Fin 100000, c r) (Ideal.ofBits .f32 0x47C35000#32)
      = Ideal.div (∑ r : Fin 100000, (c r - Ideal.div (∑ r' : Fin 100000, c r') (Ideal.ofBits .f32 0x47C35000#32))
          * (c r - Ideal.div (∑ r' : Fin 100000, c r') (Ideal.ofBits .f32 0x47C35000#32)))
          (Ideal.ofBits .f32 0x47C35000#32) := by
  choose y hy using hc
  have hfun : c = fun r => ((y r : ℝ) : EReal) := funext hy
  subst hfun
  exact Cert.Moments.variance_identity (n := 100000) (by norm_num) y _ Cert.Moments.ofBits_100000_cast

variable (Agg : S100000x128.Idx → EReal) (D : S100000x1.Idx → EReal) (B : S1x128.Idx → EReal)

/-! ### The partial sums regroup into the sums over all rows -/

/-- Tile `t`'s partial sum of column `q` is the sum of the activation over rows `5000 t … 5000 t + 4999`. -/
theorem G4_tile (t : Fin 20) (q : Fin 128) :
    G4 Agg D B (ix3 t (0 : Fin 1) q)
      = ∑ j : Fin 5000, G3 Agg D B (ix2 (⟨5000 * t.val + j.val, by omega⟩ : Fin 100000) q) := rfl

/-- Tile `t`'s partial sum of squares of column `q`, over the same rows. -/
theorem G5_tile (t : Fin 20) (q : Fin 128) :
    G5 Agg D B (ix3 t (0 : Fin 1) q)
      = ∑ j : Fin 5000, G3 Agg D B (ix2 (⟨5000 * t.val + j.val, by omega⟩ : Fin 100000) q)
          * G3 Agg D B (ix2 (⟨5000 * t.val + j.val, by omega⟩ : Fin 100000) q) := rfl

/-- The 20 partial sums of column `q` add up to the column's sum over all 100000 rows. -/
theorem sum_G4 (q : Fin 128) :
    ∑ t : Fin 20, G4 Agg D B (ix3 t (0 : Fin 1) q) = ∑ r : Fin 100000, G3 Agg D B (ix2 r q) := by
  rw [Cert.Moments.sum_100000_blocks (fun r : Fin 100000 => G3 Agg D B (ix2 r q))]
  exact Finset.sum_congr rfl fun t _ => G4_tile Agg D B t q

/-- The 20 partial sums of squares of column `q` add up to the column's sum of squares over all rows. -/
theorem sum_G5 (q : Fin 128) :
    ∑ t : Fin 20, G5 Agg D B (ix3 t (0 : Fin 1) q)
      = ∑ r : Fin 100000, G3 Agg D B (ix2 r q) * G3 Agg D B (ix2 r q) := by
  rw [Cert.Moments.sum_100000_blocks (fun r : Fin 100000 => G3 Agg D B (ix2 r q) * G3 Agg D B (ix2 r q))]
  exact Finset.sum_congr rfl fun t _ => G5_tile Agg D B t q

/-! ### The kernel side's mean and inverse deviation as sums over all rows -/

/-- The kernel side's mean row holds, in column `q`, the column's sum over all rows divided by the row count. -/
theorem mean_eq (q : Fin 128) :
    meanOf (G4 Agg D B) (ix2 (0 : Fin 1) q)
      = Ideal.div (∑ r : Fin 100000, G3 Agg D B (ix2 r q)) (Ideal.ofBits .f32 0x47C35000#32) := by
  rw [meanOf_apply, sum_G4]

/-- The kernel side's inverse deviation row holds, in column `q`, the inverse square root of the mean squared
    deviation from the column mean plus the small constant — when every entry of the activation is real. -/
theorem inv_eq (hreal : ∀ i, ∃ t : ℝ, G3 Agg D B i = (t : EReal)) (q : Fin 128) :
    invOf (G4 Agg D B) (G5 Agg D B) (ix2 (0 : Fin 1) q)
      = Ideal.rsqrt (Ideal.div (∑ r : Fin 100000,
            (G3 Agg D B (ix2 r q)
              - Ideal.div (∑ r' : Fin 100000, G3 Agg D B (ix2 r' q)) (Ideal.ofBits .f32 0x47C35000#32))
            * (G3 Agg D B (ix2 r q)
              - Ideal.div (∑ r' : Fin 100000, G3 Agg D B (ix2 r' q)) (Ideal.ofBits .f32 0x47C35000#32)))
          (Ideal.ofBits .f32 0x47C35000#32) + Ideal.ofBits .f32 0x3727C5AC#32) := by
  rw [invOf_apply, sum_G4, sum_G5,
    column_variance (fun r : Fin 100000 => G3 Agg D B (ix2 r q)) (fun r => hreal (ix2 r q))]

/-! ### Against the reference -/

variable (x0 : (⟨Cert.ReferenceIdeal.S100000x128, .f32⟩ : BufTy).Contents (Elt Ideal))
  (x1 x2 : (⟨Cert.ReferenceIdeal.S1600000, .i32⟩ : BufTy).Contents (Elt Ideal))
  (x5 : (⟨Cert.ReferenceIdeal.S17, .i32⟩ : BufTy).Contents (Elt Ideal))
  (x6 : (⟨Cert.ReferenceIdeal.S128x128, .f32⟩ : BufTy).Contents (Elt Ideal))
  (x7 x8 x9 : (⟨Cert.ReferenceIdeal.S128, .f32⟩ : BufTy).Contents (Elt Ideal))
  (x10 : (⟨Cert.ReferenceIdeal.S_, .f32⟩ : BufTy).Contents (Elt Ideal))
  (x11 : (⟨Cert.ReferenceIdeal.S128x128, .f32⟩ : BufTy).Contents (Elt Ideal))
  (x12 : (⟨Cert.ReferenceIdeal.S128, .f32⟩ : BufTy).Contents (Elt Ideal))

/-- Layer 1: when the kernel side's activation is the reference's pre-normalisation activation, the kernel
    side's mean row holds the reference's column mean. -/
theorem mean_layer1 (hY : G3 Agg D B = Cert.ReferenceIdeal.ReadP.val_main_v45 (F := Ideal) x0 x1 x2 x5 x6 x7) (q : Fin 128) :
    meanOf (G4 Agg D B) (ix2 (0 : Fin 1) q) = Cert.ReferenceIdeal.ReadP.val_main_v48 (F := Ideal) x0 x1 x2 x5 x6 x7 (ix1 q) := by
  rw [mean_eq, Cert.ReferenceIdeal.RefAt.v48_at, hY]

/-- Layer 1: when moreover every entry of that activation is real, the kernel side's inverse deviation row
    holds the reference's inverse standard deviation. -/
theorem inv_layer1 (hY : G3 Agg D B = Cert.ReferenceIdeal.ReadP.val_main_v45 (F := Ideal) x0 x1 x2 x5 x6 x7)
    (hreal : ∀ i, ∃ t : ℝ, Cert.ReferenceIdeal.ReadP.val_main_v45 (F := Ideal) x0 x1 x2 x5 x6 x7 i = (t : EReal)) (q : Fin 128) :
    invOf (G4 Agg D B) (G5 Agg D B) (ix2 (0 : Fin 1) q) = Cert.ReferenceIdeal.ReadP.val_main_v61 (F := Ideal) x0 x1 x2 x5 x6 x7 (ix1 q) := by
  have hreal' : ∀ i, ∃ t : ℝ, G3 Agg D B i = (t : EReal) := fun i => by rw [hY]; exact hreal i
  rw [inv_eq Agg D B hreal', Cert.ReferenceIdeal.RefAt.v61_at, Cert.ReferenceIdeal.RefAt.v55_at,
    Cert.ReferenceIdeal.RefAt.v48_at, hY]

/-- Layer 2: when the kernel side's activation is the reference's pre-normalisation activation, the kernel
    side's mean row holds the reference's column mean. -/
theorem mean_layer2 (hY : G3 Agg D B = Cert.ReferenceIdeal.ReadP.val_main_v113 (F := Ideal) x0 x1 x2 x5 x6 x7 x8 x9 x10 x11 x12) (q : Fin 128) :
    meanOf (G4 Agg D B) (ix2 (0 : Fin 1) q) = Cert.ReferenceIdeal.ReadP.val_main_v116 (F := Ideal) x0 x1 x2 x5 x6 x7 x8 x9 x10 x11 x12 (ix1 q) := by
  rw [mean_eq, Cert.ReferenceIdeal.RefAt.v116_at, hY]

/-- Layer 2: when moreover every entry of that activation is real, the kernel side's inverse deviation row
    holds the reference's inverse standard deviation. -/
theorem inv_layer2 (hY : G3 Agg D B = Cert.ReferenceIdeal.ReadP.val_main_v113 (F := Ideal) x0 x1 x2 x5 x6 x7 x8 x9 x10 x11 x12)
    (hreal : ∀ i, ∃ t : ℝ, Cert.ReferenceIdeal.ReadP.val_main_v113 (F := Ideal) x0 x1 x2 x5 x6 x7 x8 x9 x10 x11 x12 i = (t : EReal)) (q : Fin 128) :
    invOf (G4 Agg D B) (G5 Agg D B) (ix2 (0 : Fin 1) q) = Cert.ReferenceIdeal.ReadP.val_main_v129 (F := Ideal) x0 x1 x2 x5 x6 x7 x8 x9 x10 x11 x12 (ix1 q) := by
  have hreal' : ∀ i, ∃ t : ℝ, G3 Agg D B i = (t : EReal) := fun i => by rw [hY]; exact hreal i
  rw [inv_eq Agg D B hreal', Cert.ReferenceIdeal.RefAt.v129_at, Cert.ReferenceIdeal.RefAt.v123_at,
    Cert.ReferenceIdeal.RefAt.v116_at, hY]

end Cert.Stats

end
-- ==== Proof.OutMatch.lean ====
/-
  The first output of the second and of the fourth TensorCore region against the reference's two pre-normalisation
  activations.

  Each of these regions leaves, in its first output array, y(r, q) = Agg(r, q) * D(r, 0) + B(0, q) of its three input
  arrays.  When Agg is a layer's aggregated message, D the destination-side degree norm laid out as a column and B the
  layer's bias laid out as a row, y is, entry by entry, the reference's activation of that layer before normalisation:
  the aggregated message times the row's degree norm, plus the column's bias.
-/
import proofs.«122415_j30588757082611_2_alg».proof.Proof.Region1
import proofs.«122415_j30588757082611_2_alg».proof.Proof.RefAt
import proofs.«122415_j30588757082611_2_alg».proof.Proof.KHostAt
import proofs.«122415_j30588757082611_2_alg».proof.Proof.Match

noncomputable section

namespace Cert.OutMatch

open Cert.ReferenceIdeal Cert.ReferenceIdeal.ReadP Idealize.ShloMosaic Idealize.ShloMosaic.ValueIdx

variable (x0 : (⟨S100000x128, .f32⟩ : BufTy).Contents (Elt Ideal))
  (x1 x2 : (⟨S1600000, .i32⟩ : BufTy).Contents (Elt Ideal))
  (x5 : (⟨S17, .i32⟩ : BufTy).Contents (Elt Ideal))
  (x6 : (⟨S128x128, .f32⟩ : BufTy).Contents (Elt Ideal))
  (x7 x8 x9 : (⟨S128, .f32⟩ : BufTy).Contents (Elt Ideal))
  (x10 : (⟨S_, .f32⟩ : BufTy).Contents (Elt Ideal))
  (x11 : (⟨S128x128, .f32⟩ : BufTy).Contents (Elt Ideal))
  (x12 : (⟨S128, .f32⟩ : BufTy).Contents (Elt Ideal))

/-- Layer 1: y of the aggregated message, the destination-side degree norm as a column and the first bias as a row is the
    reference's layer-1 activation before normalisation. -/
theorem layer1_out :
    Cert.KernelIdeal.RegionValue.G3 (val_main_v30 (F := Ideal) x0 x1 x2 x5 x6)
        (Cert.KernelIdeal.KHost.colOf (Cert.KernelIdeal.KHost.degNormOf x2)) (Cert.KernelIdeal.KHost.rowOf x7)
      = val_main_v45 (F := Ideal) x0 x1 x2 x5 x6 x7 := by
  funext i
  obtain ⟨r, q, rfl⟩ : ∃ (r : Fin 100000) (q : Fin 128), i = ix2 r q :=
    ⟨i 0, i 1, eq_ix2 (n0 := 100000) (n1 := 128) i⟩
  show Cert.KernelIdeal.RegionValue.yAt (val_main_v30 (F := Ideal) x0 x1 x2 x5 x6)
      (Cert.KernelIdeal.KHost.colOf (Cert.KernelIdeal.KHost.degNormOf x2)) (Cert.KernelIdeal.KHost.rowOf x7) r q = _
  unfold Cert.KernelIdeal.RegionValue.yAt
  rw [Cert.KernelIdeal.KHostAt.colOf_apply, Cert.KernelIdeal.KHostAt.rowOf_apply,
    Cert.ReferenceIdeal.RefAt.v45_at, Cert.Match.degNorm_dst_eq]

/-- The same for any three arrays that ARE those three. -/
theorem layer1_out_of (Agg : Cert.KernelIdeal.S100000x128.Idx → EReal) (D : Cert.KernelIdeal.S100000x1.Idx → EReal)
    (B : Cert.KernelIdeal.S1x128.Idx → EReal)
    (hA : Agg = val_main_v30 (F := Ideal) x0 x1 x2 x5 x6)
    (hD : D = Cert.KernelIdeal.KHost.colOf (Cert.KernelIdeal.KHost.degNormOf x2))
    (hB : B = Cert.KernelIdeal.KHost.rowOf x7) :
    Cert.KernelIdeal.RegionValue.G3 Agg D B = val_main_v45 (F := Ideal) x0 x1 x2 x5 x6 x7 := by
  subst hA hD hB
  exact layer1_out x0 x1 x2 x5 x6 x7

/-- Layer 2: y of the second aggregated message, the same degree norm as a column and the second bias as a row is the
    reference's layer-2 activation before normalisation. -/
theorem layer2_out :
    Cert.KernelIdeal.RegionValue.G3 (val_main_v98 (F := Ideal) x0 x1 x2 x5 x6 x7 x8 x9 x10 x11)
        (Cert.KernelIdeal.KHost.colOf (Cert.KernelIdeal.KHost.degNormOf x2)) (Cert.KernelIdeal.KHost.rowOf x12)
      = val_main_v113 (F := Ideal) x0 x1 x2 x5 x6 x7 x8 x9 x10 x11 x12 := by
  funext i
  obtain ⟨r, q, rfl⟩ : ∃ (r : Fin 100000) (q : Fin 128), i = ix2 r q :=
    ⟨i 0, i 1, eq_ix2 (n0 := 100000) (n1 := 128) i⟩
  show Cert.KernelIdeal.RegionValue.yAt (val_main_v98 (F := Ideal) x0 x1 x2 x5 x6 x7 x8 x9 x10 x11)
      (Cert.KernelIdeal.KHost.colOf (Cert.KernelIdeal.KHost.degNormOf x2)) (Cert.KernelIdeal.KHost.rowOf x12) r q = _
  unfold Cert.KernelIdeal.RegionValue.yAt
  rw [Cert.KernelIdeal.KHostAt.colOf_apply, Cert.KernelIdeal.KHostAt.rowOf_apply,
    Cert.ReferenceIdeal.RefAt.v113_at, Cert.Match.degNorm_dst2_eq]

/-- The same for any three arrays that ARE those three. -/
theorem layer2_out_of (Agg : Cert.KernelIdeal.S100000x128.Idx → EReal) (D : Cert.KernelIdeal.S100000x1.Idx → EReal)
    (B : Cert.KernelIdeal.S1x128.Idx → EReal)
    (hA : Agg = val_main_v98 (F := Ideal) x0 x1 x2 x5 x6 x7 x8 x9 x10 x11)
    (hD : D = Cert.KernelIdeal.KHost.colOf (Cert.KernelIdeal.KHost.degNormOf x2))
    (hB : B = Cert.KernelIdeal.KHost.rowOf x12) :
    Cert.KernelIdeal.RegionValue.G3 Agg D B = val_main_v113 (F := Ideal) x0 x1 x2 x5 x6 x7 x8 x9 x10 x11 x12 := by
  subst hA hD hB
  exact layer2_out x0 x1 x2 x5 x6 x7 x8 x9 x10 x11 x12

end Cert.OutMatch

end
-- ==== Proof.PureChain.lean ====
/-
  The kernel side's computation and the reference's, composed at the level of whole arrays.

  Both programs compute a two-layer message-passing encoder with column normalisation over all nodes, read the
  normalised rows at the masked nodes, average them, and compare the average with a target branch's row by a
  loss. The kernel side's arrays are named here in the order it computes them — the scaled weight product of the
  masked features, its aggregation over the edges, the affine step, the per-tile partial sums and partial sums of
  squares, the fused normalisation, activation and second weight product, the second aggregation and affine step
  with their partial sums, the rows at the masked nodes and their mean — and each is shown equal to the reference's
  stage of the same meaning, one named equation at a time. The only hypotheses are that the feature matrix and
  the first layer's parameters (and, for the second layer, the remaining parameters up to the second bias) are
  real-valued: the two ways of computing a column variance agree only away from the infinities.
-/
import proofs.«122415_j30588757082611_2_alg».proof.Proof.RefReadP
import proofs.«122415_j30588757082611_2_alg».proof.Proof.RefAt
import proofs.«122415_j30588757082611_2_alg».proof.Proof.RefReal
import proofs.«122415_j30588757082611_2_alg».proof.Proof.KHost
import proofs.«122415_j30588757082611_2_alg».proof.Proof.KHostAt
import proofs.«122415_j30588757082611_2_alg».proof.Proof.KTail
import proofs.«122415_j30588757082611_2_alg».proof.Proof.Region0
import proofs.«122415_j30588757082611_2_alg».proof.Proof.Region1
import proofs.«122415_j30588757082611_2_alg».proof.Proof.Region2
import proofs.«122415_j30588757082611_2_alg».proof.Proof.Match
import proofs.«122415_j30588757082611_2_alg».proof.Proof.Stats
import proofs.«122415_j30588757082611_2_alg».proof.Proof.OutMatch
import proofs.«122415_j30588757082611_2_alg».proof.Proof.TailMatch

noncomputable section

namespace Cert.PureChain

open Cert.KernelIdeal.KHost Cert.KernelIdeal.RegionValue Cert.KernelIdeal.KTail
open Cert.ReferenceIdeal.ReadP
open Idealize.ShloMosaic Idealize.ShloMosaic.ValueIdx

variable (x0 : (⟨Cert.ReferenceIdeal.S100000x128, .f32⟩ : BufTy).Contents (Elt Ideal))
  (x1 x2 : (⟨Cert.ReferenceIdeal.S1600000, .i32⟩ : BufTy).Contents (Elt Ideal))
  (x3 x4 : (⟨Cert.ReferenceIdeal.S64, .i32⟩ : BufTy).Contents (Elt Ideal))
  (x5 : (⟨Cert.ReferenceIdeal.S17, .i32⟩ : BufTy).Contents (Elt Ideal))
  (x6 : (⟨Cert.ReferenceIdeal.S128x128, .f32⟩ : BufTy).Contents (Elt Ideal))
  (x7 x8 x9 : (⟨Cert.ReferenceIdeal.S128, .f32⟩ : BufTy).Contents (Elt Ideal))
  (x10 : (⟨Cert.ReferenceIdeal.S_, .f32⟩ : BufTy).Contents (Elt Ideal))
  (x11 : (⟨Cert.ReferenceIdeal.S128x128, .f32⟩ : BufTy).Contents (Elt Ideal))
  (x12 x13 x14 : (⟨Cert.ReferenceIdeal.S128, .f32⟩ : BufTy).Contents (Elt Ideal))
  (x16 : (⟨Cert.ReferenceIdeal.S128x128, .f32⟩ : BufTy).Contents (Elt Ideal))
  (x17 x18 x19 : (⟨Cert.ReferenceIdeal.S128, .f32⟩ : BufTy).Contents (Elt Ideal))
  (x20 : (⟨Cert.ReferenceIdeal.S_, .f32⟩ : BufTy).Contents (Elt Ideal))
  (x21 : (⟨Cert.ReferenceIdeal.S128x128, .f32⟩ : BufTy).Contents (Elt Ideal))
  (x22 x23 x24 : (⟨Cert.ReferenceIdeal.S128, .f32⟩ : BufTy).Contents (Elt Ideal))

/-! ### The kernel side's arrays, in the order it computes them -/

/-- Layer 1's scaled weight product of the masked features. -/
abbrev H1 : Cert.KernelIdeal.S100000x128.Idx → EReal :=
  scaledProduct (maskedOf x0 x5) x6 (colOf (degNormOf x1))
/-- Its aggregation over the edges. -/
abbrev A1 : FVec Ideal Cert.KernelIdeal.S100000x128 .f32 := aggOf (H1 x0 x1 x5 x6) x1 x2
/-- The destination-side degree norm as a column. -/
abbrev D : FVec Ideal Cert.KernelIdeal.S100000x1 .f32 := colOf (degNormOf x2)
/-- Layer 1's pre-normalisation activation. -/
abbrev Y1 : Cert.KernelIdeal.S100000x128.Idx → EReal := G3 (A1 x0 x1 x2 x5 x6) (D x2) (rowOf x7)
/-- Its per-tile partial column sums. -/
abbrev PS1 : Cert.KernelIdeal.S20x1x128.Idx → EReal := G4 (A1 x0 x1 x2 x5 x6) (D x2) (rowOf x7)
/-- Its per-tile partial column sums of squares. -/
abbrev PSS1 : Cert.KernelIdeal.S20x1x128.Idx → EReal := G5 (A1 x0 x1 x2 x5 x6) (D x2) (rowOf x7)
/-- Layer 2's scaled weight product of the normalised, activated layer-1 output. -/
abbrev H2 : Cert.KernelIdeal.S100000x128.Idx → EReal :=
  fused (Y1 x0 x1 x2 x5 x6 x7) (meanOf (PS1 x0 x1 x2 x5 x6 x7)) (invOf (PS1 x0 x1 x2 x5 x6 x7) (PSS1 x0 x1 x2 x5 x6 x7))
    (rowOf x8) (rowOf x9) (slopeOf x10) x11 (colOf (degNormOf x1))
/-- Its aggregation over the edges. -/
abbrev A2 : FVec Ideal Cert.KernelIdeal.S100000x128 .f32 := aggOf (H2 x0 x1 x2 x5 x6 x7 x8 x9 x10 x11) x1 x2
/-- Layer 2's pre-normalisation activation. -/
abbrev Y2 : Cert.KernelIdeal.S100000x128.Idx → EReal := G3 (A2 x0 x1 x2 x5 x6 x7 x8 x9 x10 x11) (D x2) (rowOf x12)
/-- Its per-tile partial column sums. -/
abbrev PS2 : Cert.KernelIdeal.S20x1x128.Idx → EReal := G4 (A2 x0 x1 x2 x5 x6 x7 x8 x9 x10 x11) (D x2) (rowOf x12)
/-- Its per-tile partial column sums of squares. -/
abbrev PSS2 : Cert.KernelIdeal.S20x1x128.Idx → EReal := G5 (A2 x0 x1 x2 x5 x6 x7 x8 x9 x10 x11) (D x2) (rowOf x12)
/-- The online branch's normalised rows at the masked nodes. -/
abbrev Rows : FVec Ideal Cert.KernelIdeal.S17x128 .f32 :=
  onlineRowsOf (Y2 x0 x1 x2 x5 x6 x7 x8 x9 x10 x11 x12) (meanOf (PS2 x0 x1 x2 x5 x6 x7 x8 x9 x10 x11 x12)) (invOf (PS2 x0 x1 x2 x5 x6 x7 x8 x9 x10 x11 x12) (PSS2 x0 x1 x2 x5 x6 x7 x8 x9 x10 x11 x12)) x5 x13 x14
/-- The online branch's mean row. -/
abbrev X : FVec Ideal Cert.KernelIdeal.S128 .f32 := rowsMeanOf (Rows x0 x1 x2 x5 x6 x7 x8 x9 x10 x11 x12 x13 x14)

/-! ### Layer 1 -/

/-- The kernel side's layer-1 scaled weight product is the reference's. -/
theorem H1_eq : H1 x0 x1 x5 x6 = val_main_v20 (F := Ideal) x0 x1 x5 x6 :=
  Cert.Match.region0_is_v20 x0 x1 x5 x6

/-- The kernel side's layer-1 aggregation is the reference's. -/
theorem A1_eq : A1 x0 x1 x2 x5 x6 = val_main_v30 (F := Ideal) x0 x1 x2 x5 x6 := by
  show aggOf (H1 x0 x1 x5 x6) x1 x2 = _
  rw [H1_eq x0 x1 x5 x6]
  exact (Cert.Match.agg1_eq x0 x1 x2 x5 x6).symm

/-- The kernel side's layer-1 pre-normalisation activation is the reference's. -/
theorem Y1_eq : Y1 x0 x1 x2 x5 x6 x7 = val_main_v45 (F := Ideal) x0 x1 x2 x5 x6 x7 := by
  show G3 (A1 x0 x1 x2 x5 x6) (colOf (degNormOf x2)) (rowOf x7) = _
  rw [A1_eq x0 x1 x2 x5 x6]
  exact Cert.OutMatch.layer1_out x0 x1 x2 x5 x6 x7

/-- The kernel side's layer-1 mean row holds the reference's column mean. -/
theorem mean1_eq (q : Fin 128) :
    meanOf (PS1 x0 x1 x2 x5 x6 x7) (ix2 (0 : Fin 1) q) = val_main_v48 (F := Ideal) x0 x1 x2 x5 x6 x7 (ix1 q) :=
  Cert.Stats.mean_layer1 (A1 x0 x1 x2 x5 x6) (D x2) (rowOf x7) x0 x1 x2 x5 x6 x7 (Y1_eq x0 x1 x2 x5 x6 x7) q

/-- The kernel side's layer-1 inverse deviation row holds the reference's inverse standard deviation, for
    real-valued features and layer-1 parameters. -/
theorem inv1_eq (h0 : ∀ i, ∃ r : ℝ, x0 i = (r : EReal)) (h6 : ∀ i, ∃ r : ℝ, x6 i = (r : EReal)) (h7 : ∀ i, ∃ r : ℝ, x7 i = (r : EReal)) (q : Fin 128) :
    invOf (PS1 x0 x1 x2 x5 x6 x7) (PSS1 x0 x1 x2 x5 x6 x7) (ix2 (0 : Fin 1) q) = val_main_v61 (F := Ideal) x0 x1 x2 x5 x6 x7 (ix1 q) :=
  Cert.Stats.inv_layer1 (A1 x0 x1 x2 x5 x6) (D x2) (rowOf x7) x0 x1 x2 x5 x6 x7 (Y1_eq x0 x1 x2 x5 x6 x7)
    (Cert.ReferenceIdeal.RefReal.real_v45 x0 x1 x2 x5 x6 x7 h0 h6 h7) q

/-! ### Layer 2 -/

/-- The kernel side's layer-2 scaled weight product is the reference's. -/
theorem H2_eq (h0 : ∀ i, ∃ r : ℝ, x0 i = (r : EReal)) (h6 : ∀ i, ∃ r : ℝ, x6 i = (r : EReal)) (h7 : ∀ i, ∃ r : ℝ, x7 i = (r : EReal)) : H2 x0 x1 x2 x5 x6 x7 x8 x9 x10 x11 = val_main_v88 (F := Ideal) x0 x1 x2 x5 x6 x7 x8 x9 x10 x11 := by
  show fused (Y1 x0 x1 x2 x5 x6 x7) (meanOf (PS1 x0 x1 x2 x5 x6 x7)) (invOf (PS1 x0 x1 x2 x5 x6 x7) (PSS1 x0 x1 x2 x5 x6 x7))
    (rowOf x8) (rowOf x9) (slopeOf x10) x11 (colOf (degNormOf x1)) = _
  rw [Y1_eq x0 x1 x2 x5 x6 x7]
  exact Cert.Match.region2_is_v88 x0 x1 x2 x5 x6 x7 x8 x9 x10 x11 _ _ (mean1_eq x0 x1 x2 x5 x6 x7) (inv1_eq x0 x1 x2 x5 x6 x7 h0 h6 h7)

/-- The kernel side's layer-2 aggregation is the reference's. -/
theorem A2_eq (h0 : ∀ i, ∃ r : ℝ, x0 i = (r : EReal)) (h6 : ∀ i, ∃ r : ℝ, x6 i = (r : EReal)) (h7 : ∀ i, ∃ r : ℝ, x7 i = (r : EReal)) : A2 x0 x1 x2 x5 x6 x7 x8 x9 x10 x11 = val_main_v98 (F := Ideal) x0 x1 x2 x5 x6 x7 x8 x9 x10 x11 := by
  show aggOf (H2 x0 x1 x2 x5 x6 x7 x8 x9 x10 x11) x1 x2 = _
  rw [H2_eq x0 x1 x2 x5 x6 x7 x8 x9 x10 x11 h0 h6 h7]
  exact (Cert.Match.agg2_eq x0 x1 x2 x5 x6 x7 x8 x9 x10 x11).symm

/-- The kernel side's layer-2 pre-normalisation activation is the reference's. -/
theorem Y2_eq (h0 : ∀ i, ∃ r : ℝ, x0 i = (r : EReal)) (h6 : ∀ i, ∃ r : ℝ, x6 i = (r : EReal)) (h7 : ∀ i, ∃ r : ℝ, x7 i = (r : EReal)) : Y2 x0 x1 x2 x5 x6 x7 x8 x9 x10 x11 x12 = val_main_v113 (F := Ideal) x0 x1 x2 x5 x6 x7 x8 x9 x10 x11 x12 := by
  show G3 (A2 x0 x1 x2 x5 x6 x7 x8 x9 x10 x11) (colOf (degNormOf x2)) (rowOf x12) = _
  rw [A2_eq x0 x1 x2 x5 x6 x7 x8 x9 x10 x11 h0 h6 h7]
  exact Cert.OutMatch.layer2_out x0 x1 x2 x5 x6 x7 x8 x9 x10 x11 x12

/-- The kernel side's layer-2 mean row holds the reference's column mean. -/
theorem mean2_eq (h0 : ∀ i, ∃ r : ℝ, x0 i = (r : EReal)) (h6 : ∀ i, ∃ r : ℝ, x6 i = (r : EReal)) (h7 : ∀ i, ∃ r : ℝ, x7 i = (r : EReal)) (q : Fin 128) :
    meanOf (PS2 x0 x1 x2 x5 x6 x7 x8 x9 x10 x11 x12) (ix2 (0 : Fin 1) q) = val_main_v116 (F := Ideal) x0 x1 x2 x5 x6 x7 x8 x9 x10 x11 x12 (ix1 q) :=
  Cert.Stats.mean_layer2 (A2 x0 x1 x2 x5 x6 x7 x8 x9 x10 x11) (D x2) (rowOf x12) x0 x1 x2 x5 x6 x7 x8 x9 x10 x11 x12 (Y2_eq x0 x1 x2 x5 x6 x7 x8 x9 x10 x11 x12 h0 h6 h7) q

/-- The kernel side's layer-2 inverse deviation row holds the reference's inverse standard deviation, for
    real-valued features and parameters. -/
theorem inv2_eq (h0 : ∀ i, ∃ r : ℝ, x0 i = (r : EReal)) (h6 : ∀ i, ∃ r : ℝ, x6 i = (r : EReal)) (h7 : ∀ i, ∃ r : ℝ, x7 i = (r : EReal)) (h8 : ∀ i, ∃ r : ℝ, x8 i = (r : EReal)) (h9 : ∀ i, ∃ r : ℝ, x9 i = (r : EReal)) (h10 : ∀ i, ∃ r : ℝ, x10 i = (r : EReal)) (h11 : ∀ i, ∃ r : ℝ, x11 i = (r : EReal)) (h12 : ∀ i, ∃ r : ℝ, x12 i = (r : EReal)) (q : Fin 128) :
    invOf (PS2 x0 x1 x2 x5 x6 x7 x8 x9 x10 x11 x12) (PSS2 x0 x1 x2 x5 x6 x7 x8 x9 x10 x11 x12) (ix2 (0 : Fin 1) q) = val_main_v129 (F := Ideal) x0 x1 x2 x5 x6 x7 x8 x9 x10 x11 x12 (ix1 q) :=
  Cert.Stats.inv_layer2 (A2 x0 x1 x2 x5 x6 x7 x8 x9 x10 x11) (D x2) (rowOf x12) x0 x1 x2 x5 x6 x7 x8 x9 x10 x11 x12 (Y2_eq x0 x1 x2 x5 x6 x7 x8 x9 x10 x11 x12 h0 h6 h7)
    (Cert.ReferenceIdeal.RefReal.real_v113 x0 x1 x2 x5 x6 x7 x8 x9 x10 x11 x12 h0 h6 h7 h8 h9 h10 h11 h12) q

/-! ### The online branch's rows, their mean, and the loss -/

/-- The kernel side's normalised rows at the masked nodes are the reference's. -/
theorem Rows_eq (h0 : ∀ i, ∃ r : ℝ, x0 i = (r : EReal)) (h6 : ∀ i, ∃ r : ℝ, x6 i = (r : EReal)) (h7 : ∀ i, ∃ r : ℝ, x7 i = (r : EReal)) (h8 : ∀ i, ∃ r : ℝ, x8 i = (r : EReal)) (h9 : ∀ i, ∃ r : ℝ, x9 i = (r : EReal)) (h10 : ∀ i, ∃ r : ℝ, x10 i = (r : EReal)) (h11 : ∀ i, ∃ r : ℝ, x11 i = (r : EReal)) (h12 : ∀ i, ∃ r : ℝ, x12 i = (r : EReal)) : Rows x0 x1 x2 x5 x6 x7 x8 x9 x10 x11 x12 x13 x14 = val_main_v283 (F := Ideal) x0 x1 x2 x5 x6 x7 x8 x9 x10 x11 x12 x13 x14 :=
  Cert.TailMatch.onlineRows_eq x0 x1 x2 x5 x6 x7 x8 x9 x10 x11 x12 x13 x14 (Y2 x0 x1 x2 x5 x6 x7 x8 x9 x10 x11 x12) (meanOf (PS2 x0 x1 x2 x5 x6 x7 x8 x9 x10 x11 x12)) (invOf (PS2 x0 x1 x2 x5 x6 x7 x8 x9 x10 x11 x12) (PSS2 x0 x1 x2 x5 x6 x7 x8 x9 x10 x11 x12))
    (Y2_eq x0 x1 x2 x5 x6 x7 x8 x9 x10 x11 x12 h0 h6 h7) (mean2_eq x0 x1 x2 x5 x6 x7 x8 x9 x10 x11 x12 h0 h6 h7) (inv2_eq x0 x1 x2 x5 x6 x7 x8 x9 x10 x11 x12 h0 h6 h7 h8 h9 h10 h11 h12)

/-- The kernel side's online mean row is the reference's. -/
theorem X_eq (h0 : ∀ i, ∃ r : ℝ, x0 i = (r : EReal)) (h6 : ∀ i, ∃ r : ℝ, x6 i = (r : EReal)) (h7 : ∀ i, ∃ r : ℝ, x7 i = (r : EReal)) (h8 : ∀ i, ∃ r : ℝ, x8 i = (r : EReal)) (h9 : ∀ i, ∃ r : ℝ, x9 i = (r : EReal)) (h10 : ∀ i, ∃ r : ℝ, x10 i = (r : EReal)) (h11 : ∀ i, ∃ r : ℝ, x11 i = (r : EReal)) (h12 : ∀ i, ∃ r : ℝ, x12 i = (r : EReal)) : X x0 x1 x2 x5 x6 x7 x8 x9 x10 x11 x12 x13 x14 = val_main_v286 (F := Ideal) x0 x1 x2 x5 x6 x7 x8 x9 x10 x11 x12 x13 x14 := by
  show rowsMeanOf (Rows x0 x1 x2 x5 x6 x7 x8 x9 x10 x11 x12 x13 x14) = _
  rw [Rows_eq x0 x1 x2 x5 x6 x7 x8 x9 x10 x11 x12 x13 x14 h0 h6 h7 h8 h9 h10 h11 h12]
  exact (Cert.TailMatch.refMean_eq x0 x1 x2 x5 x6 x7 x8 x9 x10 x11 x12 x13 x14).symm

/-- THE CHAIN: the loss of the kernel side's online mean row against the reference's target row is the
    reference's loss, for real-valued features and online-branch parameters. -/
theorem loss_eq (h0 : ∀ i, ∃ r : ℝ, x0 i = (r : EReal)) (h6 : ∀ i, ∃ r : ℝ, x6 i = (r : EReal)) (h7 : ∀ i, ∃ r : ℝ, x7 i = (r : EReal)) (h8 : ∀ i, ∃ r : ℝ, x8 i = (r : EReal)) (h9 : ∀ i, ∃ r : ℝ, x9 i = (r : EReal)) (h10 : ∀ i, ∃ r : ℝ, x10 i = (r : EReal)) (h11 : ∀ i, ∃ r : ℝ, x11 i = (r : EReal)) (h12 : ∀ i, ∃ r : ℝ, x12 i = (r : EReal)) :
    lossOf (X x0 x1 x2 x5 x6 x7 x8 x9 x10 x11 x12 x13 x14) (val_main_v289 (F := Ideal) x0 x3 x4 x5 x16 x17 x18 x19 x20 x21 x22 x23 x24)
      = val_main_v300 (F := Ideal) x0 x1 x2 x3 x4 x5 x6 x7 x8 x9 x10 x11 x12 x13 x14 x16 x17 x18 x19 x20 x21 x22 x23 x24 := by
  rw [X_eq x0 x1 x2 x5 x6 x7 x8 x9 x10 x11 x12 x13 x14 h0 h6 h7 h8 h9 h10 h11 h12]
  exact (Cert.TailMatch.refLoss_eq x0 x1 x2 x3 x4 x5 x6 x7 x8 x9 x10 x11 x12 x13 x14 x16 x17 x18 x19 x20 x21 x22 x23 x24).symm

end Cert.PureChain

end
-- ==== Proof.PreReal.lean ====
/-
  The precondition, decoded: every entry of the float arguments is a real number.

  The precondition is a chain of conjunctions, one conjunct per float argument: the conjunction
  over all entries of "the absolute value is below the pattern of +infinity". At the ideal
  instance the absolute value of x is max x (-x) and the pattern denotes the top element, so a
  conjunct that holds says that no entry is top or bottom: each entry is a real. The integer
  arguments are not constrained.
-/
import proofs.«122415_j30588757082611_2_alg».proof.Pre_finite_inputs
import Idealize.ShloMosaic.Lib.ReduceAll
import Idealize.ShloMosaic.Lib.ValueIdx
import Idealize.ShloMosaic.PureOps.Ideal.Laws

namespace Cert.PreReal

open Idealize.ShloMosaic Cert.Pre_finite_inputs

/-- A rank-zero array has one index. -/
instance subsingleton_scalar_idx : Subsingleton S_.Idx := ⟨fun _ _ => funext fun d => d.elim0⟩

/-- The pattern of +infinity denotes the top element. -/
theorem ofBits_inf : Ideal.ofBits .f32 0x7F800000#32 = ⊤ := by simp [Ideal.ofBits, Ideal.ieee]

/-- An extended real whose absolute value is below +infinity is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | top => exact absurd h (by simp [Ideal.cmp])
  | coe r => exact ⟨r, rfl⟩

/-- One conjunct, for an array: the conjunction over all entries of |x| < +infinity holds, so every
    entry is a real. -/
theorem real_of_check {s : Shape} {axes : List (Fin s.rank)} (x : FVec Ideal s .f32)
    (b : S_.BroadcastsInDim s (![] : Fin 0 → Fin s.rank)) (red : s.ReducesTo axes S_) (hu : 0 < S_.numel) (j : S_.Idx)
    (e : Host.reduce IntOp.andi (cmpf .olt (Host.absf x) (broadcastInDim s ![] b (constant (F := Ideal) S_ .f32 0x7F800000#32)))
      (constantI S_ 1 1#1) red hu j = 1#1) :
    ∀ i, ∃ r : ℝ, x i = (r : EReal) := fun i =>
  real_of_abs_lt_inf (x i) (Host.reduce_andi_all _ _ red hu j e i)

/-- One conjunct, for a scalar (compared with the pattern itself, not a spread of it). -/
theorem real_of_check_scalar {axes : List (Fin S_.rank)} (x : FVec Ideal S_ .f32) (red : S_.ReducesTo axes S_)
    (hu : 0 < S_.numel) (j : S_.Idx)
    (e : Host.reduce IntOp.andi (cmpf .olt (Host.absf x) (constant (F := Ideal) S_ .f32 0x7F800000#32))
      (constantI S_ 1 1#1) red hu j = 1#1) :
    ∀ i, ∃ r : ℝ, x i = (r : EReal) := fun i =>
  real_of_abs_lt_inf (x i) (Host.reduce_andi_all _ _ red hu j e i)

/-- A conjunction of two masks that is 1 at an index has both 1 there. -/
theorem andi_apply {s : Shape} (a b : IVec s 1) (i : s.Idx) : andi a b i = 1#1 ↔ a i = 1#1 ∧ b i = 1#1 :=
  IntOp.andi_eq_one

variable [Facts]

/-- The precondition decoded: the eight float arguments the first two layers read have only real
    entries (the conjuncts of the other float arguments are dropped). -/
theorem reals_of_pre (a0 : FVec Ideal S100000x128 .f32) (a1 : IVec S1600000 32) (a2 : IVec S1600000 32) (a3 : IVec S64 32) (a4 : IVec S64 32) (a5 : IVec S17 32) (a6 : FVec Ideal S128x128 .f32) (a7 : FVec Ideal S128 .f32) (a8 : FVec Ideal S128 .f32) (a9 : FVec Ideal S128 .f32) (a10 : FVec Ideal S_ .f32) (a11 : FVec Ideal S128x128 .f32) (a12 : FVec Ideal S128 .f32) (a13 : FVec Ideal S128 .f32) (a14 : FVec Ideal S128 .f32) (a15 : FVec Ideal S_ .f32) (a16 : FVec Ideal S128x128 .f32) (a17 : FVec Ideal S128 .f32) (a18 : FVec Ideal S128 .f32) (a19 : FVec Ideal S128 .f32) (a20 : FVec Ideal S_ .f32) (a21 : FVec Ideal S128x128 .f32) (a22 : FVec Ideal S128 .f32) (a23 : FVec Ideal S128 .f32) (a24 : FVec Ideal S128 .f32) (a25 : FVec Ideal S_ .f32)
    (h : fn (F := Ideal) a0 a1 a2 a3 a4 a5 a6 a7 a8 a9 a10 a11 a12 a13 a14 a15 a16 a17 a18 a19 a20 a21 a22 a23 a24 a25 = fun _ => 1#1) :
    (∀ i, ∃ r : ℝ, a0 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) := by
  have e := congrFun h ValueIdx.ix0
  unfold fn fn_part1 fn_part2 fn_part3 fn_part4 fn_part5 at e
  dsimp only at e
  simp only [andi_apply] at e
  obtain ⟨⟨⟨⟨⟨⟨⟨⟨⟨⟨⟨⟨⟨⟨⟨⟨⟨⟨⟨⟨e0, e6⟩, e7⟩, e8⟩, e9⟩, e10⟩, e11⟩, e12⟩, -⟩, -⟩, -⟩, -⟩, -⟩, -⟩, -⟩, -⟩, -⟩, -⟩, -⟩, -⟩, -⟩ := e
  exact ⟨real_of_check a0 _ _ _ _ e0, real_of_check a6 _ _ _ _ e6, real_of_check a7 _ _ _ _ e7,
    real_of_check a8 _ _ _ _ e8, real_of_check a9 _ _ _ _ e9, real_of_check_scalar a10 _ _ _ e10,
    real_of_check a11 _ _ _ _ e11, real_of_check a12 _ _ _ _ e12⟩

end Cert.PreReal
-- ==== Proof.Bridge.lean ====
/-
  The idealized kernel program's result is the reference's. At the end of the run the result buffer holds the loss
  of two mean rows: the online branch's (the normalised layer-2 output at the masked rows, averaged) and the target
  branch's. Boundary by boundary the buffers are pure functions of the argument arrays; those functions are the
  reference's stages: each region's tiles are the stretches of one whole-array function, the per-tile partial sums
  add up to the column sums, and E[y^2] - mean^2 is the mean squared deviation because every entry is a real, which
  the finiteness of the inputs gives.
-/
import proofs.«122415_j30588757082611_2_alg».proof.Proof.KChain
import proofs.«122415_j30588757082611_2_alg».proof.Proof.KTail
import proofs.«122415_j30588757082611_2_alg».proof.Proof.TailMatch
import proofs.«122415_j30588757082611_2_alg».proof.Proof.PureChain
import proofs.«122415_j30588757082611_2_alg».proof.Proof.PreReal

set_option maxRecDepth 16384

noncomputable section

namespace Cert.Bridge

open Cert.KernelIdeal Cert.KernelIdeal.Gen Cert.KernelIdeal.KHost Cert.KernelIdeal.KW Cert.KernelIdeal.KChain Cert.KernelIdeal.KTail
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The result buffer at the end of the run: the loss of the online branch's mean row and the target branch's. -/
theorem kernel_result :
    W27 m ρ c (Proc.devRef .tc main_v253)
      = lossOf (rowsMeanOf (onlineRowsOf (y2 m c) (meanOf (ps2 m c)) (invOf (ps2 m c) (pss2 m c))
            (m ((c : Thread nD τ).loc main_arg5)) (m ((c : Thread nD τ).loc main_arg13)) (m ((c : Thread nD τ).loc main_arg14))))
          (Cert.ReferenceIdeal.ReadP.val_main_v289 (F := Ideal) (m ((c : Thread nD τ).loc main_arg0)) (m ((c : Thread nD τ).loc main_arg3)) (m ((c : Thread nD τ).loc main_arg4)) (m ((c : Thread nD τ).loc main_arg5)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) := by
  have e1 : W27 m ρ c (Proc.devRef .tc main_v253)
      = lossOf (W23 m ρ c (Proc.devRef .tc main_v101)) (W23 m ρ c (Proc.devRef .tc main_v242)) := tailB_v253 (W23 m ρ c)
  have e2 : W23 m ρ c (Proc.devRef .tc main_v101) = rowsMeanOf (onlineRowsAt (W12 m ρ c)) := tailA_v101 (W12 m ρ c)
  have e3 := Cert.TailMatch.target_eq (W12 m ρ c)
  rw [W12_arg0 m ρ c, W12_arg3 m ρ c, W12_arg4 m ρ c, W12_arg5 m ρ c, W12_arg16 m ρ c, W12_arg17 m ρ c, W12_arg18 m ρ c, W12_arg19 m ρ c, W12_arg20 m ρ c, W12_arg21 m ρ c, W12_arg22 m ρ c, W12_arg23 m ρ c, W12_arg24 m ρ c] at e3
  have e4 : onlineRowsAt (W12 m ρ c)
      = onlineRowsOf (y2 m c) (meanOf (ps2 m c)) (invOf (ps2 m c) (pss2 m c)) (m ((c : Thread nD τ).loc main_arg5)) (m ((c : Thread nD τ).loc main_arg13)) (m ((c : Thread nD τ).loc main_arg14)) := by
    show onlineRowsOf (W12 m ρ c (Proc.devRef .tc main_v70_0)) (meanOf (W12 m ρ c (Proc.devRef .tc main_v70_1)))
      (invOf (W12 m ρ c (Proc.devRef .tc main_v70_1)) (W12 m ρ c (Proc.devRef .tc main_v70_2)))
      (W12 m ρ c (Proc.devRef .tc main_arg5)) (W12 m ρ c (Proc.devRef .tc main_arg13)) (W12 m ρ c (Proc.devRef .tc main_arg14)) = _
    rw [W12_v70_0, W12_v70_1, W12_v70_2, W12_arg5, W12_arg13, W12_arg14]
  rw [e1, e2, e4]
  exact congrArg (lossOf _) e3

variable [Cert.Pre_finite_inputs.Facts]

/-- Under the precondition (every float input finite) the result buffer ends at the reference's last stage of the
    same argument arrays. -/
theorem kernel_value
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) = fun _ => 1#1) :
    W27 m ρ c (Proc.devRef .tc main_v253)
      = Cert.ReferenceIdeal.ReadP.val_main_v300 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  obtain ⟨h0, h6, h7, h8, h9, h10, h11, h12⟩ := Cert.PreReal.reals_of_pre _ _ _ _ _ _ _ _ _ _ _ _ _ _ _ _ _ _ _ _ _ _ _ _ _ _ hpre
  rw [kernel_result]
  exact Cert.PureChain.loss_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) h0 h6 h7 h8 h9 h10 h11 h12

end Cert.Bridge

end
-- ==== Proof.lean ====
/-
  A two-layer graph convolution with batch normalisation (a leaky rectifier after layer 1), evaluated on the full
  graph with the masked nodes' features zeroed, against a plain formulation of the same network; the result is one
  number, the cosine-type loss between the online branch's mean row at the masked nodes and a small target branch's
  mean row.

  The kernel program runs the dense per-node steps in four tiled regions (20 tiles of 5000 nodes) among host
  operations: the weight product scaled by the source-degree norm; the aggregated sum scaled by the
  destination-degree norm plus bias, with per-tile partial column sums and sums of squares; the normalisation,
  rectifier and layer-2 weight product fused; and the second convolution finish. It takes the batch statistics as
  (sum of partial sums)/n and E[y^2] - mean^2, and normalises layer 2 only at the 17 masked rows. The reference
  computes whole arrays, takes the variance as the mean squared deviation, normalises every row and then picks
  the masked ones.

  At the ideal instance a float is an extended real and every operation is exact, so: a tile of a region's output
  is a stretch of one whole-array function of the region's inputs; the 20 partial sums add up to the column sum;
  E[y^2] - mean^2 equals the mean squared deviation because every entry of the convolution outputs is a REAL number
  (the inputs are finite by the precondition, and sums, products, the degree norm and 1/sqrt of a positive real keep
  reals real) - at an infinity the identity fails, which is where the precondition is used; and picking rows
  commutes with the row-wise normalisation. Everything else is the same operations in both programs.

  The three frames are the programs' runs with the results dropped; the idealization rewrote nothing, so its
  conjunct is trivial.
-/
import proofs.«122415_j30588757082611_2_alg».proof.Defs
import proofs.«122415_j30588757082611_2_alg».proof.Proof.Gen.Kernel
import proofs.«122415_j30588757082611_2_alg».proof.Proof.Gen.Kernel.Skeleton
import proofs.«122415_j30588757082611_2_alg».proof.Proof.Gen.Kernel.Launch
import proofs.«122415_j30588757082611_2_alg».proof.Proof.Gen.Kernel.Points
import proofs.«122415_j30588757082611_2_alg».proof.Proof.Gen.Kernel.Frame
import proofs.«122415_j30588757082611_2_alg».proof.Proof.Gen.KernelIdeal
import proofs.«122415_j30588757082611_2_alg».proof.Proof.Gen.KernelIdeal.Skeleton
import proofs.«122415_j30588757082611_2_alg».proof.Proof.Gen.KernelIdeal.Launch
import proofs.«122415_j30588757082611_2_alg».proof.Proof.Gen.KernelIdeal.Points
import proofs.«122415_j30588757082611_2_alg».proof.Proof.Gen.KernelIdeal.Frame
import proofs.«122415_j30588757082611_2_alg».proof.Proof.Gen.ReferenceIdeal
import proofs.«122415_j30588757082611_2_alg».proof.Proof.Gen.Pre_finite_inputs
import proofs.«122415_j30588757082611_2_alg».proof.Proof.KRun
import proofs.«122415_j30588757082611_2_alg».proof.Proof.Bridge
import proofs.«122415_j30588757082611_2_alg».proof.Proof.RefRunP
import proofs.«122415_j30588757082611_2_alg».proof.Proof.RefReadEq
import Idealize.ShloMosaic.Adequacy
import Idealize.ShloMosaic.Init

noncomputable section

namespace Cert.Proof

open Idealize.ShloMosaic Idealize.SL.Sem

/-- The word-level kernel program terminates, faults nowhere, and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the same number: the kernel program's
    result buffer ends at the reference's last stage of the kernel's argument arrays, and the reference's at the same
    stage of its own, equal, argument arrays. -/
theorem algebraic : Cert.algebraic_KernelIdeal_ReferenceIdeal := by
  intro m ρ m' ρ' hpre hagree
  refine ⟨fun c => Cert.KernelIdeal.Gen.W27 m ρ c (Proc.devRef .tc Cert.KernelIdeal.main_v253),
    Cert.KernelIdeal.KRun.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨g0, g1, g2, g3, g4, g5, g6, g7, g8, g9, g10, g11, g12, g13, g14, g15, g16, g17, g18, g19, g20, g21, g22, g23, g24, g25⟩ := hagree c
  show _ = Cert.KernelIdeal.Gen.W27 m ρ c (Proc.devRef .tc Cert.KernelIdeal.main_v253)
  rw [Cert.Bridge.kernel_value m ρ c (hpre c)]
  unfold Cert.ReferenceIdeal.ValueP.res_main_v300
  rw [g0, g1, g2, g3, g4, g5, g6, g7, g8, g9, g10, g11, g12, g13, g14, g16, g17, g18, g19, g20, g21, g22, g23, g24]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
